-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S64x512x28x28 : Shape := ⟨4, ![64, 512, 28, 28]⟩
abbrev S64 : Shape := ⟨1, ![64]⟩
abbrev S_ : Shape := ⟨0, ![]⟩

class Facts : Prop where
  bcast_S_S64x512x28x28 : S_.BroadcastsInDim S64x512x28x28 (![] : Fin 0 → Fin S64x512x28x28.rank)
  reducesTo_S64x512x28x28_S_d0_1_2_3 : S64x512x28x28.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S64x512x28x28 .f32) (main_arg1 : IVec S64 32) : IVec S_ 1 :=
  let main_v0 : FVec F S64x512x28x28 .f32 := Host.absf main_arg0
  let main_cst : FVec F S_ .f32 := constant S_ .f32 0x7F800000#32
  let main_v1 : FVec F S64x512x28x28 .f32 := broadcastInDim S64x512x28x28 ![] bcast_S_S64x512x28x28 main_cst
  let main_v2 : IVec S64x512x28x28 1 := cmpf .olt main_v0 main_v1
  let main_c : IVec S_ 1 := constantI S_ 1 1#1
  let main_v3 : IVec S_ 1 := (fun x v => Host.reduce IntOp.andi x v reducesTo_S64x512x28x28_S_d0_1_2_3 h_S_) main_v2 main_c
  let main_c_0 : IVec S_ 32 := constantI S_ 32 0#32
  let main_v4 : IVec S64 32 := broadcastInDim S64 ![] bcast_S_S64 main_c_0
  let main_v5 : IVec S64 1 := cmpi .sge main_arg1 main_v4
  let main_c_1 : IVec S_ 32 := constantI S_ 32 511#32
  let main_v6 : IVec S64 32 := broadcastInDim S64 ![] bcast_S_S64 main_c_1
  let main_v7 : IVec S64 1 := cmpi .sle main_arg1 main_v6
  let main_v8 : IVec S64 1 := andi main_v5 main_v7
  let main_c_2 : IVec S_ 1 := constantI S_ 1 1#1
  let main_v9 : IVec S_ 1 := (fun x v => Host.reduce IntOp.andi x v reducesTo_S64_S_d0 h_S_) main_v8 main_c_2
  let main_v10 : IVec S_ 1 := andi main_v3 main_v9
  main_v10
-- ==== Kernel.lean ====
abbrev S64x512x28x28 : Shape := ⟨4, ![64, 512, 28, 28]⟩
abbrev S64 : Shape := ⟨1, ![64]⟩
abbrev S28x28x64x512 : Shape := ⟨4, ![28, 28, 64, 512]⟩
abbrev S784x64x512 : Shape := ⟨3, ![784, 64, 512]⟩
abbrev S32x16 : Shape := ⟨2, ![32, 16]⟩
abbrev S32x512 : Shape := ⟨2, ![32, 512]⟩
abbrev S16 : Shape := ⟨1, ![16]⟩
abbrev S_ : Shape := ⟨0, ![]⟩
abbrev S1x32x512 : Shape := ⟨3, ![1, 32, 512]⟩
abbrev S1x16 : Shape := ⟨2, ![1, 16]⟩
abbrev S1x1 : Shape := ⟨2, ![1, 1]⟩
abbrev S56x64x512 : Shape := ⟨3, ![56, 64, 512]⟩
abbrev S1 : Shape := ⟨1, ![1]⟩
abbrev S1x56x64x512 : Shape := ⟨4, ![1, 56, 64, 512]⟩
abbrev S1x1x1x1 : Shape := ⟨4, ![1, 1, 1, 1]⟩
abbrev S64x1 : Shape := ⟨2, ![64, 1]⟩
abbrev S1x32x16 : Shape := ⟨3, ![1, 32, 16]⟩
abbrev S1x1x1 : Shape := ⟨3, ![1, 1, 1]⟩
abbrev S1x64x512 : Shape := ⟨3, ![1, 64, 512]⟩
abbrev S1x64x1 : Shape := ⟨3, ![1, 64, 1]⟩

abbrev nBuf : Table → Nat
  | .hbm => 10
  | .local .tc .vmem => 9
  | .local .tc .smem => 3
  | .local .scVector .vmem => 3
  | _ => 0

abbrev bufTy : (tb : Table) → Fin (nBuf tb) → BufTy
  | .hbm, ⟨0, _⟩ => ⟨S64x512x28x28, .f32⟩
  | .hbm, ⟨1, _⟩ => ⟨S64, .i32⟩
  | .hbm, ⟨2, _⟩ => ⟨S28x28x64x512, .f32⟩
  | .hbm, ⟨3, _⟩ => ⟨S784x64x512, .f32⟩
  | .hbm, ⟨4, _⟩ => ⟨S32x16, .f32⟩
  | .hbm, ⟨5, _⟩ => ⟨S1x1, .f32⟩
  | .hbm, ⟨6, _⟩ => ⟨S64x1, .i32⟩
  | .hbm, ⟨7, _⟩ => ⟨S784x64x512, .f32⟩
  | .hbm, ⟨8, _⟩ => ⟨S28x28x64x512, .f32⟩
  | .hbm, ⟨9, _⟩ => ⟨S64x512x28x28, .f32⟩
  | .local .tc .vmem, ⟨0, _⟩ => ⟨S56x64x512, .f32⟩
  | .local .tc .vmem, ⟨1, _⟩ => ⟨S56x64x512, .f32⟩
  | .local .tc .vmem, ⟨2, _⟩ => ⟨S56x64x512, .f32⟩
  | .local .tc .vmem, ⟨3, _⟩ => ⟨S56x64x512, .f32⟩
  | .local .tc .vmem, ⟨4, _⟩ => ⟨S32x16, .f32⟩
  | .local .tc .vmem, ⟨5, _⟩ => ⟨S64x1, .i32⟩
  | .local .tc .vmem, ⟨6, _⟩ => ⟨S56x64x512, .f32⟩
  | .local .tc .vmem, ⟨7, _⟩ => ⟨S56x64x512, .f32⟩
  | .local .tc .vmem, ⟨8, _⟩ => ⟨S64x1, .f32⟩
  | .local .tc .smem, ⟨0, _⟩ => ⟨S1x1, .f32⟩
  | .local .tc .smem, ⟨1, _⟩ => ⟨S1, .f32⟩
  | .local .tc .smem, ⟨2, _⟩ => ⟨S1x1, .f32⟩
  | .local .scVector .vmem, ⟨0, _⟩ => ⟨S32x512, .f32⟩
  | .local .scVector .vmem, ⟨1, _⟩ => ⟨S32x512, .f32⟩
  | .local .scVector .vmem, ⟨2, _⟩ => ⟨S16, .f32⟩
  | _, _ => ⟨S64x512x28x28, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v1_scv : Ref sig .scVector := ⟨.hbm, 3, rfl⟩
abbrev main_v2_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc2_stg0_0 : Ref sig .tc := ⟨.vmem, 2, rfl⟩
abbrev cc2_stg0_1 : Ref sig .tc := ⟨.vmem, 3, rfl⟩
abbrev cc2_stg1_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg4_1 : Ref sig .tc := ⟨.vmem, 7, rfl⟩
abbrev cc2_scratch0 : Ref sig .tc := ⟨.vmem, 8, rfl⟩
abbrev cc1_stg1_0 : Ref sig .tc := ⟨.smem, 0, rfl⟩
abbrev cc1_scratch0 : Ref sig .tc := ⟨.smem, 1, rfl⟩
abbrev cc2_stg2_0 : Ref sig .tc := ⟨.smem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc2_sem0_0 : DmaSem sig := 6
abbrev cc2_sem0_1 : DmaSem sig := 7
abbrev cc2_sem1_0 : DmaSem sig := 8
abbrev cc2_sem2_0 : DmaSem sig := 9
abbrev cc2_sem3_0 : DmaSem sig := 10
abbrev cc2_sem4_0 : DmaSem sig := 11
abbrev cc2_sem4_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c14_i32 : BitVec 32 := 14#32
  let v2 : BitVec 32 := Scalar.muli v1 c14_i32
  let c1120_i32 : BitVec 32 := 1120#32
  let v3 : BitVec 32 := Scalar.addi v2 c1120_i32
  let v5 : BitVec 32 := Scalar.addi v3 c0_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32_0 : BitVec 32 := 2#32
  let c0_i32_3 : BitVec 32 := 0#32
  let v12 : BitVec 1 := Scalar.cmpi .sgt c2_i32_0 c0_i32_3
  let v13 : BitVec 32 := Scalar.extui v12
  let c0_i32_4 : BitVec 32 := 0#32
  let v14 : BitVec 1 := Scalar.cmpi .slt c2_i32_0 c0_i32_4
  let v15 : BitVec 32 := Scalar.extui v14
  let v16 : BitVec 32 := Scalar.subi v13 v15
  let v17 : BitVec 1 := Scalar.cmpi .ne v11 v16
  let v18 : BitVec 32 := Scalar.remsi v5 c2_i32_0
  let c0_i32_5 : BitVec 32 := 0#32
  let v19 : BitVec 1 := Scalar.cmpi .ne v18 c0_i32_5
  let v20 : BitVec 1 := Scalar.andi v17 v19
  let v6 : BitVec 32 := Scalar.divsi v5 c2_i32_0
  let c1_i32 : BitVec 32 := 1#32
  let v21 : BitVec 32 := Scalar.subi v6 c1_i32
  let v22 : BitVec 32 := Scalar.select v20 v21 v6
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v5 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c32_i32 : BitVec 32 := 32#32
  let v33 : BitVec 32 := Scalar.muli v32 c32_i32
  let c0_i32_12 : BitVec 32 := 0#32
  ![v22.toNat, v33.toNat, 0]
@[reducible] def k0_t1_loop : Scf.Loop 32 :=
  let c0_i32_36 : BitVec 32 := 0#32
  let c32_i32_37 : BitVec 32 := 32#32
  let v75 : BitVec 32 := Scalar.addi c0_i32_36 c32_i32_37
  let c1_i32_38 : BitVec 32 := 1#32
  ⟨c0_i32_36, v75, c1_i32_38⟩
def k0_off2 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v554 : Index := Scalar.indexCast arg9
  let c0_350 : Index := 0#32
  ![v554.toNat, 0]
def k0_off3 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v558 : Index := Scalar.indexCast arg9
  let c16 : Index := 16#32
  ![v558.toNat, 16]
def k0_off4 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v562 : Index := Scalar.indexCast arg9
  let c32 : Index := 32#32
  ![v562.toNat, 32]
def k0_off5 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v566 : Index := Scalar.indexCast arg9
  let c48 : Index := 48#32
  ![v566.toNat, 48]
def k0_off6 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v570 : Index := Scalar.indexCast arg9
  let c64 : Index := 64#32
  ![v570.toNat, 64]
def k0_off7 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v574 : Index := Scalar.indexCast arg9
  let c80 : Index := 80#32
  ![v574.toNat, 80]
def k0_off8 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v578 : Index := Scalar.indexCast arg9
  let c96 : Index := 96#32
  ![v578.toNat, 96]
def k0_off9 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v582 : Index := Scalar.indexCast arg9
  let c112 : Index := 112#32
  ![v582.toNat, 112]
def k0_off10 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v586 : Index := Scalar.indexCast arg9
  let c128 : Index := 128#32
  ![v586.toNat, 128]
def k0_off11 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v590 : Index := Scalar.indexCast arg9
  let c144 : Index := 144#32
  ![v590.toNat, 144]
def k0_off12 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v594 : Index := Scalar.indexCast arg9
  let c160 : Index := 160#32
  ![v594.toNat, 160]
def k0_off13 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v598 : Index := Scalar.indexCast arg9
  let c176 : Index := 176#32
  ![v598.toNat, 176]
def k0_off14 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v602 : Index := Scalar.indexCast arg9
  let c192 : Index := 192#32
  ![v602.toNat, 192]
def k0_off15 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v606 : Index := Scalar.indexCast arg9
  let c208 : Index := 208#32
  ![v606.toNat, 208]
def k0_off16 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v610 : Index := Scalar.indexCast arg9
  let c224 : Index := 224#32
  ![v610.toNat, 224]
def k0_off17 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v614 : Index := Scalar.indexCast arg9
  let c240 : Index := 240#32
  ![v614.toNat, 240]
def k0_off18 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v618 : Index := Scalar.indexCast arg9
  let c256 : Index := 256#32
  ![v618.toNat, 256]
def k0_off19 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v622 : Index := Scalar.indexCast arg9
  let c272 : Index := 272#32
  ![v622.toNat, 272]
def k0_off20 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v626 : Index := Scalar.indexCast arg9
  let c288 : Index := 288#32
  ![v626.toNat, 288]
def k0_off21 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v630 : Index := Scalar.indexCast arg9
  let c304 : Index := 304#32
  ![v630.toNat, 304]
def k0_off22 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v634 : Index := Scalar.indexCast arg9
  let c320 : Index := 320#32
  ![v634.toNat, 320]
def k0_off23 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v638 : Index := Scalar.indexCast arg9
  let c336 : Index := 336#32
  ![v638.toNat, 336]
def k0_off24 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v642 : Index := Scalar.indexCast arg9
  let c352 : Index := 352#32
  ![v642.toNat, 352]
def k0_off25 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v646 : Index := Scalar.indexCast arg9
  let c368 : Index := 368#32
  ![v646.toNat, 368]
def k0_off26 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v650 : Index := Scalar.indexCast arg9
  let c384 : Index := 384#32
  ![v650.toNat, 384]
def k0_off27 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v654 : Index := Scalar.indexCast arg9
  let c400 : Index := 400#32
  ![v654.toNat, 400]
def k0_off28 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v658 : Index := Scalar.indexCast arg9
  let c416 : Index := 416#32
  ![v658.toNat, 416]
def k0_off29 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v662 : Index := Scalar.indexCast arg9
  let c432 : Index := 432#32
  ![v662.toNat, 432]
def k0_off30 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v666 : Index := Scalar.indexCast arg9
  let c448 : Index := 448#32
  ![v666.toNat, 448]
def k0_off31 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v670 : Index := Scalar.indexCast arg9
  let c464 : Index := 464#32
  ![v670.toNat, 464]
def k0_off32 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v674 : Index := Scalar.indexCast arg9
  let c480 : Index := 480#32
  ![v674.toNat, 480]
def k0_off33 (k0_t1 : Fin k0_t1_loop.trips) : Fin 2 → Nat :=
  let c0_i32_36 : BitVec 32 := 0#32
  let c1_i32_38 : BitVec 32 := 1#32
  let arg9 : BitVec 32 := Scf.iv c0_i32_36 c1_i32_38 k0_t1
  let v678 : Index := Scalar.indexCast arg9
  let c496 : Index := 496#32
  ![v678.toNat, 496]
@[reducible] def k0_t2_loop : Scf.Loop 32 :=
  let c0_i32_62 : BitVec 32 := 0#32
  let c32_i32_63 : BitVec 32 := 32#32
  let v114 : BitVec 32 := Scalar.addi c0_i32_62 c32_i32_63
  let c1_i32_64 : BitVec 32 := 1#32
  ⟨c0_i32_62, v114, c1_i32_64⟩
def k0_off34 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v554 : Index := Scalar.indexCast arg9
  let c0_350 : Index := 0#32
  ![v554.toNat, 0]
def k0_off35 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v558 : Index := Scalar.indexCast arg9
  let c16 : Index := 16#32
  ![v558.toNat, 16]
def k0_off36 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v562 : Index := Scalar.indexCast arg9
  let c32 : Index := 32#32
  ![v562.toNat, 32]
def k0_off37 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v566 : Index := Scalar.indexCast arg9
  let c48 : Index := 48#32
  ![v566.toNat, 48]
def k0_off38 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v570 : Index := Scalar.indexCast arg9
  let c64 : Index := 64#32
  ![v570.toNat, 64]
def k0_off39 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v574 : Index := Scalar.indexCast arg9
  let c80 : Index := 80#32
  ![v574.toNat, 80]
def k0_off40 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v578 : Index := Scalar.indexCast arg9
  let c96 : Index := 96#32
  ![v578.toNat, 96]
def k0_off41 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v582 : Index := Scalar.indexCast arg9
  let c112 : Index := 112#32
  ![v582.toNat, 112]
def k0_off42 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v586 : Index := Scalar.indexCast arg9
  let c128 : Index := 128#32
  ![v586.toNat, 128]
def k0_off43 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v590 : Index := Scalar.indexCast arg9
  let c144 : Index := 144#32
  ![v590.toNat, 144]
def k0_off44 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v594 : Index := Scalar.indexCast arg9
  let c160 : Index := 160#32
  ![v594.toNat, 160]
def k0_off45 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v598 : Index := Scalar.indexCast arg9
  let c176 : Index := 176#32
  ![v598.toNat, 176]
def k0_off46 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v602 : Index := Scalar.indexCast arg9
  let c192 : Index := 192#32
  ![v602.toNat, 192]
def k0_off47 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v606 : Index := Scalar.indexCast arg9
  let c208 : Index := 208#32
  ![v606.toNat, 208]
def k0_off48 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v610 : Index := Scalar.indexCast arg9
  let c224 : Index := 224#32
  ![v610.toNat, 224]
def k0_off49 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v614 : Index := Scalar.indexCast arg9
  let c240 : Index := 240#32
  ![v614.toNat, 240]
def k0_off50 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v618 : Index := Scalar.indexCast arg9
  let c256 : Index := 256#32
  ![v618.toNat, 256]
def k0_off51 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v622 : Index := Scalar.indexCast arg9
  let c272 : Index := 272#32
  ![v622.toNat, 272]
def k0_off52 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v626 : Index := Scalar.indexCast arg9
  let c288 : Index := 288#32
  ![v626.toNat, 288]
def k0_off53 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v630 : Index := Scalar.indexCast arg9
  let c304 : Index := 304#32
  ![v630.toNat, 304]
def k0_off54 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v634 : Index := Scalar.indexCast arg9
  let c320 : Index := 320#32
  ![v634.toNat, 320]
def k0_off55 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v638 : Index := Scalar.indexCast arg9
  let c336 : Index := 336#32
  ![v638.toNat, 336]
def k0_off56 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v642 : Index := Scalar.indexCast arg9
  let c352 : Index := 352#32
  ![v642.toNat, 352]
def k0_off57 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v646 : Index := Scalar.indexCast arg9
  let c368 : Index := 368#32
  ![v646.toNat, 368]
def k0_off58 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v650 : Index := Scalar.indexCast arg9
  let c384 : Index := 384#32
  ![v650.toNat, 384]
def k0_off59 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v654 : Index := Scalar.indexCast arg9
  let c400 : Index := 400#32
  ![v654.toNat, 400]
def k0_off60 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v658 : Index := Scalar.indexCast arg9
  let c416 : Index := 416#32
  ![v658.toNat, 416]
def k0_off61 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v662 : Index := Scalar.indexCast arg9
  let c432 : Index := 432#32
  ![v662.toNat, 432]
def k0_off62 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v666 : Index := Scalar.indexCast arg9
  let c448 : Index := 448#32
  ![v666.toNat, 448]
def k0_off63 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v670 : Index := Scalar.indexCast arg9
  let c464 : Index := 464#32
  ![v670.toNat, 464]
def k0_off64 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v674 : Index := Scalar.indexCast arg9
  let c480 : Index := 480#32
  ![v674.toNat, 480]
def k0_off65 (k0_t2 : Fin k0_t2_loop.trips) : Fin 2 → Nat :=
  let c0_i32_62 : BitVec 32 := 0#32
  let c1_i32_64 : BitVec 32 := 1#32
  let arg9 : BitVec 32 := Scf.iv c0_i32_62 c1_i32_64 k0_t2
  let v678 : Index := Scalar.indexCast arg9
  let c496 : Index := 496#32
  ![v678.toNat, 496]
@[reducible] def k0_t3_loop : Scf.Loop 32 :=
  let c0_i32_87 : BitVec 32 := 0#32
  let c32_i32_88 : BitVec 32 := 32#32
  let v153 : BitVec 32 := Scalar.addi c0_i32_87 c32_i32_88
  let c1_i32_89 : BitVec 32 := 1#32
  ⟨c0_i32_87, v153, c1_i32_89⟩
def k0_off66 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v554 : Index := Scalar.indexCast arg9
  let c0_350 : Index := 0#32
  ![v554.toNat, 0]
def k0_off67 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v558 : Index := Scalar.indexCast arg9
  let c16 : Index := 16#32
  ![v558.toNat, 16]
def k0_off68 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v562 : Index := Scalar.indexCast arg9
  let c32 : Index := 32#32
  ![v562.toNat, 32]
def k0_off69 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v566 : Index := Scalar.indexCast arg9
  let c48 : Index := 48#32
  ![v566.toNat, 48]
def k0_off70 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v570 : Index := Scalar.indexCast arg9
  let c64 : Index := 64#32
  ![v570.toNat, 64]
def k0_off71 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v574 : Index := Scalar.indexCast arg9
  let c80 : Index := 80#32
  ![v574.toNat, 80]
def k0_off72 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v578 : Index := Scalar.indexCast arg9
  let c96 : Index := 96#32
  ![v578.toNat, 96]
def k0_off73 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v582 : Index := Scalar.indexCast arg9
  let c112 : Index := 112#32
  ![v582.toNat, 112]
def k0_off74 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v586 : Index := Scalar.indexCast arg9
  let c128 : Index := 128#32
  ![v586.toNat, 128]
def k0_off75 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v590 : Index := Scalar.indexCast arg9
  let c144 : Index := 144#32
  ![v590.toNat, 144]
def k0_off76 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v594 : Index := Scalar.indexCast arg9
  let c160 : Index := 160#32
  ![v594.toNat, 160]
def k0_off77 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v598 : Index := Scalar.indexCast arg9
  let c176 : Index := 176#32
  ![v598.toNat, 176]
def k0_off78 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v602 : Index := Scalar.indexCast arg9
  let c192 : Index := 192#32
  ![v602.toNat, 192]
def k0_off79 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v606 : Index := Scalar.indexCast arg9
  let c208 : Index := 208#32
  ![v606.toNat, 208]
def k0_off80 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v610 : Index := Scalar.indexCast arg9
  let c224 : Index := 224#32
  ![v610.toNat, 224]
def k0_off81 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v614 : Index := Scalar.indexCast arg9
  let c240 : Index := 240#32
  ![v614.toNat, 240]
def k0_off82 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v618 : Index := Scalar.indexCast arg9
  let c256 : Index := 256#32
  ![v618.toNat, 256]
def k0_off83 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v622 : Index := Scalar.indexCast arg9
  let c272 : Index := 272#32
  ![v622.toNat, 272]
def k0_off84 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v626 : Index := Scalar.indexCast arg9
  let c288 : Index := 288#32
  ![v626.toNat, 288]
def k0_off85 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v630 : Index := Scalar.indexCast arg9
  let c304 : Index := 304#32
  ![v630.toNat, 304]
def k0_off86 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v634 : Index := Scalar.indexCast arg9
  let c320 : Index := 320#32
  ![v634.toNat, 320]
def k0_off87 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v638 : Index := Scalar.indexCast arg9
  let c336 : Index := 336#32
  ![v638.toNat, 336]
def k0_off88 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v642 : Index := Scalar.indexCast arg9
  let c352 : Index := 352#32
  ![v642.toNat, 352]
def k0_off89 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v646 : Index := Scalar.indexCast arg9
  let c368 : Index := 368#32
  ![v646.toNat, 368]
def k0_off90 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v650 : Index := Scalar.indexCast arg9
  let c384 : Index := 384#32
  ![v650.toNat, 384]
def k0_off91 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v654 : Index := Scalar.indexCast arg9
  let c400 : Index := 400#32
  ![v654.toNat, 400]
def k0_off92 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v658 : Index := Scalar.indexCast arg9
  let c416 : Index := 416#32
  ![v658.toNat, 416]
def k0_off93 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v662 : Index := Scalar.indexCast arg9
  let c432 : Index := 432#32
  ![v662.toNat, 432]
def k0_off94 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v666 : Index := Scalar.indexCast arg9
  let c448 : Index := 448#32
  ![v666.toNat, 448]
def k0_off95 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v670 : Index := Scalar.indexCast arg9
  let c464 : Index := 464#32
  ![v670.toNat, 464]
def k0_off96 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v674 : Index := Scalar.indexCast arg9
  let c480 : Index := 480#32
  ![v674.toNat, 480]
def k0_off97 (k0_t3 : Fin k0_t3_loop.trips) : Fin 2 → Nat :=
  let c0_i32_87 : BitVec 32 := 0#32
  let c1_i32_89 : BitVec 32 := 1#32
  let arg9 : BitVec 32 := Scf.iv c0_i32_87 c1_i32_89 k0_t3
  let v678 : Index := Scalar.indexCast arg9
  let c496 : Index := 496#32
  ![v678.toNat, 496]
@[reducible] def k0_t4_loop : Scf.Loop 32 :=
  let c0_i32_112 : BitVec 32 := 0#32
  let c32_i32_113 : BitVec 32 := 32#32
  let v192 : BitVec 32 := Scalar.addi c0_i32_112 c32_i32_113
  let c1_i32_114 : BitVec 32 := 1#32
  ⟨c0_i32_112, v192, c1_i32_114⟩
def k0_off98 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v554 : Index := Scalar.indexCast arg9
  let c0_350 : Index := 0#32
  ![v554.toNat, 0]
def k0_off99 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v558 : Index := Scalar.indexCast arg9
  let c16 : Index := 16#32
  ![v558.toNat, 16]
def k0_off100 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v562 : Index := Scalar.indexCast arg9
  let c32 : Index := 32#32
  ![v562.toNat, 32]
def k0_off101 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v566 : Index := Scalar.indexCast arg9
  let c48 : Index := 48#32
  ![v566.toNat, 48]
def k0_off102 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v570 : Index := Scalar.indexCast arg9
  let c64 : Index := 64#32
  ![v570.toNat, 64]
def k0_off103 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v574 : Index := Scalar.indexCast arg9
  let c80 : Index := 80#32
  ![v574.toNat, 80]
def k0_off104 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v578 : Index := Scalar.indexCast arg9
  let c96 : Index := 96#32
  ![v578.toNat, 96]
def k0_off105 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v582 : Index := Scalar.indexCast arg9
  let c112 : Index := 112#32
  ![v582.toNat, 112]
def k0_off106 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v586 : Index := Scalar.indexCast arg9
  let c128 : Index := 128#32
  ![v586.toNat, 128]
def k0_off107 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v590 : Index := Scalar.indexCast arg9
  let c144 : Index := 144#32
  ![v590.toNat, 144]
def k0_off108 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v594 : Index := Scalar.indexCast arg9
  let c160 : Index := 160#32
  ![v594.toNat, 160]
def k0_off109 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v598 : Index := Scalar.indexCast arg9
  let c176 : Index := 176#32
  ![v598.toNat, 176]
def k0_off110 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v602 : Index := Scalar.indexCast arg9
  let c192 : Index := 192#32
  ![v602.toNat, 192]
def k0_off111 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v606 : Index := Scalar.indexCast arg9
  let c208 : Index := 208#32
  ![v606.toNat, 208]
def k0_off112 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v610 : Index := Scalar.indexCast arg9
  let c224 : Index := 224#32
  ![v610.toNat, 224]
def k0_off113 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v614 : Index := Scalar.indexCast arg9
  let c240 : Index := 240#32
  ![v614.toNat, 240]
def k0_off114 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v618 : Index := Scalar.indexCast arg9
  let c256 : Index := 256#32
  ![v618.toNat, 256]
def k0_off115 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v622 : Index := Scalar.indexCast arg9
  let c272 : Index := 272#32
  ![v622.toNat, 272]
def k0_off116 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v626 : Index := Scalar.indexCast arg9
  let c288 : Index := 288#32
  ![v626.toNat, 288]
def k0_off117 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v630 : Index := Scalar.indexCast arg9
  let c304 : Index := 304#32
  ![v630.toNat, 304]
def k0_off118 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v634 : Index := Scalar.indexCast arg9
  let c320 : Index := 320#32
  ![v634.toNat, 320]
def k0_off119 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v638 : Index := Scalar.indexCast arg9
  let c336 : Index := 336#32
  ![v638.toNat, 336]
def k0_off120 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v642 : Index := Scalar.indexCast arg9
  let c352 : Index := 352#32
  ![v642.toNat, 352]
def k0_off121 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v646 : Index := Scalar.indexCast arg9
  let c368 : Index := 368#32
  ![v646.toNat, 368]
def k0_off122 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v650 : Index := Scalar.indexCast arg9
  let c384 : Index := 384#32
  ![v650.toNat, 384]
def k0_off123 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v654 : Index := Scalar.indexCast arg9
  let c400 : Index := 400#32
  ![v654.toNat, 400]
def k0_off124 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v658 : Index := Scalar.indexCast arg9
  let c416 : Index := 416#32
  ![v658.toNat, 416]
def k0_off125 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v662 : Index := Scalar.indexCast arg9
  let c432 : Index := 432#32
  ![v662.toNat, 432]
def k0_off126 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v666 : Index := Scalar.indexCast arg9
  let c448 : Index := 448#32
  ![v666.toNat, 448]
def k0_off127 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v670 : Index := Scalar.indexCast arg9
  let c464 : Index := 464#32
  ![v670.toNat, 464]
def k0_off128 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v674 : Index := Scalar.indexCast arg9
  let c480 : Index := 480#32
  ![v674.toNat, 480]
def k0_off129 (k0_t4 : Fin k0_t4_loop.trips) : Fin 2 → Nat :=
  let c0_i32_112 : BitVec 32 := 0#32
  let c1_i32_114 : BitVec 32 := 1#32
  let arg9 : BitVec 32 := Scf.iv c0_i32_112 c1_i32_114 k0_t4
  let v678 : Index := Scalar.indexCast arg9
  let c496 : Index := 496#32
  ![v678.toNat, 496]
@[reducible] def k0_t5_loop : Scf.Loop 32 :=
  let c0_i32_137 : BitVec 32 := 0#32
  let c32_i32_138 : BitVec 32 := 32#32
  let v231 : BitVec 32 := Scalar.addi c0_i32_137 c32_i32_138
  let c1_i32_139 : BitVec 32 := 1#32
  ⟨c0_i32_137, v231, c1_i32_139⟩
def k0_off130 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v554 : Index := Scalar.indexCast arg9
  let c0_350 : Index := 0#32
  ![v554.toNat, 0]
def k0_off131 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v558 : Index := Scalar.indexCast arg9
  let c16 : Index := 16#32
  ![v558.toNat, 16]
def k0_off132 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v562 : Index := Scalar.indexCast arg9
  let c32 : Index := 32#32
  ![v562.toNat, 32]
def k0_off133 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v566 : Index := Scalar.indexCast arg9
  let c48 : Index := 48#32
  ![v566.toNat, 48]
def k0_off134 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v570 : Index := Scalar.indexCast arg9
  let c64 : Index := 64#32
  ![v570.toNat, 64]
def k0_off135 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v574 : Index := Scalar.indexCast arg9
  let c80 : Index := 80#32
  ![v574.toNat, 80]
def k0_off136 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v578 : Index := Scalar.indexCast arg9
  let c96 : Index := 96#32
  ![v578.toNat, 96]
def k0_off137 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v582 : Index := Scalar.indexCast arg9
  let c112 : Index := 112#32
  ![v582.toNat, 112]
def k0_off138 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v586 : Index := Scalar.indexCast arg9
  let c128 : Index := 128#32
  ![v586.toNat, 128]
def k0_off139 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v590 : Index := Scalar.indexCast arg9
  let c144 : Index := 144#32
  ![v590.toNat, 144]
def k0_off140 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v594 : Index := Scalar.indexCast arg9
  let c160 : Index := 160#32
  ![v594.toNat, 160]
def k0_off141 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v598 : Index := Scalar.indexCast arg9
  let c176 : Index := 176#32
  ![v598.toNat, 176]
def k0_off142 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v602 : Index := Scalar.indexCast arg9
  let c192 : Index := 192#32
  ![v602.toNat, 192]
def k0_off143 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v606 : Index := Scalar.indexCast arg9
  let c208 : Index := 208#32
  ![v606.toNat, 208]
def k0_off144 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v610 : Index := Scalar.indexCast arg9
  let c224 : Index := 224#32
  ![v610.toNat, 224]
def k0_off145 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v614 : Index := Scalar.indexCast arg9
  let c240 : Index := 240#32
  ![v614.toNat, 240]
def k0_off146 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v618 : Index := Scalar.indexCast arg9
  let c256 : Index := 256#32
  ![v618.toNat, 256]
def k0_off147 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v622 : Index := Scalar.indexCast arg9
  let c272 : Index := 272#32
  ![v622.toNat, 272]
def k0_off148 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v626 : Index := Scalar.indexCast arg9
  let c288 : Index := 288#32
  ![v626.toNat, 288]
def k0_off149 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v630 : Index := Scalar.indexCast arg9
  let c304 : Index := 304#32
  ![v630.toNat, 304]
def k0_off150 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v634 : Index := Scalar.indexCast arg9
  let c320 : Index := 320#32
  ![v634.toNat, 320]
def k0_off151 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v638 : Index := Scalar.indexCast arg9
  let c336 : Index := 336#32
  ![v638.toNat, 336]
def k0_off152 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v642 : Index := Scalar.indexCast arg9
  let c352 : Index := 352#32
  ![v642.toNat, 352]
def k0_off153 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v646 : Index := Scalar.indexCast arg9
  let c368 : Index := 368#32
  ![v646.toNat, 368]
def k0_off154 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v650 : Index := Scalar.indexCast arg9
  let c384 : Index := 384#32
  ![v650.toNat, 384]
def k0_off155 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v654 : Index := Scalar.indexCast arg9
  let c400 : Index := 400#32
  ![v654.toNat, 400]
def k0_off156 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v658 : Index := Scalar.indexCast arg9
  let c416 : Index := 416#32
  ![v658.toNat, 416]
def k0_off157 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v662 : Index := Scalar.indexCast arg9
  let c432 : Index := 432#32
  ![v662.toNat, 432]
def k0_off158 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v666 : Index := Scalar.indexCast arg9
  let c448 : Index := 448#32
  ![v666.toNat, 448]
def k0_off159 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v670 : Index := Scalar.indexCast arg9
  let c464 : Index := 464#32
  ![v670.toNat, 464]
def k0_off160 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v674 : Index := Scalar.indexCast arg9
  let c480 : Index := 480#32
  ![v674.toNat, 480]
def k0_off161 (k0_t5 : Fin k0_t5_loop.trips) : Fin 2 → Nat :=
  let c0_i32_137 : BitVec 32 := 0#32
  let c1_i32_139 : BitVec 32 := 1#32
  let arg9 : BitVec 32 := Scf.iv c0_i32_137 c1_i32_139 k0_t5
  let v678 : Index := Scalar.indexCast arg9
  let c496 : Index := 496#32
  ![v678.toNat, 496]
@[reducible] def k0_t6_loop : Scf.Loop 32 :=
  let c0_i32_162 : BitVec 32 := 0#32
  let c32_i32_163 : BitVec 32 := 32#32
  let v270 : BitVec 32 := Scalar.addi c0_i32_162 c32_i32_163
  let c1_i32_164 : BitVec 32 := 1#32
  ⟨c0_i32_162, v270, c1_i32_164⟩
def k0_off162 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v554 : Index := Scalar.indexCast arg9
  let c0_350 : Index := 0#32
  ![v554.toNat, 0]
def k0_off163 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v558 : Index := Scalar.indexCast arg9
  let c16 : Index := 16#32
  ![v558.toNat, 16]
def k0_off164 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v562 : Index := Scalar.indexCast arg9
  let c32 : Index := 32#32
  ![v562.toNat, 32]
def k0_off165 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v566 : Index := Scalar.indexCast arg9
  let c48 : Index := 48#32
  ![v566.toNat, 48]
def k0_off166 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v570 : Index := Scalar.indexCast arg9
  let c64 : Index := 64#32
  ![v570.toNat, 64]
def k0_off167 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v574 : Index := Scalar.indexCast arg9
  let c80 : Index := 80#32
  ![v574.toNat, 80]
def k0_off168 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v578 : Index := Scalar.indexCast arg9
  let c96 : Index := 96#32
  ![v578.toNat, 96]
def k0_off169 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v582 : Index := Scalar.indexCast arg9
  let c112 : Index := 112#32
  ![v582.toNat, 112]
def k0_off170 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v586 : Index := Scalar.indexCast arg9
  let c128 : Index := 128#32
  ![v586.toNat, 128]
def k0_off171 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v590 : Index := Scalar.indexCast arg9
  let c144 : Index := 144#32
  ![v590.toNat, 144]
def k0_off172 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v594 : Index := Scalar.indexCast arg9
  let c160 : Index := 160#32
  ![v594.toNat, 160]
def k0_off173 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v598 : Index := Scalar.indexCast arg9
  let c176 : Index := 176#32
  ![v598.toNat, 176]
def k0_off174 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v602 : Index := Scalar.indexCast arg9
  let c192 : Index := 192#32
  ![v602.toNat, 192]
def k0_off175 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v606 : Index := Scalar.indexCast arg9
  let c208 : Index := 208#32
  ![v606.toNat, 208]
def k0_off176 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v610 : Index := Scalar.indexCast arg9
  let c224 : Index := 224#32
  ![v610.toNat, 224]
def k0_off177 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v614 : Index := Scalar.indexCast arg9
  let c240 : Index := 240#32
  ![v614.toNat, 240]
def k0_off178 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v618 : Index := Scalar.indexCast arg9
  let c256 : Index := 256#32
  ![v618.toNat, 256]
def k0_off179 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v622 : Index := Scalar.indexCast arg9
  let c272 : Index := 272#32
  ![v622.toNat, 272]
def k0_off180 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v626 : Index := Scalar.indexCast arg9
  let c288 : Index := 288#32
  ![v626.toNat, 288]
def k0_off181 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v630 : Index := Scalar.indexCast arg9
  let c304 : Index := 304#32
  ![v630.toNat, 304]
def k0_off182 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v634 : Index := Scalar.indexCast arg9
  let c320 : Index := 320#32
  ![v634.toNat, 320]
def k0_off183 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v638 : Index := Scalar.indexCast arg9
  let c336 : Index := 336#32
  ![v638.toNat, 336]
def k0_off184 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v642 : Index := Scalar.indexCast arg9
  let c352 : Index := 352#32
  ![v642.toNat, 352]
def k0_off185 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v646 : Index := Scalar.indexCast arg9
  let c368 : Index := 368#32
  ![v646.toNat, 368]
def k0_off186 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v650 : Index := Scalar.indexCast arg9
  let c384 : Index := 384#32
  ![v650.toNat, 384]
def k0_off187 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v654 : Index := Scalar.indexCast arg9
  let c400 : Index := 400#32
  ![v654.toNat, 400]
def k0_off188 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v658 : Index := Scalar.indexCast arg9
  let c416 : Index := 416#32
  ![v658.toNat, 416]
def k0_off189 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v662 : Index := Scalar.indexCast arg9
  let c432 : Index := 432#32
  ![v662.toNat, 432]
def k0_off190 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v666 : Index := Scalar.indexCast arg9
  let c448 : Index := 448#32
  ![v666.toNat, 448]
def k0_off191 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v670 : Index := Scalar.indexCast arg9
  let c464 : Index := 464#32
  ![v670.toNat, 464]
def k0_off192 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v674 : Index := Scalar.indexCast arg9
  let c480 : Index := 480#32
  ![v674.toNat, 480]
def k0_off193 (k0_t6 : Fin k0_t6_loop.trips) : Fin 2 → Nat :=
  let c0_i32_162 : BitVec 32 := 0#32
  let c1_i32_164 : BitVec 32 := 1#32
  let arg9 : BitVec 32 := Scf.iv c0_i32_162 c1_i32_164 k0_t6
  let v678 : Index := Scalar.indexCast arg9
  let c496 : Index := 496#32
  ![v678.toNat, 496]
@[reducible] def k0_t7_loop : Scf.Loop 32 :=
  let c0_i32_187 : BitVec 32 := 0#32
  let c32_i32_188 : BitVec 32 := 32#32
  let v309 : BitVec 32 := Scalar.addi c0_i32_187 c32_i32_188
  let c1_i32_189 : BitVec 32 := 1#32
  ⟨c0_i32_187, v309, c1_i32_189⟩
def k0_off194 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v554 : Index := Scalar.indexCast arg9
  let c0_350 : Index := 0#32
  ![v554.toNat, 0]
def k0_off195 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v558 : Index := Scalar.indexCast arg9
  let c16 : Index := 16#32
  ![v558.toNat, 16]
def k0_off196 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v562 : Index := Scalar.indexCast arg9
  let c32 : Index := 32#32
  ![v562.toNat, 32]
def k0_off197 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v566 : Index := Scalar.indexCast arg9
  let c48 : Index := 48#32
  ![v566.toNat, 48]
def k0_off198 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v570 : Index := Scalar.indexCast arg9
  let c64 : Index := 64#32
  ![v570.toNat, 64]
def k0_off199 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v574 : Index := Scalar.indexCast arg9
  let c80 : Index := 80#32
  ![v574.toNat, 80]
def k0_off200 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v578 : Index := Scalar.indexCast arg9
  let c96 : Index := 96#32
  ![v578.toNat, 96]
def k0_off201 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v582 : Index := Scalar.indexCast arg9
  let c112 : Index := 112#32
  ![v582.toNat, 112]
def k0_off202 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v586 : Index := Scalar.indexCast arg9
  let c128 : Index := 128#32
  ![v586.toNat, 128]
def k0_off203 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v590 : Index := Scalar.indexCast arg9
  let c144 : Index := 144#32
  ![v590.toNat, 144]
def k0_off204 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v594 : Index := Scalar.indexCast arg9
  let c160 : Index := 160#32
  ![v594.toNat, 160]
def k0_off205 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v598 : Index := Scalar.indexCast arg9
  let c176 : Index := 176#32
  ![v598.toNat, 176]
def k0_off206 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v602 : Index := Scalar.indexCast arg9
  let c192 : Index := 192#32
  ![v602.toNat, 192]
def k0_off207 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v606 : Index := Scalar.indexCast arg9
  let c208 : Index := 208#32
  ![v606.toNat, 208]
def k0_off208 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v610 : Index := Scalar.indexCast arg9
  let c224 : Index := 224#32
  ![v610.toNat, 224]
def k0_off209 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v614 : Index := Scalar.indexCast arg9
  let c240 : Index := 240#32
  ![v614.toNat, 240]
def k0_off210 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v618 : Index := Scalar.indexCast arg9
  let c256 : Index := 256#32
  ![v618.toNat, 256]
def k0_off211 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v622 : Index := Scalar.indexCast arg9
  let c272 : Index := 272#32
  ![v622.toNat, 272]
def k0_off212 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v626 : Index := Scalar.indexCast arg9
  let c288 : Index := 288#32
  ![v626.toNat, 288]
def k0_off213 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v630 : Index := Scalar.indexCast arg9
  let c304 : Index := 304#32
  ![v630.toNat, 304]
def k0_off214 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v634 : Index := Scalar.indexCast arg9
  let c320 : Index := 320#32
  ![v634.toNat, 320]
def k0_off215 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v638 : Index := Scalar.indexCast arg9
  let c336 : Index := 336#32
  ![v638.toNat, 336]
def k0_off216 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v642 : Index := Scalar.indexCast arg9
  let c352 : Index := 352#32
  ![v642.toNat, 352]
def k0_off217 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v646 : Index := Scalar.indexCast arg9
  let c368 : Index := 368#32
  ![v646.toNat, 368]
def k0_off218 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v650 : Index := Scalar.indexCast arg9
  let c384 : Index := 384#32
  ![v650.toNat, 384]
def k0_off219 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v654 : Index := Scalar.indexCast arg9
  let c400 : Index := 400#32
  ![v654.toNat, 400]
def k0_off220 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v658 : Index := Scalar.indexCast arg9
  let c416 : Index := 416#32
  ![v658.toNat, 416]
def k0_off221 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v662 : Index := Scalar.indexCast arg9
  let c432 : Index := 432#32
  ![v662.toNat, 432]
def k0_off222 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v666 : Index := Scalar.indexCast arg9
  let c448 : Index := 448#32
  ![v666.toNat, 448]
def k0_off223 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v670 : Index := Scalar.indexCast arg9
  let c464 : Index := 464#32
  ![v670.toNat, 464]
def k0_off224 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v674 : Index := Scalar.indexCast arg9
  let c480 : Index := 480#32
  ![v674.toNat, 480]
def k0_off225 (k0_t7 : Fin k0_t7_loop.trips) : Fin 2 → Nat :=
  let c0_i32_187 : BitVec 32 := 0#32
  let c1_i32_189 : BitVec 32 := 1#32
  let arg9 : BitVec 32 := Scf.iv c0_i32_187 c1_i32_189 k0_t7
  let v678 : Index := Scalar.indexCast arg9
  let c496 : Index := 496#32
  ![v678.toNat, 496]
@[reducible] def k0_t8_loop : Scf.Loop 32 :=
  let c0_i32_212 : BitVec 32 := 0#32
  let c32_i32_213 : BitVec 32 := 32#32
  let v348 : BitVec 32 := Scalar.addi c0_i32_212 c32_i32_213
  let c1_i32_214 : BitVec 32 := 1#32
  ⟨c0_i32_212, v348, c1_i32_214⟩
def k0_off226 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v554 : Index := Scalar.indexCast arg9
  let c0_350 : Index := 0#32
  ![v554.toNat, 0]
def k0_off227 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v558 : Index := Scalar.indexCast arg9
  let c16 : Index := 16#32
  ![v558.toNat, 16]
def k0_off228 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v562 : Index := Scalar.indexCast arg9
  let c32 : Index := 32#32
  ![v562.toNat, 32]
def k0_off229 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v566 : Index := Scalar.indexCast arg9
  let c48 : Index := 48#32
  ![v566.toNat, 48]
def k0_off230 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v570 : Index := Scalar.indexCast arg9
  let c64 : Index := 64#32
  ![v570.toNat, 64]
def k0_off231 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v574 : Index := Scalar.indexCast arg9
  let c80 : Index := 80#32
  ![v574.toNat, 80]
def k0_off232 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v578 : Index := Scalar.indexCast arg9
  let c96 : Index := 96#32
  ![v578.toNat, 96]
def k0_off233 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v582 : Index := Scalar.indexCast arg9
  let c112 : Index := 112#32
  ![v582.toNat, 112]
def k0_off234 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v586 : Index := Scalar.indexCast arg9
  let c128 : Index := 128#32
  ![v586.toNat, 128]
def k0_off235 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v590 : Index := Scalar.indexCast arg9
  let c144 : Index := 144#32
  ![v590.toNat, 144]
def k0_off236 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v594 : Index := Scalar.indexCast arg9
  let c160 : Index := 160#32
  ![v594.toNat, 160]
def k0_off237 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v598 : Index := Scalar.indexCast arg9
  let c176 : Index := 176#32
  ![v598.toNat, 176]
def k0_off238 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v602 : Index := Scalar.indexCast arg9
  let c192 : Index := 192#32
  ![v602.toNat, 192]
def k0_off239 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v606 : Index := Scalar.indexCast arg9
  let c208 : Index := 208#32
  ![v606.toNat, 208]
def k0_off240 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v610 : Index := Scalar.indexCast arg9
  let c224 : Index := 224#32
  ![v610.toNat, 224]
def k0_off241 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v614 : Index := Scalar.indexCast arg9
  let c240 : Index := 240#32
  ![v614.toNat, 240]
def k0_off242 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v618 : Index := Scalar.indexCast arg9
  let c256 : Index := 256#32
  ![v618.toNat, 256]
def k0_off243 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v622 : Index := Scalar.indexCast arg9
  let c272 : Index := 272#32
  ![v622.toNat, 272]
def k0_off244 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v626 : Index := Scalar.indexCast arg9
  let c288 : Index := 288#32
  ![v626.toNat, 288]
def k0_off245 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v630 : Index := Scalar.indexCast arg9
  let c304 : Index := 304#32
  ![v630.toNat, 304]
def k0_off246 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v634 : Index := Scalar.indexCast arg9
  let c320 : Index := 320#32
  ![v634.toNat, 320]
def k0_off247 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v638 : Index := Scalar.indexCast arg9
  let c336 : Index := 336#32
  ![v638.toNat, 336]
def k0_off248 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v642 : Index := Scalar.indexCast arg9
  let c352 : Index := 352#32
  ![v642.toNat, 352]
def k0_off249 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v646 : Index := Scalar.indexCast arg9
  let c368 : Index := 368#32
  ![v646.toNat, 368]
def k0_off250 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v650 : Index := Scalar.indexCast arg9
  let c384 : Index := 384#32
  ![v650.toNat, 384]
def k0_off251 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v654 : Index := Scalar.indexCast arg9
  let c400 : Index := 400#32
  ![v654.toNat, 400]
def k0_off252 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v658 : Index := Scalar.indexCast arg9
  let c416 : Index := 416#32
  ![v658.toNat, 416]
def k0_off253 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v662 : Index := Scalar.indexCast arg9
  let c432 : Index := 432#32
  ![v662.toNat, 432]
def k0_off254 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v666 : Index := Scalar.indexCast arg9
  let c448 : Index := 448#32
  ![v666.toNat, 448]
def k0_off255 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v670 : Index := Scalar.indexCast arg9
  let c464 : Index := 464#32
  ![v670.toNat, 464]
def k0_off256 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v674 : Index := Scalar.indexCast arg9
  let c480 : Index := 480#32
  ![v674.toNat, 480]
def k0_off257 (k0_t8 : Fin k0_t8_loop.trips) : Fin 2 → Nat :=
  let c0_i32_212 : BitVec 32 := 0#32
  let c1_i32_214 : BitVec 32 := 1#32
  let arg9 : BitVec 32 := Scf.iv c0_i32_212 c1_i32_214 k0_t8
  let v678 : Index := Scalar.indexCast arg9
  let c496 : Index := 496#32
  ![v678.toNat, 496]
@[reducible] def k0_t9_loop : Scf.Loop 32 :=
  let c0_i32_237 : BitVec 32 := 0#32
  let c32_i32_238 : BitVec 32 := 32#32
  let v387 : BitVec 32 := Scalar.addi c0_i32_237 c32_i32_238
  let c1_i32_239 : BitVec 32 := 1#32
  ⟨c0_i32_237, v387, c1_i32_239⟩
def k0_off258 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v554 : Index := Scalar.indexCast arg9
  let c0_350 : Index := 0#32
  ![v554.toNat, 0]
def k0_off259 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v558 : Index := Scalar.indexCast arg9
  let c16 : Index := 16#32
  ![v558.toNat, 16]
def k0_off260 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v562 : Index := Scalar.indexCast arg9
  let c32 : Index := 32#32
  ![v562.toNat, 32]
def k0_off261 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v566 : Index := Scalar.indexCast arg9
  let c48 : Index := 48#32
  ![v566.toNat, 48]
def k0_off262 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v570 : Index := Scalar.indexCast arg9
  let c64 : Index := 64#32
  ![v570.toNat, 64]
def k0_off263 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v574 : Index := Scalar.indexCast arg9
  let c80 : Index := 80#32
  ![v574.toNat, 80]
def k0_off264 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v578 : Index := Scalar.indexCast arg9
  let c96 : Index := 96#32
  ![v578.toNat, 96]
def k0_off265 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v582 : Index := Scalar.indexCast arg9
  let c112 : Index := 112#32
  ![v582.toNat, 112]
def k0_off266 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v586 : Index := Scalar.indexCast arg9
  let c128 : Index := 128#32
  ![v586.toNat, 128]
def k0_off267 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v590 : Index := Scalar.indexCast arg9
  let c144 : Index := 144#32
  ![v590.toNat, 144]
def k0_off268 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v594 : Index := Scalar.indexCast arg9
  let c160 : Index := 160#32
  ![v594.toNat, 160]
def k0_off269 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v598 : Index := Scalar.indexCast arg9
  let c176 : Index := 176#32
  ![v598.toNat, 176]
def k0_off270 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v602 : Index := Scalar.indexCast arg9
  let c192 : Index := 192#32
  ![v602.toNat, 192]
def k0_off271 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v606 : Index := Scalar.indexCast arg9
  let c208 : Index := 208#32
  ![v606.toNat, 208]
def k0_off272 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v610 : Index := Scalar.indexCast arg9
  let c224 : Index := 224#32
  ![v610.toNat, 224]
def k0_off273 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v614 : Index := Scalar.indexCast arg9
  let c240 : Index := 240#32
  ![v614.toNat, 240]
def k0_off274 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v618 : Index := Scalar.indexCast arg9
  let c256 : Index := 256#32
  ![v618.toNat, 256]
def k0_off275 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v622 : Index := Scalar.indexCast arg9
  let c272 : Index := 272#32
  ![v622.toNat, 272]
def k0_off276 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v626 : Index := Scalar.indexCast arg9
  let c288 : Index := 288#32
  ![v626.toNat, 288]
def k0_off277 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v630 : Index := Scalar.indexCast arg9
  let c304 : Index := 304#32
  ![v630.toNat, 304]
def k0_off278 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v634 : Index := Scalar.indexCast arg9
  let c320 : Index := 320#32
  ![v634.toNat, 320]
def k0_off279 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v638 : Index := Scalar.indexCast arg9
  let c336 : Index := 336#32
  ![v638.toNat, 336]
def k0_off280 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v642 : Index := Scalar.indexCast arg9
  let c352 : Index := 352#32
  ![v642.toNat, 352]
def k0_off281 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v646 : Index := Scalar.indexCast arg9
  let c368 : Index := 368#32
  ![v646.toNat, 368]
def k0_off282 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v650 : Index := Scalar.indexCast arg9
  let c384 : Index := 384#32
  ![v650.toNat, 384]
def k0_off283 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v654 : Index := Scalar.indexCast arg9
  let c400 : Index := 400#32
  ![v654.toNat, 400]
def k0_off284 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v658 : Index := Scalar.indexCast arg9
  let c416 : Index := 416#32
  ![v658.toNat, 416]
def k0_off285 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v662 : Index := Scalar.indexCast arg9
  let c432 : Index := 432#32
  ![v662.toNat, 432]
def k0_off286 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v666 : Index := Scalar.indexCast arg9
  let c448 : Index := 448#32
  ![v666.toNat, 448]
def k0_off287 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v670 : Index := Scalar.indexCast arg9
  let c464 : Index := 464#32
  ![v670.toNat, 464]
def k0_off288 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v674 : Index := Scalar.indexCast arg9
  let c480 : Index := 480#32
  ![v674.toNat, 480]
def k0_off289 (k0_t9 : Fin k0_t9_loop.trips) : Fin 2 → Nat :=
  let c0_i32_237 : BitVec 32 := 0#32
  let c1_i32_239 : BitVec 32 := 1#32
  let arg9 : BitVec 32 := Scf.iv c0_i32_237 c1_i32_239 k0_t9
  let v678 : Index := Scalar.indexCast arg9
  let c496 : Index := 496#32
  ![v678.toNat, 496]
@[reducible] def k0_t10_loop : Scf.Loop 32 :=
  let c0_i32_262 : BitVec 32 := 0#32
  let c32_i32_263 : BitVec 32 := 32#32
  let v426 : BitVec 32 := Scalar.addi c0_i32_262 c32_i32_263
  let c1_i32_264 : BitVec 32 := 1#32
  ⟨c0_i32_262, v426, c1_i32_264⟩
def k0_off290 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v554 : Index := Scalar.indexCast arg9
  let c0_350 : Index := 0#32
  ![v554.toNat, 0]
def k0_off291 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v558 : Index := Scalar.indexCast arg9
  let c16 : Index := 16#32
  ![v558.toNat, 16]
def k0_off292 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v562 : Index := Scalar.indexCast arg9
  let c32 : Index := 32#32
  ![v562.toNat, 32]
def k0_off293 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v566 : Index := Scalar.indexCast arg9
  let c48 : Index := 48#32
  ![v566.toNat, 48]
def k0_off294 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v570 : Index := Scalar.indexCast arg9
  let c64 : Index := 64#32
  ![v570.toNat, 64]
def k0_off295 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v574 : Index := Scalar.indexCast arg9
  let c80 : Index := 80#32
  ![v574.toNat, 80]
def k0_off296 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v578 : Index := Scalar.indexCast arg9
  let c96 : Index := 96#32
  ![v578.toNat, 96]
def k0_off297 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v582 : Index := Scalar.indexCast arg9
  let c112 : Index := 112#32
  ![v582.toNat, 112]
def k0_off298 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v586 : Index := Scalar.indexCast arg9
  let c128 : Index := 128#32
  ![v586.toNat, 128]
def k0_off299 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v590 : Index := Scalar.indexCast arg9
  let c144 : Index := 144#32
  ![v590.toNat, 144]
def k0_off300 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v594 : Index := Scalar.indexCast arg9
  let c160 : Index := 160#32
  ![v594.toNat, 160]
def k0_off301 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v598 : Index := Scalar.indexCast arg9
  let c176 : Index := 176#32
  ![v598.toNat, 176]
def k0_off302 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v602 : Index := Scalar.indexCast arg9
  let c192 : Index := 192#32
  ![v602.toNat, 192]
def k0_off303 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v606 : Index := Scalar.indexCast arg9
  let c208 : Index := 208#32
  ![v606.toNat, 208]
def k0_off304 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v610 : Index := Scalar.indexCast arg9
  let c224 : Index := 224#32
  ![v610.toNat, 224]
def k0_off305 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v614 : Index := Scalar.indexCast arg9
  let c240 : Index := 240#32
  ![v614.toNat, 240]
def k0_off306 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v618 : Index := Scalar.indexCast arg9
  let c256 : Index := 256#32
  ![v618.toNat, 256]
def k0_off307 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v622 : Index := Scalar.indexCast arg9
  let c272 : Index := 272#32
  ![v622.toNat, 272]
def k0_off308 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v626 : Index := Scalar.indexCast arg9
  let c288 : Index := 288#32
  ![v626.toNat, 288]
def k0_off309 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v630 : Index := Scalar.indexCast arg9
  let c304 : Index := 304#32
  ![v630.toNat, 304]
def k0_off310 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v634 : Index := Scalar.indexCast arg9
  let c320 : Index := 320#32
  ![v634.toNat, 320]
def k0_off311 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v638 : Index := Scalar.indexCast arg9
  let c336 : Index := 336#32
  ![v638.toNat, 336]
def k0_off312 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v642 : Index := Scalar.indexCast arg9
  let c352 : Index := 352#32
  ![v642.toNat, 352]
def k0_off313 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v646 : Index := Scalar.indexCast arg9
  let c368 : Index := 368#32
  ![v646.toNat, 368]
def k0_off314 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v650 : Index := Scalar.indexCast arg9
  let c384 : Index := 384#32
  ![v650.toNat, 384]
def k0_off315 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v654 : Index := Scalar.indexCast arg9
  let c400 : Index := 400#32
  ![v654.toNat, 400]
def k0_off316 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v658 : Index := Scalar.indexCast arg9
  let c416 : Index := 416#32
  ![v658.toNat, 416]
def k0_off317 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v662 : Index := Scalar.indexCast arg9
  let c432 : Index := 432#32
  ![v662.toNat, 432]
def k0_off318 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v666 : Index := Scalar.indexCast arg9
  let c448 : Index := 448#32
  ![v666.toNat, 448]
def k0_off319 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v670 : Index := Scalar.indexCast arg9
  let c464 : Index := 464#32
  ![v670.toNat, 464]
def k0_off320 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v674 : Index := Scalar.indexCast arg9
  let c480 : Index := 480#32
  ![v674.toNat, 480]
def k0_off321 (k0_t10 : Fin k0_t10_loop.trips) : Fin 2 → Nat :=
  let c0_i32_262 : BitVec 32 := 0#32
  let c1_i32_264 : BitVec 32 := 1#32
  let arg9 : BitVec 32 := Scf.iv c0_i32_262 c1_i32_264 k0_t10
  let v678 : Index := Scalar.indexCast arg9
  let c496 : Index := 496#32
  ![v678.toNat, 496]
@[reducible] def k0_t11_loop : Scf.Loop 32 :=
  let c0_i32_287 : BitVec 32 := 0#32
  let c32_i32_288 : BitVec 32 := 32#32
  let v465 : BitVec 32 := Scalar.addi c0_i32_287 c32_i32_288
  let c1_i32_289 : BitVec 32 := 1#32
  ⟨c0_i32_287, v465, c1_i32_289⟩
def k0_off322 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v554 : Index := Scalar.indexCast arg9
  let c0_350 : Index := 0#32
  ![v554.toNat, 0]
def k0_off323 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v558 : Index := Scalar.indexCast arg9
  let c16 : Index := 16#32
  ![v558.toNat, 16]
def k0_off324 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v562 : Index := Scalar.indexCast arg9
  let c32 : Index := 32#32
  ![v562.toNat, 32]
def k0_off325 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v566 : Index := Scalar.indexCast arg9
  let c48 : Index := 48#32
  ![v566.toNat, 48]
def k0_off326 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v570 : Index := Scalar.indexCast arg9
  let c64 : Index := 64#32
  ![v570.toNat, 64]
def k0_off327 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v574 : Index := Scalar.indexCast arg9
  let c80 : Index := 80#32
  ![v574.toNat, 80]
def k0_off328 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v578 : Index := Scalar.indexCast arg9
  let c96 : Index := 96#32
  ![v578.toNat, 96]
def k0_off329 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v582 : Index := Scalar.indexCast arg9
  let c112 : Index := 112#32
  ![v582.toNat, 112]
def k0_off330 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v586 : Index := Scalar.indexCast arg9
  let c128 : Index := 128#32
  ![v586.toNat, 128]
def k0_off331 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v590 : Index := Scalar.indexCast arg9
  let c144 : Index := 144#32
  ![v590.toNat, 144]
def k0_off332 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v594 : Index := Scalar.indexCast arg9
  let c160 : Index := 160#32
  ![v594.toNat, 160]
def k0_off333 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v598 : Index := Scalar.indexCast arg9
  let c176 : Index := 176#32
  ![v598.toNat, 176]
def k0_off334 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v602 : Index := Scalar.indexCast arg9
  let c192 : Index := 192#32
  ![v602.toNat, 192]
def k0_off335 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v606 : Index := Scalar.indexCast arg9
  let c208 : Index := 208#32
  ![v606.toNat, 208]
def k0_off336 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v610 : Index := Scalar.indexCast arg9
  let c224 : Index := 224#32
  ![v610.toNat, 224]
def k0_off337 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v614 : Index := Scalar.indexCast arg9
  let c240 : Index := 240#32
  ![v614.toNat, 240]
def k0_off338 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v618 : Index := Scalar.indexCast arg9
  let c256 : Index := 256#32
  ![v618.toNat, 256]
def k0_off339 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v622 : Index := Scalar.indexCast arg9
  let c272 : Index := 272#32
  ![v622.toNat, 272]
def k0_off340 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v626 : Index := Scalar.indexCast arg9
  let c288 : Index := 288#32
  ![v626.toNat, 288]
def k0_off341 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v630 : Index := Scalar.indexCast arg9
  let c304 : Index := 304#32
  ![v630.toNat, 304]
def k0_off342 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v634 : Index := Scalar.indexCast arg9
  let c320 : Index := 320#32
  ![v634.toNat, 320]
def k0_off343 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v638 : Index := Scalar.indexCast arg9
  let c336 : Index := 336#32
  ![v638.toNat, 336]
def k0_off344 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v642 : Index := Scalar.indexCast arg9
  let c352 : Index := 352#32
  ![v642.toNat, 352]
def k0_off345 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v646 : Index := Scalar.indexCast arg9
  let c368 : Index := 368#32
  ![v646.toNat, 368]
def k0_off346 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v650 : Index := Scalar.indexCast arg9
  let c384 : Index := 384#32
  ![v650.toNat, 384]
def k0_off347 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v654 : Index := Scalar.indexCast arg9
  let c400 : Index := 400#32
  ![v654.toNat, 400]
def k0_off348 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v658 : Index := Scalar.indexCast arg9
  let c416 : Index := 416#32
  ![v658.toNat, 416]
def k0_off349 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v662 : Index := Scalar.indexCast arg9
  let c432 : Index := 432#32
  ![v662.toNat, 432]
def k0_off350 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v666 : Index := Scalar.indexCast arg9
  let c448 : Index := 448#32
  ![v666.toNat, 448]
def k0_off351 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v670 : Index := Scalar.indexCast arg9
  let c464 : Index := 464#32
  ![v670.toNat, 464]
def k0_off352 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v674 : Index := Scalar.indexCast arg9
  let c480 : Index := 480#32
  ![v674.toNat, 480]
def k0_off353 (k0_t11 : Fin k0_t11_loop.trips) : Fin 2 → Nat :=
  let c0_i32_287 : BitVec 32 := 0#32
  let c1_i32_289 : BitVec 32 := 1#32
  let arg9 : BitVec 32 := Scf.iv c0_i32_287 c1_i32_289 k0_t11
  let v678 : Index := Scalar.indexCast arg9
  let c496 : Index := 496#32
  ![v678.toNat, 496]
@[reducible] def k0_t12_loop : Scf.Loop 32 :=
  let c0_i32_312 : BitVec 32 := 0#32
  let c32_i32_313 : BitVec 32 := 32#32
  let v504 : BitVec 32 := Scalar.addi c0_i32_312 c32_i32_313
  let c1_i32_314 : BitVec 32 := 1#32
  ⟨c0_i32_312, v504, c1_i32_314⟩
def k0_off354 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v554 : Index := Scalar.indexCast arg9
  let c0_350 : Index := 0#32
  ![v554.toNat, 0]
def k0_off355 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v558 : Index := Scalar.indexCast arg9
  let c16 : Index := 16#32
  ![v558.toNat, 16]
def k0_off356 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v562 : Index := Scalar.indexCast arg9
  let c32 : Index := 32#32
  ![v562.toNat, 32]
def k0_off357 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v566 : Index := Scalar.indexCast arg9
  let c48 : Index := 48#32
  ![v566.toNat, 48]
def k0_off358 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v570 : Index := Scalar.indexCast arg9
  let c64 : Index := 64#32
  ![v570.toNat, 64]
def k0_off359 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v574 : Index := Scalar.indexCast arg9
  let c80 : Index := 80#32
  ![v574.toNat, 80]
def k0_off360 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v578 : Index := Scalar.indexCast arg9
  let c96 : Index := 96#32
  ![v578.toNat, 96]
def k0_off361 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v582 : Index := Scalar.indexCast arg9
  let c112 : Index := 112#32
  ![v582.toNat, 112]
def k0_off362 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v586 : Index := Scalar.indexCast arg9
  let c128 : Index := 128#32
  ![v586.toNat, 128]
def k0_off363 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v590 : Index := Scalar.indexCast arg9
  let c144 : Index := 144#32
  ![v590.toNat, 144]
def k0_off364 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v594 : Index := Scalar.indexCast arg9
  let c160 : Index := 160#32
  ![v594.toNat, 160]
def k0_off365 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v598 : Index := Scalar.indexCast arg9
  let c176 : Index := 176#32
  ![v598.toNat, 176]
def k0_off366 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v602 : Index := Scalar.indexCast arg9
  let c192 : Index := 192#32
  ![v602.toNat, 192]
def k0_off367 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v606 : Index := Scalar.indexCast arg9
  let c208 : Index := 208#32
  ![v606.toNat, 208]
def k0_off368 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v610 : Index := Scalar.indexCast arg9
  let c224 : Index := 224#32
  ![v610.toNat, 224]
def k0_off369 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v614 : Index := Scalar.indexCast arg9
  let c240 : Index := 240#32
  ![v614.toNat, 240]
def k0_off370 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v618 : Index := Scalar.indexCast arg9
  let c256 : Index := 256#32
  ![v618.toNat, 256]
def k0_off371 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v622 : Index := Scalar.indexCast arg9
  let c272 : Index := 272#32
  ![v622.toNat, 272]
def k0_off372 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v626 : Index := Scalar.indexCast arg9
  let c288 : Index := 288#32
  ![v626.toNat, 288]
def k0_off373 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v630 : Index := Scalar.indexCast arg9
  let c304 : Index := 304#32
  ![v630.toNat, 304]
def k0_off374 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v634 : Index := Scalar.indexCast arg9
  let c320 : Index := 320#32
  ![v634.toNat, 320]
def k0_off375 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v638 : Index := Scalar.indexCast arg9
  let c336 : Index := 336#32
  ![v638.toNat, 336]
def k0_off376 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v642 : Index := Scalar.indexCast arg9
  let c352 : Index := 352#32
  ![v642.toNat, 352]
def k0_off377 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v646 : Index := Scalar.indexCast arg9
  let c368 : Index := 368#32
  ![v646.toNat, 368]
def k0_off378 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v650 : Index := Scalar.indexCast arg9
  let c384 : Index := 384#32
  ![v650.toNat, 384]
def k0_off379 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v654 : Index := Scalar.indexCast arg9
  let c400 : Index := 400#32
  ![v654.toNat, 400]
def k0_off380 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v658 : Index := Scalar.indexCast arg9
  let c416 : Index := 416#32
  ![v658.toNat, 416]
def k0_off381 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v662 : Index := Scalar.indexCast arg9
  let c432 : Index := 432#32
  ![v662.toNat, 432]
def k0_off382 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v666 : Index := Scalar.indexCast arg9
  let c448 : Index := 448#32
  ![v666.toNat, 448]
def k0_off383 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v670 : Index := Scalar.indexCast arg9
  let c464 : Index := 464#32
  ![v670.toNat, 464]
def k0_off384 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v674 : Index := Scalar.indexCast arg9
  let c480 : Index := 480#32
  ![v674.toNat, 480]
def k0_off385 (k0_t12 : Fin k0_t12_loop.trips) : Fin 2 → Nat :=
  let c0_i32_312 : BitVec 32 := 0#32
  let c1_i32_314 : BitVec 32 := 1#32
  let arg9 : BitVec 32 := Scf.iv c0_i32_312 c1_i32_314 k0_t12
  let v678 : Index := Scalar.indexCast arg9
  let c496 : Index := 496#32
  ![v678.toNat, 496]
@[reducible] def k0_t13_loop : Scf.Loop 32 :=
  let c0_i32_337 : BitVec 32 := 0#32
  let c32_i32_338 : BitVec 32 := 32#32
  let v543 : BitVec 32 := Scalar.addi c0_i32_337 c32_i32_338
  let c1_i32_339 : BitVec 32 := 1#32
  ⟨c0_i32_337, v543, c1_i32_339⟩
def k0_off386 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v554 : Index := Scalar.indexCast arg9
  let c0_350 : Index := 0#32
  ![v554.toNat, 0]
def k0_off387 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v558 : Index := Scalar.indexCast arg9
  let c16 : Index := 16#32
  ![v558.toNat, 16]
def k0_off388 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v562 : Index := Scalar.indexCast arg9
  let c32 : Index := 32#32
  ![v562.toNat, 32]
def k0_off389 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v566 : Index := Scalar.indexCast arg9
  let c48 : Index := 48#32
  ![v566.toNat, 48]
def k0_off390 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v570 : Index := Scalar.indexCast arg9
  let c64 : Index := 64#32
  ![v570.toNat, 64]
def k0_off391 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v574 : Index := Scalar.indexCast arg9
  let c80 : Index := 80#32
  ![v574.toNat, 80]
def k0_off392 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v578 : Index := Scalar.indexCast arg9
  let c96 : Index := 96#32
  ![v578.toNat, 96]
def k0_off393 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v582 : Index := Scalar.indexCast arg9
  let c112 : Index := 112#32
  ![v582.toNat, 112]
def k0_off394 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v586 : Index := Scalar.indexCast arg9
  let c128 : Index := 128#32
  ![v586.toNat, 128]
def k0_off395 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v590 : Index := Scalar.indexCast arg9
  let c144 : Index := 144#32
  ![v590.toNat, 144]
def k0_off396 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v594 : Index := Scalar.indexCast arg9
  let c160 : Index := 160#32
  ![v594.toNat, 160]
def k0_off397 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v598 : Index := Scalar.indexCast arg9
  let c176 : Index := 176#32
  ![v598.toNat, 176]
def k0_off398 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v602 : Index := Scalar.indexCast arg9
  let c192 : Index := 192#32
  ![v602.toNat, 192]
def k0_off399 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v606 : Index := Scalar.indexCast arg9
  let c208 : Index := 208#32
  ![v606.toNat, 208]
def k0_off400 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v610 : Index := Scalar.indexCast arg9
  let c224 : Index := 224#32
  ![v610.toNat, 224]
def k0_off401 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v614 : Index := Scalar.indexCast arg9
  let c240 : Index := 240#32
  ![v614.toNat, 240]
def k0_off402 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v618 : Index := Scalar.indexCast arg9
  let c256 : Index := 256#32
  ![v618.toNat, 256]
def k0_off403 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v622 : Index := Scalar.indexCast arg9
  let c272 : Index := 272#32
  ![v622.toNat, 272]
def k0_off404 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v626 : Index := Scalar.indexCast arg9
  let c288 : Index := 288#32
  ![v626.toNat, 288]
def k0_off405 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v630 : Index := Scalar.indexCast arg9
  let c304 : Index := 304#32
  ![v630.toNat, 304]
def k0_off406 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v634 : Index := Scalar.indexCast arg9
  let c320 : Index := 320#32
  ![v634.toNat, 320]
def k0_off407 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v638 : Index := Scalar.indexCast arg9
  let c336 : Index := 336#32
  ![v638.toNat, 336]
def k0_off408 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v642 : Index := Scalar.indexCast arg9
  let c352 : Index := 352#32
  ![v642.toNat, 352]
def k0_off409 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v646 : Index := Scalar.indexCast arg9
  let c368 : Index := 368#32
  ![v646.toNat, 368]
def k0_off410 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v650 : Index := Scalar.indexCast arg9
  let c384 : Index := 384#32
  ![v650.toNat, 384]
def k0_off411 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v654 : Index := Scalar.indexCast arg9
  let c400 : Index := 400#32
  ![v654.toNat, 400]
def k0_off412 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v658 : Index := Scalar.indexCast arg9
  let c416 : Index := 416#32
  ![v658.toNat, 416]
def k0_off413 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v662 : Index := Scalar.indexCast arg9
  let c432 : Index := 432#32
  ![v662.toNat, 432]
def k0_off414 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v666 : Index := Scalar.indexCast arg9
  let c448 : Index := 448#32
  ![v666.toNat, 448]
def k0_off415 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v670 : Index := Scalar.indexCast arg9
  let c464 : Index := 464#32
  ![v670.toNat, 464]
def k0_off416 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v674 : Index := Scalar.indexCast arg9
  let c480 : Index := 480#32
  ![v674.toNat, 480]
def k0_off417 (k0_t13 : Fin k0_t13_loop.trips) : Fin 2 → Nat :=
  let c0_i32_337 : BitVec 32 := 0#32
  let c1_i32_339 : BitVec 32 := 1#32
  let arg9 : BitVec 32 := Scf.iv c0_i32_337 c1_i32_339 k0_t13
  let v678 : Index := Scalar.indexCast arg9
  let c496 : Index := 496#32
  ![v678.toNat, 496]
@[reducible] def k0_t14_loop : Scf.Loop 32 :=
  let c0_i32_346 : BitVec 32 := 0#32
  let c32_i32_347 : BitVec 32 := 32#32
  let v549 : BitVec 32 := Scalar.addi c0_i32_346 c32_i32_347
  let c1_i32_348 : BitVec 32 := 1#32
  ⟨c0_i32_346, v549, c1_i32_348⟩
def k0_off418 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v554 : Index := Scalar.indexCast arg9
  let c0_350 : Index := 0#32
  ![v554.toNat, 0]
def k0_off419 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v558 : Index := Scalar.indexCast arg9
  let c16 : Index := 16#32
  ![v558.toNat, 16]
def k0_off420 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v562 : Index := Scalar.indexCast arg9
  let c32 : Index := 32#32
  ![v562.toNat, 32]
def k0_off421 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v566 : Index := Scalar.indexCast arg9
  let c48 : Index := 48#32
  ![v566.toNat, 48]
def k0_off422 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v570 : Index := Scalar.indexCast arg9
  let c64 : Index := 64#32
  ![v570.toNat, 64]
def k0_off423 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v574 : Index := Scalar.indexCast arg9
  let c80 : Index := 80#32
  ![v574.toNat, 80]
def k0_off424 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v578 : Index := Scalar.indexCast arg9
  let c96 : Index := 96#32
  ![v578.toNat, 96]
def k0_off425 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v582 : Index := Scalar.indexCast arg9
  let c112 : Index := 112#32
  ![v582.toNat, 112]
def k0_off426 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v586 : Index := Scalar.indexCast arg9
  let c128 : Index := 128#32
  ![v586.toNat, 128]
def k0_off427 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v590 : Index := Scalar.indexCast arg9
  let c144 : Index := 144#32
  ![v590.toNat, 144]
def k0_off428 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v594 : Index := Scalar.indexCast arg9
  let c160 : Index := 160#32
  ![v594.toNat, 160]
def k0_off429 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v598 : Index := Scalar.indexCast arg9
  let c176 : Index := 176#32
  ![v598.toNat, 176]
def k0_off430 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v602 : Index := Scalar.indexCast arg9
  let c192 : Index := 192#32
  ![v602.toNat, 192]
def k0_off431 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v606 : Index := Scalar.indexCast arg9
  let c208 : Index := 208#32
  ![v606.toNat, 208]
def k0_off432 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v610 : Index := Scalar.indexCast arg9
  let c224 : Index := 224#32
  ![v610.toNat, 224]
def k0_off433 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v614 : Index := Scalar.indexCast arg9
  let c240 : Index := 240#32
  ![v614.toNat, 240]
def k0_off434 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v618 : Index := Scalar.indexCast arg9
  let c256 : Index := 256#32
  ![v618.toNat, 256]
def k0_off435 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v622 : Index := Scalar.indexCast arg9
  let c272 : Index := 272#32
  ![v622.toNat, 272]
def k0_off436 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v626 : Index := Scalar.indexCast arg9
  let c288 : Index := 288#32
  ![v626.toNat, 288]
def k0_off437 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v630 : Index := Scalar.indexCast arg9
  let c304 : Index := 304#32
  ![v630.toNat, 304]
def k0_off438 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v634 : Index := Scalar.indexCast arg9
  let c320 : Index := 320#32
  ![v634.toNat, 320]
def k0_off439 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v638 : Index := Scalar.indexCast arg9
  let c336 : Index := 336#32
  ![v638.toNat, 336]
def k0_off440 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v642 : Index := Scalar.indexCast arg9
  let c352 : Index := 352#32
  ![v642.toNat, 352]
def k0_off441 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v646 : Index := Scalar.indexCast arg9
  let c368 : Index := 368#32
  ![v646.toNat, 368]
def k0_off442 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v650 : Index := Scalar.indexCast arg9
  let c384 : Index := 384#32
  ![v650.toNat, 384]
def k0_off443 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v654 : Index := Scalar.indexCast arg9
  let c400 : Index := 400#32
  ![v654.toNat, 400]
def k0_off444 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v658 : Index := Scalar.indexCast arg9
  let c416 : Index := 416#32
  ![v658.toNat, 416]
def k0_off445 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v662 : Index := Scalar.indexCast arg9
  let c432 : Index := 432#32
  ![v662.toNat, 432]
def k0_off446 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v666 : Index := Scalar.indexCast arg9
  let c448 : Index := 448#32
  ![v666.toNat, 448]
def k0_off447 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v670 : Index := Scalar.indexCast arg9
  let c464 : Index := 464#32
  ![v670.toNat, 464]
def k0_off448 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v674 : Index := Scalar.indexCast arg9
  let c480 : Index := 480#32
  ![v674.toNat, 480]
def k0_off449 (k0_t14 : Fin k0_t14_loop.trips) : Fin 2 → Nat :=
  let c0_i32_346 : BitVec 32 := 0#32
  let c1_i32_348 : BitVec 32 := 1#32
  let arg9 : BitVec 32 := Scf.iv c0_i32_346 c1_i32_348 k0_t14
  let v678 : Index := Scalar.indexCast arg9
  let c496 : Index := 496#32
  ![v678.toNat, 496]
def k0_off450 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_350_r0 : BitVec 32 := 0#32
  ![v1.toNat, 0]
abbrev grid1 : Pipeline.Grid := ⟨1, ![10], ![false]⟩

def k1_cond3 (i : grid1.Coords) : BitVec 1 :=
  let arg0 : BitVec 32 := BitVec.ofNat 32 (i 0).val
  let c9_i32 : BitVec 32 := 9#32
  let v12 : BitVec 1 := Scalar.cmpi .eq arg0 c9_i32
  let v13 : BitVec 32 := Scalar.extui v12
  let c0_i32_5 : BitVec 32 := 0#32
  let v14 : BitVec 1 := Scalar.cmpi .ne v13 c0_i32_5
  v14

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S56x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![14], ![false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k2_t1_loop : Scf.Loop 32 :=
  let c0_i32_14 : BitVec 32 := 0#32
  let c64_i32 : BitVec 32 := 64#32
  let v31 : BitVec 32 := Scalar.addi c0_i32_14 c64_i32
  let c1_i32 : BitVec 32 := 1#32
  ⟨c0_i32_14, v31, c1_i32⟩
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S56x64x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .smem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S56x64x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S64x512x28x28_S28x28x64x512_2_3_0_1 : S64x512x28x28.Transposes [2, 3, 0, 1] S28x28x64x512
  shapeCasts_S28x28x64x512_S784x64x512 : S28x28x64x512.ShapeCasts S784x64x512
  squeezes_S1x32x512_S32x512 : S1x32x512.Squeezes S32x512
  inb_S784x64x512_S1x32x512_0_0_0 : ∀ a, (![0, 0, 0] : Fin 3 → Nat) a + S1x32x512.size a ≤ S784x64x512.size a
  h_S1x16 : 0 < S1x16.numel
  shapeCasts_S1x16_S16 : S1x16.ShapeCasts S16
  inb_S16_S16_0 : ∀ a, (![0] : Fin 1 → Nat) a + S16.size a ≤ S16.size a
  h_S16 : 0 < S16.numel
  shapeCasts_S16_S16 : S16.ShapeCasts S16
  squeezes_S1x16_S16 : S1x16.Squeezes S16
  inb_S56x64x512_S56x64x512_0_0_0 : ∀ a, (![0, 0, 0] : Fin 3 → Nat) a + S56x64x512.size a ≤ S56x64x512.size a
  h_S56x64x512 : 0 < S56x64x512.numel
  shapeCasts_S56x64x512_S56x64x512 : S56x64x512.ShapeCasts S56x64x512
  shapeCasts_S56x64x512_S1x56x64x512 : S56x64x512.ShapeCasts S1x56x64x512
  reduces_S1x56x64x512_S1 : S1x56x64x512.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  inb_S1_S1_0 : ∀ a, (![0] : Fin 1 → Nat) a + S1.size a ≤ S1.size a
  numel1_S1 : S1.numel = 1
  inb_S1x1_S1x1_0_0 : ∀ a, (![0, 0] : Fin 2 → Nat) a + S1x1.size a ≤ S1x1.size a
  numel1_S1x1 : S1x1.numel = 1
  shapeCasts_S64_S64x1 : S64.ShapeCasts S64x1
  inb_S32x16_S32x16_0_0 : ∀ a, (![0, 0] : Fin 2 → Nat) a + S32x16.size a ≤ S32x16.size a
  h_S32x16 : 0 < S32x16.numel
  shapeCasts_S32x16_S32x16 : S32x16.ShapeCasts S32x16
  shapeCasts_S32x16_S1x32x16 : S32x16.ShapeCasts S1x32x16
  reduces_S1x32x16_S1 : S1x32x16.Reduces [1, 2] S1
  shapeCasts_S1_S1x1x1 : S1.ShapeCasts S1x1x1
  inpos_S1x1x1_p0_0_0 : ∀ a, (![0, 0, 0] : Fin 3 → Nat) a < S1x1x1.size a
  iota_S64x1_d0_w32 : S64x1.Iotas .tc 32 [0]
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S1x64x512_d2_w32 : S1x64x512.Iotas .tc 32 [2]
  shapeCasts_S64x1_S1x64x1 : S64x1.ShapeCasts S1x64x1
  broadcasts_S1x64x1_S1x64x512 : S1x64x1.Broadcasts S1x64x512
  shapeCasts_S1x64x1_S1x64x1 : S1x64x1.ShapeCasts S1x64x1
  shapeCasts_S1x64x512_S1x64x512 : S1x64x512.ShapeCasts S1x64x512
  broadcasts_S1x64x512_S56x64x512 : S1x64x512.Broadcasts S56x64x512
  shapeCasts_S784x64x512_S28x28x64x512 : S784x64x512.ShapeCasts S28x28x64x512
  transposes_S28x28x64x512_S64x512x28x28_2_3_0_1 : S28x28x64x512.Transposes [2, 3, 0, 1] S64x512x28x28
  hcc0_scratch3 : 0 + S_.numel ≤ 13
  hcc0_scratch4 : 1 + S_.numel ≤ 13
  hcc0_scoped0 : 2 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 14), ∀ a, (k0_off1 i (BitVec.ofNat 32 r.val)) a + S1x32x512.size a ≤ S784x64x512.size a
  k0_t1_ok : k0_t1_loop.OK
  k0_off2_inb : ∀ k0_t1 : Fin k0_t1_loop.trips, ∀ a, (k0_off2 k0_t1) a + S1x16.size a ≤ S32x512.size a
  k0_off3_inb : ∀ k0_t1 : Fin k0_t1_loop.trips, ∀ a, (k0_off3 k0_t1) a + S1x16.size a ≤ S32x512.size a
  k0_off4_inb : ∀ k0_t1 : Fin k0_t1_loop.trips, ∀ a, (k0_off4 k0_t1) a + S1x16.size a ≤ S32x512.size a
  k0_off5_inb : ∀ k0_t1 : Fin k0_t1_loop.trips, ∀ a, (k0_off5 k0_t1) a + S1x16.size a ≤ S32x512.size a
  k0_off6_inb : ∀ k0_t1 : Fin k0_t1_loop.trips, ∀ a, (k0_off6 k0_t1) a + S1x16.size a ≤ S32x512.size a
  k0_off7_inb : ∀ k0_t1 : Fin k0_t1_loop.trips, ∀ a, (k0_off7 k0_t1) a + S1x16.size a ≤ S32x512.size a
  k0_off8_inb : ∀ k0_t1 : Fin k0_t1_loop.trips, ∀ a, (k0_off8 k0_t1) a + S1x16.size a ≤ S32x512.size a
  k0_off9_inb : ∀ k0_t1 : Fin k0_t1_loop.trips, ∀ a, (k0_off9 k0_t1) a + S1x16.size a ≤ S32x512.size a
  k0_off10_inb : ∀ k0_t1 : Fin k0_t1_loop.trips, ∀ a, (k0_off10 k0_t1) a + S1x16.size a ≤ S32x512.size a
  k0_off11_inb : ∀ k0_t1 : Fin k0_t1_loop.trips, ∀ a, (k0_off11 k0_t1) a + S1x16.size a ≤ S32x512.size a
  k0_off12_inb : ∀ k0_t1 : Fin k0_t1_loop.trips, ∀ a, (k0_off12 k0_t1) a + S1x16.size a ≤ S32x512.size a
  k0_off13_inb : ∀ k0_t1 : Fin k0_t1_loop.trips, ∀ a, (k0_off13 k0_t1) a + S1x16.size a ≤ S32x512.size a
  k0_off14_inb : ∀ k0_t1 : Fin k0_t1_loop.trips, ∀ a, (k0_off14 k0_t1) a + S1x16.size a ≤ S32x512.size a
  k0_off15_inb : ∀ k0_t1 : Fin k0_t1_loop.trips, ∀ a, (k0_off15 k0_t1) a + S1x16.size a ≤ S32x512.size a
  k0_off16_inb : ∀ k0_t1 : Fin k0_t1_loop.trips, ∀ a, (k0_off16 k0_t1) a + S1x16.size a ≤ S32x512.size a
  k0_off17_inb : ∀ k0_t1 : Fin k0_t1_loop.trips, ∀ a, (k0_off17 k0_t1) a + S1x16.size a ≤ S32x512.size a
  k0_off18_inb : ∀ k0_t1 : Fin k0_t1_loop.trips, ∀ a, (k0_off18 k0_t1) a + S1x16.size a ≤ S32x512.size a
  k0_off19_inb : ∀ k0_t1 : Fin k0_t1_loop.trips, ∀ a, (k0_off19 k0_t1) a + S1x16.size a ≤ S32x512.size a
  k0_off20_inb : ∀ k0_t1 : Fin k0_t1_loop.trips, ∀ a, (k0_off20 k0_t1) a + S1x16.size a ≤ S32x512.size a
  k0_off21_inb : ∀ k0_t1 : Fin k0_t1_loop.trips, ∀ a, (k0_off21 k0_t1) a + S1x16.size a ≤ S32x512.size a
  k0_off22_inb : ∀ k0_t1 : Fin k0_t1_loop.trips, ∀ a, (k0_off22 k0_t1) a + S1x16.size a ≤ S32x512.size a
  k0_off23_inb : ∀ k0_t1 : Fin k0_t1_loop.trips, ∀ a, (k0_off23 k0_t1) a + S1x16.size a ≤ S32x512.size a
  k0_off24_inb : ∀ k0_t1 : Fin k0_t1_loop.trips, ∀ a, (k0_off24 k0_t1) a + S1x16.size a ≤ S32x512.size a
  k0_off25_inb : ∀ k0_t1 : Fin k0_t1_loop.trips, ∀ a, (k0_off25 k0_t1) a + S1x16.size a ≤ S32x512.size a
  k0_off26_inb : ∀ k0_t1 : Fin k0_t1_loop.trips, ∀ a, (k0_off26 k0_t1) a + S1x16.size a ≤ S32x512.size a
  k0_off27_inb : ∀ k0_t1 : Fin k0_t1_loop.trips, ∀ a, (k0_off27 k0_t1) a + S1x16.size a ≤ S32x512.size a
  k0_off28_inb : ∀ k0_t1 : Fin k0_t1_loop.trips, ∀ a, (k0_off28 k0_t1) a + S1x16.size a ≤ S32x512.size a
  k0_off29_inb : ∀ k0_t1 : Fin k0_t1_loop.trips, ∀ a, (k0_off29 k0_t1) a + S1x16.size a ≤ S32x512.size a
  k0_off30_inb : ∀ k0_t1 : Fin k0_t1_loop.trips, ∀ a, (k0_off30 k0_t1) a + S1x16.size a ≤ S32x512.size a
  k0_off31_inb : ∀ k0_t1 : Fin k0_t1_loop.trips, ∀ a, (k0_off31 k0_t1) a + S1x16.size a ≤ S32x512.size a
  k0_off32_inb : ∀ k0_t1 : Fin k0_t1_loop.trips, ∀ a, (k0_off32 k0_t1) a + S1x16.size a ≤ S32x512.size a
  k0_off33_inb : ∀ k0_t1 : Fin k0_t1_loop.trips, ∀ a, (k0_off33 k0_t1) a + S1x16.size a ≤ S32x512.size a
  k0_t2_ok : k0_t2_loop.OK
  k0_off34_inb : ∀ k0_t2 : Fin k0_t2_loop.trips, ∀ a, (k0_off34 k0_t2) a + S1x16.size a ≤ S32x512.size a
  k0_off35_inb : ∀ k0_t2 : Fin k0_t2_loop.trips, ∀ a, (k0_off35 k0_t2) a + S1x16.size a ≤ S32x512.size a
  k0_off36_inb : ∀ k0_t2 : Fin k0_t2_loop.trips, ∀ a, (k0_off36 k0_t2) a + S1x16.size a ≤ S32x512.size a
  k0_off37_inb : ∀ k0_t2 : Fin k0_t2_loop.trips, ∀ a, (k0_off37 k0_t2) a + S1x16.size a ≤ S32x512.size a
  k0_off38_inb : ∀ k0_t2 : Fin k0_t2_loop.trips, ∀ a, (k0_off38 k0_t2) a + S1x16.size a ≤ S32x512.size a
  k0_off39_inb : ∀ k0_t2 : Fin k0_t2_loop.trips, ∀ a, (k0_off39 k0_t2) a + S1x16.size a ≤ S32x512.size a
  k0_off40_inb : ∀ k0_t2 : Fin k0_t2_loop.trips, ∀ a, (k0_off40 k0_t2) a + S1x16.size a ≤ S32x512.size a
  k0_off41_inb : ∀ k0_t2 : Fin k0_t2_loop.trips, ∀ a, (k0_off41 k0_t2) a + S1x16.size a ≤ S32x512.size a
  k0_off42_inb : ∀ k0_t2 : Fin k0_t2_loop.trips, ∀ a, (k0_off42 k0_t2) a + S1x16.size a ≤ S32x512.size a
  k0_off43_inb : ∀ k0_t2 : Fin k0_t2_loop.trips, ∀ a, (k0_off43 k0_t2) a + S1x16.size a ≤ S32x512.size a
  k0_off44_inb : ∀ k0_t2 : Fin k0_t2_loop.trips, ∀ a, (k0_off44 k0_t2) a + S1x16.size a ≤ S32x512.size a
  k0_off45_inb : ∀ k0_t2 : Fin k0_t2_loop.trips, ∀ a, (k0_off45 k0_t2) a + S1x16.size a ≤ S32x512.size a
  k0_off46_inb : ∀ k0_t2 : Fin k0_t2_loop.trips, ∀ a, (k0_off46 k0_t2) a + S1x16.size a ≤ S32x512.size a
  k0_off47_inb : ∀ k0_t2 : Fin k0_t2_loop.trips, ∀ a, (k0_off47 k0_t2) a + S1x16.size a ≤ S32x512.size a
  k0_off48_inb : ∀ k0_t2 : Fin k0_t2_loop.trips, ∀ a, (k0_off48 k0_t2) a + S1x16.size a ≤ S32x512.size a
  k0_off49_inb : ∀ k0_t2 : Fin k0_t2_loop.trips, ∀ a, (k0_off49 k0_t2) a + S1x16.size a ≤ S32x512.size a
  k0_off50_inb : ∀ k0_t2 : Fin k0_t2_loop.trips, ∀ a, (k0_off50 k0_t2) a + S1x16.size a ≤ S32x512.size a
  k0_off51_inb : ∀ k0_t2 : Fin k0_t2_loop.trips, ∀ a, (k0_off51 k0_t2) a + S1x16.size a ≤ S32x512.size a
  k0_off52_inb : ∀ k0_t2 : Fin k0_t2_loop.trips, ∀ a, (k0_off52 k0_t2) a + S1x16.size a ≤ S32x512.size a
  k0_off53_inb : ∀ k0_t2 : Fin k0_t2_loop.trips, ∀ a, (k0_off53 k0_t2) a + S1x16.size a ≤ S32x512.size a
  k0_off54_inb : ∀ k0_t2 : Fin k0_t2_loop.trips, ∀ a, (k0_off54 k0_t2) a + S1x16.size a ≤ S32x512.size a
  k0_off55_inb : ∀ k0_t2 : Fin k0_t2_loop.trips, ∀ a, (k0_off55 k0_t2) a + S1x16.size a ≤ S32x512.size a
  k0_off56_inb : ∀ k0_t2 : Fin k0_t2_loop.trips, ∀ a, (k0_off56 k0_t2) a + S1x16.size a ≤ S32x512.size a
  k0_off57_inb : ∀ k0_t2 : Fin k0_t2_loop.trips, ∀ a, (k0_off57 k0_t2) a + S1x16.size a ≤ S32x512.size a
  k0_off58_inb : ∀ k0_t2 : Fin k0_t2_loop.trips, ∀ a, (k0_off58 k0_t2) a + S1x16.size a ≤ S32x512.size a
  k0_off59_inb : ∀ k0_t2 : Fin k0_t2_loop.trips, ∀ a, (k0_off59 k0_t2) a + S1x16.size a ≤ S32x512.size a
  k0_off60_inb : ∀ k0_t2 : Fin k0_t2_loop.trips, ∀ a, (k0_off60 k0_t2) a + S1x16.size a ≤ S32x512.size a
  k0_off61_inb : ∀ k0_t2 : Fin k0_t2_loop.trips, ∀ a, (k0_off61 k0_t2) a + S1x16.size a ≤ S32x512.size a
  k0_off62_inb : ∀ k0_t2 : Fin k0_t2_loop.trips, ∀ a, (k0_off62 k0_t2) a + S1x16.size a ≤ S32x512.size a
  k0_off63_inb : ∀ k0_t2 : Fin k0_t2_loop.trips, ∀ a, (k0_off63 k0_t2) a + S1x16.size a ≤ S32x512.size a
  k0_off64_inb : ∀ k0_t2 : Fin k0_t2_loop.trips, ∀ a, (k0_off64 k0_t2) a + S1x16.size a ≤ S32x512.size a
  k0_off65_inb : ∀ k0_t2 : Fin k0_t2_loop.trips, ∀ a, (k0_off65 k0_t2) a + S1x16.size a ≤ S32x512.size a
  k0_t3_ok : k0_t3_loop.OK
  k0_off66_inb : ∀ k0_t3 : Fin k0_t3_loop.trips, ∀ a, (k0_off66 k0_t3) a + S1x16.size a ≤ S32x512.size a
  k0_off67_inb : ∀ k0_t3 : Fin k0_t3_loop.trips, ∀ a, (k0_off67 k0_t3) a + S1x16.size a ≤ S32x512.size a
  k0_off68_inb : ∀ k0_t3 : Fin k0_t3_loop.trips, ∀ a, (k0_off68 k0_t3) a + S1x16.size a ≤ S32x512.size a
  k0_off69_inb : ∀ k0_t3 : Fin k0_t3_loop.trips, ∀ a, (k0_off69 k0_t3) a + S1x16.size a ≤ S32x512.size a
  k0_off70_inb : ∀ k0_t3 : Fin k0_t3_loop.trips, ∀ a, (k0_off70 k0_t3) a + S1x16.size a ≤ S32x512.size a
  k0_off71_inb : ∀ k0_t3 : Fin k0_t3_loop.trips, ∀ a, (k0_off71 k0_t3) a + S1x16.size a ≤ S32x512.size a
  k0_off72_inb : ∀ k0_t3 : Fin k0_t3_loop.trips, ∀ a, (k0_off72 k0_t3) a + S1x16.size a ≤ S32x512.size a
  k0_off73_inb : ∀ k0_t3 : Fin k0_t3_loop.trips, ∀ a, (k0_off73 k0_t3) a + S1x16.size a ≤ S32x512.size a
  k0_off74_inb : ∀ k0_t3 : Fin k0_t3_loop.trips, ∀ a, (k0_off74 k0_t3) a + S1x16.size a ≤ S32x512.size a
  k0_off75_inb : ∀ k0_t3 : Fin k0_t3_loop.trips, ∀ a, (k0_off75 k0_t3) a + S1x16.size a ≤ S32x512.size a
  k0_off76_inb : ∀ k0_t3 : Fin k0_t3_loop.trips, ∀ a, (k0_off76 k0_t3) a + S1x16.size a ≤ S32x512.size a
  k0_off77_inb : ∀ k0_t3 : Fin k0_t3_loop.trips, ∀ a, (k0_off77 k0_t3) a + S1x16.size a ≤ S32x512.size a
  k0_off78_inb : ∀ k0_t3 : Fin k0_t3_loop.trips, ∀ a, (k0_off78 k0_t3) a + S1x16.size a ≤ S32x512.size a
  k0_off79_inb : ∀ k0_t3 : Fin k0_t3_loop.trips, ∀ a, (k0_off79 k0_t3) a + S1x16.size a ≤ S32x512.size a
  k0_off80_inb : ∀ k0_t3 : Fin k0_t3_loop.trips, ∀ a, (k0_off80 k0_t3) a + S1x16.size a ≤ S32x512.size a
  k0_off81_inb : ∀ k0_t3 : Fin k0_t3_loop.trips, ∀ a, (k0_off81 k0_t3) a + S1x16.size a ≤ S32x512.size a
  k0_off82_inb : ∀ k0_t3 : Fin k0_t3_loop.trips, ∀ a, (k0_off82 k0_t3) a + S1x16.size a ≤ S32x512.size a
  k0_off83_inb : ∀ k0_t3 : Fin k0_t3_loop.trips, ∀ a, (k0_off83 k0_t3) a + S1x16.size a ≤ S32x512.size a
  k0_off84_inb : ∀ k0_t3 : Fin k0_t3_loop.trips, ∀ a, (k0_off84 k0_t3) a + S1x16.size a ≤ S32x512.size a
  k0_off85_inb : ∀ k0_t3 : Fin k0_t3_loop.trips, ∀ a, (k0_off85 k0_t3) a + S1x16.size a ≤ S32x512.size a
  k0_off86_inb : ∀ k0_t3 : Fin k0_t3_loop.trips, ∀ a, (k0_off86 k0_t3) a + S1x16.size a ≤ S32x512.size a
  k0_off87_inb : ∀ k0_t3 : Fin k0_t3_loop.trips, ∀ a, (k0_off87 k0_t3) a + S1x16.size a ≤ S32x512.size a
  k0_off88_inb : ∀ k0_t3 : Fin k0_t3_loop.trips, ∀ a, (k0_off88 k0_t3) a + S1x16.size a ≤ S32x512.size a
  k0_off89_inb : ∀ k0_t3 : Fin k0_t3_loop.trips, ∀ a, (k0_off89 k0_t3) a + S1x16.size a ≤ S32x512.size a
  k0_off90_inb : ∀ k0_t3 : Fin k0_t3_loop.trips, ∀ a, (k0_off90 k0_t3) a + S1x16.size a ≤ S32x512.size a
  k0_off91_inb : ∀ k0_t3 : Fin k0_t3_loop.trips, ∀ a, (k0_off91 k0_t3) a + S1x16.size a ≤ S32x512.size a
  k0_off92_inb : ∀ k0_t3 : Fin k0_t3_loop.trips, ∀ a, (k0_off92 k0_t3) a + S1x16.size a ≤ S32x512.size a
  k0_off93_inb : ∀ k0_t3 : Fin k0_t3_loop.trips, ∀ a, (k0_off93 k0_t3) a + S1x16.size a ≤ S32x512.size a
  k0_off94_inb : ∀ k0_t3 : Fin k0_t3_loop.trips, ∀ a, (k0_off94 k0_t3) a + S1x16.size a ≤ S32x512.size a
  k0_off95_inb : ∀ k0_t3 : Fin k0_t3_loop.trips, ∀ a, (k0_off95 k0_t3) a + S1x16.size a ≤ S32x512.size a
  k0_off96_inb : ∀ k0_t3 : Fin k0_t3_loop.trips, ∀ a, (k0_off96 k0_t3) a + S1x16.size a ≤ S32x512.size a
  k0_off97_inb : ∀ k0_t3 : Fin k0_t3_loop.trips, ∀ a, (k0_off97 k0_t3) a + S1x16.size a ≤ S32x512.size a
  k0_t4_ok : k0_t4_loop.OK
  k0_off98_inb : ∀ k0_t4 : Fin k0_t4_loop.trips, ∀ a, (k0_off98 k0_t4) a + S1x16.size a ≤ S32x512.size a
  k0_off99_inb : ∀ k0_t4 : Fin k0_t4_loop.trips, ∀ a, (k0_off99 k0_t4) a + S1x16.size a ≤ S32x512.size a
  k0_off100_inb : ∀ k0_t4 : Fin k0_t4_loop.trips, ∀ a, (k0_off100 k0_t4) a + S1x16.size a ≤ S32x512.size a
  k0_off101_inb : ∀ k0_t4 : Fin k0_t4_loop.trips, ∀ a, (k0_off101 k0_t4) a + S1x16.size a ≤ S32x512.size a
  k0_off102_inb : ∀ k0_t4 : Fin k0_t4_loop.trips, ∀ a, (k0_off102 k0_t4) a + S1x16.size a ≤ S32x512.size a
  k0_off103_inb : ∀ k0_t4 : Fin k0_t4_loop.trips, ∀ a, (k0_off103 k0_t4) a + S1x16.size a ≤ S32x512.size a
  k0_off104_inb : ∀ k0_t4 : Fin k0_t4_loop.trips, ∀ a, (k0_off104 k0_t4) a + S1x16.size a ≤ S32x512.size a
  k0_off105_inb : ∀ k0_t4 : Fin k0_t4_loop.trips, ∀ a, (k0_off105 k0_t4) a + S1x16.size a ≤ S32x512.size a
  k0_off106_inb : ∀ k0_t4 : Fin k0_t4_loop.trips, ∀ a, (k0_off106 k0_t4) a + S1x16.size a ≤ S32x512.size a
  k0_off107_inb : ∀ k0_t4 : Fin k0_t4_loop.trips, ∀ a, (k0_off107 k0_t4) a + S1x16.size a ≤ S32x512.size a
  k0_off108_inb : ∀ k0_t4 : Fin k0_t4_loop.trips, ∀ a, (k0_off108 k0_t4) a + S1x16.size a ≤ S32x512.size a
  k0_off109_inb : ∀ k0_t4 : Fin k0_t4_loop.trips, ∀ a, (k0_off109 k0_t4) a + S1x16.size a ≤ S32x512.size a
  k0_off110_inb : ∀ k0_t4 : Fin k0_t4_loop.trips, ∀ a, (k0_off110 k0_t4) a + S1x16.size a ≤ S32x512.size a
  k0_off111_inb : ∀ k0_t4 : Fin k0_t4_loop.trips, ∀ a, (k0_off111 k0_t4) a + S1x16.size a ≤ S32x512.size a
  k0_off112_inb : ∀ k0_t4 : Fin k0_t4_loop.trips, ∀ a, (k0_off112 k0_t4) a + S1x16.size a ≤ S32x512.size a
  k0_off113_inb : ∀ k0_t4 : Fin k0_t4_loop.trips, ∀ a, (k0_off113 k0_t4) a + S1x16.size a ≤ S32x512.size a
  k0_off114_inb : ∀ k0_t4 : Fin k0_t4_loop.trips, ∀ a, (k0_off114 k0_t4) a + S1x16.size a ≤ S32x512.size a
  k0_off115_inb : ∀ k0_t4 : Fin k0_t4_loop.trips, ∀ a, (k0_off115 k0_t4) a + S1x16.size a ≤ S32x512.size a
  k0_off116_inb : ∀ k0_t4 : Fin k0_t4_loop.trips, ∀ a, (k0_off116 k0_t4) a + S1x16.size a ≤ S32x512.size a
  k0_off117_inb : ∀ k0_t4 : Fin k0_t4_loop.trips, ∀ a, (k0_off117 k0_t4) a + S1x16.size a ≤ S32x512.size a
  k0_off118_inb : ∀ k0_t4 : Fin k0_t4_loop.trips, ∀ a, (k0_off118 k0_t4) a + S1x16.size a ≤ S32x512.size a
  k0_off119_inb : ∀ k0_t4 : Fin k0_t4_loop.trips, ∀ a, (k0_off119 k0_t4) a + S1x16.size a ≤ S32x512.size a
  k0_off120_inb : ∀ k0_t4 : Fin k0_t4_loop.trips, ∀ a, (k0_off120 k0_t4) a + S1x16.size a ≤ S32x512.size a
  k0_off121_inb : ∀ k0_t4 : Fin k0_t4_loop.trips, ∀ a, (k0_off121 k0_t4) a + S1x16.size a ≤ S32x512.size a
  k0_off122_inb : ∀ k0_t4 : Fin k0_t4_loop.trips, ∀ a, (k0_off122 k0_t4) a + S1x16.size a ≤ S32x512.size a
  k0_off123_inb : ∀ k0_t4 : Fin k0_t4_loop.trips, ∀ a, (k0_off123 k0_t4) a + S1x16.size a ≤ S32x512.size a
  k0_off124_inb : ∀ k0_t4 : Fin k0_t4_loop.trips, ∀ a, (k0_off124 k0_t4) a + S1x16.size a ≤ S32x512.size a
  k0_off125_inb : ∀ k0_t4 : Fin k0_t4_loop.trips, ∀ a, (k0_off125 k0_t4) a + S1x16.size a ≤ S32x512.size a
  k0_off126_inb : ∀ k0_t4 : Fin k0_t4_loop.trips, ∀ a, (k0_off126 k0_t4) a + S1x16.size a ≤ S32x512.size a
  k0_off127_inb : ∀ k0_t4 : Fin k0_t4_loop.trips, ∀ a, (k0_off127 k0_t4) a + S1x16.size a ≤ S32x512.size a
  k0_off128_inb : ∀ k0_t4 : Fin k0_t4_loop.trips, ∀ a, (k0_off128 k0_t4) a + S1x16.size a ≤ S32x512.size a
  k0_off129_inb : ∀ k0_t4 : Fin k0_t4_loop.trips, ∀ a, (k0_off129 k0_t4) a + S1x16.size a ≤ S32x512.size a
  k0_t5_ok : k0_t5_loop.OK
  k0_off130_inb : ∀ k0_t5 : Fin k0_t5_loop.trips, ∀ a, (k0_off130 k0_t5) a + S1x16.size a ≤ S32x512.size a
  k0_off131_inb : ∀ k0_t5 : Fin k0_t5_loop.trips, ∀ a, (k0_off131 k0_t5) a + S1x16.size a ≤ S32x512.size a
  k0_off132_inb : ∀ k0_t5 : Fin k0_t5_loop.trips, ∀ a, (k0_off132 k0_t5) a + S1x16.size a ≤ S32x512.size a
  k0_off133_inb : ∀ k0_t5 : Fin k0_t5_loop.trips, ∀ a, (k0_off133 k0_t5) a + S1x16.size a ≤ S32x512.size a
  k0_off134_inb : ∀ k0_t5 : Fin k0_t5_loop.trips, ∀ a, (k0_off134 k0_t5) a + S1x16.size a ≤ S32x512.size a
  k0_off135_inb : ∀ k0_t5 : Fin k0_t5_loop.trips, ∀ a, (k0_off135 k0_t5) a + S1x16.size a ≤ S32x512.size a
  k0_off136_inb : ∀ k0_t5 : Fin k0_t5_loop.trips, ∀ a, (k0_off136 k0_t5) a + S1x16.size a ≤ S32x512.size a
  k0_off137_inb : ∀ k0_t5 : Fin k0_t5_loop.trips, ∀ a, (k0_off137 k0_t5) a + S1x16.size a ≤ S32x512.size a
  k0_off138_inb : ∀ k0_t5 : Fin k0_t5_loop.trips, ∀ a, (k0_off138 k0_t5) a + S1x16.size a ≤ S32x512.size a
  k0_off139_inb : ∀ k0_t5 : Fin k0_t5_loop.trips, ∀ a, (k0_off139 k0_t5) a + S1x16.size a ≤ S32x512.size a
  k0_off140_inb : ∀ k0_t5 : Fin k0_t5_loop.trips, ∀ a, (k0_off140 k0_t5) a + S1x16.size a ≤ S32x512.size a
  k0_off141_inb : ∀ k0_t5 : Fin k0_t5_loop.trips, ∀ a, (k0_off141 k0_t5) a + S1x16.size a ≤ S32x512.size a
  k0_off142_inb : ∀ k0_t5 : Fin k0_t5_loop.trips, ∀ a, (k0_off142 k0_t5) a + S1x16.size a ≤ S32x512.size a
  k0_off143_inb : ∀ k0_t5 : Fin k0_t5_loop.trips, ∀ a, (k0_off143 k0_t5) a + S1x16.size a ≤ S32x512.size a
  k0_off144_inb : ∀ k0_t5 : Fin k0_t5_loop.trips, ∀ a, (k0_off144 k0_t5) a + S1x16.size a ≤ S32x512.size a
  k0_off145_inb : ∀ k0_t5 : Fin k0_t5_loop.trips, ∀ a, (k0_off145 k0_t5) a + S1x16.size a ≤ S32x512.size a
  k0_off146_inb : ∀ k0_t5 : Fin k0_t5_loop.trips, ∀ a, (k0_off146 k0_t5) a + S1x16.size a ≤ S32x512.size a
  k0_off147_inb : ∀ k0_t5 : Fin k0_t5_loop.trips, ∀ a, (k0_off147 k0_t5) a + S1x16.size a ≤ S32x512.size a
  k0_off148_inb : ∀ k0_t5 : Fin k0_t5_loop.trips, ∀ a, (k0_off148 k0_t5) a + S1x16.size a ≤ S32x512.size a
  k0_off149_inb : ∀ k0_t5 : Fin k0_t5_loop.trips, ∀ a, (k0_off149 k0_t5) a + S1x16.size a ≤ S32x512.size a
  k0_off150_inb : ∀ k0_t5 : Fin k0_t5_loop.trips, ∀ a, (k0_off150 k0_t5) a + S1x16.size a ≤ S32x512.size a
  k0_off151_inb : ∀ k0_t5 : Fin k0_t5_loop.trips, ∀ a, (k0_off151 k0_t5) a + S1x16.size a ≤ S32x512.size a
  k0_off152_inb : ∀ k0_t5 : Fin k0_t5_loop.trips, ∀ a, (k0_off152 k0_t5) a + S1x16.size a ≤ S32x512.size a
  k0_off153_inb : ∀ k0_t5 : Fin k0_t5_loop.trips, ∀ a, (k0_off153 k0_t5) a + S1x16.size a ≤ S32x512.size a
  k0_off154_inb : ∀ k0_t5 : Fin k0_t5_loop.trips, ∀ a, (k0_off154 k0_t5) a + S1x16.size a ≤ S32x512.size a
  k0_off155_inb : ∀ k0_t5 : Fin k0_t5_loop.trips, ∀ a, (k0_off155 k0_t5) a + S1x16.size a ≤ S32x512.size a
  k0_off156_inb : ∀ k0_t5 : Fin k0_t5_loop.trips, ∀ a, (k0_off156 k0_t5) a + S1x16.size a ≤ S32x512.size a
  k0_off157_inb : ∀ k0_t5 : Fin k0_t5_loop.trips, ∀ a, (k0_off157 k0_t5) a + S1x16.size a ≤ S32x512.size a
  k0_off158_inb : ∀ k0_t5 : Fin k0_t5_loop.trips, ∀ a, (k0_off158 k0_t5) a + S1x16.size a ≤ S32x512.size a
  k0_off159_inb : ∀ k0_t5 : Fin k0_t5_loop.trips, ∀ a, (k0_off159 k0_t5) a + S1x16.size a ≤ S32x512.size a
  k0_off160_inb : ∀ k0_t5 : Fin k0_t5_loop.trips, ∀ a, (k0_off160 k0_t5) a + S1x16.size a ≤ S32x512.size a
  k0_off161_inb : ∀ k0_t5 : Fin k0_t5_loop.trips, ∀ a, (k0_off161 k0_t5) a + S1x16.size a ≤ S32x512.size a
  k0_t6_ok : k0_t6_loop.OK
  k0_off162_inb : ∀ k0_t6 : Fin k0_t6_loop.trips, ∀ a, (k0_off162 k0_t6) a + S1x16.size a ≤ S32x512.size a
  k0_off163_inb : ∀ k0_t6 : Fin k0_t6_loop.trips, ∀ a, (k0_off163 k0_t6) a + S1x16.size a ≤ S32x512.size a
  k0_off164_inb : ∀ k0_t6 : Fin k0_t6_loop.trips, ∀ a, (k0_off164 k0_t6) a + S1x16.size a ≤ S32x512.size a
  k0_off165_inb : ∀ k0_t6 : Fin k0_t6_loop.trips, ∀ a, (k0_off165 k0_t6) a + S1x16.size a ≤ S32x512.size a
  k0_off166_inb : ∀ k0_t6 : Fin k0_t6_loop.trips, ∀ a, (k0_off166 k0_t6) a + S1x16.size a ≤ S32x512.size a
  k0_off167_inb : ∀ k0_t6 : Fin k0_t6_loop.trips, ∀ a, (k0_off167 k0_t6) a + S1x16.size a ≤ S32x512.size a
  k0_off168_inb : ∀ k0_t6 : Fin k0_t6_loop.trips, ∀ a, (k0_off168 k0_t6) a + S1x16.size a ≤ S32x512.size a
  k0_off169_inb : ∀ k0_t6 : Fin k0_t6_loop.trips, ∀ a, (k0_off169 k0_t6) a + S1x16.size a ≤ S32x512.size a
  k0_off170_inb : ∀ k0_t6 : Fin k0_t6_loop.trips, ∀ a, (k0_off170 k0_t6) a + S1x16.size a ≤ S32x512.size a
  k0_off171_inb : ∀ k0_t6 : Fin k0_t6_loop.trips, ∀ a, (k0_off171 k0_t6) a + S1x16.size a ≤ S32x512.size a
  k0_off172_inb : ∀ k0_t6 : Fin k0_t6_loop.trips, ∀ a, (k0_off172 k0_t6) a + S1x16.size a ≤ S32x512.size a
  k0_off173_inb : ∀ k0_t6 : Fin k0_t6_loop.trips, ∀ a, (k0_off173 k0_t6) a + S1x16.size a ≤ S32x512.size a
  k0_off174_inb : ∀ k0_t6 : Fin k0_t6_loop.trips, ∀ a, (k0_off174 k0_t6) a + S1x16.size a ≤ S32x512.size a
  k0_off175_inb : ∀ k0_t6 : Fin k0_t6_loop.trips, ∀ a, (k0_off175 k0_t6) a + S1x16.size a ≤ S32x512.size a
  k0_off176_inb : ∀ k0_t6 : Fin k0_t6_loop.trips, ∀ a, (k0_off176 k0_t6) a + S1x16.size a ≤ S32x512.size a
  k0_off177_inb : ∀ k0_t6 : Fin k0_t6_loop.trips, ∀ a, (k0_off177 k0_t6) a + S1x16.size a ≤ S32x512.size a
  k0_off178_inb : ∀ k0_t6 : Fin k0_t6_loop.trips, ∀ a, (k0_off178 k0_t6) a + S1x16.size a ≤ S32x512.size a
  k0_off179_inb : ∀ k0_t6 : Fin k0_t6_loop.trips, ∀ a, (k0_off179 k0_t6) a + S1x16.size a ≤ S32x512.size a
  k0_off180_inb : ∀ k0_t6 : Fin k0_t6_loop.trips, ∀ a, (k0_off180 k0_t6) a + S1x16.size a ≤ S32x512.size a
  k0_off181_inb : ∀ k0_t6 : Fin k0_t6_loop.trips, ∀ a, (k0_off181 k0_t6) a + S1x16.size a ≤ S32x512.size a
  k0_off182_inb : ∀ k0_t6 : Fin k0_t6_loop.trips, ∀ a, (k0_off182 k0_t6) a + S1x16.size a ≤ S32x512.size a
  k0_off183_inb : ∀ k0_t6 : Fin k0_t6_loop.trips, ∀ a, (k0_off183 k0_t6) a + S1x16.size a ≤ S32x512.size a
  k0_off184_inb : ∀ k0_t6 : Fin k0_t6_loop.trips, ∀ a, (k0_off184 k0_t6) a + S1x16.size a ≤ S32x512.size a
  k0_off185_inb : ∀ k0_t6 : Fin k0_t6_loop.trips, ∀ a, (k0_off185 k0_t6) a + S1x16.size a ≤ S32x512.size a
  k0_off186_inb : ∀ k0_t6 : Fin k0_t6_loop.trips, ∀ a, (k0_off186 k0_t6) a + S1x16.size a ≤ S32x512.size a
  k0_off187_inb : ∀ k0_t6 : Fin k0_t6_loop.trips, ∀ a, (k0_off187 k0_t6) a + S1x16.size a ≤ S32x512.size a
  k0_off188_inb : ∀ k0_t6 : Fin k0_t6_loop.trips, ∀ a, (k0_off188 k0_t6) a + S1x16.size a ≤ S32x512.size a
  k0_off189_inb : ∀ k0_t6 : Fin k0_t6_loop.trips, ∀ a, (k0_off189 k0_t6) a + S1x16.size a ≤ S32x512.size a
  k0_off190_inb : ∀ k0_t6 : Fin k0_t6_loop.trips, ∀ a, (k0_off190 k0_t6) a + S1x16.size a ≤ S32x512.size a
  k0_off191_inb : ∀ k0_t6 : Fin k0_t6_loop.trips, ∀ a, (k0_off191 k0_t6) a + S1x16.size a ≤ S32x512.size a
  k0_off192_inb : ∀ k0_t6 : Fin k0_t6_loop.trips, ∀ a, (k0_off192 k0_t6) a + S1x16.size a ≤ S32x512.size a
  k0_off193_inb : ∀ k0_t6 : Fin k0_t6_loop.trips, ∀ a, (k0_off193 k0_t6) a + S1x16.size a ≤ S32x512.size a
  k0_t7_ok : k0_t7_loop.OK
  k0_off194_inb : ∀ k0_t7 : Fin k0_t7_loop.trips, ∀ a, (k0_off194 k0_t7) a + S1x16.size a ≤ S32x512.size a
  k0_off195_inb : ∀ k0_t7 : Fin k0_t7_loop.trips, ∀ a, (k0_off195 k0_t7) a + S1x16.size a ≤ S32x512.size a
  k0_off196_inb : ∀ k0_t7 : Fin k0_t7_loop.trips, ∀ a, (k0_off196 k0_t7) a + S1x16.size a ≤ S32x512.size a
  k0_off197_inb : ∀ k0_t7 : Fin k0_t7_loop.trips, ∀ a, (k0_off197 k0_t7) a + S1x16.size a ≤ S32x512.size a
  k0_off198_inb : ∀ k0_t7 : Fin k0_t7_loop.trips, ∀ a, (k0_off198 k0_t7) a + S1x16.size a ≤ S32x512.size a
  k0_off199_inb : ∀ k0_t7 : Fin k0_t7_loop.trips, ∀ a, (k0_off199 k0_t7) a + S1x16.size a ≤ S32x512.size a
  k0_off200_inb : ∀ k0_t7 : Fin k0_t7_loop.trips, ∀ a, (k0_off200 k0_t7) a + S1x16.size a ≤ S32x512.size a
  k0_off201_inb : ∀ k0_t7 : Fin k0_t7_loop.trips, ∀ a, (k0_off201 k0_t7) a + S1x16.size a ≤ S32x512.size a
  k0_off202_inb : ∀ k0_t7 : Fin k0_t7_loop.trips, ∀ a, (k0_off202 k0_t7) a + S1x16.size a ≤ S32x512.size a
  k0_off203_inb : ∀ k0_t7 : Fin k0_t7_loop.trips, ∀ a, (k0_off203 k0_t7) a + S1x16.size a ≤ S32x512.size a
  k0_off204_inb : ∀ k0_t7 : Fin k0_t7_loop.trips, ∀ a, (k0_off204 k0_t7) a + S1x16.size a ≤ S32x512.size a
  k0_off205_inb : ∀ k0_t7 : Fin k0_t7_loop.trips, ∀ a, (k0_off205 k0_t7) a + S1x16.size a ≤ S32x512.size a
  k0_off206_inb : ∀ k0_t7 : Fin k0_t7_loop.trips, ∀ a, (k0_off206 k0_t7) a + S1x16.size a ≤ S32x512.size a
  k0_off207_inb : ∀ k0_t7 : Fin k0_t7_loop.trips, ∀ a, (k0_off207 k0_t7) a + S1x16.size a ≤ S32x512.size a
  k0_off208_inb : ∀ k0_t7 : Fin k0_t7_loop.trips, ∀ a, (k0_off208 k0_t7) a + S1x16.size a ≤ S32x512.size a
  k0_off209_inb : ∀ k0_t7 : Fin k0_t7_loop.trips, ∀ a, (k0_off209 k0_t7) a + S1x16.size a ≤ S32x512.size a
  k0_off210_inb : ∀ k0_t7 : Fin k0_t7_loop.trips, ∀ a, (k0_off210 k0_t7) a + S1x16.size a ≤ S32x512.size a
  k0_off211_inb : ∀ k0_t7 : Fin k0_t7_loop.trips, ∀ a, (k0_off211 k0_t7) a + S1x16.size a ≤ S32x512.size a
  k0_off212_inb : ∀ k0_t7 : Fin k0_t7_loop.trips, ∀ a, (k0_off212 k0_t7) a + S1x16.size a ≤ S32x512.size a
  k0_off213_inb : ∀ k0_t7 : Fin k0_t7_loop.trips, ∀ a, (k0_off213 k0_t7) a + S1x16.size a ≤ S32x512.size a
  k0_off214_inb : ∀ k0_t7 : Fin k0_t7_loop.trips, ∀ a, (k0_off214 k0_t7) a + S1x16.size a ≤ S32x512.size a
  k0_off215_inb : ∀ k0_t7 : Fin k0_t7_loop.trips, ∀ a, (k0_off215 k0_t7) a + S1x16.size a ≤ S32x512.size a
  k0_off216_inb : ∀ k0_t7 : Fin k0_t7_loop.trips, ∀ a, (k0_off216 k0_t7) a + S1x16.size a ≤ S32x512.size a
  k0_off217_inb : ∀ k0_t7 : Fin k0_t7_loop.trips, ∀ a, (k0_off217 k0_t7) a + S1x16.size a ≤ S32x512.size a
  k0_off218_inb : ∀ k0_t7 : Fin k0_t7_loop.trips, ∀ a, (k0_off218 k0_t7) a + S1x16.size a ≤ S32x512.size a
  k0_off219_inb : ∀ k0_t7 : Fin k0_t7_loop.trips, ∀ a, (k0_off219 k0_t7) a + S1x16.size a ≤ S32x512.size a
  k0_off220_inb : ∀ k0_t7 : Fin k0_t7_loop.trips, ∀ a, (k0_off220 k0_t7) a + S1x16.size a ≤ S32x512.size a
  k0_off221_inb : ∀ k0_t7 : Fin k0_t7_loop.trips, ∀ a, (k0_off221 k0_t7) a + S1x16.size a ≤ S32x512.size a
  k0_off222_inb : ∀ k0_t7 : Fin k0_t7_loop.trips, ∀ a, (k0_off222 k0_t7) a + S1x16.size a ≤ S32x512.size a
  k0_off223_inb : ∀ k0_t7 : Fin k0_t7_loop.trips, ∀ a, (k0_off223 k0_t7) a + S1x16.size a ≤ S32x512.size a
  k0_off224_inb : ∀ k0_t7 : Fin k0_t7_loop.trips, ∀ a, (k0_off224 k0_t7) a + S1x16.size a ≤ S32x512.size a
  k0_off225_inb : ∀ k0_t7 : Fin k0_t7_loop.trips, ∀ a, (k0_off225 k0_t7) a + S1x16.size a ≤ S32x512.size a
  k0_t8_ok : k0_t8_loop.OK
  k0_off226_inb : ∀ k0_t8 : Fin k0_t8_loop.trips, ∀ a, (k0_off226 k0_t8) a + S1x16.size a ≤ S32x512.size a
  k0_off227_inb : ∀ k0_t8 : Fin k0_t8_loop.trips, ∀ a, (k0_off227 k0_t8) a + S1x16.size a ≤ S32x512.size a
  k0_off228_inb : ∀ k0_t8 : Fin k0_t8_loop.trips, ∀ a, (k0_off228 k0_t8) a + S1x16.size a ≤ S32x512.size a
  k0_off229_inb : ∀ k0_t8 : Fin k0_t8_loop.trips, ∀ a, (k0_off229 k0_t8) a + S1x16.size a ≤ S32x512.size a
  k0_off230_inb : ∀ k0_t8 : Fin k0_t8_loop.trips, ∀ a, (k0_off230 k0_t8) a + S1x16.size a ≤ S32x512.size a
  k0_off231_inb : ∀ k0_t8 : Fin k0_t8_loop.trips, ∀ a, (k0_off231 k0_t8) a + S1x16.size a ≤ S32x512.size a
  k0_off232_inb : ∀ k0_t8 : Fin k0_t8_loop.trips, ∀ a, (k0_off232 k0_t8) a + S1x16.size a ≤ S32x512.size a
  k0_off233_inb : ∀ k0_t8 : Fin k0_t8_loop.trips, ∀ a, (k0_off233 k0_t8) a + S1x16.size a ≤ S32x512.size a
  k0_off234_inb : ∀ k0_t8 : Fin k0_t8_loop.trips, ∀ a, (k0_off234 k0_t8) a + S1x16.size a ≤ S32x512.size a
  k0_off235_inb : ∀ k0_t8 : Fin k0_t8_loop.trips, ∀ a, (k0_off235 k0_t8) a + S1x16.size a ≤ S32x512.size a
  k0_off236_inb : ∀ k0_t8 : Fin k0_t8_loop.trips, ∀ a, (k0_off236 k0_t8) a + S1x16.size a ≤ S32x512.size a
  k0_off237_inb : ∀ k0_t8 : Fin k0_t8_loop.trips, ∀ a, (k0_off237 k0_t8) a + S1x16.size a ≤ S32x512.size a
  k0_off238_inb : ∀ k0_t8 : Fin k0_t8_loop.trips, ∀ a, (k0_off238 k0_t8) a + S1x16.size a ≤ S32x512.size a
  k0_off239_inb : ∀ k0_t8 : Fin k0_t8_loop.trips, ∀ a, (k0_off239 k0_t8) a + S1x16.size a ≤ S32x512.size a
  k0_off240_inb : ∀ k0_t8 : Fin k0_t8_loop.trips, ∀ a, (k0_off240 k0_t8) a + S1x16.size a ≤ S32x512.size a
  k0_off241_inb : ∀ k0_t8 : Fin k0_t8_loop.trips, ∀ a, (k0_off241 k0_t8) a + S1x16.size a ≤ S32x512.size a
  k0_off242_inb : ∀ k0_t8 : Fin k0_t8_loop.trips, ∀ a, (k0_off242 k0_t8) a + S1x16.size a ≤ S32x512.size a
  k0_off243_inb : ∀ k0_t8 : Fin k0_t8_loop.trips, ∀ a, (k0_off243 k0_t8) a + S1x16.size a ≤ S32x512.size a
  k0_off244_inb : ∀ k0_t8 : Fin k0_t8_loop.trips, ∀ a, (k0_off244 k0_t8) a + S1x16.size a ≤ S32x512.size a
  k0_off245_inb : ∀ k0_t8 : Fin k0_t8_loop.trips, ∀ a, (k0_off245 k0_t8) a + S1x16.size a ≤ S32x512.size a
  k0_off246_inb : ∀ k0_t8 : Fin k0_t8_loop.trips, ∀ a, (k0_off246 k0_t8) a + S1x16.size a ≤ S32x512.size a
  k0_off247_inb : ∀ k0_t8 : Fin k0_t8_loop.trips, ∀ a, (k0_off247 k0_t8) a + S1x16.size a ≤ S32x512.size a
  k0_off248_inb : ∀ k0_t8 : Fin k0_t8_loop.trips, ∀ a, (k0_off248 k0_t8) a + S1x16.size a ≤ S32x512.size a
  k0_off249_inb : ∀ k0_t8 : Fin k0_t8_loop.trips, ∀ a, (k0_off249 k0_t8) a + S1x16.size a ≤ S32x512.size a
  k0_off250_inb : ∀ k0_t8 : Fin k0_t8_loop.trips, ∀ a, (k0_off250 k0_t8) a + S1x16.size a ≤ S32x512.size a
  k0_off251_inb : ∀ k0_t8 : Fin k0_t8_loop.trips, ∀ a, (k0_off251 k0_t8) a + S1x16.size a ≤ S32x512.size a
  k0_off252_inb : ∀ k0_t8 : Fin k0_t8_loop.trips, ∀ a, (k0_off252 k0_t8) a + S1x16.size a ≤ S32x512.size a
  k0_off253_inb : ∀ k0_t8 : Fin k0_t8_loop.trips, ∀ a, (k0_off253 k0_t8) a + S1x16.size a ≤ S32x512.size a
  k0_off254_inb : ∀ k0_t8 : Fin k0_t8_loop.trips, ∀ a, (k0_off254 k0_t8) a + S1x16.size a ≤ S32x512.size a
  k0_off255_inb : ∀ k0_t8 : Fin k0_t8_loop.trips, ∀ a, (k0_off255 k0_t8) a + S1x16.size a ≤ S32x512.size a
  k0_off256_inb : ∀ k0_t8 : Fin k0_t8_loop.trips, ∀ a, (k0_off256 k0_t8) a + S1x16.size a ≤ S32x512.size a
  k0_off257_inb : ∀ k0_t8 : Fin k0_t8_loop.trips, ∀ a, (k0_off257 k0_t8) a + S1x16.size a ≤ S32x512.size a
  k0_t9_ok : k0_t9_loop.OK
  k0_off258_inb : ∀ k0_t9 : Fin k0_t9_loop.trips, ∀ a, (k0_off258 k0_t9) a + S1x16.size a ≤ S32x512.size a
  k0_off259_inb : ∀ k0_t9 : Fin k0_t9_loop.trips, ∀ a, (k0_off259 k0_t9) a + S1x16.size a ≤ S32x512.size a
  k0_off260_inb : ∀ k0_t9 : Fin k0_t9_loop.trips, ∀ a, (k0_off260 k0_t9) a + S1x16.size a ≤ S32x512.size a
  k0_off261_inb : ∀ k0_t9 : Fin k0_t9_loop.trips, ∀ a, (k0_off261 k0_t9) a + S1x16.size a ≤ S32x512.size a
  k0_off262_inb : ∀ k0_t9 : Fin k0_t9_loop.trips, ∀ a, (k0_off262 k0_t9) a + S1x16.size a ≤ S32x512.size a
  k0_off263_inb : ∀ k0_t9 : Fin k0_t9_loop.trips, ∀ a, (k0_off263 k0_t9) a + S1x16.size a ≤ S32x512.size a
  k0_off264_inb : ∀ k0_t9 : Fin k0_t9_loop.trips, ∀ a, (k0_off264 k0_t9) a + S1x16.size a ≤ S32x512.size a
  k0_off265_inb : ∀ k0_t9 : Fin k0_t9_loop.trips, ∀ a, (k0_off265 k0_t9) a + S1x16.size a ≤ S32x512.size a
  k0_off266_inb : ∀ k0_t9 : Fin k0_t9_loop.trips, ∀ a, (k0_off266 k0_t9) a + S1x16.size a ≤ S32x512.size a
  k0_off267_inb : ∀ k0_t9 : Fin k0_t9_loop.trips, ∀ a, (k0_off267 k0_t9) a + S1x16.size a ≤ S32x512.size a
  k0_off268_inb : ∀ k0_t9 : Fin k0_t9_loop.trips, ∀ a, (k0_off268 k0_t9) a + S1x16.size a ≤ S32x512.size a
  k0_off269_inb : ∀ k0_t9 : Fin k0_t9_loop.trips, ∀ a, (k0_off269 k0_t9) a + S1x16.size a ≤ S32x512.size a
  k0_off270_inb : ∀ k0_t9 : Fin k0_t9_loop.trips, ∀ a, (k0_off270 k0_t9) a + S1x16.size a ≤ S32x512.size a
  k0_off271_inb : ∀ k0_t9 : Fin k0_t9_loop.trips, ∀ a, (k0_off271 k0_t9) a + S1x16.size a ≤ S32x512.size a
  k0_off272_inb : ∀ k0_t9 : Fin k0_t9_loop.trips, ∀ a, (k0_off272 k0_t9) a + S1x16.size a ≤ S32x512.size a
  k0_off273_inb : ∀ k0_t9 : Fin k0_t9_loop.trips, ∀ a, (k0_off273 k0_t9) a + S1x16.size a ≤ S32x512.size a
  k0_off274_inb : ∀ k0_t9 : Fin k0_t9_loop.trips, ∀ a, (k0_off274 k0_t9) a + S1x16.size a ≤ S32x512.size a
  k0_off275_inb : ∀ k0_t9 : Fin k0_t9_loop.trips, ∀ a, (k0_off275 k0_t9) a + S1x16.size a ≤ S32x512.size a
  k0_off276_inb : ∀ k0_t9 : Fin k0_t9_loop.trips, ∀ a, (k0_off276 k0_t9) a + S1x16.size a ≤ S32x512.size a
  k0_off277_inb : ∀ k0_t9 : Fin k0_t9_loop.trips, ∀ a, (k0_off277 k0_t9) a + S1x16.size a ≤ S32x512.size a
  k0_off278_inb : ∀ k0_t9 : Fin k0_t9_loop.trips, ∀ a, (k0_off278 k0_t9) a + S1x16.size a ≤ S32x512.size a
  k0_off279_inb : ∀ k0_t9 : Fin k0_t9_loop.trips, ∀ a, (k0_off279 k0_t9) a + S1x16.size a ≤ S32x512.size a
  k0_off280_inb : ∀ k0_t9 : Fin k0_t9_loop.trips, ∀ a, (k0_off280 k0_t9) a + S1x16.size a ≤ S32x512.size a
  k0_off281_inb : ∀ k0_t9 : Fin k0_t9_loop.trips, ∀ a, (k0_off281 k0_t9) a + S1x16.size a ≤ S32x512.size a
  k0_off282_inb : ∀ k0_t9 : Fin k0_t9_loop.trips, ∀ a, (k0_off282 k0_t9) a + S1x16.size a ≤ S32x512.size a
  k0_off283_inb : ∀ k0_t9 : Fin k0_t9_loop.trips, ∀ a, (k0_off283 k0_t9) a + S1x16.size a ≤ S32x512.size a
  k0_off284_inb : ∀ k0_t9 : Fin k0_t9_loop.trips, ∀ a, (k0_off284 k0_t9) a + S1x16.size a ≤ S32x512.size a
  k0_off285_inb : ∀ k0_t9 : Fin k0_t9_loop.trips, ∀ a, (k0_off285 k0_t9) a + S1x16.size a ≤ S32x512.size a
  k0_off286_inb : ∀ k0_t9 : Fin k0_t9_loop.trips, ∀ a, (k0_off286 k0_t9) a + S1x16.size a ≤ S32x512.size a
  k0_off287_inb : ∀ k0_t9 : Fin k0_t9_loop.trips, ∀ a, (k0_off287 k0_t9) a + S1x16.size a ≤ S32x512.size a
  k0_off288_inb : ∀ k0_t9 : Fin k0_t9_loop.trips, ∀ a, (k0_off288 k0_t9) a + S1x16.size a ≤ S32x512.size a
  k0_off289_inb : ∀ k0_t9 : Fin k0_t9_loop.trips, ∀ a, (k0_off289 k0_t9) a + S1x16.size a ≤ S32x512.size a
  k0_t10_ok : k0_t10_loop.OK
  k0_off290_inb : ∀ k0_t10 : Fin k0_t10_loop.trips, ∀ a, (k0_off290 k0_t10) a + S1x16.size a ≤ S32x512.size a
  k0_off291_inb : ∀ k0_t10 : Fin k0_t10_loop.trips, ∀ a, (k0_off291 k0_t10) a + S1x16.size a ≤ S32x512.size a
  k0_off292_inb : ∀ k0_t10 : Fin k0_t10_loop.trips, ∀ a, (k0_off292 k0_t10) a + S1x16.size a ≤ S32x512.size a
  k0_off293_inb : ∀ k0_t10 : Fin k0_t10_loop.trips, ∀ a, (k0_off293 k0_t10) a + S1x16.size a ≤ S32x512.size a
  k0_off294_inb : ∀ k0_t10 : Fin k0_t10_loop.trips, ∀ a, (k0_off294 k0_t10) a + S1x16.size a ≤ S32x512.size a
  k0_off295_inb : ∀ k0_t10 : Fin k0_t10_loop.trips, ∀ a, (k0_off295 k0_t10) a + S1x16.size a ≤ S32x512.size a
  k0_off296_inb : ∀ k0_t10 : Fin k0_t10_loop.trips, ∀ a, (k0_off296 k0_t10) a + S1x16.size a ≤ S32x512.size a
  k0_off297_inb : ∀ k0_t10 : Fin k0_t10_loop.trips, ∀ a, (k0_off297 k0_t10) a + S1x16.size a ≤ S32x512.size a
  k0_off298_inb : ∀ k0_t10 : Fin k0_t10_loop.trips, ∀ a, (k0_off298 k0_t10) a + S1x16.size a ≤ S32x512.size a
  k0_off299_inb : ∀ k0_t10 : Fin k0_t10_loop.trips, ∀ a, (k0_off299 k0_t10) a + S1x16.size a ≤ S32x512.size a
  k0_off300_inb : ∀ k0_t10 : Fin k0_t10_loop.trips, ∀ a, (k0_off300 k0_t10) a + S1x16.size a ≤ S32x512.size a
  k0_off301_inb : ∀ k0_t10 : Fin k0_t10_loop.trips, ∀ a, (k0_off301 k0_t10) a + S1x16.size a ≤ S32x512.size a
  k0_off302_inb : ∀ k0_t10 : Fin k0_t10_loop.trips, ∀ a, (k0_off302 k0_t10) a + S1x16.size a ≤ S32x512.size a
  k0_off303_inb : ∀ k0_t10 : Fin k0_t10_loop.trips, ∀ a, (k0_off303 k0_t10) a + S1x16.size a ≤ S32x512.size a
  k0_off304_inb : ∀ k0_t10 : Fin k0_t10_loop.trips, ∀ a, (k0_off304 k0_t10) a + S1x16.size a ≤ S32x512.size a
  k0_off305_inb : ∀ k0_t10 : Fin k0_t10_loop.trips, ∀ a, (k0_off305 k0_t10) a + S1x16.size a ≤ S32x512.size a
  k0_off306_inb : ∀ k0_t10 : Fin k0_t10_loop.trips, ∀ a, (k0_off306 k0_t10) a + S1x16.size a ≤ S32x512.size a
  k0_off307_inb : ∀ k0_t10 : Fin k0_t10_loop.trips, ∀ a, (k0_off307 k0_t10) a + S1x16.size a ≤ S32x512.size a
  k0_off308_inb : ∀ k0_t10 : Fin k0_t10_loop.trips, ∀ a, (k0_off308 k0_t10) a + S1x16.size a ≤ S32x512.size a
  k0_off309_inb : ∀ k0_t10 : Fin k0_t10_loop.trips, ∀ a, (k0_off309 k0_t10) a + S1x16.size a ≤ S32x512.size a
  k0_off310_inb : ∀ k0_t10 : Fin k0_t10_loop.trips, ∀ a, (k0_off310 k0_t10) a + S1x16.size a ≤ S32x512.size a
  k0_off311_inb : ∀ k0_t10 : Fin k0_t10_loop.trips, ∀ a, (k0_off311 k0_t10) a + S1x16.size a ≤ S32x512.size a
  k0_off312_inb : ∀ k0_t10 : Fin k0_t10_loop.trips, ∀ a, (k0_off312 k0_t10) a + S1x16.size a ≤ S32x512.size a
  k0_off313_inb : ∀ k0_t10 : Fin k0_t10_loop.trips, ∀ a, (k0_off313 k0_t10) a + S1x16.size a ≤ S32x512.size a
  k0_off314_inb : ∀ k0_t10 : Fin k0_t10_loop.trips, ∀ a, (k0_off314 k0_t10) a + S1x16.size a ≤ S32x512.size a
  k0_off315_inb : ∀ k0_t10 : Fin k0_t10_loop.trips, ∀ a, (k0_off315 k0_t10) a + S1x16.size a ≤ S32x512.size a
  k0_off316_inb : ∀ k0_t10 : Fin k0_t10_loop.trips, ∀ a, (k0_off316 k0_t10) a + S1x16.size a ≤ S32x512.size a
  k0_off317_inb : ∀ k0_t10 : Fin k0_t10_loop.trips, ∀ a, (k0_off317 k0_t10) a + S1x16.size a ≤ S32x512.size a
  k0_off318_inb : ∀ k0_t10 : Fin k0_t10_loop.trips, ∀ a, (k0_off318 k0_t10) a + S1x16.size a ≤ S32x512.size a
  k0_off319_inb : ∀ k0_t10 : Fin k0_t10_loop.trips, ∀ a, (k0_off319 k0_t10) a + S1x16.size a ≤ S32x512.size a
  k0_off320_inb : ∀ k0_t10 : Fin k0_t10_loop.trips, ∀ a, (k0_off320 k0_t10) a + S1x16.size a ≤ S32x512.size a
  k0_off321_inb : ∀ k0_t10 : Fin k0_t10_loop.trips, ∀ a, (k0_off321 k0_t10) a + S1x16.size a ≤ S32x512.size a
  k0_t11_ok : k0_t11_loop.OK
  k0_off322_inb : ∀ k0_t11 : Fin k0_t11_loop.trips, ∀ a, (k0_off322 k0_t11) a + S1x16.size a ≤ S32x512.size a
  k0_off323_inb : ∀ k0_t11 : Fin k0_t11_loop.trips, ∀ a, (k0_off323 k0_t11) a + S1x16.size a ≤ S32x512.size a
  k0_off324_inb : ∀ k0_t11 : Fin k0_t11_loop.trips, ∀ a, (k0_off324 k0_t11) a + S1x16.size a ≤ S32x512.size a
  k0_off325_inb : ∀ k0_t11 : Fin k0_t11_loop.trips, ∀ a, (k0_off325 k0_t11) a + S1x16.size a ≤ S32x512.size a
  k0_off326_inb : ∀ k0_t11 : Fin k0_t11_loop.trips, ∀ a, (k0_off326 k0_t11) a + S1x16.size a ≤ S32x512.size a
  k0_off327_inb : ∀ k0_t11 : Fin k0_t11_loop.trips, ∀ a, (k0_off327 k0_t11) a + S1x16.size a ≤ S32x512.size a
  k0_off328_inb : ∀ k0_t11 : Fin k0_t11_loop.trips, ∀ a, (k0_off328 k0_t11) a + S1x16.size a ≤ S32x512.size a
  k0_off329_inb : ∀ k0_t11 : Fin k0_t11_loop.trips, ∀ a, (k0_off329 k0_t11) a + S1x16.size a ≤ S32x512.size a
  k0_off330_inb : ∀ k0_t11 : Fin k0_t11_loop.trips, ∀ a, (k0_off330 k0_t11) a + S1x16.size a ≤ S32x512.size a
  k0_off331_inb : ∀ k0_t11 : Fin k0_t11_loop.trips, ∀ a, (k0_off331 k0_t11) a + S1x16.size a ≤ S32x512.size a
  k0_off332_inb : ∀ k0_t11 : Fin k0_t11_loop.trips, ∀ a, (k0_off332 k0_t11) a + S1x16.size a ≤ S32x512.size a
  k0_off333_inb : ∀ k0_t11 : Fin k0_t11_loop.trips, ∀ a, (k0_off333 k0_t11) a + S1x16.size a ≤ S32x512.size a
  k0_off334_inb : ∀ k0_t11 : Fin k0_t11_loop.trips, ∀ a, (k0_off334 k0_t11) a + S1x16.size a ≤ S32x512.size a
  k0_off335_inb : ∀ k0_t11 : Fin k0_t11_loop.trips, ∀ a, (k0_off335 k0_t11) a + S1x16.size a ≤ S32x512.size a
  k0_off336_inb : ∀ k0_t11 : Fin k0_t11_loop.trips, ∀ a, (k0_off336 k0_t11) a + S1x16.size a ≤ S32x512.size a
  k0_off337_inb : ∀ k0_t11 : Fin k0_t11_loop.trips, ∀ a, (k0_off337 k0_t11) a + S1x16.size a ≤ S32x512.size a
  k0_off338_inb : ∀ k0_t11 : Fin k0_t11_loop.trips, ∀ a, (k0_off338 k0_t11) a + S1x16.size a ≤ S32x512.size a
  k0_off339_inb : ∀ k0_t11 : Fin k0_t11_loop.trips, ∀ a, (k0_off339 k0_t11) a + S1x16.size a ≤ S32x512.size a
  k0_off340_inb : ∀ k0_t11 : Fin k0_t11_loop.trips, ∀ a, (k0_off340 k0_t11) a + S1x16.size a ≤ S32x512.size a
  k0_off341_inb : ∀ k0_t11 : Fin k0_t11_loop.trips, ∀ a, (k0_off341 k0_t11) a + S1x16.size a ≤ S32x512.size a
  k0_off342_inb : ∀ k0_t11 : Fin k0_t11_loop.trips, ∀ a, (k0_off342 k0_t11) a + S1x16.size a ≤ S32x512.size a
  k0_off343_inb : ∀ k0_t11 : Fin k0_t11_loop.trips, ∀ a, (k0_off343 k0_t11) a + S1x16.size a ≤ S32x512.size a
  k0_off344_inb : ∀ k0_t11 : Fin k0_t11_loop.trips, ∀ a, (k0_off344 k0_t11) a + S1x16.size a ≤ S32x512.size a
  k0_off345_inb : ∀ k0_t11 : Fin k0_t11_loop.trips, ∀ a, (k0_off345 k0_t11) a + S1x16.size a ≤ S32x512.size a
  k0_off346_inb : ∀ k0_t11 : Fin k0_t11_loop.trips, ∀ a, (k0_off346 k0_t11) a + S1x16.size a ≤ S32x512.size a
  k0_off347_inb : ∀ k0_t11 : Fin k0_t11_loop.trips, ∀ a, (k0_off347 k0_t11) a + S1x16.size a ≤ S32x512.size a
  k0_off348_inb : ∀ k0_t11 : Fin k0_t11_loop.trips, ∀ a, (k0_off348 k0_t11) a + S1x16.size a ≤ S32x512.size a
  k0_off349_inb : ∀ k0_t11 : Fin k0_t11_loop.trips, ∀ a, (k0_off349 k0_t11) a + S1x16.size a ≤ S32x512.size a
  k0_off350_inb : ∀ k0_t11 : Fin k0_t11_loop.trips, ∀ a, (k0_off350 k0_t11) a + S1x16.size a ≤ S32x512.size a
  k0_off351_inb : ∀ k0_t11 : Fin k0_t11_loop.trips, ∀ a, (k0_off351 k0_t11) a + S1x16.size a ≤ S32x512.size a
  k0_off352_inb : ∀ k0_t11 : Fin k0_t11_loop.trips, ∀ a, (k0_off352 k0_t11) a + S1x16.size a ≤ S32x512.size a
  k0_off353_inb : ∀ k0_t11 : Fin k0_t11_loop.trips, ∀ a, (k0_off353 k0_t11) a + S1x16.size a ≤ S32x512.size a
  k0_t12_ok : k0_t12_loop.OK
  k0_off354_inb : ∀ k0_t12 : Fin k0_t12_loop.trips, ∀ a, (k0_off354 k0_t12) a + S1x16.size a ≤ S32x512.size a
  k0_off355_inb : ∀ k0_t12 : Fin k0_t12_loop.trips, ∀ a, (k0_off355 k0_t12) a + S1x16.size a ≤ S32x512.size a
  k0_off356_inb : ∀ k0_t12 : Fin k0_t12_loop.trips, ∀ a, (k0_off356 k0_t12) a + S1x16.size a ≤ S32x512.size a
  k0_off357_inb : ∀ k0_t12 : Fin k0_t12_loop.trips, ∀ a, (k0_off357 k0_t12) a + S1x16.size a ≤ S32x512.size a
  k0_off358_inb : ∀ k0_t12 : Fin k0_t12_loop.trips, ∀ a, (k0_off358 k0_t12) a + S1x16.size a ≤ S32x512.size a
  k0_off359_inb : ∀ k0_t12 : Fin k0_t12_loop.trips, ∀ a, (k0_off359 k0_t12) a + S1x16.size a ≤ S32x512.size a
  k0_off360_inb : ∀ k0_t12 : Fin k0_t12_loop.trips, ∀ a, (k0_off360 k0_t12) a + S1x16.size a ≤ S32x512.size a
  k0_off361_inb : ∀ k0_t12 : Fin k0_t12_loop.trips, ∀ a, (k0_off361 k0_t12) a + S1x16.size a ≤ S32x512.size a
  k0_off362_inb : ∀ k0_t12 : Fin k0_t12_loop.trips, ∀ a, (k0_off362 k0_t12) a + S1x16.size a ≤ S32x512.size a
  k0_off363_inb : ∀ k0_t12 : Fin k0_t12_loop.trips, ∀ a, (k0_off363 k0_t12) a + S1x16.size a ≤ S32x512.size a
  k0_off364_inb : ∀ k0_t12 : Fin k0_t12_loop.trips, ∀ a, (k0_off364 k0_t12) a + S1x16.size a ≤ S32x512.size a
  k0_off365_inb : ∀ k0_t12 : Fin k0_t12_loop.trips, ∀ a, (k0_off365 k0_t12) a + S1x16.size a ≤ S32x512.size a
  k0_off366_inb : ∀ k0_t12 : Fin k0_t12_loop.trips, ∀ a, (k0_off366 k0_t12) a + S1x16.size a ≤ S32x512.size a
  k0_off367_inb : ∀ k0_t12 : Fin k0_t12_loop.trips, ∀ a, (k0_off367 k0_t12) a + S1x16.size a ≤ S32x512.size a
  k0_off368_inb : ∀ k0_t12 : Fin k0_t12_loop.trips, ∀ a, (k0_off368 k0_t12) a + S1x16.size a ≤ S32x512.size a
  k0_off369_inb : ∀ k0_t12 : Fin k0_t12_loop.trips, ∀ a, (k0_off369 k0_t12) a + S1x16.size a ≤ S32x512.size a
  k0_off370_inb : ∀ k0_t12 : Fin k0_t12_loop.trips, ∀ a, (k0_off370 k0_t12) a + S1x16.size a ≤ S32x512.size a
  k0_off371_inb : ∀ k0_t12 : Fin k0_t12_loop.trips, ∀ a, (k0_off371 k0_t12) a + S1x16.size a ≤ S32x512.size a
  k0_off372_inb : ∀ k0_t12 : Fin k0_t12_loop.trips, ∀ a, (k0_off372 k0_t12) a + S1x16.size a ≤ S32x512.size a
  k0_off373_inb : ∀ k0_t12 : Fin k0_t12_loop.trips, ∀ a, (k0_off373 k0_t12) a + S1x16.size a ≤ S32x512.size a
  k0_off374_inb : ∀ k0_t12 : Fin k0_t12_loop.trips, ∀ a, (k0_off374 k0_t12) a + S1x16.size a ≤ S32x512.size a
  k0_off375_inb : ∀ k0_t12 : Fin k0_t12_loop.trips, ∀ a, (k0_off375 k0_t12) a + S1x16.size a ≤ S32x512.size a
  k0_off376_inb : ∀ k0_t12 : Fin k0_t12_loop.trips, ∀ a, (k0_off376 k0_t12) a + S1x16.size a ≤ S32x512.size a
  k0_off377_inb : ∀ k0_t12 : Fin k0_t12_loop.trips, ∀ a, (k0_off377 k0_t12) a + S1x16.size a ≤ S32x512.size a
  k0_off378_inb : ∀ k0_t12 : Fin k0_t12_loop.trips, ∀ a, (k0_off378 k0_t12) a + S1x16.size a ≤ S32x512.size a
  k0_off379_inb : ∀ k0_t12 : Fin k0_t12_loop.trips, ∀ a, (k0_off379 k0_t12) a + S1x16.size a ≤ S32x512.size a
  k0_off380_inb : ∀ k0_t12 : Fin k0_t12_loop.trips, ∀ a, (k0_off380 k0_t12) a + S1x16.size a ≤ S32x512.size a
  k0_off381_inb : ∀ k0_t12 : Fin k0_t12_loop.trips, ∀ a, (k0_off381 k0_t12) a + S1x16.size a ≤ S32x512.size a
  k0_off382_inb : ∀ k0_t12 : Fin k0_t12_loop.trips, ∀ a, (k0_off382 k0_t12) a + S1x16.size a ≤ S32x512.size a
  k0_off383_inb : ∀ k0_t12 : Fin k0_t12_loop.trips, ∀ a, (k0_off383 k0_t12) a + S1x16.size a ≤ S32x512.size a
  k0_off384_inb : ∀ k0_t12 : Fin k0_t12_loop.trips, ∀ a, (k0_off384 k0_t12) a + S1x16.size a ≤ S32x512.size a
  k0_off385_inb : ∀ k0_t12 : Fin k0_t12_loop.trips, ∀ a, (k0_off385 k0_t12) a + S1x16.size a ≤ S32x512.size a
  k0_t13_ok : k0_t13_loop.OK
  k0_off386_inb : ∀ k0_t13 : Fin k0_t13_loop.trips, ∀ a, (k0_off386 k0_t13) a + S1x16.size a ≤ S32x512.size a
  k0_off387_inb : ∀ k0_t13 : Fin k0_t13_loop.trips, ∀ a, (k0_off387 k0_t13) a + S1x16.size a ≤ S32x512.size a
  k0_off388_inb : ∀ k0_t13 : Fin k0_t13_loop.trips, ∀ a, (k0_off388 k0_t13) a + S1x16.size a ≤ S32x512.size a
  k0_off389_inb : ∀ k0_t13 : Fin k0_t13_loop.trips, ∀ a, (k0_off389 k0_t13) a + S1x16.size a ≤ S32x512.size a
  k0_off390_inb : ∀ k0_t13 : Fin k0_t13_loop.trips, ∀ a, (k0_off390 k0_t13) a + S1x16.size a ≤ S32x512.size a
  k0_off391_inb : ∀ k0_t13 : Fin k0_t13_loop.trips, ∀ a, (k0_off391 k0_t13) a + S1x16.size a ≤ S32x512.size a
  k0_off392_inb : ∀ k0_t13 : Fin k0_t13_loop.trips, ∀ a, (k0_off392 k0_t13) a + S1x16.size a ≤ S32x512.size a
  k0_off393_inb : ∀ k0_t13 : Fin k0_t13_loop.trips, ∀ a, (k0_off393 k0_t13) a + S1x16.size a ≤ S32x512.size a
  k0_off394_inb : ∀ k0_t13 : Fin k0_t13_loop.trips, ∀ a, (k0_off394 k0_t13) a + S1x16.size a ≤ S32x512.size a
  k0_off395_inb : ∀ k0_t13 : Fin k0_t13_loop.trips, ∀ a, (k0_off395 k0_t13) a + S1x16.size a ≤ S32x512.size a
  k0_off396_inb : ∀ k0_t13 : Fin k0_t13_loop.trips, ∀ a, (k0_off396 k0_t13) a + S1x16.size a ≤ S32x512.size a
  k0_off397_inb : ∀ k0_t13 : Fin k0_t13_loop.trips, ∀ a, (k0_off397 k0_t13) a + S1x16.size a ≤ S32x512.size a
  k0_off398_inb : ∀ k0_t13 : Fin k0_t13_loop.trips, ∀ a, (k0_off398 k0_t13) a + S1x16.size a ≤ S32x512.size a
  k0_off399_inb : ∀ k0_t13 : Fin k0_t13_loop.trips, ∀ a, (k0_off399 k0_t13) a + S1x16.size a ≤ S32x512.size a
  k0_off400_inb : ∀ k0_t13 : Fin k0_t13_loop.trips, ∀ a, (k0_off400 k0_t13) a + S1x16.size a ≤ S32x512.size a
  k0_off401_inb : ∀ k0_t13 : Fin k0_t13_loop.trips, ∀ a, (k0_off401 k0_t13) a + S1x16.size a ≤ S32x512.size a
  k0_off402_inb : ∀ k0_t13 : Fin k0_t13_loop.trips, ∀ a, (k0_off402 k0_t13) a + S1x16.size a ≤ S32x512.size a
  k0_off403_inb : ∀ k0_t13 : Fin k0_t13_loop.trips, ∀ a, (k0_off403 k0_t13) a + S1x16.size a ≤ S32x512.size a
  k0_off404_inb : ∀ k0_t13 : Fin k0_t13_loop.trips, ∀ a, (k0_off404 k0_t13) a + S1x16.size a ≤ S32x512.size a
  k0_off405_inb : ∀ k0_t13 : Fin k0_t13_loop.trips, ∀ a, (k0_off405 k0_t13) a + S1x16.size a ≤ S32x512.size a
  k0_off406_inb : ∀ k0_t13 : Fin k0_t13_loop.trips, ∀ a, (k0_off406 k0_t13) a + S1x16.size a ≤ S32x512.size a
  k0_off407_inb : ∀ k0_t13 : Fin k0_t13_loop.trips, ∀ a, (k0_off407 k0_t13) a + S1x16.size a ≤ S32x512.size a
  k0_off408_inb : ∀ k0_t13 : Fin k0_t13_loop.trips, ∀ a, (k0_off408 k0_t13) a + S1x16.size a ≤ S32x512.size a
  k0_off409_inb : ∀ k0_t13 : Fin k0_t13_loop.trips, ∀ a, (k0_off409 k0_t13) a + S1x16.size a ≤ S32x512.size a
  k0_off410_inb : ∀ k0_t13 : Fin k0_t13_loop.trips, ∀ a, (k0_off410 k0_t13) a + S1x16.size a ≤ S32x512.size a
  k0_off411_inb : ∀ k0_t13 : Fin k0_t13_loop.trips, ∀ a, (k0_off411 k0_t13) a + S1x16.size a ≤ S32x512.size a
  k0_off412_inb : ∀ k0_t13 : Fin k0_t13_loop.trips, ∀ a, (k0_off412 k0_t13) a + S1x16.size a ≤ S32x512.size a
  k0_off413_inb : ∀ k0_t13 : Fin k0_t13_loop.trips, ∀ a, (k0_off413 k0_t13) a + S1x16.size a ≤ S32x512.size a
  k0_off414_inb : ∀ k0_t13 : Fin k0_t13_loop.trips, ∀ a, (k0_off414 k0_t13) a + S1x16.size a ≤ S32x512.size a
  k0_off415_inb : ∀ k0_t13 : Fin k0_t13_loop.trips, ∀ a, (k0_off415 k0_t13) a + S1x16.size a ≤ S32x512.size a
  k0_off416_inb : ∀ k0_t13 : Fin k0_t13_loop.trips, ∀ a, (k0_off416 k0_t13) a + S1x16.size a ≤ S32x512.size a
  k0_off417_inb : ∀ k0_t13 : Fin k0_t13_loop.trips, ∀ a, (k0_off417 k0_t13) a + S1x16.size a ≤ S32x512.size a
  k0_t14_ok : k0_t14_loop.OK
  k0_off418_inb : ∀ k0_t14 : Fin k0_t14_loop.trips, ∀ a, (k0_off418 k0_t14) a + S1x16.size a ≤ S32x512.size a
  k0_off419_inb : ∀ k0_t14 : Fin k0_t14_loop.trips, ∀ a, (k0_off419 k0_t14) a + S1x16.size a ≤ S32x512.size a
  k0_off420_inb : ∀ k0_t14 : Fin k0_t14_loop.trips, ∀ a, (k0_off420 k0_t14) a + S1x16.size a ≤ S32x512.size a
  k0_off421_inb : ∀ k0_t14 : Fin k0_t14_loop.trips, ∀ a, (k0_off421 k0_t14) a + S1x16.size a ≤ S32x512.size a
  k0_off422_inb : ∀ k0_t14 : Fin k0_t14_loop.trips, ∀ a, (k0_off422 k0_t14) a + S1x16.size a ≤ S32x512.size a
  k0_off423_inb : ∀ k0_t14 : Fin k0_t14_loop.trips, ∀ a, (k0_off423 k0_t14) a + S1x16.size a ≤ S32x512.size a
  k0_off424_inb : ∀ k0_t14 : Fin k0_t14_loop.trips, ∀ a, (k0_off424 k0_t14) a + S1x16.size a ≤ S32x512.size a
  k0_off425_inb : ∀ k0_t14 : Fin k0_t14_loop.trips, ∀ a, (k0_off425 k0_t14) a + S1x16.size a ≤ S32x512.size a
  k0_off426_inb : ∀ k0_t14 : Fin k0_t14_loop.trips, ∀ a, (k0_off426 k0_t14) a + S1x16.size a ≤ S32x512.size a
  k0_off427_inb : ∀ k0_t14 : Fin k0_t14_loop.trips, ∀ a, (k0_off427 k0_t14) a + S1x16.size a ≤ S32x512.size a
  k0_off428_inb : ∀ k0_t14 : Fin k0_t14_loop.trips, ∀ a, (k0_off428 k0_t14) a + S1x16.size a ≤ S32x512.size a
  k0_off429_inb : ∀ k0_t14 : Fin k0_t14_loop.trips, ∀ a, (k0_off429 k0_t14) a + S1x16.size a ≤ S32x512.size a
  k0_off430_inb : ∀ k0_t14 : Fin k0_t14_loop.trips, ∀ a, (k0_off430 k0_t14) a + S1x16.size a ≤ S32x512.size a
  k0_off431_inb : ∀ k0_t14 : Fin k0_t14_loop.trips, ∀ a, (k0_off431 k0_t14) a + S1x16.size a ≤ S32x512.size a
  k0_off432_inb : ∀ k0_t14 : Fin k0_t14_loop.trips, ∀ a, (k0_off432 k0_t14) a + S1x16.size a ≤ S32x512.size a
  k0_off433_inb : ∀ k0_t14 : Fin k0_t14_loop.trips, ∀ a, (k0_off433 k0_t14) a + S1x16.size a ≤ S32x512.size a
  k0_off434_inb : ∀ k0_t14 : Fin k0_t14_loop.trips, ∀ a, (k0_off434 k0_t14) a + S1x16.size a ≤ S32x512.size a
  k0_off435_inb : ∀ k0_t14 : Fin k0_t14_loop.trips, ∀ a, (k0_off435 k0_t14) a + S1x16.size a ≤ S32x512.size a
  k0_off436_inb : ∀ k0_t14 : Fin k0_t14_loop.trips, ∀ a, (k0_off436 k0_t14) a + S1x16.size a ≤ S32x512.size a
  k0_off437_inb : ∀ k0_t14 : Fin k0_t14_loop.trips, ∀ a, (k0_off437 k0_t14) a + S1x16.size a ≤ S32x512.size a
  k0_off438_inb : ∀ k0_t14 : Fin k0_t14_loop.trips, ∀ a, (k0_off438 k0_t14) a + S1x16.size a ≤ S32x512.size a
  k0_off439_inb : ∀ k0_t14 : Fin k0_t14_loop.trips, ∀ a, (k0_off439 k0_t14) a + S1x16.size a ≤ S32x512.size a
  k0_off440_inb : ∀ k0_t14 : Fin k0_t14_loop.trips, ∀ a, (k0_off440 k0_t14) a + S1x16.size a ≤ S32x512.size a
  k0_off441_inb : ∀ k0_t14 : Fin k0_t14_loop.trips, ∀ a, (k0_off441 k0_t14) a + S1x16.size a ≤ S32x512.size a
  k0_off442_inb : ∀ k0_t14 : Fin k0_t14_loop.trips, ∀ a, (k0_off442 k0_t14) a + S1x16.size a ≤ S32x512.size a
  k0_off443_inb : ∀ k0_t14 : Fin k0_t14_loop.trips, ∀ a, (k0_off443 k0_t14) a + S1x16.size a ≤ S32x512.size a
  k0_off444_inb : ∀ k0_t14 : Fin k0_t14_loop.trips, ∀ a, (k0_off444 k0_t14) a + S1x16.size a ≤ S32x512.size a
  k0_off445_inb : ∀ k0_t14 : Fin k0_t14_loop.trips, ∀ a, (k0_off445 k0_t14) a + S1x16.size a ≤ S32x512.size a
  k0_off446_inb : ∀ k0_t14 : Fin k0_t14_loop.trips, ∀ a, (k0_off446 k0_t14) a + S1x16.size a ≤ S32x512.size a
  k0_off447_inb : ∀ k0_t14 : Fin k0_t14_loop.trips, ∀ a, (k0_off447 k0_t14) a + S1x16.size a ≤ S32x512.size a
  k0_off448_inb : ∀ k0_t14 : Fin k0_t14_loop.trips, ∀ a, (k0_off448 k0_t14) a + S1x16.size a ≤ S32x512.size a
  k0_off449_inb : ∀ k0_t14 : Fin k0_t14_loop.trips, ∀ a, (k0_off449 k0_t14) a + S1x16.size a ≤ S32x512.size a
  k0_off450_inb : ∀ i : grid0.Coords, ∀ a, (k0_off450 i) a + S1x16.size a ≤ S32x16.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S56x64x512.size a ≤ S784x64x512.size a
  hwx1_0 : ∀ i : grid1.Coords, EltTy.bits .f32 = 32 ∨ (Rect.block (s := S784x64x512) S56x64x512.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hrank2 : 0 < grid2.rank
  k2_t1_ok : ∀ i : grid2.Coords, ∀ (k2_h1 : k2_cond1 i = 1#1), k2_t1_loop.OK
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S56x64x512.size a ≤ S784x64x512.size a
  hwx2_0 : ∀ i : grid2.Coords, EltTy.bits .f32 = 32 ∨ (Rect.block (s := S784x64x512) S56x64x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .i32 = 32 ∨ (Rect.block (s := S64x1) S64x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S56x64x512.size a ≤ S784x64x512.size a
  hwx2_4 : ∀ i : grid2.Coords, EltTy.bits .f32 = 32 ∨ (Rect.block (s := S784x64x512) S56x64x512.size (cc2_transform_4 i) (hinb2_4 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0

abbrev win1_0 : Pipeline.Window sig grid1 :=
  Pipeline.Window.ofSpec (Memref.whole main_v1) S56x64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1.size cc1_transform_1 reads1_1 true false 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond3 i == 1#1) | ⟨_ + 2, h⟩ => absurd h (Nat.not_lt.2 (Nat.le_add_left _ _))

abbrev win2_0 : Pipeline.Window sig grid2 :=
  Pipeline.Window.ofSpec (Memref.whole main_v1) S56x64x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S56x64x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S64x512x28x28 : Shape := ⟨4, ![64, 512, 28, 28]⟩
abbrev S64 : Shape := ⟨1, ![64]⟩
abbrev S_ : Shape := ⟨0, ![]⟩
abbrev S1 : Shape := ⟨1, ![1]⟩
abbrev S2 : Shape := ⟨1, ![2]⟩
abbrev S28x28 : Shape := ⟨2, ![28, 28]⟩

abbrev nBuf : Space → Nat
  | .hbm => 44
  | .vmem => 0
  | .smem => 0
  | _ => 0

abbrev bufTy : (tb : Table) → Fin (tcTables nBuf tb) → BufTy
  | .hbm, ⟨0, _⟩ => ⟨S64x512x28x28, .f32⟩
  | .hbm, ⟨1, _⟩ => ⟨S64, .i32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S64x512x28x28, .f32⟩
  | .hbm, ⟨8, _⟩ => ⟨S_, .i32⟩
  | .hbm, ⟨9, _⟩ => ⟨S_, .i1⟩
  | .hbm, ⟨10, _⟩ => ⟨S1, .i32⟩
  | .hbm, ⟨11, _⟩ => ⟨S_, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i1⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1, .i32⟩
  | .hbm, ⟨38, _⟩ => ⟨S1, .i32⟩
  | .hbm, ⟨39, _⟩ => ⟨S2, .i32⟩
  | .hbm, ⟨40, _⟩ => ⟨S28x28, .f32⟩
  | .hbm, ⟨41, _⟩ => ⟨S64x512x28x28, .f32⟩
  | .hbm, ⟨42, _⟩ => ⟨S_, .i32⟩
  | .hbm, ⟨43, _⟩ => ⟨S_, .i32⟩
  | _, _ => ⟨S64x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_while0c_c_3 : Ref sig .tc := ⟨.hbm, 8, rfl⟩
abbrev main_while0c_v2 : Ref sig .tc := ⟨.hbm, 9, rfl⟩
abbrev main_while0b_call0_v0 : Ref sig .tc := ⟨.hbm, 10, rfl⟩
abbrev main_while0b_v2 : Ref sig .tc := ⟨.hbm, 11, rfl⟩
abbrev main_while0b_call1_cst : Ref sig .tc := ⟨.hbm, 12, rfl⟩
abbrev main_while0b_call1_v0 : Ref sig .tc := ⟨.hbm, 13, rfl⟩
abbrev main_while0b_call1_cst_0 : Ref sig .tc := ⟨.hbm, 14, rfl⟩
abbrev main_while0b_call1_v1 : Ref sig .tc := ⟨.hbm, 15, rfl⟩
abbrev main_while0b_call1_cst_1 : Ref sig .tc := ⟨.hbm, 16, rfl⟩
abbrev main_while0b_call1_v2 : Ref sig .tc := ⟨.hbm, 17, rfl⟩
abbrev main_while0b_call1_cst_2 : Ref sig .tc := ⟨.hbm, 18, rfl⟩
abbrev main_while0b_call1_v3 : Ref sig .tc := ⟨.hbm, 19, rfl⟩
abbrev main_while0b_call1_c : Ref sig .tc := ⟨.hbm, 20, rfl⟩
abbrev main_while0b_call1_v4 : Ref sig .tc := ⟨.hbm, 21, rfl⟩
abbrev main_while0b_call1_c_3 : Ref sig .tc := ⟨.hbm, 22, rfl⟩
abbrev main_while0b_call1_v5 : Ref sig .tc := ⟨.hbm, 23, rfl⟩
abbrev main_while0b_call1_v6 : Ref sig .tc := ⟨.hbm, 24, rfl⟩
abbrev main_while0b_call1_v7 : Ref sig .tc := ⟨.hbm, 25, rfl⟩
abbrev main_while0b_call1_v8 : Ref sig .tc := ⟨.hbm, 26, rfl⟩
abbrev main_while0b_call1_c_4 : Ref sig .tc := ⟨.hbm, 27, rfl⟩
abbrev main_while0b_call1_v9 : Ref sig .tc := ⟨.hbm, 28, rfl⟩
abbrev main_while0b_call1_c_5 : Ref sig .tc := ⟨.hbm, 29, rfl⟩
abbrev main_while0b_call1_v10 : Ref sig .tc := ⟨.hbm, 30, rfl⟩
abbrev main_while0b_call1_v11 : Ref sig .tc := ⟨.hbm, 31, rfl⟩
abbrev main_while0b_call1_c_6 : Ref sig .tc := ⟨.hbm, 32, rfl⟩
abbrev main_while0b_call1_v12 : Ref sig .tc := ⟨.hbm, 33, rfl⟩
abbrev main_while0b_call1_c_7 : Ref sig .tc := ⟨.hbm, 34, rfl⟩
abbrev main_while0b_call1_v13 : Ref sig .tc := ⟨.hbm, 35, rfl⟩
abbrev main_while0b_call1_v14 : Ref sig .tc := ⟨.hbm, 36, rfl⟩
abbrev main_while0b_call1_v15 : Ref sig .tc := ⟨.hbm, 37, rfl⟩
abbrev main_while0b_call1_v16 : Ref sig .tc := ⟨.hbm, 38, rfl⟩
abbrev main_while0b_call1_v17 : Ref sig .tc := ⟨.hbm, 39, rfl⟩
abbrev main_while0b_call1_v18 : Ref sig .tc := ⟨.hbm, 40, rfl⟩
abbrev main_while0b_v3 : Ref sig .tc := ⟨.hbm, 41, rfl⟩
abbrev main_while0b_c_3 : Ref sig .tc := ⟨.hbm, 42, rfl⟩
abbrev main_while0b_v4 : Ref sig .tc := ⟨.hbm, 43, rfl⟩

abbrev nD : Nat := 1
abbrev τ : Topo := Topo.v7x

variable {F : FTy → Type} [FloatOps F]

abbrev main_while0_count : Scf.Loop 32 := ⟨0#32, 64#32, 1#32⟩

class Facts₀ : Prop where
  sliceFits_S64_S1 : S64.Slices (fun _ => 0) S1
  h_S_ : 0 < S_.numel
  shapeCasts_S1_S_ : S1.ShapeCasts S_
  reducesTo_S64x512x28x28_S_d0_1_2_3 : S64x512x28x28.ReducesTo [0, 1, 2, 3] S_
  bcast_S_S1 : S_.BroadcastsInDim S1 (![] : Fin 0 → Fin S1.rank)
  concatenates_S1_S1_S2_d0 : Shape.Concatenates [S1, S1] S2 0
  bcast_S_S28x28 : S_.BroadcastsInDim S28x28 (![] : Fin 0 → Fin S28x28.rank)
  scatter_S64x512x28x28_S2_S28x28_01_01_01_0_wf : ScatterDims.WF S64x512x28x28 S2 S28x28 [0, 1] [0, 1] [0, 1] 0
  main_while0_ok : main_while0_count.OK

variable [Facts₀]

def scatter_S64x512x28x28_S2_S28x28_01_01_01_0 : ScatterDims S64x512x28x28 S2 S28x28 where
  updateWindowDims := [0, 1]
  insertedWindowDims := [0, 1]
  scatterDimsToOperandDims := [0, 1]
  indexVectorDim := 0
  wf := scatter_S64x512x28x28_S2_S28x28_01_01_01_0_wf

class Facts : Prop extends Facts₀ where

variable [Facts]
-- ==== Proof.KI.Base.lean ====
/-
  The idealized kernel program as the SparseCore launch theorem sees it: one vector-subcore call on 2 × 16 tiles, two
  TensorCore pipelines under it, the body table of both; the side conditions of the launch; and the ghost state — the
  launch handshakes' rounds, the pipelines' staging cells' rounds, and the counters of the tiles' own transfers,
  three factors of one product.
-/
import proofs.«202639_g54090818126251_cont_9to1c4b_462_21_alg».proof.Defs
import proofs.«202639_g54090818126251_cont_9to1c4b_462_21_alg».proof.Proof.Gen.KernelIdeal
import proofs.«202639_g54090818126251_cont_9to1c4b_462_21_alg».proof.Proof.Gen.KernelIdeal.Launch
import proofs.«202639_g54090818126251_cont_9to1c4b_462_21_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' rounds: the left factor of the right factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

end Cert.Proof.KI

end
-- ==== Proof.KI.Tile.lean ====
/-
  The SparseCore call of the idealized kernel: what the launch handshakes carry, one tile's task, and how a
  SparseCore's operands split among its sixteen tiles.

  Each of the 2 × 16 tiles reduces seven planes of the transposed activations, fourteen half planes of 32 × 512, to
  sixteen running minima: a half plane is copied into one of two staging buffers while the other is reduced row by
  row, one copy outstanding per semaphore and no buffer read while a copy into it is pending; the sixteen lanes are
  then stored and copied out to the tile's own row, 2 · subcore + core, of the 32 × 16 result. Every tile reads the
  activations, so the call hands each SparseCore a read share of them and each tile a part of that share; the result
  goes out row by row. Nothing is said here of what a row ends at: the task returns its share, its row at some
  contents, and its scoped storage, the three semaphores at zero.
-/
import proofs.«202639_g54090818126251_cont_9to1c4b_462_21_alg».proof.Proof.KI.Base
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks pointsTo_toks_join)

variable {F : FTy → Type}

local notation "𝕄" => MT nD τ sig (HIx 1) (Elt F) ℕ UU ℕ

/-! ## The arrays the call works on -/

/-- The transposed activations (the call's one operand) and the per-tile minima (its result), as locations of device `d`. -/
abbrev xtLoc (d : Dev nD) : Loc nD τ sig := (SparseCore.T d).loc main_v1
abbrev moLoc (d : Dev nD) : Loc nD τ sig := (SparseCore.T d).loc main_v2

local notation "xtV" => (Memref.whole Cert.KernelIdeal.main_v1_scv : Memref Cert.KernelIdeal.sig Kind.scVector Space.hbm Cert.KernelIdeal.S784x64x512 EltTy.f32)
local notation "moV" => (Memref.whole Cert.KernelIdeal.main_v2_scv : Memref Cert.KernelIdeal.sig Kind.scVector Space.hbm Cert.KernelIdeal.S32x16 EltTy.f32)
local notation "b0V" => (Memref.whole Cert.KernelIdeal.cc0_scratch0 : Memref Cert.KernelIdeal.sig Kind.scVector Space.vmem Cert.KernelIdeal.S32x512 EltTy.f32)
local notation "b1V" => (Memref.whole Cert.KernelIdeal.cc0_scratch1 : Memref Cert.KernelIdeal.sig Kind.scVector Space.vmem Cert.KernelIdeal.S32x512 EltTy.f32)
local notation "acV" => (Memref.whole Cert.KernelIdeal.cc0_scratch2 : Memref Cert.KernelIdeal.sig Kind.scVector Space.vmem Cert.KernelIdeal.S16 EltTy.f32)

/-- Row `r` of the minima: one tile's sixteen lanes. -/
theorem hdiv : 32 ∣ S32x16.size 0 := ⟨1, rfl⟩
abbrev row (r : Fin 32) : Rect S32x16 := Rect.part (s := S32x16) (a₀ := 0) hdiv r
abbrev rowSet (r : Fin 32) : Finset S32x16.Idx := ((moV).view.slice (row r)).set
/-- The row tile `i` of SparseCore `c` writes: `2 i + c`. -/
def rowOf (c : Fin 2) (i : Fin 16) : Fin 32 := ⟨2 * i.val + c.val, by omega⟩

/-- The read share of the activations SparseCore `c` is handed, and tile `i`'s part of it. -/
abbrev qC (c : Fin 2) : PosShare TreeShare := shareTok fullShare 2 c
abbrev qT (c : Fin 2) (i : Fin 16) : PosShare TreeShare := shareTok (qC c) 16 i

variable (X : (d : Dev nD) → Buf (Elt F) (xtLoc d))

/-! ## What the handshakes carry -/

abbrev xtShC (d : Dev nD) (c : Fin 2) : sProp 𝕄 := xtLoc d ↦{qC c} X d
abbrev xtShT (d : Dev nD) (c : Fin 2) (i : Fin 16) : sProp 𝕄 := xtLoc d ↦{qT c i} X d
abbrev moRow (d : Dev nD) (r : Fin 32) : sProp 𝕄 := iprop(∃ f, moLoc d ↦[rowSet r]{fullShare} f)

/-- The call hands SparseCore `c` a read share of the activations and the sixteen rows of the minima its tiles write;
    each tile a part of that share and its row; and brings them back, the rows at what the tiles left. -/
def P : (K (F := F)).Pay (nD := nD) (Val := Elt F) (Name := ℕ) (U := UU) where
  st := fun q d c => match q with
    | 0 => iprop(xtShC X d (Fin.cast nCore_zero c) ∗ bigSep Finset.univ fun i : Fin 16 => moRow d (rowOf (Fin.cast nCore_zero c) i))
  dn := fun q d c => match q with
    | 0 => iprop(xtShC X d (Fin.cast nCore_zero c) ∗ bigSep Finset.univ fun i : Fin 16 => moRow d (rowOf (Fin.cast nCore_zero c) i))
  go := fun q d c i => match q with
    | 0 => iprop(xtShT X d (Fin.cast nCore_zero c) (Fin.cast nSub_zero i) ∗ moRow d (rowOf (Fin.cast nCore_zero c) (Fin.cast nSub_zero i)))
  td := fun q d c i => match q with
    | 0 => iprop(xtShT X d (Fin.cast nCore_zero c) (Fin.cast nSub_zero i) ∗ moRow d (rowOf (Fin.cast nCore_zero c) (Fin.cast nSub_zero i)))
  x := fun _ _ => iprop(emp)

instance P_storable : (P (F := F) X).IsStorable where
  st q d c := match q with
    | 0 => (inferInstance : BI.Storable (upEmb : UEmb _ 𝕄)
        iprop(xtShC X d (Fin.cast nCore_zero c) ∗ bigSep Finset.univ fun i : Fin 16 => moRow d (rowOf (Fin.cast nCore_zero c) i)))
  dn q d c := match q with
    | 0 => (inferInstance : BI.Storable (upEmb : UEmb _ 𝕄)
        iprop(xtShC X d (Fin.cast nCore_zero c) ∗ bigSep Finset.univ fun i : Fin 16 => moRow d (rowOf (Fin.cast nCore_zero c) i)))
  go q d c i := match q with
    | 0 => (inferInstance : BI.Storable (upEmb : UEmb _ 𝕄)
        iprop(xtShT X d (Fin.cast nCore_zero c) (Fin.cast nSub_zero i) ∗ moRow d (rowOf (Fin.cast nCore_zero c) (Fin.cast nSub_zero i))))
  td q d c i := match q with
    | 0 => (inferInstance : BI.Storable (upEmb : UEmb _ 𝕄)
        iprop(xtShT X d (Fin.cast nCore_zero c) (Fin.cast nSub_zero i) ∗ moRow d (rowOf (Fin.cast nCore_zero c) (Fin.cast nSub_zero i))))

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- The row of the minima the tile writes, as the kernel slices it, squeezed. -/
abbrev rowK (L : grid0.Coords) : Rect S32x16 := Rect.unit (s := S32x16) (k0_off450 L) S1x16.size (k0_off450_inb L)
abbrev moRowK (L : grid0.Coords) : Memref sig .scVector .hbm S16 .f32 := ((moV).slice (rowK L) (fun _ => rfl)).squeeze S16 squeezes_S1x16_S16

theorem rowK_eq : rowK L = row (rowOf (cL L) (jL L)) := by
  unfold rowK row Rect.part Rect.block
  congr 1 <;> funext a
  · rw [k0_off450_eq]
    match a with
    | 0 => simp [Shape.partIx, Shape.partSize, rowOf]
    | 1 => simp [Shape.partIx, Shape.partSize]
  · match a with
    | 0 => simp [Shape.partSize]
    | 1 => simp [Shape.partSize]

theorem set_moRowK : (moRowK L).view.set = rowSet (rowOf (cL L) (jL L)) := by
  show (((moV).view.slice (rowK L)).reshape S16 squeezes_S1x16_S16.numel_eq).set = ((moV).view.slice (row (rowOf (cL L) (jL L)))).set
  rw [View.set_reshape]
  exact rowK_eq L ▸ rfl

theorem pts_moRowK (f : Buf (Elt F) (moLoc d)) :
    ((moRowK L).view.loc (V d (cV L) (jV L)) ↦[(moRowK L).view.set]{fullShare} f : sProp 𝕄) = moLoc d ↦[rowSet (rowOf (cL L) (jL L))]{fullShare} f := by
  rw [set_moRowK]
theorem pts_xtV (q : PosShare TreeShare) (f : Buf (Elt F) (xtLoc d)) :
    ((xtV).view.loc (V d (cV L) (jV L)) ↦{q} f : sProp 𝕄) = xtLoc d ↦{q} f := by
  simp only [Memref.view_whole, View.set_whole]
theorem pts_b0V (f : Buf (Elt F) ((V d (cV L) (jV L)).loc cc0_scratch0)) :
    ((b0V).view.loc (V d (cV L) (jV L)) ↦{fullShare} f : sProp 𝕄) = (V d (cV L) (jV L)).loc cc0_scratch0 ↦{fullShare} f := rfl
theorem pts_b1V (f : Buf (Elt F) ((V d (cV L) (jV L)).loc cc0_scratch1)) :
    ((b1V).view.loc (V d (cV L) (jV L)) ↦{fullShare} f : sProp 𝕄) = (V d (cV L) (jV L)).loc cc0_scratch1 ↦{fullShare} f := rfl
theorem pts_acV (f : Buf (Elt F) ((V d (cV L) (jV L)).loc cc0_scratch2)) :
    ((acV).view.loc (V d (cV L) (jV L)) ↦{fullShare} f : sProp 𝕄) = (V d (cV L) (jV L)).loc cc0_scratch2 ↦{fullShare} f := rfl

/-- The tile's three DMA semaphores: one per staging buffer, one for the write-out. -/
abbrev c0cell (d : Dev nD) (c : Fin τ.nSC) (i : Fin τ.nSub) : GSem nD τ sig := (V d c i, .dma cc0_scratch3.sem)
abbrev c1cell (d : Dev nD) (c : Fin τ.nSC) (i : Fin τ.nSub) : GSem nD τ sig := (V d c i, .dma cc0_scratch4.sem)
abbrev c2cell (d : Dev nD) (c : Fin τ.nSC) (i : Fin τ.nSub) : GSem nD τ sig := (V d c i, .dma cc0_scoped0.sem)

theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0
          ∗ bigSep ((((ownCells (V d (cV L) (jV L))).erase (c0cell d (cV L) (jV L))).erase (c1cell d (cV L) (jV L))).erase (c2cell d (cV L) (jV L))) fun g => semVal g 0) := by
  unfold SparseCore.Cfg.ownSems0
  rw [SparseCore.bigSep_erase' ((mem_ownCells (g := c0cell d (cV L) (jV L))).mpr ⟨rfl, by
      show (SemLoc.dma cc0_scratch3.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scratch4.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped0.sem : SemLoc sig).isScoped .scVector = true; decide⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

variable [FloatOps F]

set_option hygiene false in
/-- One pass over the first staging buffer: the row loop by an invariant that holds the buffer at some contents (the
    region only loads from it), then on to the next loop. -/
macro "rows_of_buf0" : tactic => `(tactic| (
  sl_for (fun (_ : Nat) (_ : FVec F S16 .f32) => (iprop(∃ f, (b0V).view.loc (V d (cV L) (jV L)) ↦{fullShare} f) : sProp 𝕄)) $$ [Hb0']
  case region =>
    intro k _
    iintro ⟨%f, Hb⟩
    sl_exec
    sl_step
    iexists _; iexact Hb
  · iexists _; iexact Hb0'
  iintro %vacc HI
  icases HI with ⟨%fb0, Hb0'⟩
  sl_exec))

set_option hygiene false in
/-- The same over the second staging buffer. -/
macro "rows_of_buf1" : tactic => `(tactic| (
  sl_for (fun (_ : Nat) (_ : FVec F S16 .f32) => (iprop(∃ f, (b1V).view.loc (V d (cV L) (jV L)) ↦{fullShare} f) : sProp 𝕄)) $$ [Hb1']
  case region =>
    intro k _
    iintro ⟨%f, Hb⟩
    sl_exec
    sl_step
    iexists _; iexact Hb
  · iexists _; iexact Hb1'
  iintro %vacc HI
  icases HI with ⟨%fb1, Hb1'⟩
  sl_exec))

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp
        ∗ (xtShT X d (cL L) (jL L) ∗ moRow d (rowOf (cL L) (jL L)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_min L xtV (Memref.isWhole_whole _) moV (Memref.isWhole_whole _) b0V (Memref.isWhole_whole _) b1V (Memref.isWhole_whole _)
            acV (Memref.isWhole_whole _) cc0_scratch3 cc0_scratch4 cc0_scoped0)
          fun _ => iprop((xtShT X d (cL L) (jL L) ∗ moRow d (rowOf (cL L) (jL L)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold cc0__sc_min
  rw [(K (F := F)).scopedBufs_V hF d (cV L) (jV L), SparseCore.Cfg.scopedSems0_V (Val := Elt F) d (cV L) (jV L), ownSems0_V, ownBufs_V]
  iintro ⟨#Hlv, -, ⟨Hx, ⟨%fo, Ho⟩⟩, ⟨⟨%f0, Hb0⟩, ⟨%f1, Hb1⟩, ⟨%f2, Hac⟩, Hbufs⟩, ⟨Hsem0, Hsem1, Hsem2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_moRowK (F := F) d L _).symm) $$ Ho
  ihave Hx' := (Entails.of_eq (pts_xtV (F := F) d L _ _).symm) $$ Hx
  ihave Hb0' := (Entails.of_eq (pts_b0V (F := F) d L _).symm) $$ Hb0
  ihave Hb1' := (Entails.of_eq (pts_b1V (F := F) d L _).symm) $$ Hb1
  ihave Hac' := (Entails.of_eq (pts_acV (F := F) d L _).symm) $$ Hac
  sl_exec
  rows_of_buf0
  rows_of_buf1
  rows_of_buf0
  rows_of_buf1
  rows_of_buf0
  rows_of_buf1
  rows_of_buf0
  rows_of_buf1
  rows_of_buf0
  rows_of_buf1
  rows_of_buf0
  rows_of_buf1
  rows_of_buf0
  rows_of_buf1
  sl_step
  isplitl [Hx' Ho']
  · isplitl [Hx']; · iapply (Entails.of_eq (pts_xtV (F := F) d L _ _)); iexact Hx'
    iexists _; iapply (Entails.of_eq (pts_moRowK (F := F) d L _)); iexact Ho'
  isplitl [Hb0' Hb1' Hac' Hbufs]
  · isplitl [Hb0']; · iexists _; iexact Hb0'
    isplitl [Hb1']; · iexists _; iexact Hb1'
    isplitl [Hac']; · iexists _; iexact Hac'
    iexact Hbufs
  isplitl [Hsem0 Hsem1 Hsem2 Hsems]
  · isplitl [Hsem0]; · iexact Hsem0
    isplitl [Hsem1]; · iexact Hsem1
    isplitl [Hsem2]; · iexact Hsem2
    iexact Hsems
  iexists _; isplitr
  swap; · iexact HO
  ipureintro; intro p hp
  simp only [Finset.mem_insert] at hp
  casesm* _ ∨ _ <;> first | exact .inl ‹_› | (subst_vars; exact .inr rfl)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_min (coordsV c s)
          xtV (Memref.isWhole_whole _) moV (Memref.isWhole_whole _) b0V (Memref.isWhole_whole _) b1V (Memref.isWhole_whole _)
          acV (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X d (coordsV ⟨_, hci.1⟩ ⟨_, hci.2⟩) hF O W hO).trans (wp_mono frame _ _ fun _ => obl_post)

end Tile

/-! ## A SparseCore's operands split among its tiles, and its results gather -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P X) 0 := by
  intro d c
  show iprop(xtShC X d (Fin.cast nCore_zero c) ∗ bigSep Finset.univ fun i : Fin 16 => moRow d (rowOf (Fin.cast nCore_zero c) i)) ⊢ |={Set.univ}=> iprop(
      (bigSep Finset.univ fun i : Fin ((K (F := F)).nSub 0) =>
        iprop(xtShT X d (Fin.cast nCore_zero c) (Fin.cast nSub_zero i) ∗ moRow d (rowOf (Fin.cast nCore_zero c) (Fin.cast nSub_zero i))))
      ∗ ((bigSep Finset.univ fun i : Fin ((K (F := F)).nSub 0) =>
          iprop(xtShT X d (Fin.cast nCore_zero c) (Fin.cast nSub_zero i) ∗ moRow d (rowOf (Fin.cast nCore_zero c) (Fin.cast nSub_zero i))))
          -∗ iprop(xtShC X d (Fin.cast nCore_zero c) ∗ bigSep Finset.univ fun i : Fin 16 => moRow d (rowOf (Fin.cast nCore_zero c) i))))
  rw [bigSep_tasks (F := F) (fun i => iprop(xtShT X d (Fin.cast nCore_zero c) i ∗ moRow d (rowOf (Fin.cast nCore_zero c) i))), bigSep_sep']
  iintro ⟨Hx, Ho⟩
  ihave Hx2 := (pointsTo_toks (qC (Fin.cast nCore_zero c)) 16).1 $$ Hx
  icases Hx2 with ⟨Hd, Ht⟩
  imodintro
  isplitl [Ht Ho]
  · isplitl [Ht]; · iexact Ht
    iexact Ho
  iintro ⟨Ht, Ho⟩
  isplitl [Hd Ht]
  · iapply (pointsTo_toks_join (qC (Fin.cast nCore_zero c)) 16)
    isplitl [Hd]; · iexact Hd
    iexact Ht
  iexact Ho

end Cert.Proof.KI

end
-- ==== Proof.KI.Regions.lean ====
/-
  The two TensorCore pipelines of the idealized kernel, for its frame: the running minimum over the first 560 planes
  (ten points of 56 planes, an SMEM accumulator carried across the points, written out at the last) and the pass that
  writes the ablated activations (fourteen points; at the first the sixty-four ablation values are made and kept in a
  VMEM scratch). Each body is run once over whole staging memrefs held at some contents, its conditions taken either
  way: it loads and stores inside its buffers and nothing else, so every buffer comes back at some contents. The proof
  data of each pipeline constrains nothing of what a body leaves in a staging buffer; its invariant is the scoped
  buffers no window stages, the carried scratch among them.
-/
import proofs.«202639_g54090818126251_cont_9to1c4b_462_21_alg».proof.Proof.KI.Base
import Idealize.ShloMosaic.Lib.Pipeline.Frame

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A TensorCore memref held whole at some contents. -/
abbrev anyAt {sp : Space} {s : Shape} {e : EltTy} (d : Dev nD) (a : Memref sig .tc sp s e) : sProp 𝕄 :=
  iprop(∃ f, a.view.loc (T d) ↦[a.view.set]{fullShare} f)

local notation "sc1V" => (Memref.whole Cert.KernelIdeal.cc1_scratch0 : Memref Cert.KernelIdeal.sig Kind.tc Space.smem Cert.KernelIdeal.S1 EltTy.f32)
local notation "sc2V" => (Memref.whole Cert.KernelIdeal.cc2_scratch0 : Memref Cert.KernelIdeal.sig Kind.tc Space.vmem Cert.KernelIdeal.S64x1 EltTy.f32)

/-! ## The bodies, run -/

set_option maxHeartbeats 4000000 in
/-- The minimum pass's body at any point: the block loaded, the accumulator set, folded or written out as the point's
    three conditions say; all three buffers back at some contents. -/
theorem tcmin_run (d : Dev nD) (i : grid1.Coords) (arg1 : Memref sig .tc .vmem S56x64x512 .f32) (harg1 : arg1.IsWhole)
    (arg2 : Memref sig .tc .smem S1x1 .f32) (harg2 : arg2.IsWhole) (K : PUnit → sProp 𝕄) :
    iprop(anyAt d arg1 ∗ anyAt d arg2 ∗ (∃ f, (sc1V).view.loc (T d) ↦{fullShare} f)
        ∗ (iprop(anyAt d arg1 ∗ anyAt d arg2 ∗ (∃ f, (sc1V).view.loc (T d) ↦{fullShare} f)) -∗ K ⟨⟩))
      ⊢ wp frame (wpE (defs₀ (F := F)) 𝒱₀ (T d) none) Set.univ
          (cc1__tc_min_body i arg1 harg1 arg2 harg2 sc1V (Memref.isWhole_whole _)) K := by
  unfold cc1__tc_min_body
  iintro ⟨⟨%f1, H1⟩, ⟨%f2, H2⟩, ⟨%f3, H3⟩, Hk⟩
  by_cases h1 : Scalar.cmpi .ne (Scalar.extui (Scalar.cmpi .eq (BitVec.ofNat 32 (i 0).val) 0#32)) 0#32 = 1#1 <;>
  by_cases h2 : Scalar.cmpi .ne (Scalar.extui (Scalar.cmpi .sgt (BitVec.ofNat 32 (i 0).val) 0#32)) 0#32 = 1#1 <;>
  by_cases h3 : k1_cond3 i = 1#1
  all_goals
    sl_exec (disch := first | exact h1 | exact h2 | exact h3)
    sl_step
    iapply Hk
    isplitl [H1]; · iexists _; iexact H1
    isplitl [H2]; · iexists _; iexact H2
    iexists _; iexact H3

set_option maxHeartbeats 4000000 in
/-- The ablation pass's body at any point: at the first the values made and stored in the scratch; the block selected
    against the values and stored; all six buffers back at some contents. -/
theorem apply_run (d : Dev nD) (i : grid2.Coords) (arg1 : Memref sig .tc .vmem S56x64x512 .f32) (harg1 : arg1.IsWhole)
    (arg2 : Memref sig .tc .vmem S32x16 .f32) (harg2 : arg2.IsWhole) (arg3 : Memref sig .tc .smem S1x1 .f32) (harg3 : arg3.IsWhole)
    (arg4 : Memref sig .tc .vmem S64x1 .i32) (harg4 : arg4.IsWhole) (arg5 : Memref sig .tc .vmem S56x64x512 .f32) (harg5 : arg5.IsWhole)
    (K : PUnit → sProp 𝕄) :
    iprop(anyAt d arg1 ∗ anyAt d arg2 ∗ anyAt d arg3 ∗ anyAt d arg4 ∗ anyAt d arg5 ∗ (∃ f, (sc2V).view.loc (T d) ↦{fullShare} f)
        ∗ (iprop(anyAt d arg1 ∗ anyAt d arg2 ∗ anyAt d arg3 ∗ anyAt d arg4 ∗ anyAt d arg5 ∗ (∃ f, (sc2V).view.loc (T d) ↦{fullShare} f)) -∗ K ⟨⟩))
      ⊢ wp frame (wpE (defs₀ (F := F)) 𝒱₀ (T d) none) Set.univ
          (cc2__apply_body i arg1 harg1 arg2 harg2 arg3 harg3 arg4 harg4 arg5 harg5 sc2V (Memref.isWhole_whole _)) K := by
  unfold cc2__apply_body
  iintro ⟨⟨%f1, H1⟩, ⟨%f2, H2⟩, ⟨%f3, H3⟩, ⟨%f4, H4⟩, ⟨%f5, H5⟩, ⟨%f6, H6⟩, Hk⟩
  by_cases h1 : k2_cond1 i = 1#1
  all_goals
    sl_exec (disch := first | exact h1)
    sl_step
    iapply Hk
    isplitl [H1]; · iexists _; iexact H1
    isplitl [H2]; · iexists _; iexact H2
    isplitl [H3]; · iexists _; iexact H3
    isplitl [H4]; · iexists _; iexact H4
    isplitl [H5]; · iexists _; iexact H5
    iexists _; iexact H6

/-! ## The proof data -/

/-- The prefetched tables' admissible contents: no pipeline has a table. -/
abbrev adm : (p : Fin 2) → (pcfgs (F := F) p).Adm := fun p => (cfgs p).toPCfg_adm
abbrev cfgsP : Fin 2 → Pipeline.Cfg sig Λ₀ := Pipeline.pin (pcfgs (F := F)) adm

omit [FloatOps F] in
theorem cellOf_injP : Function.Injective (Pipeline.cellOf (nD := nD) (τ := τ) (cfgsP (F := F))) := Gen.cellOf_inj

/-- The pairs a TensorCore wait may record once the one SparseCore call is over: any at or below level 8. -/
def recB (c : Dev nD) : Set (SemLoc sig × HIx 1) := {x | (K (F := F)).lev ((T c), x.1) x.2 ≤ 8}

variable (Vd : Valuation τ sig (Elt F))

/-- The minimum pass: its arrays as the region finds them, nothing said of what a body leaves in a staging buffer,
    the scoped buffers no window stages (the accumulator among them) as the invariant, nothing owed. -/
def rdat0 (c : Dev nD) : Pipeline.RDat τ (Elt F) (HIx 1) ℕ UU ℕ (cfgsP (F := F) 0) c where
  A w := Vd (Proc.devRef .tc (Pipeline.arrRef spec1 w))
  after _ _ _ _ := True
  Φ _ := Pipeline.scopedRest spec1 c
  q _ := fullShare
  owed _ := 0
  recorded _ := recB (F := F) c

/-- The ablation pass, the same way. -/
def rdat1 (c : Dev nD) : Pipeline.RDat τ (Elt F) (HIx 1) ℕ UU ℕ (cfgsP (F := F) 1) c where
  A w := Vd (Proc.devRef .tc (Pipeline.arrRef spec2 w))
  after _ _ _ _ := True
  Φ _ := Pipeline.scopedRest spec2 c
  q _ := fullShare
  owed _ := 0
  recorded _ := recB (F := F) c

def rdats : (p : Fin 2) → (c : Dev nD) → Pipeline.RDat τ (Elt F) (HIx 1) ℕ UU ℕ (cfgsP (F := F) p) c
  | 0 => rdat0 Vd
  | 1 => rdat1 Vd

/-! ## The body obligations -/

set_option maxHeartbeats 1000000 in
theorem body0 (c : Dev nD) : (rdat0 Vd c).BodyObligation (defs₀ (F := F)) 𝒱₀ (none : HIx 1) Set.univ := fun t Y _ => by
  rw [bigSep_W1, bigSep_W1]
  rw [show (rdat0 Vd c).Φ t.castSucc = Pipeline.scopedRest spec1 c from rfl, show (rdat0 Vd c).Φ t.succ = Pipeline.scopedRest spec1 c from rfl,
    show (rdat0 Vd c).owesAt none t.succ = (rdat0 Vd c).owesAt none t.castSucc from rfl, scopedRest1_eq]
  change _ ⊢ wp _ _ _ (cc1__tc_min_body (grid1.coords t) (win1_0.stage ((cfgsP (F := F) 0).slots t 0)) (hstage1_0 (((cfgsP (F := F) 0).slots t 0).cast nbuf1_0))
    (win1_1.stage ((cfgsP (F := F) 0).slots t 1)) (hstage1_1 (((cfgsP (F := F) 0).slots t 1).cast nbuf1_1)) sc1V (Memref.isWhole_whole _)) _
  unfold owns
  iintro ⟨⟨S1, S2, S3, S4, S5, S6, S7, ⟨%fs, S8⟩, S9⟩, HO, ⟨%g0, -, H0⟩, ⟨%g1, -, H1⟩⟩
  iapply (tcmin_run c (grid1.coords t) _ _ _ _ _)
  isplitl [H0]; · iexists _; iexact H0
  isplitl [H1]; · iexists _; iexact H1
  isplitl [S8]; · iexists _; iexact S8
  iintro ⟨⟨%g0', H0⟩, ⟨%g1', H1⟩, ⟨%fs', S8⟩⟩
  isplitl [S1 S2 S3 S4 S5 S6 S7 S8 S9]
  · isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexists _; iexact S8
    iexact S9
  isplitl [HO]; · iexact HO
  isplitl [H0]
  · iexists ((win1_0.stage ((cfgsP (F := F) 0).slots t 0)).view.read (Elt F) g0'); isplitr; · ipureintro; trivial
    iexists g0'; isplitr; · ipureintro; rfl
    iexact H0
  iexists ((win1_1.stage ((cfgsP (F := F) 0).slots t 1)).view.read (Elt F) g1'); isplitr; · ipureintro; trivial
  iexists g1'; isplitr; · ipureintro; rfl
  iexact H1

set_option maxHeartbeats 1000000 in
theorem body1 (c : Dev nD) : (rdat1 Vd c).BodyObligation (defs₀ (F := F)) 𝒱₀ (none : HIx 1) Set.univ := fun t Y _ => by
  rw [bigSep_W2, bigSep_W2]
  rw [show (rdat1 Vd c).Φ t.castSucc = Pipeline.scopedRest spec2 c from rfl, show (rdat1 Vd c).Φ t.succ = Pipeline.scopedRest spec2 c from rfl,
    show (rdat1 Vd c).owesAt none t.succ = (rdat1 Vd c).owesAt none t.castSucc from rfl, scopedRest2_eq]
  change _ ⊢ wp _ _ _ (cc2__apply_body (grid2.coords t) (win2_0.stage ((cfgsP (F := F) 1).slots t 0)) (hstage2_0 (((cfgsP (F := F) 1).slots t 0).cast nbuf2_0))
    (win2_1.stage ((cfgsP (F := F) 1).slots t 1)) (hstage2_1 (((cfgsP (F := F) 1).slots t 1).cast nbuf2_1))
    (win2_2.stage ((cfgsP (F := F) 1).slots t 2)) (hstage2_2 (((cfgsP (F := F) 1).slots t 2).cast nbuf2_2))
    (win2_3.stage ((cfgsP (F := F) 1).slots t 3)) (hstage2_3 (((cfgsP (F := F) 1).slots t 3).cast nbuf2_3))
    (win2_4.stage ((cfgsP (F := F) 1).slots t 4)) (hstage2_4 (((cfgsP (F := F) 1).slots t 4).cast nbuf2_4)) sc2V (Memref.isWhole_whole _)) _
  unfold owns
  iintro ⟨⟨S1, S2, ⟨%fs, S3⟩, S4, S5⟩, HO, ⟨%g0, -, H0⟩, ⟨%g1, -, H1⟩, ⟨%g2, -, H2⟩, ⟨%g3, -, H3⟩, ⟨%g4, -, H4⟩⟩
  iapply (apply_run c (grid2.coords t) _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [S3]; · iexists _; iexact S3
  iintro ⟨⟨%g0', H0⟩, ⟨%g1', H1⟩, ⟨%g2', H2⟩, ⟨%g3', H3⟩, ⟨%g4', H4⟩, ⟨%fs', S3⟩⟩
  isplitl [S1 S2 S3 S4 S5]
  · isplitl [S1]; · iexact S1
    isplitl [S2]; · iexact S2
    isplitl [S3]; · iexists _; iexact S3
    isplitl [S4]; · iexact S4
    iexact S5
  isplitl [HO]; · iexact HO
  isplitl [H0]
  · iexists ((win2_0.stage ((cfgsP (F := F) 1).slots t 0)).view.read (Elt F) g0'); isplitr; · ipureintro; trivial
    iexists g0'; isplitr; · ipureintro; rfl
    iexact H0
  isplitl [H1]
  · iexists ((win2_1.stage ((cfgsP (F := F) 1).slots t 1)).view.read (Elt F) g1'); isplitr; · ipureintro; trivial
    iexists g1'; isplitr; · ipureintro; rfl
    iexact H1
  isplitl [H2]
  · iexists ((win2_2.stage ((cfgsP (F := F) 1).slots t 2)).view.read (Elt F) g2'); isplitr; · ipureintro; trivial
    iexists g2'; isplitr; · ipureintro; rfl
    iexact H2
  isplitl [H3]
  · iexists ((win2_3.stage ((cfgsP (F := F) 1).slots t 3)).view.read (Elt F) g3'); isplitr; · ipureintro; trivial
    iexists g3'; isplitr; · ipureintro; rfl
    iexact H3
  iexists ((win2_4.stage ((cfgsP (F := F) 1).slots t 4)).view.read (Elt F) g4'); isplitr; · ipureintro; trivial
  iexists g4'; isplitr; · ipureintro; rfl
  iexact H4

theorem bodies : ∀ (p : Fin 2) (c : Dev nD), (rdats Vd p c).BodyObligation (defs₀ (F := F)) 𝒱₀ (none : HIx 1) Set.univ
  | 0, c => body0 Vd c
  | 1, c => body1 Vd c

/-! ## The regions' records -/

abbrev dr (b : Ref sig .tc) : DevRef τ sig := Proc.devRef .tc b
abbrev ptc (c : Dev nD) (b : Ref sig .tc) (f : Buf (Elt F) ((SparseCore.T c : Thread nD τ).loc b)) : sProp 𝕄 := (SparseCore.T c : Thread nD τ).loc b ↦{fullShare} f

/-- What rides along a region: the TensorCore owing nothing, its recorded waits at or below level 8. -/
abbrev owesW (c : Dev nD) : sProp 𝕄 :=
  iprop(∃ W, ⌜(K (F := F)).WBelow (SparseCore.T c) W 8⌝ ∗ owes (SparseCore.T c) (0 : CellTallies nD τ sig (HIx 1)) W)

omit [FloatOps F] in
theorem owes_in {cfg : Pipeline.Cfg sig Λ₀} {c : Dev nD} (rd : Pipeline.RDat τ (Elt F) (HIx 1) ℕ UU ℕ cfg c) (t : Fin (cfg.N + 1))
    (h0 : rd.owed t = 0) (hr : rd.recorded t = recB (F := F) c) : (owesW (F := F) c) ⊢ (rd.owesAt none t : sProp 𝕄) := by
  unfold Pipeline.RDat.owesAt Pipeline.owesWithin Pipeline.RDat.bound; rw [h0, hr]
  iintro ⟨%W, %hW, HO⟩; iexists W; isplitr
  · ipureintro; exact fun p hp => Or.inl (hW p (Finset.mem_coe.mp hp))
  iexact HO

omit [FloatOps F] in
theorem owes_out {cfg : Pipeline.Cfg sig Λ₀} {c : Dev nD} (rd : Pipeline.RDat τ (Elt F) (HIx 1) ℕ UU ℕ cfg c) (t : Fin (cfg.N + 1))
    (h0 : rd.owed t = 0) (hr : rd.recorded t = recB (F := F) c) : (rd.owesAt none t : sProp 𝕄) ⊢ owesW (F := F) c := by
  unfold Pipeline.RDat.owesAt Pipeline.owesWithin Pipeline.RDat.bound; rw [h0, hr]
  iintro ⟨%W, %hW, HO⟩; iexists W; isplitr
  · ipureintro; intro p hp
    rcases hW (Finset.mem_coe.mpr hp) with h | ⟨w, s, rfl⟩
    · exact h
    · show (K (F := F)).lev _ none ≤ 8
      rw [SparseCore.Cfg.lev_none]; omega
  iexact HO

omit [FloatOps F] in
theorem bigSep_F0 (Φ : Fin 0 → sProp 𝕄) : bigSep Finset.univ Φ = (BI.emp : sProp 𝕄) :=
  bigSep_univ_eq_bigSepL [] (by decide) (by decide) Φ

omit [FloatOps F] in
theorem prefHeld_emp (p : Fin 2) (c : Dev nD) (q) (pf) :
    (Pipeline.prefHeld (Ix := HIx 1) (Name := ℕ) (U := UU) (Lvl := ℕ) (Val := Elt F) (pcfgs (F := F) p).pre c q pf : sProp 𝕄) = BI.emp :=
  bigSep_F0 _

/-- The minimum pass's arrays: the activations and the one-word result. -/
theorem arrays0_eq (c : Dev nD) : ((rdats Vd 0 c).arrays (rdats Vd 0 c).A : sProp 𝕄)
    = iprop(ptc c main_v1 (Vd (dr main_v1)) ∗ ptc c main_v3 (Vd (dr main_v3))) := by
  refine (bigSep_W1 _).trans ?_
  simp only [Pipeline.RDat.share_full (rdats Vd 0 c) (fun _ => rfl)]
  show iprop(((Memref.whole main_v1 : Memref sig .tc .hbm S784x64x512 .f32).view.loc (SparseCore.T c) ↦[(Memref.whole main_v1 : Memref sig .tc .hbm S784x64x512 .f32).view.set]{fullShare} Vd (dr main_v1))
      ∗ ((Memref.whole main_v3 : Memref sig .tc .hbm S1x1 .f32).view.loc (SparseCore.T c) ↦[(Memref.whole main_v3 : Memref sig .tc .hbm S1x1 .f32).view.set]{fullShare} Vd (dr main_v3))) = _
  simp only [Memref.view_whole, View.set_whole]

theorem arraysAt0_out (c : Dev nD) (n : ℕ) : ((rdats Vd 0 c).arraysAt n : sProp 𝕄) ⊢ iprop((∃ f, ptc c main_v1 f) ∗ (∃ f, ptc c main_v3 f)) := by
  refine (Entails.of_eq (bigSep_W1 _)).trans ?_
  simp only [Pipeline.RDat.share_full (rdats Vd 0 c) (fun _ => rfl)]
  show iprop((∃ G, ⌜_⌝ ∗ ((Memref.whole main_v1 : Memref sig .tc .hbm S784x64x512 .f32).view.loc (SparseCore.T c) ↦[(Memref.whole main_v1 : Memref sig .tc .hbm S784x64x512 .f32).view.set]{fullShare} G))
      ∗ (∃ G, ⌜_⌝ ∗ ((Memref.whole main_v3 : Memref sig .tc .hbm S1x1 .f32).view.loc (SparseCore.T c) ↦[(Memref.whole main_v3 : Memref sig .tc .hbm S1x1 .f32).view.set]{fullShare} G))) ⊢ _
  simp only [Memref.view_whole, View.set_whole]
  show iprop((∃ G, ⌜_⌝ ∗ ptc c main_v1 G) ∗ (∃ G, ⌜_⌝ ∗ ptc c main_v3 G)) ⊢ _
  iintro ⟨⟨%G0, -, H0⟩, ⟨%G1, -, H1⟩⟩
  isplitl [H0]; · iexists G0; iexact H0
  iexists G1; iexact H1

/-- The minimum pass as a segment of @main: entered from the activations, the result word and the `owes`; left with
    both at some contents. -/
def reg0 : Pipeline.RDat.RegionSeg (pcfgs (F := F)) adm (rdats Vd) (none : HIx 1) (defs₀ (F := F)) 𝒱₀ (K (F := F)).L (K (F := F)).lev (0 : Fin 2) where
  win := winFacts1.to₀
  block_pos := block_pos1
  stage_whole := stage_whole1
  K := PEmpty
  osem k := k.elim
  ho := Pipeline.OwnSemFacts.none _
  hbody c := body0 Vd c
  hwaits := Pipeline.RDat.hwaits_of_owed_zero (pcfgs (F := F)) adm (rdats Vd) (none : HIx 1) (K (F := F)).L (K (F := F)).lev 0 fun _ _ => rfl
  pre c := iprop(ptc c main_v1 (Vd (dr main_v1)) ∗ ptc c main_v3 (Vd (dr main_v3)) ∗ owesW c)
  post c := iprop((∃ f, ptc c main_v1 f) ∗ (∃ f, ptc c main_v3 f) ∗ owesW c)
  X _ := iprop(emp)
  Y _ := iprop(emp)
  Z _ := iprop(emp)
  hentry c := by
    rw [Pipeline.ownSems0_none, prefHeld_emp]
    iintro ⟨⟨H1, H3, HO⟩, -, -⟩
    imodintro
    isplitl [H1 H3]
    · iapply (Entails.of_eq (arrays0_eq Vd c).symm)
      isplitl [H1]; · iexact H1
      iexact H3
    isplitr; · iempintro
    isplitl [HO]; · iapply (owes_in (rdats Vd 0 c) 0 rfl rfl); iexact HO
    isplitr <;> iempintro
  hin c := by
    exact sep_elim_right.trans sep_elim_right
  hout c := by
    rw [Pipeline.ownSems0_none]
    show (Pipeline.scopedRest (Pipeline.pin (pcfgs (F := F)) adm 0).spec c : sProp 𝕄)
      ⊢ iprop(emp ∗ BI.emp ∗ Pipeline.scopedRest (Pipeline.pin (pcfgs (F := F)) adm 0).spec c)
    iintro H
    isplitr; · iempintro
    isplitr; · iempintro
    iexact H
  hexit c := by
    iintro ⟨HA, HO, -, -⟩
    imodintro
    ihave HA' := (arraysAt0_out Vd c _) $$ HA
    icases HA' with ⟨H1, H3⟩
    isplitl [H1]; · iexact H1
    isplitl [H3]; · iexact H3
    iapply (owes_out (rdats Vd 0 c) _ rfl rfl); iexact HO

omit [FloatOps F] in
set_option maxHeartbeats 2000000 in
theorem spec_pin1 : (Pipeline.pin (pcfgs (F := F)) adm 1).spec = spec2 := rfl

/-- The ablation pass's arrays: the activations, the tiles' minima, the TensorCore's minimum, the indices, the result. -/
theorem arrays1_eq (c : Dev nD) : ((rdats Vd 1 c).arrays (rdats Vd 1 c).A : sProp 𝕄)
    = iprop(ptc c main_v1 (Vd (dr main_v1)) ∗ ptc c main_v2 (Vd (dr main_v2)) ∗ ptc c main_v3 (Vd (dr main_v3)) ∗ ptc c main_v4 (Vd (dr main_v4)) ∗ ptc c main_v5 (Vd (dr main_v5))) := by
  refine (bigSep_W2 _).trans ?_
  simp only [Pipeline.RDat.share_full (rdats Vd 1 c) (fun _ => rfl)]
  show iprop(((Memref.whole main_v1 : Memref sig .tc .hbm S784x64x512 .f32).view.loc (SparseCore.T c) ↦[(Memref.whole main_v1 : Memref sig .tc .hbm S784x64x512 .f32).view.set]{fullShare} Vd (dr main_v1))
      ∗ ((Memref.whole main_v2 : Memref sig .tc .hbm S32x16 .f32).view.loc (SparseCore.T c) ↦[(Memref.whole main_v2 : Memref sig .tc .hbm S32x16 .f32).view.set]{fullShare} Vd (dr main_v2))
      ∗ ((Memref.whole main_v3 : Memref sig .tc .hbm S1x1 .f32).view.loc (SparseCore.T c) ↦[(Memref.whole main_v3 : Memref sig .tc .hbm S1x1 .f32).view.set]{fullShare} Vd (dr main_v3))
      ∗ ((Memref.whole main_v4 : Memref sig .tc .hbm S64x1 .i32).view.loc (SparseCore.T c) ↦[(Memref.whole main_v4 : Memref sig .tc .hbm S64x1 .i32).view.set]{fullShare} Vd (dr main_v4))
      ∗ ((Memref.whole main_v5 : Memref sig .tc .hbm S784x64x512 .f32).view.loc (SparseCore.T c) ↦[(Memref.whole main_v5 : Memref sig .tc .hbm S784x64x512 .f32).view.set]{fullShare} Vd (dr main_v5))) = _
  simp only [Memref.view_whole, View.set_whole]

theorem arraysAt1_out (c : Dev nD) (n : ℕ) : ((rdats Vd 1 c).arraysAt n : sProp 𝕄) ⊢ iprop((∃ f, ptc c main_v1 f) ∗ (∃ f, ptc c main_v2 f) ∗ (∃ f, ptc c main_v3 f) ∗ (∃ f, ptc c main_v4 f) ∗ (∃ f, ptc c main_v5 f)) := by
  refine (Entails.of_eq (bigSep_W2 _)).trans ?_
  simp only [Pipeline.RDat.share_full (rdats Vd 1 c) (fun _ => rfl)]
  show iprop((∃ G, ⌜_⌝ ∗ ((Memref.whole main_v1 : Memref sig .tc .hbm S784x64x512 .f32).view.loc (SparseCore.T c) ↦[(Memref.whole main_v1 : Memref sig .tc .hbm S784x64x512 .f32).view.set]{fullShare} G))
      ∗ (∃ G, ⌜_⌝ ∗ ((Memref.whole main_v2 : Memref sig .tc .hbm S32x16 .f32).view.loc (SparseCore.T c) ↦[(Memref.whole main_v2 : Memref sig .tc .hbm S32x16 .f32).view.set]{fullShare} G))
      ∗ (∃ G, ⌜_⌝ ∗ ((Memref.whole main_v3 : Memref sig .tc .hbm S1x1 .f32).view.loc (SparseCore.T c) ↦[(Memref.whole main_v3 : Memref sig .tc .hbm S1x1 .f32).view.set]{fullShare} G))
      ∗ (∃ G, ⌜_⌝ ∗ ((Memref.whole main_v4 : Memref sig .tc .hbm S64x1 .i32).view.loc (SparseCore.T c) ↦[(Memref.whole main_v4 : Memref sig .tc .hbm S64x1 .i32).view.set]{fullShare} G))
      ∗ (∃ G, ⌜_⌝ ∗ ((Memref.whole main_v5 : Memref sig .tc .hbm S784x64x512 .f32).view.loc (SparseCore.T c) ↦[(Memref.whole main_v5 : Memref sig .tc .hbm S784x64x512 .f32).view.set]{fullShare} G))) ⊢ _
  simp only [Memref.view_whole, View.set_whole]
  show iprop((∃ G, ⌜_⌝ ∗ ptc c main_v1 G) ∗ (∃ G, ⌜_⌝ ∗ ptc c main_v2 G) ∗ (∃ G, ⌜_⌝ ∗ ptc c main_v3 G) ∗ (∃ G, ⌜_⌝ ∗ ptc c main_v4 G) ∗ (∃ G, ⌜_⌝ ∗ ptc c main_v5 G)) ⊢ _
  iintro ⟨⟨%G0, -, H0⟩, ⟨%G1, -, H1⟩, ⟨%G2, -, H2⟩, ⟨%G3, -, H3⟩, ⟨%G4, -, H4⟩⟩
  isplitl [H0]; · iexists G0; iexact H0
  isplitl [H1]; · iexists G1; iexact H1
  isplitl [H2]; · iexists G2; iexact H2
  isplitl [H3]; · iexists G3; iexact H3
  iexists G4; iexact H4

/-- The ablation pass as a segment of @main: entered from its five arrays and the `owes`; left with all five at some
    contents. -/
def reg1 : Pipeline.RDat.RegionSeg (pcfgs (F := F)) adm (rdats Vd) (none : HIx 1) (defs₀ (F := F)) 𝒱₀ (K (F := F)).L (K (F := F)).lev (1 : Fin 2) where
  win := winFacts2.to₀
  block_pos := block_pos2
  stage_whole := stage_whole2
  K := PEmpty
  osem k := k.elim
  ho := Pipeline.OwnSemFacts.none _
  hbody c := body1 Vd c
  hwaits := Pipeline.RDat.hwaits_of_owed_zero (pcfgs (F := F)) adm (rdats Vd) (none : HIx 1) (K (F := F)).L (K (F := F)).lev 1 fun _ _ => rfl
  pre c := iprop(ptc c main_v1 (Vd (dr main_v1)) ∗ ptc c main_v2 (Vd (dr main_v2)) ∗ ptc c main_v3 (Vd (dr main_v3)) ∗ ptc c main_v4 (Vd (dr main_v4)) ∗ ptc c main_v5 (Vd (dr main_v5)) ∗ owesW c)
  post c := iprop((∃ f, ptc c main_v1 f) ∗ (∃ f, ptc c main_v2 f) ∗ (∃ f, ptc c main_v3 f) ∗ (∃ f, ptc c main_v4 f) ∗ (∃ f, ptc c main_v5 f) ∗ owesW c)
  X _ := iprop(emp)
  Y _ := iprop(emp)
  Z _ := iprop(emp)
  hentry c := by
    rw [Pipeline.ownSems0_none, prefHeld_emp]
    iintro ⟨⟨H1, H2, H3, H4, H5, HO⟩, -, -⟩
    imodintro
    isplitl [H1 H2 H3 H4 H5]
    · iapply (Entails.of_eq (arrays1_eq Vd c).symm)
      isplitl [H1]; · iexact H1
      isplitl [H2]; · iexact H2
      isplitl [H3]; · iexact H3
      isplitl [H4]; · iexact H4
      iexact H5
    isplitr; · iempintro
    isplitl [HO]; · iapply (owes_in (rdats Vd 1 c) 0 rfl rfl); iexact HO
    isplitr <;> iempintro
  hin c := by
    rw [spec_pin1, show (rdats Vd 1 c).Φ 0 = Pipeline.scopedRest spec2 c from rfl]
    exact sep_elim_right.trans sep_elim_right
  hout c := by
    rw [Pipeline.ownSems0_none, spec_pin1, show (rdats Vd 1 c).Φ (Fin.last (Pipeline.pin (pcfgs (F := F)) adm 1).N) = Pipeline.scopedRest spec2 c from rfl]
    generalize (Pipeline.scopedRest spec2 c : sProp 𝕄) = R
    iintro H
    isplitr; · iempintro
    isplitr; · iempintro
    iexact H
  hexit c := by
    iintro ⟨HA, HO, -, -⟩
    imodintro
    ihave HA' := (arraysAt1_out Vd c _) $$ HA
    icases HA' with ⟨H1, H2, H3, H4, H5⟩
    isplitl [H1]; · iexact H1
    isplitl [H2]; · iexact H2
    isplitl [H3]; · iexact H3
    isplitl [H4]; · iexact H4
    isplitl [H5]; · iexact H5
    iapply (owes_out (rdats Vd 1 c) _ rfl rfl); iexact HO

end Cert.Proof.KI

end
-- ==== Proof.KI.Main.lean ====
/-
  The idealized kernel program's run: @main on the TensorCore beside the SparseCore call's 2 sequencers and 32 tiles.

  @main transposes and reshapes the activations, hands them to the SparseCore call (a read share per SparseCore, the
  32 × 16 minima row by row, each tile its row), takes them back, runs the minimum pass and the ablation pass as two
  pipelines under the call's body table, each entered from the arrays it names and left with them at some contents,
  reshapes the indices between the two and the result after them. The launch deals @main the rounds ghost state of
  both pipelines' staging cells; the call's handshakes are the launch theorem's. After the one call the TensorCore
  owes nothing, and every wait a pipeline records sits at level 0. Neither argument is ever written: the run ends
  with both at their launch contents, whatever the float instance.
-/
import proofs.«202639_g54090818126251_cont_9to1c4b_462_21_alg».proof.Proof.KI.Tile
import proofs.«202639_g54090818126251_cont_9to1c4b_462_21_alg».proof.Proof.KI.Regions
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks pointsTo_toks_join)

variable {F : FTy → Type}

local notation "𝕄" => MT nD τ sig (HIx 1) (Elt F) ℕ UU ℕ

/-! ## The two pipelines' staging cells, and the launch element -/

/-- The launch element: the handshakes' rounds, the pipelines' staging cells' rounds, no counter yet. -/
def u₀ : UU := (initOf (K (F := F)).hsCells (K (F := F)).hsToks,
  (initOf (Pipeline.cells (cfgsP (F := F)) cellOf_injP) (Pipeline.launchToks (cfgsP (F := F)) cellOf_injP), 1))

/-- What @main's proof starts from besides its buffers: both pipelines' rounds ghost state. -/
abbrev G (d : Dev nD) : sProp 𝕄 := Pipeline.ghostOn (pcfgs (F := F)) adm EP Finset.univ d

theorem bigSep_emp' {I : Type} (s : Finset I) : (bigSep s fun _ => iprop(emp)) = (iprop(emp) : sProp 𝕄) := bigSep_emp_const s

variable (m : (ℓ : Loc nD τ sig) → Buf (Elt F) ℓ) (ρ : Dev nD → PrngReg)
variable [FloatOps F]

/-! ## @main's host operations before the call, and the activations as the call finds them -/

abbrev op0 : HloOp τ sig (Elt F) := StableHlo.unary main_arg0 main_v0 ((transpose S28x28x64x512 [2, 3, 0, 1] · transposes_S64x512x28x28_S28x28x64x512_2_3_0_1) : (⟨S64x512x28x28, .f32⟩ : BufTy).Contents (Elt F) → (⟨S28x28x64x512, .f32⟩ : BufTy).Contents (Elt F))
abbrev op1 : HloOp τ sig (Elt F) := StableHlo.reshape main_v0 main_v1 rfl shapeCasts_S28x28x64x512_S784x64x512

def V0 (d : Dev nD) : Valuation τ sig (Elt F) := fun b => m (d, b)
def V2 (d : Dev nD) : Valuation τ sig (Elt F) := (op1 (F := F)).result ((op0 (F := F)).result (V0 m d))
/-- The transposed, reshaped activations. -/
def Xt (d : Dev nD) : Buf (Elt F) (xtLoc d) := V2 m d (Proc.devRef .tc main_v1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (Xt m)).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  rw [show ((Emb.inl : Emb UP (UP × Counters)).trans (embR : Emb (UP × Counters) 𝕄)) = EP from rfl]
  imod (Pipeline.fund_ghost (cfgsP (F := F)) (EP (F := F)) cellOf_injP) $$ HP with ⟨Hc, Ht⟩
  imodintro
  isplitl [HH]; · iexact HH
  isplitl [Hc Ht]
  · unfold G Pipeline.ghostOn Pipeline.PerCore.ghostOn
    rw [bigSep_congr fun d _ => bigSep_sep' (Finset.univ : Finset (Fin 2)) _ _, bigSep_sep']
    isplitl [Hc]; · iexact Hc
    iexact Ht
  rw [show (bigSep Finset.univ fun thr : Thread nD τ => bigSep Finset.univ fun q : Fin 1 => (P (F := F) (Xt m)).x q thr) = bigSep Finset.univ fun _ => iprop(emp) from
    bigSep_congr fun _ _ => bigSep_univ_of_subsingleton (0 : Fin 1), bigSep_emp']
  iempintro

/-! ## What @main leaves the claim -/

abbrev a0Loc (d : Dev nD) : Loc nD τ sig := (SparseCore.T d).loc main_arg0
abbrev a1Loc (d : Dev nD) : Loc nD τ sig := (SparseCore.T d).loc main_arg1
abbrev FIN (d : Dev nD) : sProp 𝕄 := iprop((a0Loc d ↦{fullShare} m (a0Loc d)) ∗ (a1Loc d ↦{fullShare} m (a1Loc d)))

/-! ## The TensorCore's unscoped buffers, one by one -/

abbrev uc : Finset (DevRef τ sig) := Pipeline.ucRefs τ sig
abbrev pt (d : Dev nD) (b : Ref sig .tc) (W : Valuation τ sig (Elt F)) : sProp 𝕄 := ((SparseCore.T d).loc b) ↦{fullShare} W (dr b)

omit [FloatOps F] in
theorem held_uc (d : Dev nD) (W : Valuation τ sig (Elt F)) :
    (held (SparseCore.T d) uc W : sProp 𝕄)
      = iprop(pt d main_arg0 W ∗ pt d main_arg1 W ∗ pt d main_v0 W ∗ pt d main_v1 W ∗ pt d main_v2 W ∗ pt d main_v3 W ∗ pt d main_v4 W
          ∗ pt d main_v5 W ∗ pt d main_v6 W ∗ pt d main_v7 W) := by
  unfold held
  rw [bigSep_eq_bigSepL_of_eq [dr main_arg0, dr main_arg1, dr main_v0, dr main_v1, dr main_v2, dr main_v3, dr main_v4, dr main_v5, dr main_v6, dr main_v7]
    (by decide) (by decide)]
  rfl

/-! ## The minima array as 32 rows, grouped by SparseCore and tile -/

omit [FloatOps F] in
theorem rowSet_eq (r : Fin 32) : rowSet r = (row r).set := by
  show ((View.whole (main_v2_scv : Ref sig .scVector)).slice (row r)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
omit [FloatOps F] in
theorem rows_cover : (Finset.univ : Finset (Fin 32)).biUnion rowSet = Finset.univ :=
  (Finset.biUnion_congr rfl fun i _ => rowSet_eq i).trans (Rect.biUnion_part hdiv)

omit [FloatOps F] in
theorem moPts_rows (d : Dev nD) (f : Buf (Elt F) (moLoc d)) :
    (moLoc d ↦{fullShare} f : sProp 𝕄) = bigSep Finset.univ fun r : Fin 32 => moLoc d ↦[rowSet r]{fullShare} f := by
  rw [← pointsTo_biUnion Finset.univ (ℓ := moLoc d) rowSet rows_disjoint, rows_cover]; try rfl

/-- Row `2 i + c` is tile `i` of SparseCore `c`'s: the 32 rows are the 2 × 16 tiles'. -/
def rowEquiv : Fin 2 × Fin 16 ≃ Fin 32 where
  toFun x := rowOf x.1 x.2
  invFun r := (⟨r.val % 2, Nat.mod_lt _ (by decide)⟩, ⟨r.val / 2, by omega⟩)
  left_inv := fun ⟨c, i⟩ => by apply Prod.ext <;> apply Fin.ext <;> simp [rowOf] <;> omega
  right_inv := fun r => by apply Fin.ext; simp [rowOf]; omega

omit [FloatOps F] in
theorem rows_regroup (Φ : Fin 32 → sProp 𝕄) :
    bigSep Finset.univ Φ = bigSep Finset.univ fun c : Fin 2 => bigSep Finset.univ fun i : Fin 16 => Φ (rowOf c i) := by
  rw [bigSep_univ_equiv rowEquiv Φ, bigSep_univ_prod]; rfl

omit [FloatOps F] in
theorem mo_split (d : Dev nD) (f : Buf (Elt F) (moLoc d)) :
    (moLoc d ↦{fullShare} f : sProp 𝕄) ⊢ bigSep Finset.univ fun c : Fin 2 => bigSep Finset.univ fun i : Fin 16 => moRow d (rowOf c i) := by
  rw [moPts_rows, rows_regroup]
  refine bigSep_mono fun c _ => bigSep_mono fun i _ => ?_
  show (moLoc d ↦[rowSet (rowOf c i)]{fullShare} f : sProp 𝕄) ⊢ iprop(∃ g, moLoc d ↦[rowSet (rowOf c i)]{fullShare} g)
  iintro H; iexists f; iexact H

set_option maxRecDepth 4096 in
theorem mo_join (d : Dev nD) :
    (bigSep Finset.univ fun c : Fin 2 => bigSep Finset.univ fun i : Fin 16 => moRow (F := F) d (rowOf c i)) ⊢ (iprop(∃ f, moLoc d ↦{fullShare} f) : sProp 𝕄) := by
  rw [← rows_regroup (fun r => moRow (F := F) d r)]
  refine (bigSep_exists_pi Finset.univ (fun r (f : Buf (Elt F) (moLoc d)) => (moLoc d ↦[rowSet r]{fullShare} f : sProp 𝕄))).trans ?_
  iintro ⟨%fs, H⟩
  have : Nonempty (Buf (Elt F) (moLoc d)) := ⟨fs 0⟩
  ihave H' := (pointsTo_biUnion_join (ℓ := moLoc d) (q := fullShare) (Val := Elt F) Finset.univ rowSet fs (fs 0) rows_disjoint) $$ H
  icases H' with ⟨%g, -, Hg⟩
  rw [rows_cover]
  iexists g; iexact Hg

/-- What the call takes for the two SparseCores, and what it hands back. -/
theorem st0_eq (d : Dev nD) : (bigSep Finset.univ fun c : Fin ((K (F := F)).nCore 0) => (P (Xt m)).st 0 d c)
    = iprop((bigSep Finset.univ fun c : Fin 2 => xtShC (Xt m) d c) ∗ bigSep Finset.univ fun c : Fin 2 => bigSep Finset.univ fun i : Fin 16 => moRow d (rowOf c i)) := by
  rw [← bigSep_sep']; rfl
theorem dn0_eq (d : Dev nD) : (bigSep Finset.univ fun c : Fin ((K (F := F)).nCore 0) => (P (Xt m)).dn 0 d c)
    = iprop((bigSep Finset.univ fun c : Fin 2 => xtShC (Xt m) d c) ∗ bigSep Finset.univ fun c : Fin 2 => bigSep Finset.univ fun i : Fin 16 => moRow d (rowOf c i)) := by
  rw [← bigSep_sep']; rfl

/-! ## After the call: the TensorCore owes nothing more -/

omit [FloatOps F] in
theorem Otc_one (d : Dev nD) : (K (F := F)).Otc d 1 = 0 := by
  unfold SparseCore.Cfg.Otc
  refine Finset.sum_eq_zero fun q _ => if_neg ?_
  have := q.isLt; omega

/-- The rest of the TensorCore's handshake state after the one call: its position and the rounds reached. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_one (d : Dev nD) : ((K (F := F)).tcSt EH d 1 : sProp 𝕄) = iprop(owesW d ∗ tcRest d) := by
  unfold SparseCore.Cfg.tcSt tcRest owesW
  rw [Otc_one]

/-! ## A host operation over two buffers -/

theorem held_pair (d : Dev nD) (s t : Ref sig .tc) (h : dr s ≠ dr t) (W : Valuation τ sig (Elt F)) :
    (held (SparseCore.T d) {dr s, dr t} W : sProp 𝕄) = iprop(pt d s W ∗ pt d t W) := by
  unfold held
  rw [SparseCore.bigSep_insert' (by simpa using h), bigSep_singleton]

/-- A host operation that reads `s` and writes `t`: `s` keeps its contents, `t` ends at some. -/
theorem hlo_two (d : Dev nD) {hp : (SparseCore.T d : Thread nD τ).2.kind.runsHlo = true} (op : HloOp τ sig (Elt F)) (s t : Ref sig .tc)
    (hst : dr s ≠ dr t) (hb : op.bufs ⊆ {dr s, dr t}) (hw : dr s ∉ op.writes)
    (Vb : Valuation τ sig (Elt F)) (fs : Buf (Elt F) ((SparseCore.T d : Thread nD τ).loc s)) (ft : Buf (Elt F) ((SparseCore.T d : Thread nD τ).loc t))
    (Q : PUnit → sProp 𝕄) (hf : op.fresh = ∅) :
    iprop(boundary (SparseCore.T d) ∗ ptc d s fs ∗ ptc d t ft
        ∗ (iprop(boundary (SparseCore.T d) ∗ ptc d s fs ∗ (∃ f, ptc d t f)) -∗ Q ⟨⟩))
      ⊢ wp frame (wpE ((K (F := F)).defs (D (F := F))) 𝒱 (SparseCore.T d) none) Set.univ (hlo hp op (fun _ => Prog.ret ⟨⟩)) Q := by
  iintro ⟨Hb, Hs, Ht, Hk⟩
  iapply (wp_hlo_within 𝒱 (SparseCore.T d) none Set.univ (op := op) (S := {dr s, dr t}) hb
    (V := Function.update (Function.update Vb (dr s) fs) (dr t) ft) hf) $$ [Hb Hs Ht]
  · isplitl [Hb]; · iexact Hb
    rw [held_pair d s t hst]
    unfold pt
    rw [Function.update_self, Function.update_of_ne hst, Function.update_self]
    isplitl [Hs]; · iexact Hs
    iexact Ht
  iintro ⟨Hb, Hh⟩
  rw [wp_ret]
  ihave Hh' := (Entails.of_eq (held_pair d s t hst _)) $$ Hh
  icases Hh' with ⟨Hs, Ht⟩
  imodintro
  iapply Hk
  isplitl [Hb]; · iexact Hb
  isplitl [Hs]
  · unfold pt
    rw [op.result_of_not_mem _ hw, Function.update_of_ne hst, Function.update_self]
    iexact Hs
  iexists _; iexact Ht

/-! ## A valuation with the ablation pass's five arrays at given contents -/

def V5 (Vb : Valuation τ sig (Elt F)) (g1 : (dr main_v1).ty.Contents (Elt F)) (g2 : (dr main_v2).ty.Contents (Elt F)) (g3 : (dr main_v3).ty.Contents (Elt F))
    (g4 : (dr main_v4).ty.Contents (Elt F)) (g5 : (dr main_v5).ty.Contents (Elt F)) : Valuation τ sig (Elt F) :=
  Function.update (Function.update (Function.update (Function.update (Function.update Vb (dr main_v1) g1) (dr main_v2) g2) (dr main_v3) g3) (dr main_v4) g4) (dr main_v5) g5

section V5
variable (Vb : Valuation τ sig (Elt F)) (g1 : (dr main_v1).ty.Contents (Elt F)) (g2 : (dr main_v2).ty.Contents (Elt F)) (g3 : (dr main_v3).ty.Contents (Elt F))
    (g4 : (dr main_v4).ty.Contents (Elt F)) (g5 : (dr main_v5).ty.Contents (Elt F))
omit [FloatOps F] in
theorem V5_1 : V5 Vb g1 g2 g3 g4 g5 (dr main_v1) = g1 := by
  unfold V5; rw [Function.update_of_ne (by decide), Function.update_of_ne (by decide), Function.update_of_ne (by decide), Function.update_of_ne (by decide), Function.update_self]
omit [FloatOps F] in
theorem V5_2 : V5 Vb g1 g2 g3 g4 g5 (dr main_v2) = g2 := by
  unfold V5; rw [Function.update_of_ne (by decide), Function.update_of_ne (by decide), Function.update_of_ne (by decide), Function.update_self]
omit [FloatOps F] in
theorem V5_3 : V5 Vb g1 g2 g3 g4 g5 (dr main_v3) = g3 := by
  unfold V5; rw [Function.update_of_ne (by decide), Function.update_of_ne (by decide), Function.update_self]
omit [FloatOps F] in
theorem V5_4 : V5 Vb g1 g2 g3 g4 g5 (dr main_v4) = g4 := by
  unfold V5; rw [Function.update_of_ne (by decide), Function.update_self]
omit [FloatOps F] in
theorem V5_5 : V5 Vb g1 g2 g3 g4 g5 (dr main_v5) = g5 := by
  unfold V5; rw [Function.update_self]
end V5

/-! ## The arguments are never written -/

theorem V2_arg0 (d : Dev nD) : V2 m d (dr main_arg0) = m (a0Loc d) := by
  unfold V2
  rw [(op1 (F := F)).result_of_not_mem _ (fun h => StableHlo.devRef_ne_of_ne (by decide) (Finset.mem_singleton.mp h)),
    (op0 (F := F)).result_of_not_mem _ (fun h => StableHlo.devRef_ne_of_ne (by decide) (Finset.mem_singleton.mp h))]
  rfl
theorem V2_arg1 (d : Dev nD) : V2 m d (dr main_arg1) = m (a1Loc d) := by
  unfold V2
  rw [(op1 (F := F)).result_of_not_mem _ (fun h => StableHlo.devRef_ne_of_ne (by decide) (Finset.mem_singleton.mp h)),
    (op0 (F := F)).result_of_not_mem _ (fun h => StableHlo.devRef_ne_of_ne (by decide) (Finset.mem_singleton.mp h))]
  rfl

theorem hmain (κ : GSem nD τ sig → ℕ) (d : Dev nD) :
    iprop((K (F := F)).ctx EH (P (Xt m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = held (SparseCore.T d) uc (V0 m d) from Pipeline.unscopedBufs_held d (V0 m d)]
  simp only [main, wp_bind, wp_pure]
  iintro ⟨#Hctx, Hst, ⟨Hb, Hheld, -, -⟩, HG⟩
  iapply (wp_hlo_within 𝒱 (SparseCore.T d) none Set.univ (op := op0) (S := uc) (Pipeline.sub_ucRefs _ (StableHlo.unary_bufs_sub ..)) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := uc) (Pipeline.sub_ucRefs _ (StableHlo.reshape_bufs_sub ..)) (V := (op0 (F := F)).result (V0 m d))) $$ [Hb Hheld]
  · isplitl [Hb]; · iexact Hb
    iexact Hheld
  iintro ⟨Hb, Hheld⟩
  rw [wp_ret]; imodintro
  ihave Hh := (Entails.of_eq (held_uc (F := F) d _)) $$ Hheld
  icases Hh with ⟨Ha0, Ha1, Hv0, Hv1, Hv2, Hv3, Hv4, Hv5, Hv6, Hv7⟩
  -- the call: a read token of the activations per SparseCore, the minima row by row
  ihave Hv1 := (Entails.of_eq (show (pt d main_v1 ((op1 (F := F)).result ((op0 (F := F)).result (V0 m d))) : sProp 𝕄) = (xtLoc d ↦{fullShare} Xt m d) from rfl)) $$ Hv1
  ihave Hx := (pointsTo_toks (ℓ := xtLoc d) (S := Finset.univ) (f := Xt m d) fullShare 2).1 $$ Hv1
  icases Hx with ⟨Hxd, Hxt⟩
  ihave Ho := (mo_split (F := F) d _) $$ Hv2
  iapply ((K (F := F)).wp_run (D (F := F)) 𝒱 (EH := EH) (P := P (Xt m)) κ d 0) $$ [Hst Hxt Ho Hxd Ha0 Ha1 Hv0 Hv3 Hv4 Hv5 Hv6 Hv7 Hb HG]
  isplitr; · iexact Hctx
  isplitl [Hst]; · iexact Hst
  isplitl [Hxt Ho]
  · rw [st0_eq]
    isplitl [Hxt]; · iexact Hxt
    iexact Ho
  iintro ⟨Hst, Hdn⟩
  ihave Hdn' := (Entails.of_eq (dn0_eq m d)) $$ Hdn
  icases Hdn' with ⟨Hxt, Ho⟩
  ihave Hv1 := (pointsTo_toks_join (ℓ := xtLoc d) (S := Finset.univ) (f := Xt m d) fullShare 2) $$ [Hxd Hxt]
  · isplitl [Hxd]; · iexact Hxd
    iexact Hxt
  ihave Hv2 := (mo_join (F := F) d) $$ Ho
  icases Hv2 with ⟨%f2, Hv2⟩
  -- the buffers, each as a points-to at the valuation the two transposing operations left
  ihave Ha0 := (Entails.of_eq (show (pt d main_arg0 ((op1 (F := F)).result ((op0 (F := F)).result (V0 m d))) : sProp 𝕄) = ptc d main_arg0 (V2 m d (dr main_arg0)) from rfl)) $$ Ha0
  ihave Ha1 := (Entails.of_eq (show (pt d main_arg1 ((op1 (F := F)).result ((op0 (F := F)).result (V0 m d))) : sProp 𝕄) = ptc d main_arg1 (V2 m d (dr main_arg1)) from rfl)) $$ Ha1
  ihave Hv3 := (Entails.of_eq (show (pt d main_v3 ((op1 (F := F)).result ((op0 (F := F)).result (V0 m d))) : sProp 𝕄) = ptc d main_v3 (V2 m d (dr main_v3)) from rfl)) $$ Hv3
  ihave Hv4 := (Entails.of_eq (show (pt d main_v4 ((op1 (F := F)).result ((op0 (F := F)).result (V0 m d))) : sProp 𝕄) = ptc d main_v4 (V2 m d (dr main_v4)) from rfl)) $$ Hv4
  ihave Hv5 := (Entails.of_eq (show (pt d main_v5 ((op1 (F := F)).result ((op0 (F := F)).result (V0 m d))) : sProp 𝕄) = ptc d main_v5 (V2 m d (dr main_v5)) from rfl)) $$ Hv5
  ihave Hv6 := (Entails.of_eq (show (pt d main_v6 ((op1 (F := F)).result ((op0 (F := F)).result (V0 m d))) : sProp 𝕄) = ptc d main_v6 (V2 m d (dr main_v6)) from rfl)) $$ Hv6
  ihave Hv7 := (Entails.of_eq (show (pt d main_v7 ((op1 (F := F)).result ((op0 (F := F)).result (V0 m d))) : sProp 𝕄) = ptc d main_v7 (V2 m d (dr main_v7)) from rfl)) $$ Hv7
  ihave Hv1 := (Entails.of_eq (show ((xtLoc d ↦{fullShare} Xt m d) : sProp 𝕄) = ptc d main_v1 (V2 m d (dr main_v1)) from rfl)) $$ Hv1
  ihave Hv2 := (Entails.of_eq (show ((moLoc d ↦{fullShare} f2) : sProp 𝕄) = ptc d main_v2 f2 from rfl)) $$ Hv2
  -- after the one call the TensorCore owes nothing more
  ihave Hst := (Entails.of_eq (show ((K (F := F)).tcSt EH d ((0 : Fin 1).val + 1) : sProp 𝕄) = iprop(owesW d ∗ tcRest d) from tcSt_one d)) $$ Hst
  icases Hst with ⟨HO, Hrest⟩
  ihave Hlv := ((K (F := F)).ctx_levAts (EH := EH) (P := P (Xt m)) κ) $$ Hctx
  ihave HG' := (Entails.of_eq (Pipeline.PerCore.ghostOn_erase (pcfgs (F := F)) (fun _ => adm) EP (S := Finset.univ) (p := (0 : Fin 2)) (Finset.mem_univ _) d)) $$ HG
  icases HG' with ⟨⟨Hcg0, Htk0⟩, HG⟩
  ihave HG' := (Entails.of_eq (Pipeline.PerCore.ghostOn_erase (pcfgs (F := F)) (fun _ => adm) EP (S := Finset.univ.erase 0) (p := (1 : Fin 2)) (by decide) d)) $$ HG
  icases HG' with ⟨⟨Hcg1, Htk1⟩, -⟩
  -- THE MINIMUM PASS
  iapply ((K (F := F)).wp_liftProg (D (F := F)) 𝒱 (SparseCore.T d) Set.univ none (Prog.lift (.customCall (Pipeline.entry 0) ())) _)
  iapply (Pipeline.RDat.RegionSeg.wp (pcfgs (F := F)) adm (rdats (V2 m d)) (none : HIx 1) cellOf_injP EP (defs₀ (F := F)) 𝒱₀ (K (F := F)).L (K (F := F)).lev
      (reg0 (V2 m d)) d none (fun u hu => nomatch hu) (fun a => Prog.ret a) _) $$ [Hb Hv1 Hv3 HO Hcg0 Htk0 Ha0 Ha1 Hv0 Hv2 Hv4 Hv5 Hv6 Hv7 Hrest Hcg1 Htk1]
  isplitr [Hb Hv1 Hv3 HO Hcg0 Htk0]
  swap
  · isplitl [Hb]; · iexact Hb
    isplitl [Hv1 Hv3 HO]
    · rw [show ((reg0 (V2 m d)).pre d : sProp 𝕄) = iprop(ptc d main_v1 (V2 m d (dr main_v1)) ∗ ptc d main_v3 (V2 m d (dr main_v3)) ∗ owesW d) from rfl]
      isplitl [Hv1]; · iexact Hv1
      isplitl [Hv3]; · iexact Hv3
      iexact HO
    isplitr; · iexact Hlv
    isplitl [Hcg0]; · iexact Hcg0
    iexact Htk0
  iintro ⟨Hb, Hpost⟩
  ihave Hpost := (Entails.of_eq (show ((reg0 (V2 m d)).post d : sProp 𝕄) = iprop((∃ f, ptc d main_v1 f) ∗ (∃ f, ptc d main_v3 f) ∗ owesW d) from rfl)) $$ Hpost
  icases Hpost with ⟨⟨%g1, Hv1⟩, ⟨%g3, Hv3⟩, HO⟩
  rw [wp_ret]; imodintro
  -- the indices reshaped to a column
  iapply (hlo_two d _ main_arg1 main_v4 (by decide) (fun _ h => h) (fun h => absurd (Finset.mem_singleton.mp h) (by decide)) (V2 m d) _ _ _ rfl)
    $$ [Hb Ha1 Hv4 Hv1 Hv3 HO Ha0 Hv0 Hv2 Hv5 Hv6 Hv7 Hrest Hcg1 Htk1]
  isplitl [Hb]; · iexact Hb
  isplitl [Ha1]; · iexact Ha1
  isplitl [Hv4]; · iexact Hv4
  iintro ⟨Hb, Ha1, ⟨%g4, Hv4⟩⟩
  -- THE ABLATION PASS
  iapply ((K (F := F)).wp_liftProg (D (F := F)) 𝒱 (SparseCore.T d) Set.univ none (Prog.lift (.customCall (Pipeline.entry 1) ())) _)
  iapply (Pipeline.RDat.RegionSeg.wp (pcfgs (F := F)) adm (rdats (V5 (V2 m d) g1 f2 g3 g4 (V2 m d (dr main_v5)))) (none : HIx 1) cellOf_injP EP (defs₀ (F := F)) 𝒱₀
      (K (F := F)).L (K (F := F)).lev (reg1 (V5 (V2 m d) g1 f2 g3 g4 (V2 m d (dr main_v5)))) d none (fun u hu => nomatch hu) (fun a => Prog.ret a) _)
    $$ [Hb Hv1 Hv2 Hv3 Hv4 Hv5 HO Hcg1 Htk1 Ha0 Ha1 Hv0 Hv6 Hv7 Hrest]
  isplitr [Hb Hv1 Hv2 Hv3 Hv4 Hv5 HO Hcg1 Htk1]
  swap
  · isplitl [Hb]; · iexact Hb
    isplitl [Hv1 Hv2 Hv3 Hv4 Hv5 HO]
    · rw [show ((reg1 (V5 (V2 m d) g1 f2 g3 g4 (V2 m d (dr main_v5)))).pre d : sProp 𝕄)
          = iprop(ptc d main_v1 (V5 (V2 m d) g1 f2 g3 g4 (V2 m d (dr main_v5)) (dr main_v1)) ∗ ptc d main_v2 (V5 (V2 m d) g1 f2 g3 g4 (V2 m d (dr main_v5)) (dr main_v2))
            ∗ ptc d main_v3 (V5 (V2 m d) g1 f2 g3 g4 (V2 m d (dr main_v5)) (dr main_v3)) ∗ ptc d main_v4 (V5 (V2 m d) g1 f2 g3 g4 (V2 m d (dr main_v5)) (dr main_v4))
            ∗ ptc d main_v5 (V5 (V2 m d) g1 f2 g3 g4 (V2 m d (dr main_v5)) (dr main_v5)) ∗ owesW d) from rfl,
        V5_1, V5_2, V5_3, V5_4, V5_5]
      isplitl [Hv1]; · iexact Hv1
      isplitl [Hv2]; · iexact Hv2
      isplitl [Hv3]; · iexact Hv3
      isplitl [Hv4]; · iexact Hv4
      isplitl [Hv5]; · iexact Hv5
      iexact HO
    isplitr; · iexact Hlv
    isplitl [Hcg1]; · iexact Hcg1
    iexact Htk1
  iintro ⟨Hb, Hpost⟩
  ihave Hpost := (Entails.of_eq (show ((reg1 (V5 (V2 m d) g1 f2 g3 g4 (V2 m d (dr main_v5)))).post d : sProp 𝕄)
      = iprop((∃ f, ptc d main_v1 f) ∗ (∃ f, ptc d main_v2 f) ∗ (∃ f, ptc d main_v3 f) ∗ (∃ f, ptc d main_v4 f) ∗ (∃ f, ptc d main_v5 f) ∗ owesW d) from rfl)) $$ Hpost
  icases Hpost with ⟨-, -, -, -, ⟨%h5, Hv5⟩, HO⟩
  rw [wp_ret]; imodintro
  -- the result reshaped and transposed back
  iapply (hlo_two d _ main_v5 main_v6 (by decide) (fun _ h => h) (fun h => absurd (Finset.mem_singleton.mp h) (by decide)) (V2 m d) _ _ _ rfl)
    $$ [Hb Hv5 Hv6 HO Ha0 Ha1 Hv7 Hrest]
  isplitl [Hb]; · iexact Hb
  isplitl [Hv5]; · iexact Hv5
  isplitl [Hv6]; · iexact Hv6
  iintro ⟨Hb, -, ⟨%h6, Hv6⟩⟩
  iapply (hlo_two d _ main_v6 main_v7 (by decide) (fun _ h => h) (fun h => absurd (Finset.mem_singleton.mp h) (by decide)) (V2 m d) _ _ _ rfl)
    $$ [Hb Hv6 Hv7 HO Ha0 Ha1 Hrest]
  isplitl [Hb]; · iexact Hb
  isplitl [Hv6]; · iexact Hv6
  isplitl [Hv7]; · iexact Hv7
  iintro ⟨-, -, -⟩
  imodintro
  isplitl [HO Hrest]
  · rw [tcSt_one]
    isplitl [HO]; · iexact HO
    iexact Hrest
  unfold FIN
  rw [← V2_arg0 m d, ← V2_arg1 m d]
  isplitl [Ha0]; · iexact Ha0
  iexact Ha1

def fq (d : Dev nD) (s' : Phys nD τ sig (Elt F)) : Prop := s'.mem.mem (a0Loc d) = m (a0Loc d) ∧ s'.mem.mem (a1Loc d) = m (a1Loc d)

set_option maxRecDepth 16384 in
theorem hfin (d : Dev nD) (s' : Phys nD τ sig (Elt F)) : iprop(FIN m d ∗ SI s') ⊢ (⌜fq m d s'⌝ : sProp 𝕄) := by
  iintro ⟨⟨H0, H1⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h1, HSI, -⟩
  ihave H := (SI_pointsTo_agree (st := s') (ℓ := a1Loc d) (I := Finset.univ) (q := fullShare) (f := m (a1Loc d))) $$ [HSI H1]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (a0Loc c) = m (a0Loc c) ∧ r.2.mem (a1Loc c) = m (a1Loc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (Xt m)) facts v₀
    (fun q hq => match q with | 0 => nomatch hq)
    (fun q _ => match q with | 0 => tileObl (Xt m) facts)
    (fun q _ => match q with | 0 => SparseCore.Cfg.VecSplit.of_plain (vecSplit (Xt m)))
    m ρ main (fun d => G d) (FIN m) (u₀ (F := F)) (sep_elim_left.trans (hu₀ m)) (hmain m ρ) (fq m) (hfin m) (QC m) (fun _ h => h)

end Cert.Proof.KI

end
-- ==== Proof.KB.Base.lean ====
/-
  The kernel program as printed as the SparseCore launch theorem sees it: one vector-subcore call on 2 × 16 tiles, two
  TensorCore pipelines under it, the body table of both; the side conditions of the launch; and the ghost state — the
  launch handshakes' rounds, the pipelines' staging cells' rounds, and the counters of the tiles' own transfers,
  three factors of one product.
-/
import proofs.«202639_g54090818126251_cont_9to1c4b_462_21_alg».proof.Defs
import proofs.«202639_g54090818126251_cont_9to1c4b_462_21_alg».proof.Proof.Gen.Kernel
import proofs.«202639_g54090818126251_cont_9to1c4b_462_21_alg».proof.Proof.Gen.Kernel.Launch
import proofs.«202639_g54090818126251_cont_9to1c4b_462_21_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' rounds: the left factor of the right factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

end Cert.Proof.KB

end
-- ==== Proof.KB.Tile.lean ====
/-
  The SparseCore call of the kernel as printed: what the launch handshakes carry, one tile's task, and how a
  SparseCore's operands split among its sixteen tiles.

  Each of the 2 × 16 tiles reduces seven planes of the transposed activations, fourteen half planes of 32 × 512, to
  sixteen running minima: a half plane is copied into one of two staging buffers while the other is reduced row by
  row, one copy outstanding per semaphore and no buffer read while a copy into it is pending; the sixteen lanes are
  then stored and copied out to the tile's own row, 2 · subcore + core, of the 32 × 16 result. Every tile reads the
  activations, so the call hands each SparseCore a read share of them and each tile a part of that share; the result
  goes out row by row. Nothing is said here of what a row ends at: the task returns its share, its row at some
  contents, and its scoped storage, the three semaphores at zero.
-/
import proofs.«202639_g54090818126251_cont_9to1c4b_462_21_alg».proof.Proof.KB.Base
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks pointsTo_toks_join)

variable {F : FTy → Type}

local notation "𝕄" => MT nD τ sig (HIx 1) (Elt F) ℕ UU ℕ

/-! ## The arrays the call works on -/

/-- The transposed activations (the call's one operand) and the per-tile minima (its result), as locations of device `d`. -/
abbrev xtLoc (d : Dev nD) : Loc nD τ sig := (SparseCore.T d).loc main_v1
abbrev moLoc (d : Dev nD) : Loc nD τ sig := (SparseCore.T d).loc main_v2

local notation "xtV" => (Memref.whole Cert.Kernel.main_v1_scv : Memref Cert.Kernel.sig Kind.scVector Space.hbm Cert.Kernel.S784x64x512 EltTy.f32)
local notation "moV" => (Memref.whole Cert.Kernel.main_v2_scv : Memref Cert.Kernel.sig Kind.scVector Space.hbm Cert.Kernel.S32x16 EltTy.f32)
local notation "b0V" => (Memref.whole Cert.Kernel.cc0_scratch0 : Memref Cert.Kernel.sig Kind.scVector Space.vmem Cert.Kernel.S32x512 EltTy.f32)
local notation "b1V" => (Memref.whole Cert.Kernel.cc0_scratch1 : Memref Cert.Kernel.sig Kind.scVector Space.vmem Cert.Kernel.S32x512 EltTy.f32)
local notation "acV" => (Memref.whole Cert.Kernel.cc0_scratch2 : Memref Cert.Kernel.sig Kind.scVector Space.vmem Cert.Kernel.S16 EltTy.f32)

/-- Row `r` of the minima: one tile's sixteen lanes. -/
theorem hdiv : 32 ∣ S32x16.size 0 := ⟨1, rfl⟩
abbrev row (r : Fin 32) : Rect S32x16 := Rect.part (s := S32x16) (a₀ := 0) hdiv r
abbrev rowSet (r : Fin 32) : Finset S32x16.Idx := ((moV).view.slice (row r)).set
/-- The row tile `i` of SparseCore `c` writes: `2 i + c`. -/
def rowOf (c : Fin 2) (i : Fin 16) : Fin 32 := ⟨2 * i.val + c.val, by omega⟩

/-- The read share of the activations SparseCore `c` is handed, and tile `i`'s part of it. -/
abbrev qC (c : Fin 2) : PosShare TreeShare := shareTok fullShare 2 c
abbrev qT (c : Fin 2) (i : Fin 16) : PosShare TreeShare := shareTok (qC c) 16 i

variable (X : (d : Dev nD) → Buf (Elt F) (xtLoc d))

/-! ## What the handshakes carry -/

abbrev xtShC (d : Dev nD) (c : Fin 2) : sProp 𝕄 := xtLoc d ↦{qC c} X d
abbrev xtShT (d : Dev nD) (c : Fin 2) (i : Fin 16) : sProp 𝕄 := xtLoc d ↦{qT c i} X d
abbrev moRow (d : Dev nD) (r : Fin 32) : sProp 𝕄 := iprop(∃ f, moLoc d ↦[rowSet r]{fullShare} f)

/-- The call hands SparseCore `c` a read share of the activations and the sixteen rows of the minima its tiles write;
    each tile a part of that share and its row; and brings them back, the rows at what the tiles left. -/
def P : (K (F := F)).Pay (nD := nD) (Val := Elt F) (Name := ℕ) (U := UU) where
  st := fun q d c => match q with
    | 0 => iprop(xtShC X d (Fin.cast nCore_zero c) ∗ bigSep Finset.univ fun i : Fin 16 => moRow d (rowOf (Fin.cast nCore_zero c) i))
  dn := fun q d c => match q with
    | 0 => iprop(xtShC X d (Fin.cast nCore_zero c) ∗ bigSep Finset.univ fun i : Fin 16 => moRow d (rowOf (Fin.cast nCore_zero c) i))
  go := fun q d c i => match q with
    | 0 => iprop(xtShT X d (Fin.cast nCore_zero c) (Fin.cast nSub_zero i) ∗ moRow d (rowOf (Fin.cast nCore_zero c) (Fin.cast nSub_zero i)))
  td := fun q d c i => match q with
    | 0 => iprop(xtShT X d (Fin.cast nCore_zero c) (Fin.cast nSub_zero i) ∗ moRow d (rowOf (Fin.cast nCore_zero c) (Fin.cast nSub_zero i)))
  x := fun _ _ => iprop(emp)

instance P_storable : (P (F := F) X).IsStorable where
  st q d c := match q with
    | 0 => (inferInstance : BI.Storable (upEmb : UEmb _ 𝕄)
        iprop(xtShC X d (Fin.cast nCore_zero c) ∗ bigSep Finset.univ fun i : Fin 16 => moRow d (rowOf (Fin.cast nCore_zero c) i)))
  dn q d c := match q with
    | 0 => (inferInstance : BI.Storable (upEmb : UEmb _ 𝕄)
        iprop(xtShC X d (Fin.cast nCore_zero c) ∗ bigSep Finset.univ fun i : Fin 16 => moRow d (rowOf (Fin.cast nCore_zero c) i)))
  go q d c i := match q with
    | 0 => (inferInstance : BI.Storable (upEmb : UEmb _ 𝕄)
        iprop(xtShT X d (Fin.cast nCore_zero c) (Fin.cast nSub_zero i) ∗ moRow d (rowOf (Fin.cast nCore_zero c) (Fin.cast nSub_zero i))))
  td q d c i := match q with
    | 0 => (inferInstance : BI.Storable (upEmb : UEmb _ 𝕄)
        iprop(xtShT X d (Fin.cast nCore_zero c) (Fin.cast nSub_zero i) ∗ moRow d (rowOf (Fin.cast nCore_zero c) (Fin.cast nSub_zero i))))

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- The row of the minima the tile writes, as the kernel slices it, squeezed. -/
abbrev rowK (L : grid0.Coords) : Rect S32x16 := Rect.unit (s := S32x16) (k0_off450 L) S1x16.size (k0_off450_inb L)
abbrev moRowK (L : grid0.Coords) : Memref sig .scVector .hbm S16 .f32 := ((moV).slice (rowK L) (fun _ => rfl)).squeeze S16 squeezes_S1x16_S16

theorem rowK_eq : rowK L = row (rowOf (cL L) (jL L)) := by
  unfold rowK row Rect.part Rect.block
  congr 1 <;> funext a
  · rw [k0_off450_eq]
    match a with
    | 0 => simp [Shape.partIx, Shape.partSize, rowOf]
    | 1 => simp [Shape.partIx, Shape.partSize]
  · match a with
    | 0 => simp [Shape.partSize]
    | 1 => simp [Shape.partSize]

theorem set_moRowK : (moRowK L).view.set = rowSet (rowOf (cL L) (jL L)) := by
  show (((moV).view.slice (rowK L)).reshape S16 squeezes_S1x16_S16.numel_eq).set = ((moV).view.slice (row (rowOf (cL L) (jL L)))).set
  rw [View.set_reshape]
  exact rowK_eq L ▸ rfl

theorem pts_moRowK (f : Buf (Elt F) (moLoc d)) :
    ((moRowK L).view.loc (V d (cV L) (jV L)) ↦[(moRowK L).view.set]{fullShare} f : sProp 𝕄) = moLoc d ↦[rowSet (rowOf (cL L) (jL L))]{fullShare} f := by
  rw [set_moRowK]
theorem pts_xtV (q : PosShare TreeShare) (f : Buf (Elt F) (xtLoc d)) :
    ((xtV).view.loc (V d (cV L) (jV L)) ↦{q} f : sProp 𝕄) = xtLoc d ↦{q} f := by
  simp only [Memref.view_whole, View.set_whole]
theorem pts_b0V (f : Buf (Elt F) ((V d (cV L) (jV L)).loc cc0_scratch0)) :
    ((b0V).view.loc (V d (cV L) (jV L)) ↦{fullShare} f : sProp 𝕄) = (V d (cV L) (jV L)).loc cc0_scratch0 ↦{fullShare} f := rfl
theorem pts_b1V (f : Buf (Elt F) ((V d (cV L) (jV L)).loc cc0_scratch1)) :
    ((b1V).view.loc (V d (cV L) (jV L)) ↦{fullShare} f : sProp 𝕄) = (V d (cV L) (jV L)).loc cc0_scratch1 ↦{fullShare} f := rfl
theorem pts_acV (f : Buf (Elt F) ((V d (cV L) (jV L)).loc cc0_scratch2)) :
    ((acV).view.loc (V d (cV L) (jV L)) ↦{fullShare} f : sProp 𝕄) = (V d (cV L) (jV L)).loc cc0_scratch2 ↦{fullShare} f := rfl

/-- The tile's three DMA semaphores: one per staging buffer, one for the write-out. -/
abbrev c0cell (d : Dev nD) (c : Fin τ.nSC) (i : Fin τ.nSub) : GSem nD τ sig := (V d c i, .dma cc0_scratch3.sem)
abbrev c1cell (d : Dev nD) (c : Fin τ.nSC) (i : Fin τ.nSub) : GSem nD τ sig := (V d c i, .dma cc0_scratch4.sem)
abbrev c2cell (d : Dev nD) (c : Fin τ.nSC) (i : Fin τ.nSub) : GSem nD τ sig := (V d c i, .dma cc0_scoped0.sem)

theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0
          ∗ bigSep ((((ownCells (V d (cV L) (jV L))).erase (c0cell d (cV L) (jV L))).erase (c1cell d (cV L) (jV L))).erase (c2cell d (cV L) (jV L))) fun g => semVal g 0) := by
  unfold SparseCore.Cfg.ownSems0
  rw [SparseCore.bigSep_erase' ((mem_ownCells (g := c0cell d (cV L) (jV L))).mpr ⟨rfl, by
      show (SemLoc.dma cc0_scratch3.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scratch4.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped0.sem : SemLoc sig).isScoped .scVector = true; decide⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

variable [FloatOps F]

set_option hygiene false in
/-- One pass over the first staging buffer: the row loop by an invariant that holds the buffer at some contents (the
    region only loads from it), then on to the next loop. -/
macro "rows_of_buf0" : tactic => `(tactic| (
  sl_for (fun (_ : Nat) (_ : FVec F S16 .f32) => (iprop(∃ f, (b0V).view.loc (V d (cV L) (jV L)) ↦{fullShare} f) : sProp 𝕄)) $$ [Hb0']
  case region =>
    intro k _
    iintro ⟨%f, Hb⟩
    sl_exec
    sl_step
    iexists _; iexact Hb
  · iexists _; iexact Hb0'
  iintro %vacc HI
  icases HI with ⟨%fb0, Hb0'⟩
  sl_exec))

set_option hygiene false in
/-- The same over the second staging buffer. -/
macro "rows_of_buf1" : tactic => `(tactic| (
  sl_for (fun (_ : Nat) (_ : FVec F S16 .f32) => (iprop(∃ f, (b1V).view.loc (V d (cV L) (jV L)) ↦{fullShare} f) : sProp 𝕄)) $$ [Hb1']
  case region =>
    intro k _
    iintro ⟨%f, Hb⟩
    sl_exec
    sl_step
    iexists _; iexact Hb
  · iexists _; iexact Hb1'
  iintro %vacc HI
  icases HI with ⟨%fb1, Hb1'⟩
  sl_exec))

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp
        ∗ (xtShT X d (cL L) (jL L) ∗ moRow d (rowOf (cL L) (jL L)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_min L xtV (Memref.isWhole_whole _) moV (Memref.isWhole_whole _) b0V (Memref.isWhole_whole _) b1V (Memref.isWhole_whole _)
            acV (Memref.isWhole_whole _) cc0_scratch3 cc0_scratch4 cc0_scoped0)
          fun _ => iprop((xtShT X d (cL L) (jL L) ∗ moRow d (rowOf (cL L) (jL L)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold cc0__sc_min
  rw [(K (F := F)).scopedBufs_V hF d (cV L) (jV L), SparseCore.Cfg.scopedSems0_V (Val := Elt F) d (cV L) (jV L), ownSems0_V, ownBufs_V]
  iintro ⟨#Hlv, -, ⟨Hx, ⟨%fo, Ho⟩⟩, ⟨⟨%f0, Hb0⟩, ⟨%f1, Hb1⟩, ⟨%f2, Hac⟩, Hbufs⟩, ⟨Hsem0, Hsem1, Hsem2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_moRowK (F := F) d L _).symm) $$ Ho
  ihave Hx' := (Entails.of_eq (pts_xtV (F := F) d L _ _).symm) $$ Hx
  ihave Hb0' := (Entails.of_eq (pts_b0V (F := F) d L _).symm) $$ Hb0
  ihave Hb1' := (Entails.of_eq (pts_b1V (F := F) d L _).symm) $$ Hb1
  ihave Hac' := (Entails.of_eq (pts_acV (F := F) d L _).symm) $$ Hac
  sl_exec
  rows_of_buf0
  rows_of_buf1
  rows_of_buf0
  rows_of_buf1
  rows_of_buf0
  rows_of_buf1
  rows_of_buf0
  rows_of_buf1
  rows_of_buf0
  rows_of_buf1
  rows_of_buf0
  rows_of_buf1
  rows_of_buf0
  rows_of_buf1
  sl_step
  isplitl [Hx' Ho']
  · isplitl [Hx']; · iapply (Entails.of_eq (pts_xtV (F := F) d L _ _)); iexact Hx'
    iexists _; iapply (Entails.of_eq (pts_moRowK (F := F) d L _)); iexact Ho'
  isplitl [Hb0' Hb1' Hac' Hbufs]
  · isplitl [Hb0']; · iexists _; iexact Hb0'
    isplitl [Hb1']; · iexists _; iexact Hb1'
    isplitl [Hac']; · iexists _; iexact Hac'
    iexact Hbufs
  isplitl [Hsem0 Hsem1 Hsem2 Hsems]
  · isplitl [Hsem0]; · iexact Hsem0
    isplitl [Hsem1]; · iexact Hsem1
    isplitl [Hsem2]; · iexact Hsem2
    iexact Hsems
  iexists _; isplitr
  swap; · iexact HO
  ipureintro; intro p hp
  simp only [Finset.mem_insert] at hp
  casesm* _ ∨ _ <;> first | exact .inl ‹_› | (subst_vars; exact .inr rfl)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_min (coordsV c s)
          xtV (Memref.isWhole_whole _) moV (Memref.isWhole_whole _) b0V (Memref.isWhole_whole _) b1V (Memref.isWhole_whole _)
          acV (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X d (coordsV ⟨_, hci.1⟩ ⟨_, hci.2⟩) hF O W hO).trans (wp_mono frame _ _ fun _ => obl_post)

end Tile

/-! ## A SparseCore's operands split among its tiles, and its results gather -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P X) 0 := by
  intro d c
  show iprop(xtShC X d (Fin.cast nCore_zero c) ∗ bigSep Finset.univ fun i : Fin 16 => moRow d (rowOf (Fin.cast nCore_zero c) i)) ⊢ |={Set.univ}=> iprop(
      (bigSep Finset.univ fun i : Fin ((K (F := F)).nSub 0) =>
        iprop(xtShT X d (Fin.cast nCore_zero c) (Fin.cast nSub_zero i) ∗ moRow d (rowOf (Fin.cast nCore_zero c) (Fin.cast nSub_zero i))))
      ∗ ((bigSep Finset.univ fun i : Fin ((K (F := F)).nSub 0) =>
          iprop(xtShT X d (Fin.cast nCore_zero c) (Fin.cast nSub_zero i) ∗ moRow d (rowOf (Fin.cast nCore_zero c) (Fin.cast nSub_zero i))))
          -∗ iprop(xtShC X d (Fin.cast nCore_zero c) ∗ bigSep Finset.univ fun i : Fin 16 => moRow d (rowOf (Fin.cast nCore_zero c) i))))
  rw [bigSep_tasks (F := F) (fun i => iprop(xtShT X d (Fin.cast nCore_zero c) i ∗ moRow d (rowOf (Fin.cast nCore_zero c) i))), bigSep_sep']
  iintro ⟨Hx, Ho⟩
  ihave Hx2 := (pointsTo_toks (qC (Fin.cast nCore_zero c)) 16).1 $$ Hx
  icases Hx2 with ⟨Hd, Ht⟩
  imodintro
  isplitl [Ht Ho]
  · isplitl [Ht]; · iexact Ht
    iexact Ho
  iintro ⟨Ht, Ho⟩
  isplitl [Hd Ht]
  · iapply (pointsTo_toks_join (qC (Fin.cast nCore_zero c)) 16)
    isplitl [Hd]; · iexact Hd
    iexact Ht
  iexact Ho

end Cert.Proof.KB

end
-- ==== Proof.KB.Regions.lean ====
/-
  The two TensorCore pipelines of the kernel as printed, for its frame: the running minimum over the first 560 planes
  (ten points of 56 planes, an SMEM accumulator carried across the points, written out at the last) and the pass that
  writes the ablated activations (fourteen points; at the first the sixty-four ablation values are made and kept in a
  VMEM scratch). Each body is run once over whole staging memrefs held at some contents, its conditions taken either
  way: it loads and stores inside its buffers and nothing else, so every buffer comes back at some contents. The proof
  data of each pipeline constrains nothing of what a body leaves in a staging buffer; its invariant is the scoped
  buffers no window stages, the carried scratch among them.
-/
import proofs.«202639_g54090818126251_cont_9to1c4b_462_21_alg».proof.Proof.KB.Base
import Idealize.ShloMosaic.Lib.Pipeline.Frame

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A TensorCore memref held whole at some contents. -/
abbrev anyAt {sp : Space} {s : Shape} {e : EltTy} (d : Dev nD) (a : Memref sig .tc sp s e) : sProp 𝕄 :=
  iprop(∃ f, a.view.loc (T d) ↦[a.view.set]{fullShare} f)

local notation "sc1V" => (Memref.whole Cert.Kernel.cc1_scratch0 : Memref Cert.Kernel.sig Kind.tc Space.smem Cert.Kernel.S1 EltTy.f32)
local notation "sc2V" => (Memref.whole Cert.Kernel.cc2_scratch0 : Memref Cert.Kernel.sig Kind.tc Space.vmem Cert.Kernel.S64x1 EltTy.f32)

/-! ## The bodies, run -/

set_option maxHeartbeats 4000000 in
/-- The minimum pass's body at any point: the block loaded, the accumulator set, folded or written out as the point's
    three conditions say; all three buffers back at some contents. -/
theorem tcmin_run (d : Dev nD) (i : grid1.Coords) (arg1 : Memref sig .tc .vmem S56x64x512 .f32) (harg1 : arg1.IsWhole)
    (arg2 : Memref sig .tc .smem S1x1 .f32) (harg2 : arg2.IsWhole) (K : PUnit → sProp 𝕄) :
    iprop(anyAt d arg1 ∗ anyAt d arg2 ∗ (∃ f, (sc1V).view.loc (T d) ↦{fullShare} f)
        ∗ (iprop(anyAt d arg1 ∗ anyAt d arg2 ∗ (∃ f, (sc1V).view.loc (T d) ↦{fullShare} f)) -∗ K ⟨⟩))
      ⊢ wp frame (wpE (defs₀ (F := F)) 𝒱₀ (T d) none) Set.univ
          (cc1__tc_min_body i arg1 harg1 arg2 harg2 sc1V (Memref.isWhole_whole _)) K := by
  unfold cc1__tc_min_body
  iintro ⟨⟨%f1, H1⟩, ⟨%f2, H2⟩, ⟨%f3, H3⟩, Hk⟩
  by_cases h1 : Scalar.cmpi .ne (Scalar.extui (Scalar.cmpi .eq (BitVec.ofNat 32 (i 0).val) 0#32)) 0#32 = 1#1 <;>
  by_cases h2 : Scalar.cmpi .ne (Scalar.extui (Scalar.cmpi .sgt (BitVec.ofNat 32 (i 0).val) 0#32)) 0#32 = 1#1 <;>
  by_cases h3 : k1_cond3 i = 1#1
  all_goals
    sl_exec (disch := first | exact h1 | exact h2 | exact h3)
    sl_step
    iapply Hk
    isplitl [H1]; · iexists _; iexact H1
    isplitl [H2]; · iexists _; iexact H2
    iexists _; iexact H3

set_option maxHeartbeats 4000000 in
/-- The ablation pass's body at any point: at the first the values made and stored in the scratch; the block selected
    against the values and stored; all six buffers back at some contents. -/
theorem apply_run (d : Dev nD) (i : grid2.Coords) (arg1 : Memref sig .tc .vmem S56x64x512 .f32) (harg1 : arg1.IsWhole)
    (arg2 : Memref sig .tc .vmem S32x16 .f32) (harg2 : arg2.IsWhole) (arg3 : Memref sig .tc .smem S1x1 .f32) (harg3 : arg3.IsWhole)
    (arg4 : Memref sig .tc .vmem S64x1 .i32) (harg4 : arg4.IsWhole) (arg5 : Memref sig .tc .vmem S56x64x512 .f32) (harg5 : arg5.IsWhole)
    (K : PUnit → sProp 𝕄) :
    iprop(anyAt d arg1 ∗ anyAt d arg2 ∗ anyAt d arg3 ∗ anyAt d arg4 ∗ anyAt d arg5 ∗ (∃ f, (sc2V).view.loc (T d) ↦{fullShare} f)
        ∗ (iprop(anyAt d arg1 ∗ anyAt d arg2 ∗ anyAt d arg3 ∗ anyAt d arg4 ∗ anyAt d arg5 ∗ (∃ f, (sc2V).view.loc (T d) ↦{fullShare} f)) -∗ K ⟨⟩))
      ⊢ wp frame (wpE (defs₀ (F := F)) 𝒱₀ (T d) none) Set.univ
          (cc2__apply_body i arg1 harg1 arg2 harg2 arg3 harg3 arg4 harg4 arg5 harg5 sc2V (Memref.isWhole_whole _)) K := by
  unfold cc2__apply_body
  iintro ⟨⟨%f1, H1⟩, ⟨%f2, H2⟩, ⟨%f3, H3⟩, ⟨%f4, H4⟩, ⟨%f5, H5⟩, ⟨%f6, H6⟩, Hk⟩
  by_cases h1 : k2_cond1 i = 1#1
  all_goals
    sl_exec (disch := first | exact h1)
    sl_step
    iapply Hk
    isplitl [H1]; · iexists _; iexact H1
    isplitl [H2]; · iexists _; iexact H2
    isplitl [H3]; · iexists _; iexact H3
    isplitl [H4]; · iexists _; iexact H4
    isplitl [H5]; · iexists _; iexact H5
    iexists _; iexact H6

/-! ## The proof data -/

/-- The prefetched tables' admissible contents: no pipeline has a table. -/
abbrev adm : (p : Fin 2) → (pcfgs (F := F) p).Adm := fun p => (cfgs p).toPCfg_adm
abbrev cfgsP : Fin 2 → Pipeline.Cfg sig Λ₀ := Pipeline.pin (pcfgs (F := F)) adm

omit [FloatOps F] in
theorem cellOf_injP : Function.Injective (Pipeline.cellOf (nD := nD) (τ := τ) (cfgsP (F := F))) := Gen.cellOf_inj

/-- The pairs a TensorCore wait may record once the one SparseCore call is over: any at or below level 8. -/
def recB (c : Dev nD) : Set (SemLoc sig × HIx 1) := {x | (K (F := F)).lev ((T c), x.1) x.2 ≤ 8}

variable (Vd : Valuation τ sig (Elt F))

/-- The minimum pass: its arrays as the region finds them, nothing said of what a body leaves in a staging buffer,
    the scoped buffers no window stages (the accumulator among them) as the invariant, nothing owed. -/
def rdat0 (c : Dev nD) : Pipeline.RDat τ (Elt F) (HIx 1) ℕ UU ℕ (cfgsP (F := F) 0) c where
  A w := Vd (Proc.devRef .tc (Pipeline.arrRef spec1 w))
  after _ _ _ _ := True
  Φ _ := Pipeline.scopedRest spec1 c
  q _ := fullShare
  owed _ := 0
  recorded _ := recB (F := F) c

/-- The ablation pass, the same way. -/
def rdat1 (c : Dev nD) : Pipeline.RDat τ (Elt F) (HIx 1) ℕ UU ℕ (cfgsP (F := F) 1) c where
  A w := Vd (Proc.devRef .tc (Pipeline.arrRef spec2 w))
  after _ _ _ _ := True
  Φ _ := Pipeline.scopedRest spec2 c
  q _ := fullShare
  owed _ := 0
  recorded _ := recB (F := F) c

def rdats : (p : Fin 2) → (c : Dev nD) → Pipeline.RDat τ (Elt F) (HIx 1) ℕ UU ℕ (cfgsP (F := F) p) c
  | 0 => rdat0 Vd
  | 1 => rdat1 Vd

/-! ## The body obligations -/

set_option maxHeartbeats 1000000 in
theorem body0 (c : Dev nD) : (rdat0 Vd c).BodyObligation (defs₀ (F := F)) 𝒱₀ (none : HIx 1) Set.univ := fun t Y _ => by
  rw [bigSep_W1, bigSep_W1]
  rw [show (rdat0 Vd c).Φ t.castSucc = Pipeline.scopedRest spec1 c from rfl, show (rdat0 Vd c).Φ t.succ = Pipeline.scopedRest spec1 c from rfl,
    show (rdat0 Vd c).owesAt none t.succ = (rdat0 Vd c).owesAt none t.castSucc from rfl, scopedRest1_eq]
  change _ ⊢ wp _ _ _ (cc1__tc_min_body (grid1.coords t) (win1_0.stage ((cfgsP (F := F) 0).slots t 0)) (hstage1_0 (((cfgsP (F := F) 0).slots t 0).cast nbuf1_0))
    (win1_1.stage ((cfgsP (F := F) 0).slots t 1)) (hstage1_1 (((cfgsP (F := F) 0).slots t 1).cast nbuf1_1)) sc1V (Memref.isWhole_whole _)) _
  unfold owns
  iintro ⟨⟨S1, S2, S3, S4, S5, S6, S7, ⟨%fs, S8⟩, S9⟩, HO, ⟨%g0, -, H0⟩, ⟨%g1, -, H1⟩⟩
  iapply (tcmin_run c (grid1.coords t) _ _ _ _ _)
  isplitl [H0]; · iexists _; iexact H0
  isplitl [H1]; · iexists _; iexact H1
  isplitl [S8]; · iexists _; iexact S8
  iintro ⟨⟨%g0', H0⟩, ⟨%g1', H1⟩, ⟨%fs', S8⟩⟩
  isplitl [S1 S2 S3 S4 S5 S6 S7 S8 S9]
  · isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexists _; iexact S8
    iexact S9
  isplitl [HO]; · iexact HO
  isplitl [H0]
  · iexists ((win1_0.stage ((cfgsP (F := F) 0).slots t 0)).view.read (Elt F) g0'); isplitr; · ipureintro; trivial
    iexists g0'; isplitr; · ipureintro; rfl
    iexact H0
  iexists ((win1_1.stage ((cfgsP (F := F) 0).slots t 1)).view.read (Elt F) g1'); isplitr; · ipureintro; trivial
  iexists g1'; isplitr; · ipureintro; rfl
  iexact H1

set_option maxHeartbeats 1000000 in
theorem body1 (c : Dev nD) : (rdat1 Vd c).BodyObligation (defs₀ (F := F)) 𝒱₀ (none : HIx 1) Set.univ := fun t Y _ => by
  rw [bigSep_W2, bigSep_W2]
  rw [show (rdat1 Vd c).Φ t.castSucc = Pipeline.scopedRest spec2 c from rfl, show (rdat1 Vd c).Φ t.succ = Pipeline.scopedRest spec2 c from rfl,
    show (rdat1 Vd c).owesAt none t.succ = (rdat1 Vd c).owesAt none t.castSucc from rfl, scopedRest2_eq]
  change _ ⊢ wp _ _ _ (cc2__apply_body (grid2.coords t) (win2_0.stage ((cfgsP (F := F) 1).slots t 0)) (hstage2_0 (((cfgsP (F := F) 1).slots t 0).cast nbuf2_0))
    (win2_1.stage ((cfgsP (F := F) 1).slots t 1)) (hstage2_1 (((cfgsP (F := F) 1).slots t 1).cast nbuf2_1))
    (win2_2.stage ((cfgsP (F := F) 1).slots t 2)) (hstage2_2 (((cfgsP (F := F) 1).slots t 2).cast nbuf2_2))
    (win2_3.stage ((cfgsP (F := F) 1).slots t 3)) (hstage2_3 (((cfgsP (F := F) 1).slots t 3).cast nbuf2_3))
    (win2_4.stage ((cfgsP (F := F) 1).slots t 4)) (hstage2_4 (((cfgsP (F := F) 1).slots t 4).cast nbuf2_4)) sc2V (Memref.isWhole_whole _)) _
  unfold owns
  iintro ⟨⟨S1, S2, ⟨%fs, S3⟩, S4, S5⟩, HO, ⟨%g0, -, H0⟩, ⟨%g1, -, H1⟩, ⟨%g2, -, H2⟩, ⟨%g3, -, H3⟩, ⟨%g4, -, H4⟩⟩
  iapply (apply_run c (grid2.coords t) _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [S3]; · iexists _; iexact S3
  iintro ⟨⟨%g0', H0⟩, ⟨%g1', H1⟩, ⟨%g2', H2⟩, ⟨%g3', H3⟩, ⟨%g4', H4⟩, ⟨%fs', S3⟩⟩
  isplitl [S1 S2 S3 S4 S5]
  · isplitl [S1]; · iexact S1
    isplitl [S2]; · iexact S2
    isplitl [S3]; · iexists _; iexact S3
    isplitl [S4]; · iexact S4
    iexact S5
  isplitl [HO]; · iexact HO
  isplitl [H0]
  · iexists ((win2_0.stage ((cfgsP (F := F) 1).slots t 0)).view.read (Elt F) g0'); isplitr; · ipureintro; trivial
    iexists g0'; isplitr; · ipureintro; rfl
    iexact H0
  isplitl [H1]
  · iexists ((win2_1.stage ((cfgsP (F := F) 1).slots t 1)).view.read (Elt F) g1'); isplitr; · ipureintro; trivial
    iexists g1'; isplitr; · ipureintro; rfl
    iexact H1
  isplitl [H2]
  · iexists ((win2_2.stage ((cfgsP (F := F) 1).slots t 2)).view.read (Elt F) g2'); isplitr; · ipureintro; trivial
    iexists g2'; isplitr; · ipureintro; rfl
    iexact H2
  isplitl [H3]
  · iexists ((win2_3.stage ((cfgsP (F := F) 1).slots t 3)).view.read (Elt F) g3'); isplitr; · ipureintro; trivial
    iexists g3'; isplitr; · ipureintro; rfl
    iexact H3
  iexists ((win2_4.stage ((cfgsP (F := F) 1).slots t 4)).view.read (Elt F) g4'); isplitr; · ipureintro; trivial
  iexists g4'; isplitr; · ipureintro; rfl
  iexact H4

theorem bodies : ∀ (p : Fin 2) (c : Dev nD), (rdats Vd p c).BodyObligation (defs₀ (F := F)) 𝒱₀ (none : HIx 1) Set.univ
  | 0, c => body0 Vd c
  | 1, c => body1 Vd c

/-! ## The regions' records -/

abbrev dr (b : Ref sig .tc) : DevRef τ sig := Proc.devRef .tc b
abbrev ptc (c : Dev nD) (b : Ref sig .tc) (f : Buf (Elt F) ((SparseCore.T c : Thread nD τ).loc b)) : sProp 𝕄 := (SparseCore.T c : Thread nD τ).loc b ↦{fullShare} f

/-- What rides along a region: the TensorCore owing nothing, its recorded waits at or below level 8. -/
abbrev owesW (c : Dev nD) : sProp 𝕄 :=
  iprop(∃ W, ⌜(K (F := F)).WBelow (SparseCore.T c) W 8⌝ ∗ owes (SparseCore.T c) (0 : CellTallies nD τ sig (HIx 1)) W)

omit [FloatOps F] in
theorem owes_in {cfg : Pipeline.Cfg sig Λ₀} {c : Dev nD} (rd : Pipeline.RDat τ (Elt F) (HIx 1) ℕ UU ℕ cfg c) (t : Fin (cfg.N + 1))
    (h0 : rd.owed t = 0) (hr : rd.recorded t = recB (F := F) c) : (owesW (F := F) c) ⊢ (rd.owesAt none t : sProp 𝕄) := by
  unfold Pipeline.RDat.owesAt Pipeline.owesWithin Pipeline.RDat.bound; rw [h0, hr]
  iintro ⟨%W, %hW, HO⟩; iexists W; isplitr
  · ipureintro; exact fun p hp => Or.inl (hW p (Finset.mem_coe.mp hp))
  iexact HO

omit [FloatOps F] in
theorem owes_out {cfg : Pipeline.Cfg sig Λ₀} {c : Dev nD} (rd : Pipeline.RDat τ (Elt F) (HIx 1) ℕ UU ℕ cfg c) (t : Fin (cfg.N + 1))
    (h0 : rd.owed t = 0) (hr : rd.recorded t = recB (F := F) c) : (rd.owesAt none t : sProp 𝕄) ⊢ owesW (F := F) c := by
  unfold Pipeline.RDat.owesAt Pipeline.owesWithin Pipeline.RDat.bound; rw [h0, hr]
  iintro ⟨%W, %hW, HO⟩; iexists W; isplitr
  · ipureintro; intro p hp
    rcases hW (Finset.mem_coe.mpr hp) with h | ⟨w, s, rfl⟩
    · exact h
    · show (K (F := F)).lev _ none ≤ 8
      rw [SparseCore.Cfg.lev_none]; omega
  iexact HO

omit [FloatOps F] in
theorem bigSep_F0 (Φ : Fin 0 → sProp 𝕄) : bigSep Finset.univ Φ = (BI.emp : sProp 𝕄) :=
  bigSep_univ_eq_bigSepL [] (by decide) (by decide) Φ

omit [FloatOps F] in
theorem prefHeld_emp (p : Fin 2) (c : Dev nD) (q) (pf) :
    (Pipeline.prefHeld (Ix := HIx 1) (Name := ℕ) (U := UU) (Lvl := ℕ) (Val := Elt F) (pcfgs (F := F) p).pre c q pf : sProp 𝕄) = BI.emp :=
  bigSep_F0 _

/-- The minimum pass's arrays: the activations and the one-word result. -/
theorem arrays0_eq (c : Dev nD) : ((rdats Vd 0 c).arrays (rdats Vd 0 c).A : sProp 𝕄)
    = iprop(ptc c main_v1 (Vd (dr main_v1)) ∗ ptc c main_v3 (Vd (dr main_v3))) := by
  refine (bigSep_W1 _).trans ?_
  simp only [Pipeline.RDat.share_full (rdats Vd 0 c) (fun _ => rfl)]
  show iprop(((Memref.whole main_v1 : Memref sig .tc .hbm S784x64x512 .f32).view.loc (SparseCore.T c) ↦[(Memref.whole main_v1 : Memref sig .tc .hbm S784x64x512 .f32).view.set]{fullShare} Vd (dr main_v1))
      ∗ ((Memref.whole main_v3 : Memref sig .tc .hbm S1x1 .f32).view.loc (SparseCore.T c) ↦[(Memref.whole main_v3 : Memref sig .tc .hbm S1x1 .f32).view.set]{fullShare} Vd (dr main_v3))) = _
  simp only [Memref.view_whole, View.set_whole]

theorem arraysAt0_out (c : Dev nD) (n : ℕ) : ((rdats Vd 0 c).arraysAt n : sProp 𝕄) ⊢ iprop((∃ f, ptc c main_v1 f) ∗ (∃ f, ptc c main_v3 f)) := by
  refine (Entails.of_eq (bigSep_W1 _)).trans ?_
  simp only [Pipeline.RDat.share_full (rdats Vd 0 c) (fun _ => rfl)]
  show iprop((∃ G, ⌜_⌝ ∗ ((Memref.whole main_v1 : Memref sig .tc .hbm S784x64x512 .f32).view.loc (SparseCore.T c) ↦[(Memref.whole main_v1 : Memref sig .tc .hbm S784x64x512 .f32).view.set]{fullShare} G))
      ∗ (∃ G, ⌜_⌝ ∗ ((Memref.whole main_v3 : Memref sig .tc .hbm S1x1 .f32).view.loc (SparseCore.T c) ↦[(Memref.whole main_v3 : Memref sig .tc .hbm S1x1 .f32).view.set]{fullShare} G))) ⊢ _
  simp only [Memref.view_whole, View.set_whole]
  show iprop((∃ G, ⌜_⌝ ∗ ptc c main_v1 G) ∗ (∃ G, ⌜_⌝ ∗ ptc c main_v3 G)) ⊢ _
  iintro ⟨⟨%G0, -, H0⟩, ⟨%G1, -, H1⟩⟩
  isplitl [H0]; · iexists G0; iexact H0
  iexists G1; iexact H1

/-- The minimum pass as a segment of @main: entered from the activations, the result word and the `owes`; left with
    both at some contents. -/
def reg0 : Pipeline.RDat.RegionSeg (pcfgs (F := F)) adm (rdats Vd) (none : HIx 1) (defs₀ (F := F)) 𝒱₀ (K (F := F)).L (K (F := F)).lev (0 : Fin 2) where
  win := winFacts1.to₀
  block_pos := block_pos1
  stage_whole := stage_whole1
  K := PEmpty
  osem k := k.elim
  ho := Pipeline.OwnSemFacts.none _
  hbody c := body0 Vd c
  hwaits := Pipeline.RDat.hwaits_of_owed_zero (pcfgs (F := F)) adm (rdats Vd) (none : HIx 1) (K (F := F)).L (K (F := F)).lev 0 fun _ _ => rfl
  pre c := iprop(ptc c main_v1 (Vd (dr main_v1)) ∗ ptc c main_v3 (Vd (dr main_v3)) ∗ owesW c)
  post c := iprop((∃ f, ptc c main_v1 f) ∗ (∃ f, ptc c main_v3 f) ∗ owesW c)
  X _ := iprop(emp)
  Y _ := iprop(emp)
  Z _ := iprop(emp)
  hentry c := by
    rw [Pipeline.ownSems0_none, prefHeld_emp]
    iintro ⟨⟨H1, H3, HO⟩, -, -⟩
    imodintro
    isplitl [H1 H3]
    · iapply (Entails.of_eq (arrays0_eq Vd c).symm)
      isplitl [H1]; · iexact H1
      iexact H3
    isplitr; · iempintro
    isplitl [HO]; · iapply (owes_in (rdats Vd 0 c) 0 rfl rfl); iexact HO
    isplitr <;> iempintro
  hin c := by
    exact sep_elim_right.trans sep_elim_right
  hout c := by
    rw [Pipeline.ownSems0_none]
    show (Pipeline.scopedRest (Pipeline.pin (pcfgs (F := F)) adm 0).spec c : sProp 𝕄)
      ⊢ iprop(emp ∗ BI.emp ∗ Pipeline.scopedRest (Pipeline.pin (pcfgs (F := F)) adm 0).spec c)
    iintro H
    isplitr; · iempintro
    isplitr; · iempintro
    iexact H
  hexit c := by
    iintro ⟨HA, HO, -, -⟩
    imodintro
    ihave HA' := (arraysAt0_out Vd c _) $$ HA
    icases HA' with ⟨H1, H3⟩
    isplitl [H1]; · iexact H1
    isplitl [H3]; · iexact H3
    iapply (owes_out (rdats Vd 0 c) _ rfl rfl); iexact HO

omit [FloatOps F] in
set_option maxHeartbeats 2000000 in
theorem spec_pin1 : (Pipeline.pin (pcfgs (F := F)) adm 1).spec = spec2 := rfl

/-- The ablation pass's arrays: the activations, the tiles' minima, the TensorCore's minimum, the indices, the result. -/
theorem arrays1_eq (c : Dev nD) : ((rdats Vd 1 c).arrays (rdats Vd 1 c).A : sProp 𝕄)
    = iprop(ptc c main_v1 (Vd (dr main_v1)) ∗ ptc c main_v2 (Vd (dr main_v2)) ∗ ptc c main_v3 (Vd (dr main_v3)) ∗ ptc c main_v4 (Vd (dr main_v4)) ∗ ptc c main_v5 (Vd (dr main_v5))) := by
  refine (bigSep_W2 _).trans ?_
  simp only [Pipeline.RDat.share_full (rdats Vd 1 c) (fun _ => rfl)]
  show iprop(((Memref.whole main_v1 : Memref sig .tc .hbm S784x64x512 .f32).view.loc (SparseCore.T c) ↦[(Memref.whole main_v1 : Memref sig .tc .hbm S784x64x512 .f32).view.set]{fullShare} Vd (dr main_v1))
      ∗ ((Memref.whole main_v2 : Memref sig .tc .hbm S32x16 .f32).view.loc (SparseCore.T c) ↦[(Memref.whole main_v2 : Memref sig .tc .hbm S32x16 .f32).view.set]{fullShare} Vd (dr main_v2))
      ∗ ((Memref.whole main_v3 : Memref sig .tc .hbm S1x1 .f32).view.loc (SparseCore.T c) ↦[(Memref.whole main_v3 : Memref sig .tc .hbm S1x1 .f32).view.set]{fullShare} Vd (dr main_v3))
      ∗ ((Memref.whole main_v4 : Memref sig .tc .hbm S64x1 .i32).view.loc (SparseCore.T c) ↦[(Memref.whole main_v4 : Memref sig .tc .hbm S64x1 .i32).view.set]{fullShare} Vd (dr main_v4))
      ∗ ((Memref.whole main_v5 : Memref sig .tc .hbm S784x64x512 .f32).view.loc (SparseCore.T c) ↦[(Memref.whole main_v5 : Memref sig .tc .hbm S784x64x512 .f32).view.set]{fullShare} Vd (dr main_v5))) = _
  simp only [Memref.view_whole, View.set_whole]

theorem arraysAt1_out (c : Dev nD) (n : ℕ) : ((rdats Vd 1 c).arraysAt n : sProp 𝕄) ⊢ iprop((∃ f, ptc c main_v1 f) ∗ (∃ f, ptc c main_v2 f) ∗ (∃ f, ptc c main_v3 f) ∗ (∃ f, ptc c main_v4 f) ∗ (∃ f, ptc c main_v5 f)) := by
  refine (Entails.of_eq (bigSep_W2 _)).trans ?_
  simp only [Pipeline.RDat.share_full (rdats Vd 1 c) (fun _ => rfl)]
  show iprop((∃ G, ⌜_⌝ ∗ ((Memref.whole main_v1 : Memref sig .tc .hbm S784x64x512 .f32).view.loc (SparseCore.T c) ↦[(Memref.whole main_v1 : Memref sig .tc .hbm S784x64x512 .f32).view.set]{fullShare} G))
      ∗ (∃ G, ⌜_⌝ ∗ ((Memref.whole main_v2 : Memref sig .tc .hbm S32x16 .f32).view.loc (SparseCore.T c) ↦[(Memref.whole main_v2 : Memref sig .tc .hbm S32x16 .f32).view.set]{fullShare} G))
      ∗ (∃ G, ⌜_⌝ ∗ ((Memref.whole main_v3 : Memref sig .tc .hbm S1x1 .f32).view.loc (SparseCore.T c) ↦[(Memref.whole main_v3 : Memref sig .tc .hbm S1x1 .f32).view.set]{fullShare} G))
      ∗ (∃ G, ⌜_⌝ ∗ ((Memref.whole main_v4 : Memref sig .tc .hbm S64x1 .i32).view.loc (SparseCore.T c) ↦[(Memref.whole main_v4 : Memref sig .tc .hbm S64x1 .i32).view.set]{fullShare} G))
      ∗ (∃ G, ⌜_⌝ ∗ ((Memref.whole main_v5 : Memref sig .tc .hbm S784x64x512 .f32).view.loc (SparseCore.T c) ↦[(Memref.whole main_v5 : Memref sig .tc .hbm S784x64x512 .f32).view.set]{fullShare} G))) ⊢ _
  simp only [Memref.view_whole, View.set_whole]
  show iprop((∃ G, ⌜_⌝ ∗ ptc c main_v1 G) ∗ (∃ G, ⌜_⌝ ∗ ptc c main_v2 G) ∗ (∃ G, ⌜_⌝ ∗ ptc c main_v3 G) ∗ (∃ G, ⌜_⌝ ∗ ptc c main_v4 G) ∗ (∃ G, ⌜_⌝ ∗ ptc c main_v5 G)) ⊢ _
  iintro ⟨⟨%G0, -, H0⟩, ⟨%G1, -, H1⟩, ⟨%G2, -, H2⟩, ⟨%G3, -, H3⟩, ⟨%G4, -, H4⟩⟩
  isplitl [H0]; · iexists G0; iexact H0
  isplitl [H1]; · iexists G1; iexact H1
  isplitl [H2]; · iexists G2; iexact H2
  isplitl [H3]; · iexists G3; iexact H3
  iexists G4; iexact H4

/-- The ablation pass as a segment of @main: entered from its five arrays and the `owes`; left with all five at some
    contents. -/
def reg1 : Pipeline.RDat.RegionSeg (pcfgs (F := F)) adm (rdats Vd) (none : HIx 1) (defs₀ (F := F)) 𝒱₀ (K (F := F)).L (K (F := F)).lev (1 : Fin 2) where
  win := winFacts2.to₀
  block_pos := block_pos2
  stage_whole := stage_whole2
  K := PEmpty
  osem k := k.elim
  ho := Pipeline.OwnSemFacts.none _
  hbody c := body1 Vd c
  hwaits := Pipeline.RDat.hwaits_of_owed_zero (pcfgs (F := F)) adm (rdats Vd) (none : HIx 1) (K (F := F)).L (K (F := F)).lev 1 fun _ _ => rfl
  pre c := iprop(ptc c main_v1 (Vd (dr main_v1)) ∗ ptc c main_v2 (Vd (dr main_v2)) ∗ ptc c main_v3 (Vd (dr main_v3)) ∗ ptc c main_v4 (Vd (dr main_v4)) ∗ ptc c main_v5 (Vd (dr main_v5)) ∗ owesW c)
  post c := iprop((∃ f, ptc c main_v1 f) ∗ (∃ f, ptc c main_v2 f) ∗ (∃ f, ptc c main_v3 f) ∗ (∃ f, ptc c main_v4 f) ∗ (∃ f, ptc c main_v5 f) ∗ owesW c)
  X _ := iprop(emp)
  Y _ := iprop(emp)
  Z _ := iprop(emp)
  hentry c := by
    rw [Pipeline.ownSems0_none, prefHeld_emp]
    iintro ⟨⟨H1, H2, H3, H4, H5, HO⟩, -, -⟩
    imodintro
    isplitl [H1 H2 H3 H4 H5]
    · iapply (Entails.of_eq (arrays1_eq Vd c).symm)
      isplitl [H1]; · iexact H1
      isplitl [H2]; · iexact H2
      isplitl [H3]; · iexact H3
      isplitl [H4]; · iexact H4
      iexact H5
    isplitr; · iempintro
    isplitl [HO]; · iapply (owes_in (rdats Vd 1 c) 0 rfl rfl); iexact HO
    isplitr <;> iempintro
  hin c := by
    rw [spec_pin1, show (rdats Vd 1 c).Φ 0 = Pipeline.scopedRest spec2 c from rfl]
    exact sep_elim_right.trans sep_elim_right
  hout c := by
    rw [Pipeline.ownSems0_none, spec_pin1, show (rdats Vd 1 c).Φ (Fin.last (Pipeline.pin (pcfgs (F := F)) adm 1).N) = Pipeline.scopedRest spec2 c from rfl]
    generalize (Pipeline.scopedRest spec2 c : sProp 𝕄) = R
    iintro H
    isplitr; · iempintro
    isplitr; · iempintro
    iexact H
  hexit c := by
    iintro ⟨HA, HO, -, -⟩
    imodintro
    ihave HA' := (arraysAt1_out Vd c _) $$ HA
    icases HA' with ⟨H1, H2, H3, H4, H5⟩
    isplitl [H1]; · iexact H1
    isplitl [H2]; · iexact H2
    isplitl [H3]; · iexact H3
    isplitl [H4]; · iexact H4
    isplitl [H5]; · iexact H5
    iapply (owes_out (rdats Vd 1 c) _ rfl rfl); iexact HO

end Cert.Proof.KB

end
-- ==== Proof.KB.Main.lean ====
/-
  The kernel program as printed's run: @main on the TensorCore beside the SparseCore call's 2 sequencers and 32 tiles.

  @main transposes and reshapes the activations, hands them to the SparseCore call (a read share per SparseCore, the
  32 × 16 minima row by row, each tile its row), takes them back, runs the minimum pass and the ablation pass as two
  pipelines under the call's body table, each entered from the arrays it names and left with them at some contents,
  reshapes the indices between the two and the result after them. The launch deals @main the rounds ghost state of
  both pipelines' staging cells; the call's handshakes are the launch theorem's. After the one call the TensorCore
  owes nothing, and every wait a pipeline records sits at level 0. Neither argument is ever written: the run ends
  with both at their launch contents, whatever the float instance.
-/
import proofs.«202639_g54090818126251_cont_9to1c4b_462_21_alg».proof.Proof.KB.Tile
import proofs.«202639_g54090818126251_cont_9to1c4b_462_21_alg».proof.Proof.KB.Regions
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks pointsTo_toks_join)

variable {F : FTy → Type}

local notation "𝕄" => MT nD τ sig (HIx 1) (Elt F) ℕ UU ℕ

/-! ## The two pipelines' staging cells, and the launch element -/

/-- The launch element: the handshakes' rounds, the pipelines' staging cells' rounds, no counter yet. -/
def u₀ : UU := (initOf (K (F := F)).hsCells (K (F := F)).hsToks,
  (initOf (Pipeline.cells (cfgsP (F := F)) cellOf_injP) (Pipeline.launchToks (cfgsP (F := F)) cellOf_injP), 1))

/-- What @main's proof starts from besides its buffers: both pipelines' rounds ghost state. -/
abbrev G (d : Dev nD) : sProp 𝕄 := Pipeline.ghostOn (pcfgs (F := F)) adm EP Finset.univ d

theorem bigSep_emp' {I : Type} (s : Finset I) : (bigSep s fun _ => iprop(emp)) = (iprop(emp) : sProp 𝕄) := bigSep_emp_const s

variable (m : (ℓ : Loc nD τ sig) → Buf (Elt F) ℓ) (ρ : Dev nD → PrngReg)
variable [FloatOps F]

/-! ## @main's host operations before the call, and the activations as the call finds them -/

abbrev op0 : HloOp τ sig (Elt F) := StableHlo.unary main_arg0 main_v0 ((transpose S28x28x64x512 [2, 3, 0, 1] · transposes_S64x512x28x28_S28x28x64x512_2_3_0_1) : (⟨S64x512x28x28, .f32⟩ : BufTy).Contents (Elt F) → (⟨S28x28x64x512, .f32⟩ : BufTy).Contents (Elt F))
abbrev op1 : HloOp τ sig (Elt F) := StableHlo.reshape main_v0 main_v1 rfl shapeCasts_S28x28x64x512_S784x64x512

def V0 (d : Dev nD) : Valuation τ sig (Elt F) := fun b => m (d, b)
def V2 (d : Dev nD) : Valuation τ sig (Elt F) := (op1 (F := F)).result ((op0 (F := F)).result (V0 m d))
/-- The transposed, reshaped activations. -/
def Xt (d : Dev nD) : Buf (Elt F) (xtLoc d) := V2 m d (Proc.devRef .tc main_v1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (Xt m)).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  rw [show ((Emb.inl : Emb UP (UP × Counters)).trans (embR : Emb (UP × Counters) 𝕄)) = EP from rfl]
  imod (Pipeline.fund_ghost (cfgsP (F := F)) (EP (F := F)) cellOf_injP) $$ HP with ⟨Hc, Ht⟩
  imodintro
  isplitl [HH]; · iexact HH
  isplitl [Hc Ht]
  · unfold G Pipeline.ghostOn Pipeline.PerCore.ghostOn
    rw [bigSep_congr fun d _ => bigSep_sep' (Finset.univ : Finset (Fin 2)) _ _, bigSep_sep']
    isplitl [Hc]; · iexact Hc
    iexact Ht
  rw [show (bigSep Finset.univ fun thr : Thread nD τ => bigSep Finset.univ fun q : Fin 1 => (P (F := F) (Xt m)).x q thr) = bigSep Finset.univ fun _ => iprop(emp) from
    bigSep_congr fun _ _ => bigSep_univ_of_subsingleton (0 : Fin 1), bigSep_emp']
  iempintro

/-! ## What @main leaves the claim -/

abbrev a0Loc (d : Dev nD) : Loc nD τ sig := (SparseCore.T d).loc main_arg0
abbrev a1Loc (d : Dev nD) : Loc nD τ sig := (SparseCore.T d).loc main_arg1
abbrev FIN (d : Dev nD) : sProp 𝕄 := iprop((a0Loc d ↦{fullShare} m (a0Loc d)) ∗ (a1Loc d ↦{fullShare} m (a1Loc d)))

/-! ## The TensorCore's unscoped buffers, one by one -/

abbrev uc : Finset (DevRef τ sig) := Pipeline.ucRefs τ sig
abbrev pt (d : Dev nD) (b : Ref sig .tc) (W : Valuation τ sig (Elt F)) : sProp 𝕄 := ((SparseCore.T d).loc b) ↦{fullShare} W (dr b)

omit [FloatOps F] in
theorem held_uc (d : Dev nD) (W : Valuation τ sig (Elt F)) :
    (held (SparseCore.T d) uc W : sProp 𝕄)
      = iprop(pt d main_arg0 W ∗ pt d main_arg1 W ∗ pt d main_v0 W ∗ pt d main_v1 W ∗ pt d main_v2 W ∗ pt d main_v3 W ∗ pt d main_v4 W
          ∗ pt d main_v5 W ∗ pt d main_v6 W ∗ pt d main_v7 W) := by
  unfold held
  rw [bigSep_eq_bigSepL_of_eq [dr main_arg0, dr main_arg1, dr main_v0, dr main_v1, dr main_v2, dr main_v3, dr main_v4, dr main_v5, dr main_v6, dr main_v7]
    (by decide) (by decide)]
  rfl

/-! ## The minima array as 32 rows, grouped by SparseCore and tile -/

omit [FloatOps F] in
theorem rowSet_eq (r : Fin 32) : rowSet r = (row r).set := by
  show ((View.whole (main_v2_scv : Ref sig .scVector)).slice (row r)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
omit [FloatOps F] in
theorem rows_cover : (Finset.univ : Finset (Fin 32)).biUnion rowSet = Finset.univ :=
  (Finset.biUnion_congr rfl fun i _ => rowSet_eq i).trans (Rect.biUnion_part hdiv)

omit [FloatOps F] in
theorem moPts_rows (d : Dev nD) (f : Buf (Elt F) (moLoc d)) :
    (moLoc d ↦{fullShare} f : sProp 𝕄) = bigSep Finset.univ fun r : Fin 32 => moLoc d ↦[rowSet r]{fullShare} f := by
  rw [← pointsTo_biUnion Finset.univ (ℓ := moLoc d) rowSet rows_disjoint, rows_cover]; try rfl

/-- Row `2 i + c` is tile `i` of SparseCore `c`'s: the 32 rows are the 2 × 16 tiles'. -/
def rowEquiv : Fin 2 × Fin 16 ≃ Fin 32 where
  toFun x := rowOf x.1 x.2
  invFun r := (⟨r.val % 2, Nat.mod_lt _ (by decide)⟩, ⟨r.val / 2, by omega⟩)
  left_inv := fun ⟨c, i⟩ => by apply Prod.ext <;> apply Fin.ext <;> simp [rowOf] <;> omega
  right_inv := fun r => by apply Fin.ext; simp [rowOf]; omega

omit [FloatOps F] in
theorem rows_regroup (Φ : Fin 32 → sProp 𝕄) :
    bigSep Finset.univ Φ = bigSep Finset.univ fun c : Fin 2 => bigSep Finset.univ fun i : Fin 16 => Φ (rowOf c i) := by
  rw [bigSep_univ_equiv rowEquiv Φ, bigSep_univ_prod]; rfl

omit [FloatOps F] in
theorem mo_split (d : Dev nD) (f : Buf (Elt F) (moLoc d)) :
    (moLoc d ↦{fullShare} f : sProp 𝕄) ⊢ bigSep Finset.univ fun c : Fin 2 => bigSep Finset.univ fun i : Fin 16 => moRow d (rowOf c i) := by
  rw [moPts_rows, rows_regroup]
  refine bigSep_mono fun c _ => bigSep_mono fun i _ => ?_
  show (moLoc d ↦[rowSet (rowOf c i)]{fullShare} f : sProp 𝕄) ⊢ iprop(∃ g, moLoc d ↦[rowSet (rowOf c i)]{fullShare} g)
  iintro H; iexists f; iexact H

set_option maxRecDepth 4096 in
theorem mo_join (d : Dev nD) :
    (bigSep Finset.univ fun c : Fin 2 => bigSep Finset.univ fun i : Fin 16 => moRow (F := F) d (rowOf c i)) ⊢ (iprop(∃ f, moLoc d ↦{fullShare} f) : sProp 𝕄) := by
  rw [← rows_regroup (fun r => moRow (F := F) d r)]
  refine (bigSep_exists_pi Finset.univ (fun r (f : Buf (Elt F) (moLoc d)) => (moLoc d ↦[rowSet r]{fullShare} f : sProp 𝕄))).trans ?_
  iintro ⟨%fs, H⟩
  have : Nonempty (Buf (Elt F) (moLoc d)) := ⟨fs 0⟩
  ihave H' := (pointsTo_biUnion_join (ℓ := moLoc d) (q := fullShare) (Val := Elt F) Finset.univ rowSet fs (fs 0) rows_disjoint) $$ H
  icases H' with ⟨%g, -, Hg⟩
  rw [rows_cover]
  iexists g; iexact Hg

/-- What the call takes for the two SparseCores, and what it hands back. -/
theorem st0_eq (d : Dev nD) : (bigSep Finset.univ fun c : Fin ((K (F := F)).nCore 0) => (P (Xt m)).st 0 d c)
    = iprop((bigSep Finset.univ fun c : Fin 2 => xtShC (Xt m) d c) ∗ bigSep Finset.univ fun c : Fin 2 => bigSep Finset.univ fun i : Fin 16 => moRow d (rowOf c i)) := by
  rw [← bigSep_sep']; rfl
theorem dn0_eq (d : Dev nD) : (bigSep Finset.univ fun c : Fin ((K (F := F)).nCore 0) => (P (Xt m)).dn 0 d c)
    = iprop((bigSep Finset.univ fun c : Fin 2 => xtShC (Xt m) d c) ∗ bigSep Finset.univ fun c : Fin 2 => bigSep Finset.univ fun i : Fin 16 => moRow d (rowOf c i)) := by
  rw [← bigSep_sep']; rfl

/-! ## After the call: the TensorCore owes nothing more -/

omit [FloatOps F] in
theorem Otc_one (d : Dev nD) : (K (F := F)).Otc d 1 = 0 := by
  unfold SparseCore.Cfg.Otc
  refine Finset.sum_eq_zero fun q _ => if_neg ?_
  have := q.isLt; omega

/-- The rest of the TensorCore's handshake state after the one call: its position and the rounds reached. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_one (d : Dev nD) : ((K (F := F)).tcSt EH d 1 : sProp 𝕄) = iprop(owesW d ∗ tcRest d) := by
  unfold SparseCore.Cfg.tcSt tcRest owesW
  rw [Otc_one]

/-! ## A host operation over two buffers -/

theorem held_pair (d : Dev nD) (s t : Ref sig .tc) (h : dr s ≠ dr t) (W : Valuation τ sig (Elt F)) :
    (held (SparseCore.T d) {dr s, dr t} W : sProp 𝕄) = iprop(pt d s W ∗ pt d t W) := by
  unfold held
  rw [SparseCore.bigSep_insert' (by simpa using h), bigSep_singleton]

/-- A host operation that reads `s` and writes `t`: `s` keeps its contents, `t` ends at some. -/
theorem hlo_two (d : Dev nD) {hp : (SparseCore.T d : Thread nD τ).2.kind.runsHlo = true} (op : HloOp τ sig (Elt F)) (s t : Ref sig .tc)
    (hst : dr s ≠ dr t) (hb : op.bufs ⊆ {dr s, dr t}) (hw : dr s ∉ op.writes)
    (Vb : Valuation τ sig (Elt F)) (fs : Buf (Elt F) ((SparseCore.T d : Thread nD τ).loc s)) (ft : Buf (Elt F) ((SparseCore.T d : Thread nD τ).loc t))
    (Q : PUnit → sProp 𝕄) (hf : op.fresh = ∅) :
    iprop(boundary (SparseCore.T d) ∗ ptc d s fs ∗ ptc d t ft
        ∗ (iprop(boundary (SparseCore.T d) ∗ ptc d s fs ∗ (∃ f, ptc d t f)) -∗ Q ⟨⟩))
      ⊢ wp frame (wpE ((K (F := F)).defs (D (F := F))) 𝒱 (SparseCore.T d) none) Set.univ (hlo hp op (fun _ => Prog.ret ⟨⟩)) Q := by
  iintro ⟨Hb, Hs, Ht, Hk⟩
  iapply (wp_hlo_within 𝒱 (SparseCore.T d) none Set.univ (op := op) (S := {dr s, dr t}) hb
    (V := Function.update (Function.update Vb (dr s) fs) (dr t) ft) hf) $$ [Hb Hs Ht]
  · isplitl [Hb]; · iexact Hb
    rw [held_pair d s t hst]
    unfold pt
    rw [Function.update_self, Function.update_of_ne hst, Function.update_self]
    isplitl [Hs]; · iexact Hs
    iexact Ht
  iintro ⟨Hb, Hh⟩
  rw [wp_ret]
  ihave Hh' := (Entails.of_eq (held_pair d s t hst _)) $$ Hh
  icases Hh' with ⟨Hs, Ht⟩
  imodintro
  iapply Hk
  isplitl [Hb]; · iexact Hb
  isplitl [Hs]
  · unfold pt
    rw [op.result_of_not_mem _ hw, Function.update_of_ne hst, Function.update_self]
    iexact Hs
  iexists _; iexact Ht

/-! ## A valuation with the ablation pass's five arrays at given contents -/

def V5 (Vb : Valuation τ sig (Elt F)) (g1 : (dr main_v1).ty.Contents (Elt F)) (g2 : (dr main_v2).ty.Contents (Elt F)) (g3 : (dr main_v3).ty.Contents (Elt F))
    (g4 : (dr main_v4).ty.Contents (Elt F)) (g5 : (dr main_v5).ty.Contents (Elt F)) : Valuation τ sig (Elt F) :=
  Function.update (Function.update (Function.update (Function.update (Function.update Vb (dr main_v1) g1) (dr main_v2) g2) (dr main_v3) g3) (dr main_v4) g4) (dr main_v5) g5

section V5
variable (Vb : Valuation τ sig (Elt F)) (g1 : (dr main_v1).ty.Contents (Elt F)) (g2 : (dr main_v2).ty.Contents (Elt F)) (g3 : (dr main_v3).ty.Contents (Elt F))
    (g4 : (dr main_v4).ty.Contents (Elt F)) (g5 : (dr main_v5).ty.Contents (Elt F))
omit [FloatOps F] in
theorem V5_1 : V5 Vb g1 g2 g3 g4 g5 (dr main_v1) = g1 := by
  unfold V5; rw [Function.update_of_ne (by decide), Function.update_of_ne (by decide), Function.update_of_ne (by decide), Function.update_of_ne (by decide), Function.update_self]
omit [FloatOps F] in
theorem V5_2 : V5 Vb g1 g2 g3 g4 g5 (dr main_v2) = g2 := by
  unfold V5; rw [Function.update_of_ne (by decide), Function.update_of_ne (by decide), Function.update_of_ne (by decide), Function.update_self]
omit [FloatOps F] in
theorem V5_3 : V5 Vb g1 g2 g3 g4 g5 (dr main_v3) = g3 := by
  unfold V5; rw [Function.update_of_ne (by decide), Function.update_of_ne (by decide), Function.update_self]
omit [FloatOps F] in
theorem V5_4 : V5 Vb g1 g2 g3 g4 g5 (dr main_v4) = g4 := by
  unfold V5; rw [Function.update_of_ne (by decide), Function.update_self]
omit [FloatOps F] in
theorem V5_5 : V5 Vb g1 g2 g3 g4 g5 (dr main_v5) = g5 := by
  unfold V5; rw [Function.update_self]
end V5

/-! ## The arguments are never written -/

theorem V2_arg0 (d : Dev nD) : V2 m d (dr main_arg0) = m (a0Loc d) := by
  unfold V2
  rw [(op1 (F := F)).result_of_not_mem _ (fun h => StableHlo.devRef_ne_of_ne (by decide) (Finset.mem_singleton.mp h)),
    (op0 (F := F)).result_of_not_mem _ (fun h => StableHlo.devRef_ne_of_ne (by decide) (Finset.mem_singleton.mp h))]
  rfl
theorem V2_arg1 (d : Dev nD) : V2 m d (dr main_arg1) = m (a1Loc d) := by
  unfold V2
  rw [(op1 (F := F)).result_of_not_mem _ (fun h => StableHlo.devRef_ne_of_ne (by decide) (Finset.mem_singleton.mp h)),
    (op0 (F := F)).result_of_not_mem _ (fun h => StableHlo.devRef_ne_of_ne (by decide) (Finset.mem_singleton.mp h))]
  rfl

theorem hmain (κ : GSem nD τ sig → ℕ) (d : Dev nD) :
    iprop((K (F := F)).ctx EH (P (Xt m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = held (SparseCore.T d) uc (V0 m d) from Pipeline.unscopedBufs_held d (V0 m d)]
  simp only [main, wp_bind, wp_pure]
  iintro ⟨#Hctx, Hst, ⟨Hb, Hheld, -, -⟩, HG⟩
  iapply (wp_hlo_within 𝒱 (SparseCore.T d) none Set.univ (op := op0) (S := uc) (Pipeline.sub_ucRefs _ (StableHlo.unary_bufs_sub ..)) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := uc) (Pipeline.sub_ucRefs _ (StableHlo.reshape_bufs_sub ..)) (V := (op0 (F := F)).result (V0 m d))) $$ [Hb Hheld]
  · isplitl [Hb]; · iexact Hb
    iexact Hheld
  iintro ⟨Hb, Hheld⟩
  rw [wp_ret]; imodintro
  ihave Hh := (Entails.of_eq (held_uc (F := F) d _)) $$ Hheld
  icases Hh with ⟨Ha0, Ha1, Hv0, Hv1, Hv2, Hv3, Hv4, Hv5, Hv6, Hv7⟩
  -- the call: a read token of the activations per SparseCore, the minima row by row
  ihave Hv1 := (Entails.of_eq (show (pt d main_v1 ((op1 (F := F)).result ((op0 (F := F)).result (V0 m d))) : sProp 𝕄) = (xtLoc d ↦{fullShare} Xt m d) from rfl)) $$ Hv1
  ihave Hx := (pointsTo_toks (ℓ := xtLoc d) (S := Finset.univ) (f := Xt m d) fullShare 2).1 $$ Hv1
  icases Hx with ⟨Hxd, Hxt⟩
  ihave Ho := (mo_split (F := F) d _) $$ Hv2
  iapply ((K (F := F)).wp_run (D (F := F)) 𝒱 (EH := EH) (P := P (Xt m)) κ d 0) $$ [Hst Hxt Ho Hxd Ha0 Ha1 Hv0 Hv3 Hv4 Hv5 Hv6 Hv7 Hb HG]
  isplitr; · iexact Hctx
  isplitl [Hst]; · iexact Hst
  isplitl [Hxt Ho]
  · rw [st0_eq]
    isplitl [Hxt]; · iexact Hxt
    iexact Ho
  iintro ⟨Hst, Hdn⟩
  ihave Hdn' := (Entails.of_eq (dn0_eq m d)) $$ Hdn
  icases Hdn' with ⟨Hxt, Ho⟩
  ihave Hv1 := (pointsTo_toks_join (ℓ := xtLoc d) (S := Finset.univ) (f := Xt m d) fullShare 2) $$ [Hxd Hxt]
  · isplitl [Hxd]; · iexact Hxd
    iexact Hxt
  ihave Hv2 := (mo_join (F := F) d) $$ Ho
  icases Hv2 with ⟨%f2, Hv2⟩
  -- the buffers, each as a points-to at the valuation the two transposing operations left
  ihave Ha0 := (Entails.of_eq (show (pt d main_arg0 ((op1 (F := F)).result ((op0 (F := F)).result (V0 m d))) : sProp 𝕄) = ptc d main_arg0 (V2 m d (dr main_arg0)) from rfl)) $$ Ha0
  ihave Ha1 := (Entails.of_eq (show (pt d main_arg1 ((op1 (F := F)).result ((op0 (F := F)).result (V0 m d))) : sProp 𝕄) = ptc d main_arg1 (V2 m d (dr main_arg1)) from rfl)) $$ Ha1
  ihave Hv3 := (Entails.of_eq (show (pt d main_v3 ((op1 (F := F)).result ((op0 (F := F)).result (V0 m d))) : sProp 𝕄) = ptc d main_v3 (V2 m d (dr main_v3)) from rfl)) $$ Hv3
  ihave Hv4 := (Entails.of_eq (show (pt d main_v4 ((op1 (F := F)).result ((op0 (F := F)).result (V0 m d))) : sProp 𝕄) = ptc d main_v4 (V2 m d (dr main_v4)) from rfl)) $$ Hv4
  ihave Hv5 := (Entails.of_eq (show (pt d main_v5 ((op1 (F := F)).result ((op0 (F := F)).result (V0 m d))) : sProp 𝕄) = ptc d main_v5 (V2 m d (dr main_v5)) from rfl)) $$ Hv5
  ihave Hv6 := (Entails.of_eq (show (pt d main_v6 ((op1 (F := F)).result ((op0 (F := F)).result (V0 m d))) : sProp 𝕄) = ptc d main_v6 (V2 m d (dr main_v6)) from rfl)) $$ Hv6
  ihave Hv7 := (Entails.of_eq (show (pt d main_v7 ((op1 (F := F)).result ((op0 (F := F)).result (V0 m d))) : sProp 𝕄) = ptc d main_v7 (V2 m d (dr main_v7)) from rfl)) $$ Hv7
  ihave Hv1 := (Entails.of_eq (show ((xtLoc d ↦{fullShare} Xt m d) : sProp 𝕄) = ptc d main_v1 (V2 m d (dr main_v1)) from rfl)) $$ Hv1
  ihave Hv2 := (Entails.of_eq (show ((moLoc d ↦{fullShare} f2) : sProp 𝕄) = ptc d main_v2 f2 from rfl)) $$ Hv2
  -- after the one call the TensorCore owes nothing more
  ihave Hst := (Entails.of_eq (show ((K (F := F)).tcSt EH d ((0 : Fin 1).val + 1) : sProp 𝕄) = iprop(owesW d ∗ tcRest d) from tcSt_one d)) $$ Hst
  icases Hst with ⟨HO, Hrest⟩
  ihave Hlv := ((K (F := F)).ctx_levAts (EH := EH) (P := P (Xt m)) κ) $$ Hctx
  ihave HG' := (Entails.of_eq (Pipeline.PerCore.ghostOn_erase (pcfgs (F := F)) (fun _ => adm) EP (S := Finset.univ) (p := (0 : Fin 2)) (Finset.mem_univ _) d)) $$ HG
  icases HG' with ⟨⟨Hcg0, Htk0⟩, HG⟩
  ihave HG' := (Entails.of_eq (Pipeline.PerCore.ghostOn_erase (pcfgs (F := F)) (fun _ => adm) EP (S := Finset.univ.erase 0) (p := (1 : Fin 2)) (by decide) d)) $$ HG
  icases HG' with ⟨⟨Hcg1, Htk1⟩, -⟩
  -- THE MINIMUM PASS
  iapply ((K (F := F)).wp_liftProg (D (F := F)) 𝒱 (SparseCore.T d) Set.univ none (Prog.lift (.customCall (Pipeline.entry 0) ())) _)
  iapply (Pipeline.RDat.RegionSeg.wp (pcfgs (F := F)) adm (rdats (V2 m d)) (none : HIx 1) cellOf_injP EP (defs₀ (F := F)) 𝒱₀ (K (F := F)).L (K (F := F)).lev
      (reg0 (V2 m d)) d none (fun u hu => nomatch hu) (fun a => Prog.ret a) _) $$ [Hb Hv1 Hv3 HO Hcg0 Htk0 Ha0 Ha1 Hv0 Hv2 Hv4 Hv5 Hv6 Hv7 Hrest Hcg1 Htk1]
  isplitr [Hb Hv1 Hv3 HO Hcg0 Htk0]
  swap
  · isplitl [Hb]; · iexact Hb
    isplitl [Hv1 Hv3 HO]
    · rw [show ((reg0 (V2 m d)).pre d : sProp 𝕄) = iprop(ptc d main_v1 (V2 m d (dr main_v1)) ∗ ptc d main_v3 (V2 m d (dr main_v3)) ∗ owesW d) from rfl]
      isplitl [Hv1]; · iexact Hv1
      isplitl [Hv3]; · iexact Hv3
      iexact HO
    isplitr; · iexact Hlv
    isplitl [Hcg0]; · iexact Hcg0
    iexact Htk0
  iintro ⟨Hb, Hpost⟩
  ihave Hpost := (Entails.of_eq (show ((reg0 (V2 m d)).post d : sProp 𝕄) = iprop((∃ f, ptc d main_v1 f) ∗ (∃ f, ptc d main_v3 f) ∗ owesW d) from rfl)) $$ Hpost
  icases Hpost with ⟨⟨%g1, Hv1⟩, ⟨%g3, Hv3⟩, HO⟩
  rw [wp_ret]; imodintro
  -- the indices reshaped to a column
  iapply (hlo_two d _ main_arg1 main_v4 (by decide) (fun _ h => h) (fun h => absurd (Finset.mem_singleton.mp h) (by decide)) (V2 m d) _ _ _ rfl)
    $$ [Hb Ha1 Hv4 Hv1 Hv3 HO Ha0 Hv0 Hv2 Hv5 Hv6 Hv7 Hrest Hcg1 Htk1]
  isplitl [Hb]; · iexact Hb
  isplitl [Ha1]; · iexact Ha1
  isplitl [Hv4]; · iexact Hv4
  iintro ⟨Hb, Ha1, ⟨%g4, Hv4⟩⟩
  -- THE ABLATION PASS
  iapply ((K (F := F)).wp_liftProg (D (F := F)) 𝒱 (SparseCore.T d) Set.univ none (Prog.lift (.customCall (Pipeline.entry 1) ())) _)
  iapply (Pipeline.RDat.RegionSeg.wp (pcfgs (F := F)) adm (rdats (V5 (V2 m d) g1 f2 g3 g4 (V2 m d (dr main_v5)))) (none : HIx 1) cellOf_injP EP (defs₀ (F := F)) 𝒱₀
      (K (F := F)).L (K (F := F)).lev (reg1 (V5 (V2 m d) g1 f2 g3 g4 (V2 m d (dr main_v5)))) d none (fun u hu => nomatch hu) (fun a => Prog.ret a) _)
    $$ [Hb Hv1 Hv2 Hv3 Hv4 Hv5 HO Hcg1 Htk1 Ha0 Ha1 Hv0 Hv6 Hv7 Hrest]
  isplitr [Hb Hv1 Hv2 Hv3 Hv4 Hv5 HO Hcg1 Htk1]
  swap
  · isplitl [Hb]; · iexact Hb
    isplitl [Hv1 Hv2 Hv3 Hv4 Hv5 HO]
    · rw [show ((reg1 (V5 (V2 m d) g1 f2 g3 g4 (V2 m d (dr main_v5)))).pre d : sProp 𝕄)
          = iprop(ptc d main_v1 (V5 (V2 m d) g1 f2 g3 g4 (V2 m d (dr main_v5)) (dr main_v1)) ∗ ptc d main_v2 (V5 (V2 m d) g1 f2 g3 g4 (V2 m d (dr main_v5)) (dr main_v2))
            ∗ ptc d main_v3 (V5 (V2 m d) g1 f2 g3 g4 (V2 m d (dr main_v5)) (dr main_v3)) ∗ ptc d main_v4 (V5 (V2 m d) g1 f2 g3 g4 (V2 m d (dr main_v5)) (dr main_v4))
            ∗ ptc d main_v5 (V5 (V2 m d) g1 f2 g3 g4 (V2 m d (dr main_v5)) (dr main_v5)) ∗ owesW d) from rfl,
        V5_1, V5_2, V5_3, V5_4, V5_5]
      isplitl [Hv1]; · iexact Hv1
      isplitl [Hv2]; · iexact Hv2
      isplitl [Hv3]; · iexact Hv3
      isplitl [Hv4]; · iexact Hv4
      isplitl [Hv5]; · iexact Hv5
      iexact HO
    isplitr; · iexact Hlv
    isplitl [Hcg1]; · iexact Hcg1
    iexact Htk1
  iintro ⟨Hb, Hpost⟩
  ihave Hpost := (Entails.of_eq (show ((reg1 (V5 (V2 m d) g1 f2 g3 g4 (V2 m d (dr main_v5)))).post d : sProp 𝕄)
      = iprop((∃ f, ptc d main_v1 f) ∗ (∃ f, ptc d main_v2 f) ∗ (∃ f, ptc d main_v3 f) ∗ (∃ f, ptc d main_v4 f) ∗ (∃ f, ptc d main_v5 f) ∗ owesW d) from rfl)) $$ Hpost
  icases Hpost with ⟨-, -, -, -, ⟨%h5, Hv5⟩, HO⟩
  rw [wp_ret]; imodintro
  -- the result reshaped and transposed back
  iapply (hlo_two d _ main_v5 main_v6 (by decide) (fun _ h => h) (fun h => absurd (Finset.mem_singleton.mp h) (by decide)) (V2 m d) _ _ _ rfl)
    $$ [Hb Hv5 Hv6 HO Ha0 Ha1 Hv7 Hrest]
  isplitl [Hb]; · iexact Hb
  isplitl [Hv5]; · iexact Hv5
  isplitl [Hv6]; · iexact Hv6
  iintro ⟨Hb, -, ⟨%h6, Hv6⟩⟩
  iapply (hlo_two d _ main_v6 main_v7 (by decide) (fun _ h => h) (fun h => absurd (Finset.mem_singleton.mp h) (by decide)) (V2 m d) _ _ _ rfl)
    $$ [Hb Hv6 Hv7 HO Ha0 Ha1 Hrest]
  isplitl [Hb]; · iexact Hb
  isplitl [Hv6]; · iexact Hv6
  isplitl [Hv7]; · iexact Hv7
  iintro ⟨-, -, -⟩
  imodintro
  isplitl [HO Hrest]
  · rw [tcSt_one]
    isplitl [HO]; · iexact HO
    iexact Hrest
  unfold FIN
  rw [← V2_arg0 m d, ← V2_arg1 m d]
  isplitl [Ha0]; · iexact Ha0
  iexact Ha1

def fq (d : Dev nD) (s' : Phys nD τ sig (Elt F)) : Prop := s'.mem.mem (a0Loc d) = m (a0Loc d) ∧ s'.mem.mem (a1Loc d) = m (a1Loc d)

set_option maxRecDepth 16384 in
theorem hfin (d : Dev nD) (s' : Phys nD τ sig (Elt F)) : iprop(FIN m d ∗ SI s') ⊢ (⌜fq m d s'⌝ : sProp 𝕄) := by
  iintro ⟨⟨H0, H1⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h1, HSI, -⟩
  ihave H := (SI_pointsTo_agree (st := s') (ℓ := a1Loc d) (I := Finset.univ) (q := fullShare) (f := m (a1Loc d))) $$ [HSI H1]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (a0Loc c) = m (a0Loc c) ∧ r.2.mem (a1Loc c) = m (a1Loc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (Xt m)) facts v₀
    (fun q hq => match q with | 0 => nomatch hq)
    (fun q _ => match q with | 0 => tileObl (Xt m) facts)
    (fun q _ => match q with | 0 => SparseCore.Cfg.VecSplit.of_plain (vecSplit (Xt m)))
    m ρ main (fun d => G d) (FIN m) (u₀ (F := F)) (sep_elim_left.trans (hu₀ m)) (hmain m ρ) (fq m) (hfin m) (QC m) (fun _ h => h)

end Cert.Proof.KB

end
-- ==== Proof.RefFrame.lean ====
/-
  The reference program's frame. The reference is a counted host loop of 64 trips; its generated run gives every
  buffer at the end as the loop's fold over the launch contents. No operation of the program — none before the loop,
  none of the loop's condition, none of its body — writes an argument buffer, so the fold leaves both arguments at
  their launch contents, whatever the number of trips.
-/
import proofs.«202639_g54090818126251_cont_9to1c4b_462_21_alg».proof.Defs
import proofs.«202639_g54090818126251_cont_9to1c4b_462_21_alg».proof.Proof.Gen.ReferenceIdeal
import proofs.«202639_g54090818126251_cont_9to1c4b_462_21_alg».proof.Proof.Gen.ReferenceIdeal.Run
import proofs.«202639_g54090818126251_cont_9to1c4b_462_21_alg».proof.Proof.Gen.Pre_input_domain

noncomputable section

namespace Cert.Proof.RefSide

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]

/-- The two argument buffers. -/
def IsArg (b : Ref sig .tc) : Prop := b = main_arg0 ∨ b = main_arg1

set_option maxRecDepth 100000 in
set_option maxHeartbeats 4000000 in
theorem arg_hostOps0 {b : Ref sig .tc} (hb : IsArg b) :
    ∀ op ∈ (hostOps0 : List (HloOp τ sig (Elt F))), Proc.devRef .tc b ∉ op.writes := by
  rcases hb with rfl | rfl <;> intro op hop <;> fin_cases hop <;>
    exact fun h => devRef_ne_of_ne (by decide) (Finset.mem_singleton.mp h)

set_option maxRecDepth 100000 in
set_option maxHeartbeats 4000000 in
theorem arg_condOps {b : Ref sig .tc} (hb : IsArg b) :
    ∀ op ∈ (condOps : List (HloOp τ sig (Elt F))), Proc.devRef .tc b ∉ op.writes := by
  rcases hb with rfl | rfl <;> intro op hop <;> fin_cases hop <;>
    exact fun h => devRef_ne_of_ne (by decide) (Finset.mem_singleton.mp h)

set_option maxRecDepth 100000 in
set_option maxHeartbeats 4000000 in
theorem arg_while0Ops0 {b : Ref sig .tc} (hb : IsArg b) :
    ∀ op ∈ (while0Ops0 : List (HloOp τ sig (Elt F))), Proc.devRef .tc b ∉ op.writes := by
  rcases hb with rfl | rfl <;> intro op hop <;> fin_cases hop <;>
    exact fun h => devRef_ne_of_ne (by decide) (Finset.mem_singleton.mp h)

set_option maxRecDepth 100000 in
set_option maxHeartbeats 4000000 in
theorem arg_while0Ops0_1 {b : Ref sig .tc} (hb : IsArg b) :
    ∀ op ∈ (while0Ops0_1 : List (HloOp τ sig (Elt F))), Proc.devRef .tc b ∉ op.writes := by
  rcases hb with rfl | rfl <;> intro op hop <;> fin_cases hop <;>
    exact fun h => devRef_ne_of_ne (by decide) (Finset.mem_singleton.mp h)

set_option maxRecDepth 100000 in
set_option maxHeartbeats 4000000 in
theorem arg_while0Ops0_2 {b : Ref sig .tc} (hb : IsArg b) :
    ∀ op ∈ (while0Ops0_2 : List (HloOp τ sig (Elt F))), Proc.devRef .tc b ∉ op.writes := by
  rcases hb with rfl | rfl <;> intro op hop <;> fin_cases hop <;>
    exact fun h => devRef_ne_of_ne (by decide) (Finset.mem_singleton.mp h)

variable (m : (ℓ : Loc nD τ sig) → Buf (Elt F) ℓ)

/-- Before every run of the condition an argument buffer holds its launch contents. -/
theorem atK_arg {b : Ref sig .tc} (hb : IsArg b) (c : Dev nD) :
    ∀ k, atK m k c (Proc.devRef .tc b) = launchContents m c (Proc.devRef .tc b)
  | 0 => by
    rw [show atK m 0 c = entryContents preI m c from rfl]
    simp only [entryContents, afterL_cons, afterL_nil]
    exact after_of_forall_not_mem _ _ (arg_hostOps0 hb)
  | k + 1 => by
    rw [show atK m (k + 1) c = afterL bodyI (after condOps (atK m k c)) from rfl]
    simp only [afterL_cons, afterL_nil]
    rw [after_of_forall_not_mem _ _ (arg_while0Ops0_2 hb), after_of_forall_not_mem _ _ (arg_while0Ops0_1 hb),
      after_of_forall_not_mem _ _ (arg_while0Ops0 hb), after_of_forall_not_mem _ _ (arg_condOps hb), atK_arg hb c k]

/-- At the program's end an argument buffer holds its launch contents. -/
theorem final_arg {b : Ref sig .tc} (hb : IsArg b) (c : Dev nD) :
    finalContents condOps preI bodyI postI 64 m c (Proc.devRef .tc b) = m ((c.tc : Thread nD τ).loc b) := by
  show afterL postI (after condOps (atK m 64 c)) (Proc.devRef .tc b) = _
  simp only [afterL_nil]
  rw [after_of_forall_not_mem _ _ (arg_condOps hb), atK_arg m hb c 64]

end Cert.Proof.RefSide

namespace Cert.Proof

open Idealize.ShloMosaic Idealize.ShloMosaic.TcCoe Idealize.SL.Sem

/-- The reference runs to the end, faults nowhere, and leaves both arguments as it found them. -/
theorem frame_ri : Cert.frame_ReferenceIdeal := fun m ρ _ =>
  (θ_run Cert.ReferenceIdeal.defs _ _).mono
    (fun r h c => ⟨(h c Cert.ReferenceIdeal.main_arg0 (by decide)).trans (RefSide.final_arg m (.inl rfl) c),
      (h c Cert.ReferenceIdeal.main_arg1 (by decide)).trans (RefSide.final_arg m (.inr rfl) c)⟩)
    (Cert.ReferenceIdeal.Value.run_fold (F := Ideal) m ρ)

end Cert.Proof

end
-- ==== Proof.Frames.lean ====
/-
  The three frames. Each kernel program's is its run with nothing kept but the arguments; the reference's is its
  generated run's.
-/
import proofs.«202639_g54090818126251_cont_9to1c4b_462_21_alg».proof.Defs
import proofs.«202639_g54090818126251_cont_9to1c4b_462_21_alg».proof.Proof.KI.Main
import proofs.«202639_g54090818126251_cont_9to1c4b_462_21_alg».proof.Proof.KB.Main
import proofs.«202639_g54090818126251_cont_9to1c4b_462_21_alg».proof.Proof.RefFrame

noncomputable section

namespace Cert.Proof

open Idealize.ShloMosaic Idealize.SL.Sem

/-- The kernel as printed, at the word-level instance: it runs to the end and leaves both arguments as it found them. -/
theorem frame_p : Cert.frame_Kernel := fun m ρ _ =>
  (θ_run Cert.Kernel.defs _ _).mono (fun _ h c => h c) (Cert.Proof.KB.run_main (F := Bits) m ρ)

/-- The idealized kernel, at the ideal instance. -/
theorem frame_pi : Cert.frame_KernelIdeal := fun m ρ _ =>
  (θ_run Cert.KernelIdeal.defs _ _).mono (fun _ h c => h c) (Cert.Proof.KI.run_main (F := Ideal) m ρ)

/-- The ideal pass rewrote nothing: there is nothing to preserve. -/
theorem preserves : Cert.preserves_Kernel_KernelIdeal := trivial

end Cert.Proof

end
-- ==== Proof.Spec.lean ====
/-
  What both programs compute, over the extended reals, as one function of the two arguments.

  Let μ be the least entry of the activations x : [64, 512, 28, 28]. One step of the ablation value is
  step s = 0 if s = 0 and s − 10⁷ otherwise (10⁷ is the float 0x4B189680, an integer below 2²⁴, exact). The result keeps
  every entry of x except the 28 × 28 plane at channel idx[b] of batch row b, which is filled with step^(b+1)(μ).

  The SparseCore tiles see the activations transposed, xt[28 h + w, b, c] = x[b, c, h, w], and tile r of the 32 reduces
  planes 560 + 7 r … 560 + 7 r + 6 (fourteen half planes of 32 batch rows) lane by lane: lane l of its row is the least
  xt[p, 32 (u mod 2) + b, 16 j + l] over its units u < 14, with p = 560 + 7 r + u / 2, rows b < 32 and chunks j < 32.
-/
import Idealize.ShloMosaic.PureOps.Ideal
import Idealize.ShloMosaic.Lib.ValueIdx

noncomputable section

namespace Cert.Spec

open Idealize.ShloMosaic Idealize.ShloMosaic.ValueIdx

abbrev SX : Shape := ⟨4, ![64, 512, 28, 28]⟩
abbrev SI : Shape := ⟨1, ![64]⟩
abbrev ST : Shape := ⟨3, ![784, 64, 512]⟩
abbrev SM : Shape := ⟨2, ![32, 16]⟩

/-- The ablation constant, 10⁷, as the programs spell it. -/
def c1e7 : EReal := Ideal.ofBits .f32 0x4B189680#32

/-- One step of the ablation value. -/
def step (s : EReal) : EReal := if s = 0 then 0 else s - c1e7

/-- The least entry of the activations. -/
def mu (x : SX.Idx → EReal) : EReal := Finset.univ.inf x

/-- The result: x with the plane at channel `idx b` of batch row `b` filled with `step^(b+1) (mu x)`. -/
def G (x : SX.Idx → EReal) (idx : SI.Idx → BitVec 32) : SX.Idx → EReal :=
  fun i => if (i 1).val = (idx (ix1 (i 0))).toNat then step^[(i 0).val + 1] (mu x) else x i

/-- Lane `l` of tile `r`'s row of minima, of the transposed activations `xt`. -/
def tileRow (xt : ST.Idx → EReal) (r : Fin 32) (l : Fin 16) : EReal :=
  (Finset.univ : Finset (Fin 14 × Fin 32 × Fin 32)).inf fun t =>
    xt (ix3 ⟨560 + 7 * r.val + t.1.val / 2, by omega⟩ ⟨32 * (t.1.val % 2) + t.2.1.val, by omega⟩ ⟨16 * t.2.2.val + l.val, by omega⟩)

abbrev SW : Shape := ⟨2, ![1, 1]⟩
abbrev SC : Shape := ⟨2, ![64, 1]⟩

/-- The least entry of the first 560 planes of the transposed activations: what the TensorCore's minimum pass leaves. -/
def tcMin (xt : ST.Idx → EReal) : EReal :=
  (Finset.univ : Finset (Fin 560 × Fin 64 × Fin 512)).inf fun t => xt (ix3 ⟨t.1.val, by omega⟩ t.2.1 t.2.2)

/-- The ablation pass's result, of the transposed activations `xt`, the tiles' minima `mins`, the TensorCore's minimum
    word `mtc` and the index column `idx`: batch row `b`'s value is `step^(b+1)` of the least of all the minima, and
    lane `c` of row `b` of every plane takes it where the lane's number, as a 32-bit word, is `idx b`. -/
def applyOut (xt : ST.Idx → EReal) (mins : SM.Idx → EReal) (mtc : SW.Idx → EReal) (idx : SC.Idx → BitVec 32) : ST.Idx → EReal :=
  fun i => if BitVec.ofNat 32 (i 2).val = idx (ix2 (i 1) 0)
    then step^[(i 1).val + 1] (min (Finset.univ.inf mins) (mtc (ix2 0 0))) else xt i

end Cert.Spec

end
-- ==== Proof.KIV.Pay.lean ====
/-
  The SparseCore call's payloads at the ideal instance, with the values: a tile hands back its row of the minima with
  every lane at the least of the activations it was handed (the specification's `tileRow`); a SparseCore hands back
  its sixteen rows so.
-/
import proofs.«202639_g54090818126251_cont_9to1c4b_462_21_alg».proof.Proof.KI.Base
import proofs.«202639_g54090818126251_cont_9to1c4b_462_21_alg».proof.Proof.Spec
import Idealize.ShloMosaic.Lib.Transfers

noncomputable section

namespace Cert.Proof.KIV

open Cert.Proof.KI (K D 𝒱₀ 𝒱 v₀ facts UH UP UU EH EP nSub_zero nCore_zero)

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks pointsTo_toks_join)

local notation "𝕄" => MT nD τ sig (HIx 1) (Elt Ideal) ℕ UU ℕ

/-! ## The arrays the call works on -/

/-- The transposed activations (the call's one operand) and the per-tile minima (its result), as locations of device `d`. -/
abbrev xtLoc (d : Dev nD) : Loc nD τ sig := (SparseCore.T d).loc main_v1
abbrev moLoc (d : Dev nD) : Loc nD τ sig := (SparseCore.T d).loc main_v2

local notation "xtV" => (Memref.whole Cert.KernelIdeal.main_v1_scv : Memref Cert.KernelIdeal.sig Kind.scVector Space.hbm Cert.KernelIdeal.S784x64x512 EltTy.f32)
local notation "moV" => (Memref.whole Cert.KernelIdeal.main_v2_scv : Memref Cert.KernelIdeal.sig Kind.scVector Space.hbm Cert.KernelIdeal.S32x16 EltTy.f32)
local notation "b0V" => (Memref.whole Cert.KernelIdeal.cc0_scratch0 : Memref Cert.KernelIdeal.sig Kind.scVector Space.vmem Cert.KernelIdeal.S32x512 EltTy.f32)
local notation "b1V" => (Memref.whole Cert.KernelIdeal.cc0_scratch1 : Memref Cert.KernelIdeal.sig Kind.scVector Space.vmem Cert.KernelIdeal.S32x512 EltTy.f32)
local notation "acV" => (Memref.whole Cert.KernelIdeal.cc0_scratch2 : Memref Cert.KernelIdeal.sig Kind.scVector Space.vmem Cert.KernelIdeal.S16 EltTy.f32)

/-- Row `r` of the minima: one tile's sixteen lanes. -/
theorem hdiv : 32 ∣ S32x16.size 0 := ⟨1, rfl⟩
abbrev row (r : Fin 32) : Rect S32x16 := Rect.part (s := S32x16) (a₀ := 0) hdiv r
abbrev rowSet (r : Fin 32) : Finset S32x16.Idx := ((moV).view.slice (row r)).set
/-- The row tile `i` of SparseCore `c` writes: `2 i + c`. -/
def rowOf (c : Fin 2) (i : Fin 16) : Fin 32 := ⟨2 * i.val + c.val, by omega⟩

/-- The read share of the activations SparseCore `c` is handed, and tile `i`'s part of it. -/
abbrev qC (c : Fin 2) : PosShare TreeShare := shareTok fullShare 2 c
abbrev qT (c : Fin 2) (i : Fin 16) : PosShare TreeShare := shareTok (qC c) 16 i

variable (X : (d : Dev nD) → Buf (Elt Ideal) (xtLoc d))

/-! ## What the handshakes carry -/

abbrev xtShC (d : Dev nD) (c : Fin 2) : sProp 𝕄 := xtLoc d ↦{qC c} X d
abbrev xtShT (d : Dev nD) (c : Fin 2) (i : Fin 16) : sProp 𝕄 := xtLoc d ↦{qT c i} X d
abbrev moRow (d : Dev nD) (r : Fin 32) : sProp 𝕄 := iprop(∃ f, moLoc d ↦[rowSet r]{fullShare} f)
/-- Row `r` of the minima with every lane at the tile's minimum of the activations `X d`. -/
abbrev moRowV (d : Dev nD) (r : Fin 32) : sProp 𝕄 :=
  iprop(∃ f : Buf (Elt Ideal) (moLoc d), ⌜∀ l : Fin 16, f (ValueIdx.ix2 r l) = Cert.Spec.tileRow (X d) r l⌝ ∗ moLoc d ↦[rowSet r]{fullShare} f)

/-- The call hands SparseCore `c` a read share of the activations and the sixteen rows of the minima its tiles write;
    each tile a part of that share and its row; and brings them back, the rows at what the tiles left. -/
def P : (K (F := Ideal)).Pay (nD := nD) (Val := Elt Ideal) (Name := ℕ) (U := UU) where
  st := fun q d c => match q with
    | 0 => iprop(xtShC X d (Fin.cast nCore_zero c) ∗ bigSep Finset.univ fun i : Fin 16 => moRow d (rowOf (Fin.cast nCore_zero c) i))
  dn := fun q d c => match q with
    | 0 => iprop(xtShC X d (Fin.cast nCore_zero c) ∗ bigSep Finset.univ fun i : Fin 16 => moRowV X d (rowOf (Fin.cast nCore_zero c) i))
  go := fun q d c i => match q with
    | 0 => iprop(xtShT X d (Fin.cast nCore_zero c) (Fin.cast nSub_zero i) ∗ moRow d (rowOf (Fin.cast nCore_zero c) (Fin.cast nSub_zero i)))
  td := fun q d c i => match q with
    | 0 => iprop(xtShT X d (Fin.cast nCore_zero c) (Fin.cast nSub_zero i) ∗ moRowV X d (rowOf (Fin.cast nCore_zero c) (Fin.cast nSub_zero i)))
  x := fun _ _ => iprop(emp)

instance P_storable : (P X).IsStorable where
  st q d c := match q with
    | 0 => (inferInstance : BI.Storable (upEmb : UEmb _ 𝕄)
        iprop(xtShC X d (Fin.cast nCore_zero c) ∗ bigSep Finset.univ fun i : Fin 16 => moRow d (rowOf (Fin.cast nCore_zero c) i)))
  dn q d c := match q with
    | 0 => (inferInstance : BI.Storable (upEmb : UEmb _ 𝕄)
        iprop(xtShC X d (Fin.cast nCore_zero c) ∗ bigSep Finset.univ fun i : Fin 16 => moRowV X d (rowOf (Fin.cast nCore_zero c) i)))
  go q d c i := match q with
    | 0 => (inferInstance : BI.Storable (upEmb : UEmb _ 𝕄)
        iprop(xtShT X d (Fin.cast nCore_zero c) (Fin.cast nSub_zero i) ∗ moRow d (rowOf (Fin.cast nCore_zero c) (Fin.cast nSub_zero i))))
  td q d c i := match q with
    | 0 => (inferInstance : BI.Storable (upEmb : UEmb _ 𝕄)
        iprop(xtShT X d (Fin.cast nCore_zero c) (Fin.cast nSub_zero i) ∗ moRowV X d (rowOf (Fin.cast nCore_zero c) (Fin.cast nSub_zero i))))

end Cert.Proof.KIV

end
-- ==== Proof.Bridge.lean ====
/-
  The two sides meet: the ablation pass's result, read back through the transposition, is the specification.

  The transposed activations are xt[28 h + w, b, c] = x[b, c, h, w]. Every entry of xt is an entry of x and conversely;
  the 32 tiles' rows cover planes 560 … 783 (plane p is tile (p − 560) / 7's, unit 2 ((p − 560) mod 7) + b / 32, row
  b mod 32, chunk c / 16, lane c mod 16) and the TensorCore's minimum covers planes 0 … 559: so the least of all the
  minima is the least entry of x. A lane's number c < 512, as a 32-bit word, is idx b exactly when c is idx b's value.
-/
import proofs.«202639_g54090818126251_cont_9to1c4b_462_21_alg».proof.Proof.Spec

noncomputable section

namespace Cert.Spec

open Idealize.ShloMosaic Idealize.ShloMosaic.ValueIdx

/-- The transposed activations: plane `28 h + w`, row `b`, lane `c` is `x[b, c, h, w]`. -/
def xtOf (x : SX.Idx → EReal) : ST.Idx → EReal :=
  fun i => x (ix4 (i 1) (i 2) ⟨(i 0).val / 28, by have : (i 0).val < 784 := (i 0).isLt; omega⟩ ⟨(i 0).val % 28, Nat.mod_lt _ (by decide)⟩)

theorem xtOf_ix3 (x : SX.Idx → EReal) (p : Fin 784) (b : Fin 64) (c : Fin 512) :
    xtOf x (ix3 p b c) = x (ix4 b c ⟨p.val / 28, by omega⟩ ⟨p.val % 28, Nat.mod_lt _ (by decide)⟩) := rfl

/-- Every entry of the transposed activations is an entry of the activations: it is at least their least entry. -/
theorem mu_le_xtOf (x : SX.Idx → EReal) (i : ST.Idx) : mu x ≤ xtOf x i := Finset.inf_le (Finset.mem_univ _)

/-- The least of the tiles' rows and the TensorCore's minimum is the least entry of the activations. -/
theorem mins_eq_mu (x : SX.Idx → EReal) (mins : SM.Idx → EReal) (mtc : SW.Idx → EReal)
    (hm : ∀ (r : Fin 32) (l : Fin 16), mins (ix2 r l) = tileRow (xtOf x) r l) (ht : mtc (ix2 0 0) = tcMin (xtOf x)) :
    min (Finset.univ.inf mins) (mtc (ix2 0 0)) = mu x := by
  apply le_antisymm
  · -- below every entry of x: find the tile's term, or the TensorCore's, that is that entry
    refine Finset.le_inf fun i _ => ?_
    obtain ⟨b, c, h, w, rfl⟩ : ∃ (b : Fin 64) (c : Fin 512) (h w : Fin 28), i = ix4 b c h w := ⟨i 0, i 1, i 2, i 3, eq_ix4 i⟩
    by_cases hp : 28 * h.val + w.val < 560
    · refine (min_le_right _ _).trans ?_
      rw [ht]
      refine (Finset.inf_le (Finset.mem_univ ((⟨28 * h.val + w.val, hp⟩, b, c) : Fin 560 × Fin 64 × Fin 512))).trans (le_of_eq ?_)
      rw [xtOf_ix3]
      congr 1
      refine congrArg₂ (ix4 b c) (Fin.ext ?_) (Fin.ext ?_)
      · show (28 * h.val + w.val) / 28 = h.val
        have := w.isLt; omega
      · show (28 * h.val + w.val) % 28 = w.val
        have := w.isLt; omega
    · refine (min_le_left _ _).trans ?_
      have hw := w.isLt; have hh := h.isLt; have hb := b.isLt; have hc := c.isLt
      let q : ℕ := 28 * h.val + w.val - 560
      have hq : q < 224 := by omega
      refine (Finset.inf_le (Finset.mem_univ (ix2 (⟨q / 7, by omega⟩ : Fin 32) (⟨c.val % 16, Nat.mod_lt _ (by decide)⟩ : Fin 16)))).trans ?_
      rw [hm]
      refine (Finset.inf_le (Finset.mem_univ (((⟨2 * (q % 7) + b.val / 32, by omega⟩ : Fin 14), (⟨b.val % 32, Nat.mod_lt _ (by decide)⟩ : Fin 32),
        (⟨c.val / 16, by omega⟩ : Fin 32))))).trans (le_of_eq ?_)
      rw [xtOf_ix3]
      congr 1
      refine congr (congr (congrArg₂ ix4 (Fin.ext ?_) (Fin.ext ?_)) (Fin.ext ?_)) (Fin.ext ?_)
      · show 32 * ((2 * (q % 7) + b.val / 32) % 2) + b.val % 32 = b.val
        omega
      · show 16 * (c.val / 16) + c.val % 16 = c.val
        omega
      · show (560 + 7 * (q / 7) + (2 * (q % 7) + b.val / 32) / 2) / 28 = h.val
        omega
      · show (560 + 7 * (q / 7) + (2 * (q % 7) + b.val / 32) / 2) % 28 = w.val
        omega
  · -- above the least entry of x: every term is an entry of x
    refine le_min (Finset.le_inf fun j _ => ?_) ?_
    · obtain ⟨r, l, rfl⟩ : ∃ (r : Fin 32) (l : Fin 16), j = ix2 r l := ⟨j 0, j 1, eq_ix2 j⟩
      rw [hm]
      exact Finset.le_inf fun _ _ => mu_le_xtOf x _
    · rw [ht]
      exact Finset.le_inf fun _ _ => mu_le_xtOf x _

/-- A lane's number below 2³², as a 32-bit word, is `v` exactly when it is `v`'s value. -/
theorem ofNat_eq_iff (c : ℕ) (hc : c < 2 ^ 32) (v : BitVec 32) : BitVec.ofNat 32 c = v ↔ c = v.toNat := by
  constructor
  · rintro rfl; rw [BitVec.toNat_ofNat, Nat.mod_eq_of_lt hc]
  · rintro rfl; exact BitVec.ofNat_toNat _ _

/-- The ablation pass's result over the transposed activations, the tiles' minima, the TensorCore's minimum and the
    indices as a column, read at plane `28 h + w`, is the specification at `[b, c, h, w]`. -/
theorem applyOut_eq_G (x : SX.Idx → EReal) (idx : SI.Idx → BitVec 32) (mins : SM.Idx → EReal) (mtc : SW.Idx → EReal) (icol : SC.Idx → BitVec 32)
    (hm : ∀ (r : Fin 32) (l : Fin 16), mins (ix2 r l) = tileRow (xtOf x) r l) (ht : mtc (ix2 0 0) = tcMin (xtOf x))
    (hi : ∀ b : Fin 64, icol (ix2 b 0) = idx (ix1 b)) (b : Fin 64) (c : Fin 512) (h w : Fin 28) :
    applyOut (xtOf x) mins mtc icol (ix3 ⟨28 * h.val + w.val, by have := h.isLt; have := w.isLt; omega⟩ b c) = G x idx (ix4 b c h w) := by
  unfold applyOut G
  rw [mins_eq_mu x mins mtc hm ht, hi]
  have hc : c.val < 2 ^ 32 := lt_trans c.isLt (by decide)
  show (if BitVec.ofNat 32 c.val = idx (ix1 b) then _ else _) = (if c.val = (idx (ix1 b)).toNat then _ else _)
  by_cases hcb : c.val = (idx (ix1 b)).toNat
  · rw [if_pos ((ofNat_eq_iff c.val hc _).mpr hcb), if_pos hcb]
  · rw [if_neg (fun e => hcb ((ofNat_eq_iff c.val hc _).mp e)), if_neg hcb, xtOf_ix3]
    congr 1
    refine congrArg₂ (ix4 b c) (Fin.ext ?_) (Fin.ext ?_)
    · show (28 * h.val + w.val) / 28 = h.val
      have := w.isLt; omega
    · show (28 * h.val + w.val) % 28 = w.val
      have := w.isLt; omega

end Cert.Spec

end
-- ==== Proof.Layout.lean ====
/-
  The host's layout operations around the kernels, read at an index: the activations transposed to [28, 28, 64, 512] and
  reshaped to [784, 64, 512] (plane 28 h + w is spatial position (h, w)); the result reshaped and transposed back; the
  index vector reshaped to a column.
-/
import proofs.«202639_g54090818126251_cont_9to1c4b_462_21_alg».proof.Proof.Bridge
import Idealize.ShloMosaic.Lib.Pipeline.Value
import Idealize.ShloMosaic.Lib.ValueLayout

noncomputable section

namespace Cert.Spec

open Idealize.ShloMosaic Idealize.ShloMosaic.ValueIdx

abbrev SP : Shape := ⟨4, ![28, 28, 64, 512]⟩

variable {α : Type}

/-- The activations transposed and reshaped, at plane `p`, row `b`, lane `c`: `x[b, c, p / 28, p % 28]`. -/
theorem to_planes_apply (x : SX.Idx → α) (ht : SX.Transposes [2, 3, 0, 1] SP) (hs : SP.ShapeCasts ST) (p : Fin 784) (b : Fin 64) (c : Fin 512) :
    shapeCast ST (transpose SP [2, 3, 0, 1] x ht) hs (ix3 p b c)
      = x (ix4 b c ⟨p.val / 28, by omega⟩ ⟨p.val % 28, Nat.mod_lt _ (by decide)⟩) := by
  rw [shapeCast_apply (transpose SP [2, 3, 0, 1] x ht) hs (ix3 p b c)
    (ix4 (⟨p.val / 28, by omega⟩ : Fin 28) (⟨p.val % 28, Nat.mod_lt _ (by decide)⟩ : Fin 28) b c) (by
      rw [Shape.rowMajor_val_four, Shape.rowMajor_val_three]
      show ((p.val / 28 * 28 + p.val % 28) * 64 + b.val) * 512 + c.val = (p.val * 64 + b.val) * 512 + c.val
      rw [Nat.div_add_mod']),
    transpose_apply [2, 3, 0, 1] x ht _ (ix4 b c (⟨p.val / 28, by omega⟩ : Fin 28) (⟨p.val % 28, Nat.mod_lt _ (by decide)⟩ : Fin 28))
      (fun a => match a with | ⟨0, _⟩ => rfl | ⟨1, _⟩ => rfl | ⟨2, _⟩ => rfl | ⟨3, _⟩ => rfl)]

/-- So they are the specification's transposed view. -/
theorem to_planes_eq (x : SX.Idx → EReal) (ht : SX.Transposes [2, 3, 0, 1] SP) (hs : SP.ShapeCasts ST) :
    shapeCast ST (transpose SP [2, 3, 0, 1] x ht) hs = xtOf x := by
  funext i
  obtain ⟨p, b, c, rfl⟩ : ∃ (p : Fin 784) (b : Fin 64) (c : Fin 512), i = ix3 p b c := ⟨i 0, i 1, i 2, eq_ix3 i⟩
  rw [to_planes_apply, xtOf_ix3]

/-- The result reshaped and transposed back, at `[b, c, h, w]`: plane `28 h + w`, row `b`, lane `c`. -/
theorem from_planes_apply (y : ST.Idx → α) (hs : ST.ShapeCasts SP) (ht : SP.Transposes [2, 3, 0, 1] SX) (b : Fin 64) (c : Fin 512) (h w : Fin 28) :
    transpose SX [2, 3, 0, 1] (shapeCast SP y hs) ht (ix4 b c h w)
      = y (ix3 ⟨28 * h.val + w.val, by have := h.isLt; have := w.isLt; omega⟩ b c) := by
  rw [transpose_apply [2, 3, 0, 1] (shapeCast SP y hs) ht (ix4 b c h w) (ix4 h w b c)
      (fun a => match a with | ⟨0, _⟩ => rfl | ⟨1, _⟩ => rfl | ⟨2, _⟩ => rfl | ⟨3, _⟩ => rfl),
    shapeCast_apply y hs (ix4 h w b c) (ix3 (⟨28 * h.val + w.val, by have := h.isLt; have := w.isLt; omega⟩ : Fin 784) b c) (by
      rw [Shape.rowMajor_val_four, Shape.rowMajor_val_three]
      show ((28 * h.val + w.val) * 64 + b.val) * 512 + c.val = ((h.val * 28 + w.val) * 64 + b.val) * 512 + c.val
      rw [Nat.mul_comm 28 h.val])]

/-- The index vector reshaped to a column, at row `b`. -/
theorem to_column_apply (idx : SI.Idx → α) (hs : SI.ShapeCasts SC) (b : Fin 64) :
    shapeCast SC idx hs (ix2 b 0) = idx (ix1 b) :=
  shapeCast_apply idx hs (ix2 b 0) (ix1 b) (by
    rw [Shape.rowMajor_val_two, Shape.rowMajor_val_one]
    show b.val = b.val * 1 + 0
    omega)

end Cert.Spec

end
-- ==== Proof.KIV.Main.lean ====
/-
  The idealized kernel program's run with its value, at the ideal instance.

  As the frame's run, with the contents followed: the activations as the call finds them are the transposed view of the
  first argument; the call hands back the 32 × 16 minima, every row at its tile's; the minimum pass leaves the least
  entry of the first 560 planes; the indices go in as a column; the ablation pass leaves the result over those four;
  reshaped and transposed back it is the specification. The two pipelines' records and the tile's task enter as
  hypotheses here, stated by what they take and leave.
-/
import proofs.«202639_g54090818126251_cont_9to1c4b_462_21_alg».proof.Proof.KIV.Pay
import proofs.«202639_g54090818126251_cont_9to1c4b_462_21_alg».proof.Proof.KI.Regions
import proofs.«202639_g54090818126251_cont_9to1c4b_462_21_alg».proof.Proof.Layout
import Idealize.ShloMosaic.Lib.Pipeline.Frame

noncomputable section

namespace Cert.Proof.KIV

open Cert.Proof.KI (K D 𝒱₀ 𝒱 v₀ facts UH UP UU EH EP nSub_zero nCore_zero adm cfgsP cellOf_injP ptc owesW dr)

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks pointsTo_toks_join)

local notation "𝕄" => MT nD τ sig (HIx 1) (Elt Ideal) ℕ UU ℕ

/-! ## The two pipelines' staging cells, and the launch element -/

/-- The launch element: the handshakes' rounds, the pipelines' staging cells' rounds, no counter yet. -/
def u₀ : UU := (initOf (K (F := Ideal)).hsCells (K (F := Ideal)).hsToks,
  (initOf (Pipeline.cells (cfgsP (F := Ideal)) cellOf_injP) (Pipeline.launchToks (cfgsP (F := Ideal)) cellOf_injP), 1))

/-- What @main's proof starts from besides its buffers: both pipelines' rounds ghost state. -/
abbrev G (d : Dev nD) : sProp 𝕄 := Pipeline.ghostOn (pcfgs (F := Ideal)) adm EP Finset.univ d

theorem bigSep_emp' {I : Type} (s : Finset I) : (bigSep s fun _ => iprop(emp)) = (iprop(emp) : sProp 𝕄) := bigSep_emp_const s

variable (m : (ℓ : Loc nD τ sig) → Buf (Elt Ideal) ℓ) (ρ : Dev nD → PrngReg)

/-! ## @main's host operations before the call, and the activations as the call finds them -/

abbrev op0 : HloOp τ sig (Elt Ideal) := StableHlo.unary main_arg0 main_v0 ((transpose S28x28x64x512 [2, 3, 0, 1] · transposes_S64x512x28x28_S28x28x64x512_2_3_0_1) : (⟨S64x512x28x28, .f32⟩ : BufTy).Contents (Elt Ideal) → (⟨S28x28x64x512, .f32⟩ : BufTy).Contents (Elt Ideal))
abbrev op1 : HloOp τ sig (Elt Ideal) := StableHlo.reshape main_v0 main_v1 rfl shapeCasts_S28x28x64x512_S784x64x512

def V0 (d : Dev nD) : Valuation τ sig (Elt Ideal) := fun b => m (d, b)
def V2 (d : Dev nD) : Valuation τ sig (Elt Ideal) := op1.result (op0.result (V0 m d))
/-- The transposed, reshaped activations. -/
def Xt (d : Dev nD) : Buf (Elt Ideal) (xtLoc d) := V2 m d (Proc.devRef .tc main_v1)

theorem hu₀ : (ownU u₀ : sProp 𝕄)
    ⊢ |={Set.univ}=> iprop(BI.own (EH (initOf (K (F := Ideal)).hsCells (K (F := Ideal)).hsToks)) ∗ (bigSep Finset.univ fun d : Dev nD => G d)
        ∗ bigSep Finset.univ fun thr : Thread nD τ => bigSep Finset.univ fun q : Fin 1 => (P (Xt m)).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  rw [show ((Emb.inl : Emb UP (UP × Counters)).trans (embR : Emb (UP × Counters) 𝕄)) = EP from rfl]
  imod (Pipeline.fund_ghost (cfgsP (F := Ideal)) (EP (F := Ideal)) cellOf_injP) $$ HP with ⟨Hc, Ht⟩
  imodintro
  isplitl [HH]; · iexact HH
  isplitl [Hc Ht]
  · unfold G Pipeline.ghostOn Pipeline.PerCore.ghostOn
    rw [bigSep_congr fun d _ => bigSep_sep' (Finset.univ : Finset (Fin 2)) _ _, bigSep_sep']
    isplitl [Hc]; · iexact Hc
    iexact Ht
  rw [show (bigSep Finset.univ fun thr : Thread nD τ => bigSep Finset.univ fun q : Fin 1 => (P (Xt m)).x q thr) = bigSep Finset.univ fun _ => iprop(emp) from
    bigSep_congr fun _ _ => bigSep_univ_of_subsingleton (0 : Fin 1), bigSep_emp']
  iempintro

/-! ## What @main leaves the claim -/

abbrev a0Loc (d : Dev nD) : Loc nD τ sig := (SparseCore.T d).loc main_arg0
abbrev a1Loc (d : Dev nD) : Loc nD τ sig := (SparseCore.T d).loc main_arg1
abbrev FIN (d : Dev nD) : sProp 𝕄 := iprop((a0Loc d ↦{fullShare} m (a0Loc d)) ∗ (a1Loc d ↦{fullShare} m (a1Loc d)))

/-! ## The TensorCore's unscoped buffers, one by one -/

abbrev uc : Finset (DevRef τ sig) := Pipeline.ucRefs τ sig
abbrev pt (d : Dev nD) (b : Ref sig .tc) (W : Valuation τ sig (Elt Ideal)) : sProp 𝕄 := ((SparseCore.T d).loc b) ↦{fullShare} W (dr b)

theorem held_uc (d : Dev nD) (W : Valuation τ sig (Elt Ideal)) :
    (held (SparseCore.T d) uc W : sProp 𝕄)
      = iprop(pt d main_arg0 W ∗ pt d main_arg1 W ∗ pt d main_v0 W ∗ pt d main_v1 W ∗ pt d main_v2 W ∗ pt d main_v3 W ∗ pt d main_v4 W
          ∗ pt d main_v5 W ∗ pt d main_v6 W ∗ pt d main_v7 W) := by
  unfold held
  rw [bigSep_eq_bigSepL_of_eq [dr main_arg0, dr main_arg1, dr main_v0, dr main_v1, dr main_v2, dr main_v3, dr main_v4, dr main_v5, dr main_v6, dr main_v7]
    (by decide) (by decide)]
  rfl

/-! ## The minima array as 32 rows, grouped by SparseCore and tile -/

theorem rowSet_eq (r : Fin 32) : rowSet r = (row r).set := by
  show ((View.whole (main_v2_scv : Ref sig .scVector)).slice (row r)).set = _
  rw [View.set_slice]; exact Finset.map_refl
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)

theorem moPts_rows (d : Dev nD) (f : Buf (Elt Ideal) (moLoc d)) :
    (moLoc d ↦{fullShare} f : sProp 𝕄) = bigSep Finset.univ fun r : Fin 32 => moLoc d ↦[rowSet r]{fullShare} f := by
  rw [← pointsTo_biUnion Finset.univ (ℓ := moLoc d) rowSet rows_disjoint, rows_cover]; try rfl

/-- Row `2 i + c` is tile `i` of SparseCore `c`'s: the 32 rows are the 2 × 16 tiles'. -/
def rowEquiv : Fin 2 × Fin 16 ≃ Fin 32 where
  toFun x := rowOf x.1 x.2
  invFun r := (⟨r.val % 2, Nat.mod_lt _ (by decide)⟩, ⟨r.val / 2, by omega⟩)
  left_inv := fun ⟨c, i⟩ => by apply Prod.ext <;> apply Fin.ext <;> simp [rowOf] <;> omega
  right_inv := fun r => by apply Fin.ext; simp [rowOf]; omega

theorem rows_regroup (Φ : Fin 32 → sProp 𝕄) :
    bigSep Finset.univ Φ = bigSep Finset.univ fun c : Fin 2 => bigSep Finset.univ fun i : Fin 16 => Φ (rowOf c i) := by
  rw [bigSep_univ_equiv rowEquiv Φ, bigSep_univ_prod]; rfl

theorem mo_split (d : Dev nD) (f : Buf (Elt Ideal) (moLoc d)) :
    (moLoc d ↦{fullShare} f : sProp 𝕄) ⊢ bigSep Finset.univ fun c : Fin 2 => bigSep Finset.univ fun i : Fin 16 => moRow d (rowOf c i) := by
  rw [moPts_rows, rows_regroup]
  refine bigSep_mono fun c _ => bigSep_mono fun i _ => ?_
  show (moLoc d ↦[rowSet (rowOf c i)]{fullShare} f : sProp 𝕄) ⊢ iprop(∃ g, moLoc d ↦[rowSet (rowOf c i)]{fullShare} g)
  iintro H; iexists f; iexact H

set_option maxRecDepth 4096 in
theorem mo_join (d : Dev nD) :
    (bigSep Finset.univ fun c : Fin 2 => bigSep Finset.univ fun i : Fin 16 => moRow d (rowOf c i)) ⊢ (iprop(∃ f, moLoc d ↦{fullShare} f) : sProp 𝕄) := by
  rw [← rows_regroup (fun r => moRow d r)]
  refine (bigSep_exists_pi Finset.univ (fun r (f : Buf (Elt Ideal) (moLoc d)) => (moLoc d ↦[rowSet r]{fullShare} f : sProp 𝕄))).trans ?_
  iintro ⟨%fs, H⟩
  have : Nonempty (Buf (Elt Ideal) (moLoc d)) := ⟨fs 0⟩
  ihave H' := (pointsTo_biUnion_join (ℓ := moLoc d) (q := fullShare) (Val := Elt Ideal) Finset.univ rowSet fs (fs 0) rows_disjoint) $$ H
  icases H' with ⟨%g, -, Hg⟩
  rw [rows_cover]
  iexists g; iexact Hg

/-- What the call takes for the two SparseCores, and what it hands back. -/
theorem st0_eq (d : Dev nD) : (bigSep Finset.univ fun c : Fin ((K (F := Ideal)).nCore 0) => (P (Xt m)).st 0 d c)
    = iprop((bigSep Finset.univ fun c : Fin 2 => xtShC (Xt m) d c) ∗ bigSep Finset.univ fun c : Fin 2 => bigSep Finset.univ fun i : Fin 16 => moRow d (rowOf c i)) := by
  rw [← bigSep_sep']; rfl
theorem dn0_eq (d : Dev nD) : (bigSep Finset.univ fun c : Fin ((K (F := Ideal)).nCore 0) => (P (Xt m)).dn 0 d c)
    = iprop((bigSep Finset.univ fun c : Fin 2 => xtShC (Xt m) d c) ∗ bigSep Finset.univ fun c : Fin 2 => bigSep Finset.univ fun i : Fin 16 => moRowV (Xt m) d (rowOf c i)) := by
  rw [← bigSep_sep']; rfl

/-! ## After the call: the TensorCore owes nothing more -/

theorem Otc_one (d : Dev nD) : (K (F := Ideal)).Otc d 1 = 0 := by
  unfold SparseCore.Cfg.Otc
  refine Finset.sum_eq_zero fun q _ => if_neg ?_
  have := q.isLt; omega

/-- The rest of the TensorCore's handshake state after the one call: its position and the rounds reached. -/
def tcRest (d : Dev nD) : sProp 𝕄 :=
  iprop(atPos EH ((K (F := Ideal)).doneCell d) 1 ∅ 0 ∗ reached EH ((K (F := Ideal)).doneCell d) 1
    ∗ (bigSep Finset.univ fun c : Fin τ.nSC => reached EH ((K (F := Ideal)).startCell d c) ((K (F := Ideal)).sRank c 1))
    ∗ bigSep (SparseCore.Cfg.callsFrom (Q := 1) 1) fun q => bigSep Finset.univ fun c : Fin ((K (F := Ideal)).nCore q) =>
        iprop(dutyTok EH ((K (F := Ideal)).startCell d ((K (F := Ideal)).core q c)) ((K (F := Ideal)).sRank ((K (F := Ideal)).core q c) q.val) 0
          ∗ cred (tallyAt ((K (F := Ideal)).doneCell d) (some q) 1)))

theorem tcSt_one (d : Dev nD) : ((K (F := Ideal)).tcSt EH d 1 : sProp 𝕄) = iprop(owesW d ∗ tcRest d) := by
  unfold SparseCore.Cfg.tcSt tcRest owesW
  rw [Otc_one]

/-! ## A host operation over two buffers -/

theorem held_pair (d : Dev nD) (s t : Ref sig .tc) (h : dr s ≠ dr t) (W : Valuation τ sig (Elt Ideal)) :
    (held (SparseCore.T d) {dr s, dr t} W : sProp 𝕄) = iprop(pt d s W ∗ pt d t W) := by
  unfold held
  rw [SparseCore.bigSep_insert' (by simpa using h), bigSep_singleton]

/-- A host operation that reads `s` and writes `t`: `s` keeps its contents, `t` ends at some. -/
theorem hlo_two (d : Dev nD) {hp : (SparseCore.T d : Thread nD τ).2.kind.runsHlo = true} (op : HloOp τ sig (Elt Ideal)) (s t : Ref sig .tc)
    (hst : dr s ≠ dr t) (hb : op.bufs ⊆ {dr s, dr t}) (hw : dr s ∉ op.writes)
    (Vb : Valuation τ sig (Elt Ideal)) (fs : Buf (Elt Ideal) ((SparseCore.T d : Thread nD τ).loc s)) (ft : Buf (Elt Ideal) ((SparseCore.T d : Thread nD τ).loc t))
    (Q : PUnit → sProp 𝕄) (hf : op.fresh = ∅) :
    iprop(boundary (SparseCore.T d) ∗ ptc d s fs ∗ ptc d t ft
        ∗ (iprop(boundary (SparseCore.T d) ∗ ptc d s fs ∗ (∃ f, ptc d t f)) -∗ Q ⟨⟩))
      ⊢ wp frame (wpE ((K (F := Ideal)).defs (D (F := Ideal))) 𝒱 (SparseCore.T d) none) Set.univ (hlo hp op (fun _ => Prog.ret ⟨⟩)) Q := by
  iintro ⟨Hb, Hs, Ht, Hk⟩
  iapply (wp_hlo_within 𝒱 (SparseCore.T d) none Set.univ (op := op) (S := {dr s, dr t}) hb
    (V := Function.update (Function.update Vb (dr s) fs) (dr t) ft) hf) $$ [Hb Hs Ht]
  · isplitl [Hb]; · iexact Hb
    rw [held_pair d s t hst]
    unfold pt
    rw [Function.update_self, Function.update_of_ne hst, Function.update_self]
    isplitl [Hs]; · iexact Hs
    iexact Ht
  iintro ⟨Hb, Hh⟩
  rw [wp_ret]
  ihave Hh' := (Entails.of_eq (held_pair d s t hst _)) $$ Hh
  icases Hh' with ⟨Hs, Ht⟩
  imodintro
  iapply Hk
  isplitl [Hb]; · iexact Hb
  isplitl [Hs]
  · unfold pt
    rw [op.result_of_not_mem _ hw, Function.update_of_ne hst, Function.update_self]
    iexact Hs
  iexists _; iexact Ht

/-! ## A valuation with the ablation pass's five arrays at given contents -/

def V5 (Vb : Valuation τ sig (Elt Ideal)) (g1 : (dr main_v1).ty.Contents (Elt Ideal)) (g2 : (dr main_v2).ty.Contents (Elt Ideal)) (g3 : (dr main_v3).ty.Contents (Elt Ideal))
    (g4 : (dr main_v4).ty.Contents (Elt Ideal)) (g5 : (dr main_v5).ty.Contents (Elt Ideal)) : Valuation τ sig (Elt Ideal) :=
  Function.update (Function.update (Function.update (Function.update (Function.update Vb (dr main_v1) g1) (dr main_v2) g2) (dr main_v3) g3) (dr main_v4) g4) (dr main_v5) g5

section V5
variable (Vb : Valuation τ sig (Elt Ideal)) (g1 : (dr main_v1).ty.Contents (Elt Ideal)) (g2 : (dr main_v2).ty.Contents (Elt Ideal)) (g3 : (dr main_v3).ty.Contents (Elt Ideal))
    (g4 : (dr main_v4).ty.Contents (Elt Ideal)) (g5 : (dr main_v5).ty.Contents (Elt Ideal))
theorem V5_1 : V5 Vb g1 g2 g3 g4 g5 (dr main_v1) = g1 := by
  unfold V5; rw [Function.update_of_ne (by decide), Function.update_of_ne (by decide), Function.update_of_ne (by decide), Function.update_of_ne (by decide), Function.update_self]
theorem V5_2 : V5 Vb g1 g2 g3 g4 g5 (dr main_v2) = g2 := by
  unfold V5; rw [Function.update_of_ne (by decide), Function.update_of_ne (by decide), Function.update_of_ne (by decide), Function.update_self]
theorem V5_3 : V5 Vb g1 g2 g3 g4 g5 (dr main_v3) = g3 := by
  unfold V5; rw [Function.update_of_ne (by decide), Function.update_of_ne (by decide), Function.update_self]
theorem V5_4 : V5 Vb g1 g2 g3 g4 g5 (dr main_v4) = g4 := by
  unfold V5; rw [Function.update_of_ne (by decide), Function.update_self]
theorem V5_5 : V5 Vb g1 g2 g3 g4 g5 (dr main_v5) = g5 := by
  unfold V5; rw [Function.update_self]
end V5

/-! ## The arguments are never written -/

theorem V2_arg0 (d : Dev nD) : V2 m d (dr main_arg0) = m (a0Loc d) := by
  unfold V2
  rw [op1.result_of_not_mem _ (fun h => StableHlo.devRef_ne_of_ne (by decide) (Finset.mem_singleton.mp h)),
    op0.result_of_not_mem _ (fun h => StableHlo.devRef_ne_of_ne (by decide) (Finset.mem_singleton.mp h))]
  rfl
theorem V2_arg1 (d : Dev nD) : V2 m d (dr main_arg1) = m (a1Loc d) := by
  unfold V2
  rw [op1.result_of_not_mem _ (fun h => StableHlo.devRef_ne_of_ne (by decide) (Finset.mem_singleton.mp h)),
    op0.result_of_not_mem _ (fun h => StableHlo.devRef_ne_of_ne (by decide) (Finset.mem_singleton.mp h))]
  rfl

/-! ## The rows with their values join -/

theorem mem_rowSet (r : Fin 32) (l : Fin 16) : ValueIdx.ix2 r l ∈ rowSet r := by
  rw [rowSet_eq]
  unfold row Rect.part Rect.block
  rw [Rect.mem_set_unit]
  intro a
  match a with
  | 0 => simp [Shape.partIx, Shape.partSize, ValueIdx.ix2]
  | 1 => simp [Shape.partIx, Shape.partSize, ValueIdx.ix2]

set_option maxRecDepth 4096 in
/-- The 32 rows, each at its tile's minima, are the whole array at contents whose every row is. -/
theorem mo_joinV (X : (d : Dev nD) → Buf (Elt Ideal) (xtLoc d)) (d : Dev nD) :
    (bigSep Finset.univ fun c : Fin 2 => bigSep Finset.univ fun i : Fin 16 => moRowV X d (rowOf c i))
      ⊢ (iprop(∃ f : Buf (Elt Ideal) (moLoc d), ⌜∀ (r : Fin 32) (l : Fin 16), f (ValueIdx.ix2 r l) = Cert.Spec.tileRow (X d) r l⌝ ∗ moLoc d ↦{fullShare} f) : sProp 𝕄) := by
  rw [← rows_regroup (fun r => moRowV X d r)]
  refine (bigSep_exists_pi Finset.univ (fun r (f : Buf (Elt Ideal) (moLoc d)) =>
    (iprop(⌜∀ l : Fin 16, f (ValueIdx.ix2 r l) = Cert.Spec.tileRow (X d) r l⌝ ∗ (moLoc d ↦[rowSet r]{fullShare} f)) : sProp 𝕄))).trans ?_
  iintro ⟨%fs, H⟩
  ihave H2 := (bigSep_pure_sep Finset.univ (fun r => ∀ l : Fin 16, fs r (ValueIdx.ix2 r l) = Cert.Spec.tileRow (X d) r l)
    (fun r => (moLoc d ↦[rowSet r]{fullShare} fs r : sProp 𝕄))) $$ H
  icases H2 with ⟨%hQ, H⟩
  have : Nonempty (Buf (Elt Ideal) (moLoc d)) := ⟨fs 0⟩
  ihave H' := (pointsTo_biUnion_join (ℓ := moLoc d) (q := fullShare) (Val := Elt Ideal) Finset.univ rowSet fs (fs 0) rows_disjoint) $$ H
  icases H' with ⟨%g, %hg, Hg⟩
  rw [rows_cover]
  iexists g; isplitr
  · ipureintro; intro r l
    rw [hg r (Finset.mem_univ r) _ (mem_rowSet r l)]
    exact hQ r (Finset.mem_univ r) l
  iexact Hg

/-! ## Host operations that say what they wrote -/

/-- A host operation that reads `s` and writes `t`: `s` keeps its contents, `t` ends at the operation's result. -/
theorem hlo_twoV (d : Dev nD) {hp : (SparseCore.T d : Thread nD τ).2.kind.runsHlo = true} (op : HloOp τ sig (Elt Ideal)) (s t : Ref sig .tc)
    (hst : dr s ≠ dr t) (hb : op.bufs ⊆ {dr s, dr t}) (hw : dr s ∉ op.writes)
    (Vb : Valuation τ sig (Elt Ideal)) (fs : Buf (Elt Ideal) ((SparseCore.T d : Thread nD τ).loc s)) (ft : Buf (Elt Ideal) ((SparseCore.T d : Thread nD τ).loc t))
    (Q : PUnit → sProp 𝕄) (hf : op.fresh = ∅) :
    iprop(boundary (SparseCore.T d) ∗ ptc d s fs ∗ ptc d t ft
        ∗ (iprop(boundary (SparseCore.T d) ∗ ptc d s fs
            ∗ ptc d t (op.result (Function.update (Function.update Vb (dr s) fs) (dr t) ft) (dr t))) -∗ Q ⟨⟩))
      ⊢ wp frame (wpE ((K (F := Ideal)).defs (D (F := Ideal))) 𝒱 (SparseCore.T d) none) Set.univ (hlo hp op (fun _ => Prog.ret ⟨⟩)) Q := by
  iintro ⟨Hb, Hs, Ht, Hk⟩
  iapply (wp_hlo_within 𝒱 (SparseCore.T d) none Set.univ (op := op) (S := {dr s, dr t}) hb
    (V := Function.update (Function.update Vb (dr s) fs) (dr t) ft) hf) $$ [Hb Hs Ht]
  · isplitl [Hb]; · iexact Hb
    rw [held_pair d s t hst]
    unfold pt
    rw [Function.update_self, Function.update_of_ne hst, Function.update_self]
    isplitl [Hs]; · iexact Hs
    iexact Ht
  iintro ⟨Hb, Hh⟩
  rw [wp_ret]
  ihave Hh' := (Entails.of_eq (held_pair d s t hst _)) $$ Hh
  icases Hh' with ⟨Hs, Ht⟩
  imodintro
  iapply Hk
  isplitl [Hb]; · iexact Hb
  isplitl [Hs]
  · unfold pt
    rw [op.result_of_not_mem _ hw, Function.update_of_ne hst, Function.update_self]
    iexact Hs
  iexact Ht

/-- The activations as the call finds them are the specification's transposed view of the first argument. -/
theorem Xt_eq (d : Dev nD) : (Xt m d : Cert.Spec.ST.Idx → EReal) = Cert.Spec.xtOf (m (a0Loc d)) := by
  unfold Xt V2 op1 op0
  rw [StableHlo.reshape_result, StableHlo.unary_result]
  exact Cert.Spec.to_planes_eq _ _ _

/-- A reshape of `x` into `y`: `x` keeps its contents, `y` ends at them reshaped. -/
theorem hlo_reshapeV (d : Dev nD) {hp : (SparseCore.T d : Thread nD τ).2.kind.runsHlo = true} (x y : Ref sig .tc) (he : x.ty.elt = y.ty.elt)
    (hn : x.ty.shape.ShapeCasts y.ty.shape) (hx) (hy) (hxy : dr x ≠ dr y) (Vb : Valuation τ sig (Elt Ideal))
    (fs : Buf (Elt Ideal) ((SparseCore.T d : Thread nD τ).loc x)) (ft : Buf (Elt Ideal) ((SparseCore.T d : Thread nD τ).loc y)) (Q : PUnit → sProp 𝕄) :
    iprop(boundary (SparseCore.T d) ∗ ptc d x fs ∗ ptc d y ft
        ∗ (iprop(boundary (SparseCore.T d) ∗ ptc d x fs ∗ ptc d y (fun i => he ▸ shapeCast y.ty.shape fs hn i)) -∗ Q ⟨⟩))
      ⊢ wp frame (wpE ((K (F := Ideal)).defs (D (F := Ideal))) 𝒱 (SparseCore.T d) none) Set.univ
          (hlo hp (StableHlo.reshape (τ := τ) (Val := Elt Ideal) x y he hn hx hy) (fun _ => Prog.ret ⟨⟩)) Q := by
  have h := hlo_twoV d (hp := hp) (StableHlo.reshape (τ := τ) (Val := Elt Ideal) x y he hn hx hy) x y hxy (fun _ h => h)
    (fun h => hxy (Finset.mem_singleton.mp h)) Vb fs ft Q rfl
  rw [StableHlo.reshape_result, Function.update_of_ne hxy, Function.update_self] at h
  exact h

/-- A one-operand operation `f` from `x` into `y`: `x` keeps its contents, `y` ends at `f` of them. -/
theorem hlo_unaryV (d : Dev nD) {hp : (SparseCore.T d : Thread nD τ).2.kind.runsHlo = true} (x y : Ref sig .tc)
    (f : x.ty.Contents (Elt Ideal) → y.ty.Contents (Elt Ideal)) (hx) (hy) (hxy : dr x ≠ dr y) (Vb : Valuation τ sig (Elt Ideal))
    (fs : Buf (Elt Ideal) ((SparseCore.T d : Thread nD τ).loc x)) (ft : Buf (Elt Ideal) ((SparseCore.T d : Thread nD τ).loc y)) (Q : PUnit → sProp 𝕄) :
    iprop(boundary (SparseCore.T d) ∗ ptc d x fs ∗ ptc d y ft
        ∗ (iprop(boundary (SparseCore.T d) ∗ ptc d x fs ∗ ptc d y (f fs)) -∗ Q ⟨⟩))
      ⊢ wp frame (wpE ((K (F := Ideal)).defs (D (F := Ideal))) 𝒱 (SparseCore.T d) none) Set.univ
          (hlo hp (StableHlo.unary (τ := τ) (Val := Elt Ideal) x y f hx hy) (fun _ => Prog.ret ⟨⟩)) Q := by
  have h := hlo_twoV d (hp := hp) (StableHlo.unary (τ := τ) (Val := Elt Ideal) x y f hx hy) x y hxy (fun _ h => h)
    (fun h => hxy (Finset.mem_singleton.mp h)) Vb fs ft Q rfl
  rw [StableHlo.unary_result, Function.update_of_ne hxy, Function.update_self] at h
  exact h

/-! ## What @main leaves the claim -/

/-- The last buffer: the ablation pass's result over the activations as the call found them, the tiles' minima, the
    TensorCore's minimum and the indices as a column, reshaped and transposed back — is the specification. -/
theorem final_eq (d : Dev nD) (f2 : Cert.Spec.SM.Idx → EReal) (g3 : Cert.Spec.SW.Idx → EReal)
    (hf2 : ∀ (r : Fin 32) (l : Fin 16), f2 (ValueIdx.ix2 r l) = Cert.Spec.tileRow (Xt m d) r l)
    (hg3 : g3 (ValueIdx.ix2 0 0) = Cert.Spec.tcMin (Xt m d))
    (hs4 : Cert.Spec.SI.ShapeCasts Cert.Spec.SC) (hs6 : Cert.Spec.ST.ShapeCasts Cert.Spec.SP) (ht7 : Cert.Spec.SP.Transposes [2, 3, 0, 1] Cert.Spec.SX) :
    transpose Cert.Spec.SX [2, 3, 0, 1] (shapeCast Cert.Spec.SP
        (Cert.Spec.applyOut (Xt m d) f2 g3 (shapeCast Cert.Spec.SC (m (a1Loc d) : Cert.Spec.SI.Idx → BitVec 32) hs4)) hs6) ht7
      = Cert.Spec.G (m (a0Loc d)) (m (a1Loc d)) := by
  funext i
  obtain ⟨b, c, h, w, rfl⟩ : ∃ (b : Fin 64) (c : Fin 512) (h w : Fin 28), i = ValueIdx.ix4 b c h w := ⟨i 0, i 1, i 2, i 3, ValueIdx.eq_ix4 i⟩
  rw [Cert.Spec.from_planes_apply, Xt_eq] at *
  exact Cert.Spec.applyOut_eq_G (m (a0Loc d)) (m (a1Loc d)) f2 g3 _ hf2 hg3
    (fun b => Cert.Spec.to_column_apply _ hs4 b) b c h w

/-! ## The run, with the value -/

abbrev v7Loc (d : Dev nD) : Loc nD τ sig := (SparseCore.T d).loc main_v7
/-- What @main leaves: both arguments as found, the result at the specification. -/
abbrev FINV (d : Dev nD) : sProp 𝕄 :=
  iprop((a0Loc d ↦{fullShare} m (a0Loc d)) ∗ (a1Loc d ↦{fullShare} m (a1Loc d))
    ∗ (v7Loc d ↦{fullShare} (Cert.Spec.G (m (a0Loc d)) (m (a1Loc d)) : Buf (Elt Ideal) (v7Loc d))))

/-- The indices as a column, as @main's reshape leaves them. -/
def I4 (d : Dev nD) : (dr main_v4).ty.Contents (Elt Ideal) :=
  fun i => (rfl : main_arg1.ty.elt = main_v4.ty.elt) ▸ shapeCast main_v4.ty.shape (V2 m d (dr main_arg1)) shapeCasts_S64_S64x1 i

section Run

variable (rdM : Valuation τ sig (Elt Ideal) → (p : Fin 2) → (c : Dev nD) → Pipeline.RDat τ (Elt Ideal) (HIx 1) ℕ UU ℕ (cfgsP (F := Ideal) p) c)
  (R0 : (Vd : Valuation τ sig (Elt Ideal)) → Pipeline.RDat.RegionSeg (pcfgs (F := Ideal)) adm (rdM Vd) (none : HIx 1) (defs₀ (F := Ideal)) 𝒱₀
    (K (F := Ideal)).L (K (F := Ideal)).lev (0 : Fin 2))
  (hR0pre : ∀ Vd c, ((R0 Vd).pre c : sProp 𝕄) = iprop(ptc c main_v1 (Vd (dr main_v1)) ∗ ptc c main_v3 (Vd (dr main_v3)) ∗ owesW c))
  (hR0post : ∀ Vd c, ((R0 Vd).post c : sProp 𝕄) = iprop(ptc c main_v1 (Vd (dr main_v1))
    ∗ (∃ f : Buf (Elt Ideal) ((SparseCore.T c : Thread nD τ).loc main_v3),
        ⌜(f : Cert.Spec.SW.Idx → EReal) (ValueIdx.ix2 0 0) = Cert.Spec.tcMin (Vd (dr main_v1))⌝ ∗ ptc c main_v3 f) ∗ owesW c))
  (rdA : Valuation τ sig (Elt Ideal) → (p : Fin 2) → (c : Dev nD) → Pipeline.RDat τ (Elt Ideal) (HIx 1) ℕ UU ℕ (cfgsP (F := Ideal) p) c)
  (R1 : (Vd : Valuation τ sig (Elt Ideal)) → Pipeline.RDat.RegionSeg (pcfgs (F := Ideal)) adm (rdA Vd) (none : HIx 1) (defs₀ (F := Ideal)) 𝒱₀
    (K (F := Ideal)).L (K (F := Ideal)).lev (1 : Fin 2))
  (hR1pre : ∀ Vd c, ((R1 Vd).pre c : sProp 𝕄) = iprop(ptc c main_v1 (Vd (dr main_v1)) ∗ ptc c main_v2 (Vd (dr main_v2)) ∗ ptc c main_v3 (Vd (dr main_v3))
    ∗ ptc c main_v4 (Vd (dr main_v4)) ∗ ptc c main_v5 (Vd (dr main_v5)) ∗ owesW c))
  (hR1post : ∀ Vd c, ((R1 Vd).post c : sProp 𝕄) = iprop((∃ f, ptc c main_v1 f) ∗ (∃ f, ptc c main_v2 f) ∗ (∃ f, ptc c main_v3 f) ∗ (∃ f, ptc c main_v4 f)
    ∗ ptc c main_v5 (Cert.Spec.applyOut (Vd (dr main_v1)) (Vd (dr main_v2)) (Vd (dr main_v3)) (Vd (dr main_v4))) ∗ owesW c))

include hR0pre hR0post hR1pre hR1post in
theorem hmainV (κ : GSem nD τ sig → ℕ) (d : Dev nD) :
    iprop((K (F := Ideal)).ctx EH (P (Xt m)) κ ∗ (K (F := Ideal)).tcSt EH d 0 ∗ (K (F := Ideal)).tcRes m ρ d ∗ G d)
      ⊢ wp frame (wpE ((K (F := Ideal)).defs (D (F := Ideal))) 𝒱 (SparseCore.T d) none) Set.univ (main d)
          fun _ => iprop((K (F := Ideal)).tcSt EH d 1 ∗ FINV m d) := by
  unfold SparseCore.Cfg.tcRes
  rw [show unscopedBufs d (fun b => m ((SparseCore.T d).loc b)) = held (SparseCore.T d) uc (V0 m d) from Pipeline.unscopedBufs_held d (V0 m d)]
  simp only [main, wp_bind, wp_pure]
  iintro ⟨#Hctx, Hst, ⟨Hb, Hheld, -, -⟩, HG⟩
  iapply (wp_hlo_within 𝒱 (SparseCore.T d) none Set.univ (op := op0) (S := uc) (Pipeline.sub_ucRefs _ (StableHlo.unary_bufs_sub ..)) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := uc) (Pipeline.sub_ucRefs _ (StableHlo.reshape_bufs_sub ..)) (V := op0.result (V0 m d))) $$ [Hb Hheld]
  · isplitl [Hb]; · iexact Hb
    iexact Hheld
  iintro ⟨Hb, Hheld⟩
  rw [wp_ret]; imodintro
  ihave Hh := (Entails.of_eq (held_uc d _)) $$ Hheld
  icases Hh with ⟨Ha0, Ha1, Hv0, Hv1, Hv2, Hv3, Hv4, Hv5, Hv6, Hv7⟩
  -- the call: a read token of the activations per SparseCore, the minima row by row
  ihave Hv1 := (Entails.of_eq (show (pt d main_v1 (op1.result (op0.result (V0 m d))) : sProp 𝕄) = (xtLoc d ↦{fullShare} Xt m d) from rfl)) $$ Hv1
  ihave Hx := (pointsTo_toks (ℓ := xtLoc d) (S := Finset.univ) (f := Xt m d) fullShare 2).1 $$ Hv1
  icases Hx with ⟨Hxd, Hxt⟩
  ihave Ho := (mo_split d _) $$ Hv2
  iapply ((K (F := Ideal)).wp_run (D (F := Ideal)) 𝒱 (EH := EH) (P := P (Xt m)) κ d 0) $$ [Hst Hxt Ho Hxd Ha0 Ha1 Hv0 Hv3 Hv4 Hv5 Hv6 Hv7 Hb HG]
  isplitr; · iexact Hctx
  isplitl [Hst]; · iexact Hst
  isplitl [Hxt Ho]
  · rw [st0_eq]
    isplitl [Hxt]; · iexact Hxt
    iexact Ho
  iintro ⟨Hst, Hdn⟩
  ihave Hdn' := (Entails.of_eq (dn0_eq m d)) $$ Hdn
  icases Hdn' with ⟨Hxt, Ho⟩
  ihave Hv1 := (pointsTo_toks_join (ℓ := xtLoc d) (S := Finset.univ) (f := Xt m d) fullShare 2) $$ [Hxd Hxt]
  · isplitl [Hxd]; · iexact Hxd
    iexact Hxt
  ihave Hv2 := (mo_joinV (Xt m) d) $$ Ho
  icases Hv2 with ⟨%f2, %hf2, Hv2⟩
  -- the buffers, each as a points-to at the valuation the two transposing operations left
  ihave Ha0 := (Entails.of_eq (show (pt d main_arg0 (op1.result (op0.result (V0 m d))) : sProp 𝕄) = ptc d main_arg0 (V2 m d (dr main_arg0)) from rfl)) $$ Ha0
  ihave Ha1 := (Entails.of_eq (show (pt d main_arg1 (op1.result (op0.result (V0 m d))) : sProp 𝕄) = ptc d main_arg1 (V2 m d (dr main_arg1)) from rfl)) $$ Ha1
  ihave Hv3 := (Entails.of_eq (show (pt d main_v3 (op1.result (op0.result (V0 m d))) : sProp 𝕄) = ptc d main_v3 (V2 m d (dr main_v3)) from rfl)) $$ Hv3
  ihave Hv4 := (Entails.of_eq (show (pt d main_v4 (op1.result (op0.result (V0 m d))) : sProp 𝕄) = ptc d main_v4 (V2 m d (dr main_v4)) from rfl)) $$ Hv4
  ihave Hv5 := (Entails.of_eq (show (pt d main_v5 (op1.result (op0.result (V0 m d))) : sProp 𝕄) = ptc d main_v5 (V2 m d (dr main_v5)) from rfl)) $$ Hv5
  ihave Hv6 := (Entails.of_eq (show (pt d main_v6 (op1.result (op0.result (V0 m d))) : sProp 𝕄) = ptc d main_v6 (V2 m d (dr main_v6)) from rfl)) $$ Hv6
  ihave Hv7 := (Entails.of_eq (show (pt d main_v7 (op1.result (op0.result (V0 m d))) : sProp 𝕄) = ptc d main_v7 (V2 m d (dr main_v7)) from rfl)) $$ Hv7
  ihave Hv1 := (Entails.of_eq (show ((xtLoc d ↦{fullShare} Xt m d) : sProp 𝕄) = ptc d main_v1 (V2 m d (dr main_v1)) from rfl)) $$ Hv1
  ihave Hv2 := (Entails.of_eq (show ((moLoc d ↦{fullShare} f2) : sProp 𝕄) = ptc d main_v2 f2 from rfl)) $$ Hv2
  -- after the one call the TensorCore owes nothing more
  ihave Hst := (Entails.of_eq (show ((K (F := Ideal)).tcSt EH d ((0 : Fin 1).val + 1) : sProp 𝕄) = iprop(owesW d ∗ tcRest d) from tcSt_one d)) $$ Hst
  icases Hst with ⟨HO, Hrest⟩
  ihave Hlv := ((K (F := Ideal)).ctx_levAts (EH := EH) (P := P (Xt m)) κ) $$ Hctx
  ihave HG' := (Entails.of_eq (Pipeline.PerCore.ghostOn_erase (pcfgs (F := Ideal)) (fun _ => adm) EP (S := Finset.univ) (p := (0 : Fin 2)) (Finset.mem_univ _) d)) $$ HG
  icases HG' with ⟨⟨Hcg0, Htk0⟩, HG⟩
  ihave HG' := (Entails.of_eq (Pipeline.PerCore.ghostOn_erase (pcfgs (F := Ideal)) (fun _ => adm) EP (S := Finset.univ.erase 0) (p := (1 : Fin 2)) (by decide) d)) $$ HG
  icases HG' with ⟨⟨Hcg1, Htk1⟩, -⟩
  -- THE MINIMUM PASS
  iapply ((K (F := Ideal)).wp_liftProg (D (F := Ideal)) 𝒱 (SparseCore.T d) Set.univ none (Prog.lift (.customCall (Pipeline.entry 0) ())) _)
  iapply (Pipeline.RDat.RegionSeg.wp (pcfgs (F := Ideal)) adm (rdM (V2 m d)) (none : HIx 1) cellOf_injP EP (defs₀ (F := Ideal)) 𝒱₀ (K (F := Ideal)).L (K (F := Ideal)).lev
      (R0 (V2 m d)) d none (fun u hu => nomatch hu) (fun a => Prog.ret a) _) $$ [Hb Hv1 Hv3 HO Hcg0 Htk0 Ha0 Ha1 Hv0 Hv2 Hv4 Hv5 Hv6 Hv7 Hrest Hcg1 Htk1]
  isplitr [Hb Hv1 Hv3 HO Hcg0 Htk0]
  swap
  · isplitl [Hb]; · iexact Hb
    isplitl [Hv1 Hv3 HO]
    · rw [hR0pre]
      isplitl [Hv1]; · iexact Hv1
      isplitl [Hv3]; · iexact Hv3
      iexact HO
    isplitr; · iexact Hlv
    isplitl [Hcg0]; · iexact Hcg0
    iexact Htk0
  iintro ⟨Hb, Hpost⟩
  ihave Hpost := (Entails.of_eq (hR0post (V2 m d) d)) $$ Hpost
  icases Hpost with ⟨Hv1, ⟨%g3, %hg3, Hv3⟩, HO⟩
  rw [wp_ret]; imodintro
  -- the indices reshaped to a column
  iapply (hlo_reshapeV d main_arg1 main_v4 rfl shapeCasts_S64_S64x1 _ _ (by decide) (V2 m d) _ _ _)
    $$ [Hb Ha1 Hv4 Hv1 Hv3 HO Ha0 Hv0 Hv2 Hv5 Hv6 Hv7 Hrest Hcg1 Htk1]
  isplitl [Hb]; · iexact Hb
  isplitl [Ha1]; · iexact Ha1
  isplitl [Hv4]; · iexact Hv4
  iintro ⟨Hb, Ha1, Hv4⟩
  ihave Hv4 := (Entails.of_eq (show (ptc d main_v4 (fun i => (rfl : main_arg1.ty.elt = main_v4.ty.elt) ▸ shapeCast main_v4.ty.shape (V2 m d (dr main_arg1)) shapeCasts_S64_S64x1 i) : sProp 𝕄)
    = ptc d main_v4 (I4 m d) from rfl)) $$ Hv4
  -- THE ABLATION PASS
  iapply ((K (F := Ideal)).wp_liftProg (D (F := Ideal)) 𝒱 (SparseCore.T d) Set.univ none (Prog.lift (.customCall (Pipeline.entry 1) ())) _)
  iapply (Pipeline.RDat.RegionSeg.wp (pcfgs (F := Ideal)) adm (rdA (V5 (V2 m d) (V2 m d (dr main_v1)) f2 g3 (I4 m d) (V2 m d (dr main_v5)))) (none : HIx 1) cellOf_injP EP (defs₀ (F := Ideal)) 𝒱₀
      (K (F := Ideal)).L (K (F := Ideal)).lev (R1 (V5 (V2 m d) (V2 m d (dr main_v1)) f2 g3 (I4 m d) (V2 m d (dr main_v5)))) d none (fun u hu => nomatch hu) (fun a => Prog.ret a) _)
    $$ [Hb Hv1 Hv2 Hv3 Hv4 Hv5 HO Hcg1 Htk1 Ha0 Ha1 Hv0 Hv6 Hv7 Hrest]
  isplitr [Hb Hv1 Hv2 Hv3 Hv4 Hv5 HO Hcg1 Htk1]
  swap
  · isplitl [Hb]; · iexact Hb
    isplitl [Hv1 Hv2 Hv3 Hv4 Hv5 HO]
    · rw [hR1pre, V5_1, V5_2, V5_3, V5_4, V5_5]
      isplitl [Hv1]; · iexact Hv1
      isplitl [Hv2]; · iexact Hv2
      isplitl [Hv3]; · iexact Hv3
      isplitl [Hv4]; · iexact Hv4
      isplitl [Hv5]; · iexact Hv5
      iexact HO
    isplitr; · iexact Hlv
    isplitl [Hcg1]; · iexact Hcg1
    iexact Htk1
  iintro ⟨Hb, Hpost⟩
  ihave Hpost := (Entails.of_eq (hR1post _ d)) $$ Hpost
  rw [V5_1, V5_2, V5_3, V5_4]
  icases Hpost with ⟨-, -, -, -, Hv5, HO⟩
  rw [wp_ret]; imodintro
  -- the result reshaped and transposed back
  iapply (hlo_reshapeV d main_v5 main_v6 rfl shapeCasts_S784x64x512_S28x28x64x512 _ _ (by decide) (V2 m d) _ _ _)
    $$ [Hb Hv5 Hv6 HO Ha0 Ha1 Hv7 Hrest]
  isplitl [Hb]; · iexact Hb
  isplitl [Hv5]; · iexact Hv5
  isplitl [Hv6]; · iexact Hv6
  iintro ⟨Hb, -, Hv6⟩
  iapply (hlo_unaryV d main_v6 main_v7 _ _ _ (by decide) (V2 m d) _ _ _)
    $$ [Hb Hv6 Hv7 HO Ha0 Ha1 Hrest]
  isplitl [Hb]; · iexact Hb
  isplitl [Hv6]; · iexact Hv6
  isplitl [Hv7]; · iexact Hv7
  iintro ⟨-, -, Hv7⟩
  imodintro
  isplitl [HO Hrest]
  · rw [tcSt_one]
    isplitl [HO]; · iexact HO
    iexact Hrest
  have hfin : (transpose S64x512x28x28 [2, 3, 0, 1] (fun i => (rfl : main_v5.ty.elt = main_v6.ty.elt) ▸ shapeCast main_v6.ty.shape
        (Cert.Spec.applyOut (V2 m d (dr main_v1)) f2 g3 (I4 m d)) shapeCasts_S784x64x512_S28x28x64x512 i)
        transposes_S28x28x64x512_S64x512x28x28_2_3_0_1 : (dr main_v7).ty.Contents (Elt Ideal))
      = Cert.Spec.G (m (a0Loc d)) (m (a1Loc d)) := by
    have hI : I4 m d = shapeCast Cert.Spec.SC (m (a1Loc d) : Cert.Spec.SI.Idx → BitVec 32) shapeCasts_S64_S64x1 := by
      unfold I4; rw [V2_arg1]; rfl
    rw [hI]
    exact final_eq m d f2 g3 hf2 hg3 _ _ _
  unfold FINV
  isplitl [Ha0]; · rw [← V2_arg0 m d]; iexact Ha0
  isplitl [Ha1]; · rw [← V2_arg1 m d]; iexact Ha1
  rw [← hfin]; iexact Hv7
end Run

section RunMain

variable (rdM : Valuation τ sig (Elt Ideal) → (p : Fin 2) → (c : Dev nD) → Pipeline.RDat τ (Elt Ideal) (HIx 1) ℕ UU ℕ (cfgsP (F := Ideal) p) c)
  (R0 : (Vd : Valuation τ sig (Elt Ideal)) → Pipeline.RDat.RegionSeg (pcfgs (F := Ideal)) adm (rdM Vd) (none : HIx 1) (defs₀ (F := Ideal)) 𝒱₀
    (K (F := Ideal)).L (K (F := Ideal)).lev (0 : Fin 2))
  (hR0pre : ∀ Vd c, ((R0 Vd).pre c : sProp 𝕄) = iprop(ptc c main_v1 (Vd (dr main_v1)) ∗ ptc c main_v3 (Vd (dr main_v3)) ∗ owesW c))
  (hR0post : ∀ Vd c, ((R0 Vd).post c : sProp 𝕄) = iprop(ptc c main_v1 (Vd (dr main_v1))
    ∗ (∃ f : Buf (Elt Ideal) ((SparseCore.T c : Thread nD τ).loc main_v3),
        ⌜(f : Cert.Spec.SW.Idx → EReal) (ValueIdx.ix2 0 0) = Cert.Spec.tcMin (Vd (dr main_v1))⌝ ∗ ptc c main_v3 f) ∗ owesW c))
  (rdA : Valuation τ sig (Elt Ideal) → (p : Fin 2) → (c : Dev nD) → Pipeline.RDat τ (Elt Ideal) (HIx 1) ℕ UU ℕ (cfgsP (F := Ideal) p) c)
  (R1 : (Vd : Valuation τ sig (Elt Ideal)) → Pipeline.RDat.RegionSeg (pcfgs (F := Ideal)) adm (rdA Vd) (none : HIx 1) (defs₀ (F := Ideal)) 𝒱₀
    (K (F := Ideal)).L (K (F := Ideal)).lev (1 : Fin 2))
  (hR1pre : ∀ Vd c, ((R1 Vd).pre c : sProp 𝕄) = iprop(ptc c main_v1 (Vd (dr main_v1)) ∗ ptc c main_v2 (Vd (dr main_v2)) ∗ ptc c main_v3 (Vd (dr main_v3))
    ∗ ptc c main_v4 (Vd (dr main_v4)) ∗ ptc c main_v5 (Vd (dr main_v5)) ∗ owesW c))
  (hR1post : ∀ Vd c, ((R1 Vd).post c : sProp 𝕄) = iprop((∃ f, ptc c main_v1 f) ∗ (∃ f, ptc c main_v2 f) ∗ (∃ f, ptc c main_v3 f) ∗ (∃ f, ptc c main_v4 f)
    ∗ ptc c main_v5 (Cert.Spec.applyOut (Vd (dr main_v1)) (Vd (dr main_v2)) (Vd (dr main_v3)) (Vd (dr main_v4))) ∗ owesW c))
  (htile : ∀ X : (d : Dev nD) → Buf (Elt Ideal) (xtLoc d), (K (F := Ideal)).TileObl (D (F := Ideal)) 𝒱 (P X) v₀ 0)
  (hvec : ∀ X : (d : Dev nD) → Buf (Elt Ideal) (xtLoc d), (K (F := Ideal)).VecSplit' (P X) 0)

def fqV (d : Dev nD) (s' : Phys nD τ sig (Elt Ideal)) : Prop :=
  s'.mem.mem (a0Loc d) = m (a0Loc d) ∧ s'.mem.mem (a1Loc d) = m (a1Loc d)
    ∧ s'.mem.mem (v7Loc d) = (Cert.Spec.G (m (a0Loc d)) (m (a1Loc d)) : Buf (Elt Ideal) (v7Loc d))

set_option maxRecDepth 16384 in
theorem hfinV (d : Dev nD) (s' : Phys nD τ sig (Elt Ideal)) : iprop(FINV m d ∗ SI s') ⊢ (⌜fqV m d s'⌝ : sProp 𝕄) := by
  iintro ⟨⟨H0, H1, H7⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h2, HSI, -⟩
  ihave H := (SI_pointsTo_agree (st := s') (ℓ := v7Loc d) (I := Finset.univ) (q := fullShare)
    (f := (Cert.Spec.G (m (a0Loc d)) (m (a1Loc d)) : Buf (Elt Ideal) (v7Loc d)))) $$ [HSI H7]
  · isplitl [HSI] <;> iassumption
  icases H with %h3
  ipureintro
  exact ⟨funext fun i => h1 i (Finset.mem_univ i), funext fun i => h2 i (Finset.mem_univ i), funext fun i => h3 i (Finset.mem_univ i)⟩

/-- The idealized kernel's final state: the result at the specification, both arguments as found. -/
def QCV : PUnit × MemSt nD τ sig (Elt Ideal) → Prop := fun r => ∀ c : Dev nD,
  r.2.mem (v7Loc c) = (Cert.Spec.G (m (a0Loc c)) (m (a1Loc c)) : Buf (Elt Ideal) (v7Loc c))
    ∧ r.2.mem (a0Loc c) = m (a0Loc c) ∧ r.2.mem (a1Loc c) = m (a1Loc c)

include hR0pre hR0post hR1pre hR1post htile hvec in
theorem run_mainV : θ_run (Cert.KernelIdeal.defs (F := Ideal)) (Cert.KernelIdeal.threads (F := Ideal)) ⟨m, fun _ => 0, ρ⟩ (QCV m) :=
  SparseCore.Cfg.θ_run_sc (K := K (F := Ideal)) (D := D (F := Ideal)) (𝒱 := 𝒱) (EH := EH) (P := P (Xt m)) facts v₀
    (fun q hq => match q with | 0 => nomatch hq)
    (fun q _ => match q with | 0 => htile (Xt m))
    (fun q _ => match q with | 0 => SparseCore.Cfg.VecSplit.of_plain (hvec (Xt m)))
    m ρ main (fun d => G d) (FINV m) u₀ (sep_elim_left.trans (hu₀ m))
    (hmainV m ρ rdM R0 hR0pre hR0post rdA R1 hR1pre hR1post) (fqV m) (hfinV m) (QCV m) (fun _ h c => ⟨(h c).2.2, (h c).1, (h c).2.1⟩)

end RunMain

end Cert.Proof.KIV

end
-- ==== Proof.KIV.RowWritten.lean ====
/-
  The tile's output row, written whole through the kernel's squeezed slice of the minima: lane `l` of row
  `2 · subcore + core` of the array holds lane `l` of what was written.
-/
import proofs.«202639_g54090818126251_cont_9to1c4b_462_21_alg».proof.Proof.KI.Tile
import Idealize.ShloMosaic.Lib.Exec.Geometry
import Idealize.ShloMosaic.Lib.ValueLayout

noncomputable section

namespace Cert.Proof.KIV

open Cert.KernelIdeal Cert.KernelIdeal.Gen
open Idealize.ShloMosaic Idealize.ShloMosaic.ValueIdx

/-- Lane `l` of the squeezed row is entry `(2 · subcore + core, l)` of the array. -/
theorem moRowK_emb (L : grid0.Coords) (l : Fin 16) :
    (KI.moRowK L).view.emb (ix1 l) = ix2 (KI.rowOf (KI.cL L) (KI.jL L)) l := by
  show ((View.whole (main_v2_scv : Ref sig .scVector)).slice (KI.rowK L)).emb (Shape.reshapeEquiv squeezes_S1x16_S16.numel_eq (ix1 l)) = _
  rw [Shape.reshapeEquiv_eq_of_rowMajor squeezes_S1x16_S16.numel_eq (x := (ix1 l : S16.Idx)) (y := (ix2 (0 : Fin 1) l : S1x16.Idx)) (by
    rw [Shape.rowMajor_val_two, Shape.rowMajor_val_one]
    show 0 * 16 + l.val = l.val
    omega)]
  show (KI.rowK L).emb (ix2 (0 : Fin 1) l) = _
  funext a
  apply Fin.ext
  rw [Rect.emb_apply]
  show k0_off450 L a + 1 * ((ix2 (0 : Fin 1) l : S1x16.Idx) a).val = _
  rw [k0_off450_eq]
  match a with
  | 0 => simp [ix2, KI.rowOf]
  | 1 => simp [ix2]

theorem moRow_written (L : grid0.Coords) (d : Dev nD) (fo : Buf (Elt Ideal) (KI.moLoc d)) (w : S16.Idx → EReal) (l : Fin 16) :
    View.writes (KI.moRowK L).view (Elt Ideal) fo [⟨Rect.whole S16, w⟩] (ix2 (KI.rowOf (KI.cL L) (KI.jL L)) l) = w (ix1 l) := by
  rw [← moRowK_emb L l]
  have h := congrFun (View.read_writes_whole (KI.moRowK L).view fo w) (ix1 l)
  rw [View.read_apply] at h
  exact h

end Cert.Proof.KIV

end
-- ==== Proof.KIV.Tile.lean ====
/-
  One tile's task of the SparseCore call at the ideal instance, with the VALUE it leaves: the tile's row of the 32 × 16
  minima ends with lane `l` at the least of the transposed activations xt[560 + 7 r + u / 2, 32 (u mod 2) + b, 16 j + l]
  over its fourteen units `u`, the thirty-two batch rows `b` of a half plane and the thirty-two chunks `j` of a row
  (the specification's `tileRow`), `r = 2 · subcore + core`.

  The frame is the generic one's: a half plane is copied into one of two staging buffers while the other is reduced row
  by row. Here the invariants carry values. After the wait for unit `u`'s copy the staging buffer holds that unit's half
  plane (`StageHolds`: the copy's source slice in closed form, `k0_off1_eq`); the row loop over it keeps the accumulator
  at the least entry, lane by lane, over the units before `u` whole and the rows before `k` of unit `u` (`AccIs`, over
  `pinf`): one trip folds the row's thirty-two chunks in, a running minimum of thirty-two loads (`chain`, `step_ld0` /
  `step_ld1`, `row_step`). The accumulator starts at `+∞ = ⊤`, the minimum over no entry; a unit's last row hands on to
  the next unit's first (`pinf_next`); after the fourteenth unit it is the whole minimum (`pinf_all`), is stored to the
  sixteen-lane scratch and copied to the tile's row of the result.
-/
import proofs.«202639_g54090818126251_cont_9to1c4b_462_21_alg».proof.Proof.KIV.Pay
import proofs.«202639_g54090818126251_cont_9to1c4b_462_21_alg».proof.Proof.KIV.RowWritten
import Idealize.ShloMosaic.Lib.Transfers
import Idealize.ShloMosaic.Lib.ValueLayout

noncomputable section

namespace Cert.Proof.KIV

open Cert.Proof.KI (K D 𝒱₀ 𝒱 v₀ facts UH UP UU EH EP nSub_zero nCore_zero)

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks pointsTo_toks_join)

local notation "𝕄" => MT nD τ sig (HIx 1) (Elt Ideal) ℕ UU ℕ

local notation "xtV" => (Memref.whole Cert.KernelIdeal.main_v1_scv : Memref Cert.KernelIdeal.sig Kind.scVector Space.hbm Cert.KernelIdeal.S784x64x512 EltTy.f32)
local notation "moV" => (Memref.whole Cert.KernelIdeal.main_v2_scv : Memref Cert.KernelIdeal.sig Kind.scVector Space.hbm Cert.KernelIdeal.S32x16 EltTy.f32)
local notation "b0V" => (Memref.whole Cert.KernelIdeal.cc0_scratch0 : Memref Cert.KernelIdeal.sig Kind.scVector Space.vmem Cert.KernelIdeal.S32x512 EltTy.f32)
local notation "b1V" => (Memref.whole Cert.KernelIdeal.cc0_scratch1 : Memref Cert.KernelIdeal.sig Kind.scVector Space.vmem Cert.KernelIdeal.S32x512 EltTy.f32)
local notation "acV" => (Memref.whole Cert.KernelIdeal.cc0_scratch2 : Memref Cert.KernelIdeal.sig Kind.scVector Space.vmem Cert.KernelIdeal.S16 EltTy.f32)

variable (X : (d : Dev nD) → Buf (Elt Ideal) (xtLoc d))

open Idealize.ShloMosaic.ValueIdx

/-! ## Running minima -/

/-- A running minimum over the first `m` of a sequence. -/
def chain (g : ℕ → EReal) (a : EReal) : ℕ → EReal
  | 0 => a
  | m + 1 => min (chain g a m) (g m)

theorem chain_eq_inf (g : ℕ → EReal) (a : EReal) (m : ℕ) : chain g a m = a ⊓ (Finset.range m).inf g := by
  induction m with
  | zero => simp [chain]
  | succ m ih =>
    rw [chain, ih, Finset.range_add_one, Finset.inf_insert, inf_comm (g m), inf_assoc]

/-! ## The tile's minimum, unit by unit and row by row -/

/-- The entry of the transposed activations that unit `t.1`, row `t.2.1`, chunk `t.2.2` of tile `r` puts in lane `l`. -/
def term (xt : Cert.Spec.ST.Idx → EReal) (r : Fin 32) (l : Fin 16) (t : Fin 14 × Fin 32 × Fin 32) : EReal :=
  xt (ix3 ⟨560 + 7 * r.val + t.1.val / 2, by omega⟩ ⟨32 * (t.1.val % 2) + t.2.1.val, by omega⟩ ⟨16 * t.2.2.val + l.val, by omega⟩)

theorem tileRow_eq (xt : Cert.Spec.ST.Idx → EReal) (r : Fin 32) (l : Fin 16) :
    Cert.Spec.tileRow xt r l = Finset.univ.inf (term xt r l) := rfl

/-- The units before `n` whole and the rows before `k` of unit `n`. -/
def upTo (n k : ℕ) : Finset (Fin 14 × Fin 32 × Fin 32) :=
  Finset.univ.filter fun t => t.1.val < n ∨ (t.1.val = n ∧ t.2.1.val < k)

/-- The least entry of lane `l` over the units before `n` and the rows before `k` of unit `n`. -/
def pinf (xt : Cert.Spec.ST.Idx → EReal) (r : Fin 32) (l : Fin 16) (n k : ℕ) : EReal := (upTo n k).inf (term xt r l)

theorem upTo_zero_zero : upTo 0 0 = ∅ := by
  unfold upTo
  refine Finset.filter_eq_empty_iff.mpr fun t _ => ?_
  omega

theorem pinf_zero_zero (xt : Cert.Spec.ST.Idx → EReal) (r : Fin 32) (l : Fin 16) : pinf xt r l 0 0 = ⊤ := by
  unfold pinf; rw [upTo_zero_zero, Finset.inf_empty]

theorem upTo_next (n : ℕ) : upTo n 32 = upTo (n + 1) 0 := by
  unfold upTo
  refine Finset.filter_congr fun t _ => ?_
  have := t.2.1.isLt
  omega

theorem pinf_next (xt : Cert.Spec.ST.Idx → EReal) (r : Fin 32) (l : Fin 16) (n : ℕ) : pinf xt r l n 32 = pinf xt r l (n + 1) 0 := by
  unfold pinf; rw [upTo_next]

theorem upTo_all : upTo 14 0 = Finset.univ := by
  unfold upTo
  refine Finset.filter_true_of_mem fun t _ => ?_
  have := t.1.isLt
  omega

theorem pinf_all (xt : Cert.Spec.ST.Idx → EReal) (r : Fin 32) (l : Fin 16) : pinf xt r l 14 0 = Cert.Spec.tileRow xt r l := by
  unfold pinf; rw [upTo_all, tileRow_eq]

theorem upTo_succ (n k : ℕ) (hn : n < 14) (hk : k < 32) :
    upTo n (k + 1) = upTo n k ∪ Finset.univ.image fun j : Fin 32 => ((⟨n, hn⟩ : Fin 14), (⟨k, hk⟩ : Fin 32), j) := by
  unfold upTo
  ext ⟨a, b, c⟩
  simp only [Finset.mem_filter, Finset.mem_univ, true_and, Finset.mem_union, Finset.mem_image, Prod.mk.injEq]
  constructor
  · rintro (h | ⟨h1, h2⟩)
    · exact .inl (.inl h)
    · rcases Nat.lt_succ_iff_lt_or_eq.mp h2 with h3 | h3
      · exact .inl (.inr ⟨h1, h3⟩)
      · exact .inr ⟨c, Fin.ext h1.symm, Fin.ext h3.symm, rfl⟩
  · rintro ((h | ⟨h1, h2⟩) | ⟨j, h1, h2, _⟩)
    · exact .inl h
    · exact .inr ⟨h1, by omega⟩
    · subst h1 h2; exact .inr ⟨rfl, Nat.lt_succ_self _⟩

/-- One more row: the minimum so far and the row's thirty-two chunks. -/
theorem pinf_succ (xt : Cert.Spec.ST.Idx → EReal) (r : Fin 32) (l : Fin 16) (n k : ℕ) (hn : n < 14) (hk : k < 32) :
    pinf xt r l n (k + 1) = pinf xt r l n k ⊓ Finset.univ.inf fun j : Fin 32 => term xt r l (⟨n, hn⟩, ⟨k, hk⟩, j) := by
  unfold pinf
  rw [upTo_succ n k hn hk, Finset.inf_union, Finset.inf_image]
  rfl

/-- The infimum over the thirty-two chunks as one over the first thirty-two naturals of a total function. -/
theorem inf_fin32 (g : ℕ → EReal) : (Finset.univ.inf fun j : Fin 32 => g j.val) = (Finset.range 32).inf g := by
  apply le_antisymm
  · exact Finset.le_inf fun j hj => Finset.inf_le (f := fun j : Fin 32 => g j.val) (b := ⟨j, Finset.mem_range.mp hj⟩) (Finset.mem_univ _)
  · exact Finset.le_inf fun j _ => Finset.inf_le (Finset.mem_range.mpr j.isLt)

/-- The staging buffer holds unit `n`'s half plane of tile row `r`. -/
def StageHolds (xt : Cert.Spec.ST.Idx → EReal) (r : Fin 32) (n : ℕ) (f : S32x512.Idx → EReal) : Prop :=
  ∀ (hn : n < 14) (a : Fin 32) (c : Fin 512),
    f (ix2 a c) = xt (ix3 ⟨560 + 7 * r.val + n / 2, by omega⟩ ⟨32 * (n % 2) + a.val, by omega⟩ c)

/-- The accumulator holds the minimum over the units before `n` and the rows before `k` of unit `n`. -/
def AccIs (xt : Cert.Spec.ST.Idx → EReal) (r : Fin 32) (n k : ℕ) (acc : S16.Idx → EReal) : Prop :=
  ∀ l : Fin 16, acc (ix1 l) = pinf xt r l n k

/-! ## Loads from a staging buffer, the copies' source, the constants -/

theorem ld0_ix (f : S32x512.Idx → EReal) (off : Fin 2 → ℕ)
    (h : ∀ a, off a + S1x16.size a ≤ S32x512.size a)
    (hc : ((Rect.unit (s := S32x512) off S1x16.size h).toLoadRect).shape.ShapeCasts S16) (l : Fin 16) :
    shapeCast S16 (View.readAt (Elt Ideal) (b0V).view (Rect.unit (s := S32x512) off S1x16.size h).toLoadRect f) hc (ix1 l)
      = f (ix2 (⟨off 0, by have := h 0; simp [S1x16, S32x512] at this; omega⟩ : Fin 32) (⟨off 1 + l.val, by have := h 1; simp [S1x16, S32x512] at this; omega⟩ : Fin 512)) := by
  refine (shapeCast_1a_a_apply (a := 16) _ hc l).trans ?_
  rw [View.readAt_apply]
  show f _ = f _
  congr 1
  funext a
  match a with
  | ⟨0, _⟩ => first | rfl | (apply Fin.ext; simp)
  | ⟨1, _⟩ => first | rfl | (apply Fin.ext; simp)

theorem ld1_ix (f : S32x512.Idx → EReal) (off : Fin 2 → ℕ)
    (h : ∀ a, off a + S1x16.size a ≤ S32x512.size a)
    (hc : ((Rect.unit (s := S32x512) off S1x16.size h).toLoadRect).shape.ShapeCasts S16) (l : Fin 16) :
    shapeCast S16 (View.readAt (Elt Ideal) (b1V).view (Rect.unit (s := S32x512) off S1x16.size h).toLoadRect f) hc (ix1 l)
      = f (ix2 (⟨off 0, by have := h 0; simp [S1x16, S32x512] at this; omega⟩ : Fin 32) (⟨off 1 + l.val, by have := h 1; simp [S1x16, S32x512] at this; omega⟩ : Fin 512)) := by
  refine (shapeCast_1a_a_apply (a := 16) _ hc l).trans ?_
  rw [View.readAt_apply]
  show f _ = f _
  congr 1
  funext a
  match a with
  | ⟨0, _⟩ => first | rfl | (apply Fin.ext; simp)
  | ⟨1, _⟩ => first | rfl | (apply Fin.ext; simp)

/-- A staged half plane read at natural coordinates, `⊤` outside it. -/
def rd (f : S32x512.Idx → EReal) (r c : ℕ) : EReal := if h : r < 32 ∧ c < 512 then f (ix2 ⟨r, h.1⟩ ⟨c, h.2⟩) else ⊤

/-- A sixteen-lane load from the first staging buffer at a row and column in closed form, lane `l`. -/
theorem ld0 (f : S32x512.Idx → EReal) (off : Fin 2 → ℕ) [co : ClosedOff off]
    (h : ∀ a, off a + S1x16.size a ≤ S32x512.size a)
    (hc : ((Rect.unit (s := S32x512) off S1x16.size h).toLoadRect).shape.ShapeCasts S16) (l : Fin 16) :
    shapeCast S16 (View.readAt (Elt Ideal) (b0V).view (Rect.unit (s := S32x512) off S1x16.size h).toLoadRect f) hc (ix1 l)
      = rd f (co.form 0) (co.form 1 + l.val) := by
  have h0 := h 0; have h1 := h 1
  simp [S1x16, S32x512] at h0 h1
  rw [ld0_ix, ← congrFun co.eq 0, ← congrFun co.eq 1, rd, dif_pos ⟨by omega, by omega⟩]

/-- The same from the second staging buffer. -/
theorem ld1 (f : S32x512.Idx → EReal) (off : Fin 2 → ℕ) [co : ClosedOff off]
    (h : ∀ a, off a + S1x16.size a ≤ S32x512.size a)
    (hc : ((Rect.unit (s := S32x512) off S1x16.size h).toLoadRect).shape.ShapeCasts S16) (l : Fin 16) :
    shapeCast S16 (View.readAt (Elt Ideal) (b1V).view (Rect.unit (s := S32x512) off S1x16.size h).toLoadRect f) hc (ix1 l)
      = rd f (co.form 0) (co.form 1 + l.val) := by
  have h0 := h 0; have h1 := h 1
  simp [S1x16, S32x512] at h0 h1
  rw [ld1_ix, ← congrFun co.eq 0, ← congrFun co.eq 1, rd, dif_pos ⟨by omega, by omega⟩]

/-- The slice of the activations a copy reads, squeezed to a half plane, at row `a` and column `cc`. -/
theorem stage_read (d : Dev nD) (xt : Buf (Elt Ideal) (xtLoc d)) (off : Fin 3 → ℕ)
    (h : ∀ a, off a + S1x32x512.size a ≤ S784x64x512.size a) (hs) (a : Fin 32) (cc : Fin 512) :
    View.read (Elt Ideal) (((xtV).slice (Rect.unit (s := S784x64x512) off S1x32x512.size h) hs).squeeze S32x512 squeezes_S1x32x512_S32x512).view xt (ix2 a cc)
      = xt (ix3 (⟨off 0, by have := h 0; simp [S1x32x512, S784x64x512] at this; omega⟩ : Fin 784)
          (⟨off 1 + a.val, by have := h 1; simp [S1x32x512, S784x64x512] at this; omega⟩ : Fin 64)
          (⟨off 2 + cc.val, by have := h 2; simp [S1x32x512, S784x64x512] at this; omega⟩ : Fin 512)) := by
  rw [View.read_apply]
  show xt _ = xt _
  congr 1
  show (Rect.unit (s := S784x64x512) off S1x32x512.size h).emb (Shape.reshapeEquiv squeezes_S1x32x512_S32x512.numel_eq (ix2 a cc)) = _
  rw [reshapeEquiv_ix2_1ab]
  funext ax
  match ax with
  | ⟨0, _⟩ => first | rfl | (apply Fin.ext; simp)
  | ⟨1, _⟩ => first | rfl | (apply Fin.ext; simp)
  | ⟨2, _⟩ => first | rfl | (apply Fin.ext; simp)

/-- Where unit `u`'s copy reads from: plane `560 + 7 r + u / 2` of tile row `r = 2 · subcore + core`, batch rows from `32 (u mod 2)`. -/
theorem k0_off1_eq : ∀ (L : grid0.Coords) (u : Fin 14), k0_off1 L (BitVec.ofNat 32 u.val)
    = ![560 + 7 * (2 * (L 1).val + (L 0).val) + u.val / 2, 32 * (u.val % 2), 0] := by decide +kernel

/-- `+∞`, as the program spells it. -/
theorem ofBits_inf : Ideal.ofBits .f32 0x7F800000#32 = (⊤ : EReal) := by
  simp [Ideal.ofBits, Ideal.ieee]

/-! ## One row, one unit, all fourteen -/

/-- One row of a staged half plane folded into the running minimum. -/
theorem row_step (xt : Cert.Spec.ST.Idx → EReal) (r : Fin 32) (n k : ℕ) (hn : n < 14) (hk : k < 32) (f : S32x512.Idx → EReal)
    (hf : StageHolds xt r n f) (l : Fin 16) (a : EReal) (ha : a = pinf xt r l n k) :
    a ⊓ (Finset.range 32).inf (fun j => rd f k (16 * j + l.val)) = pinf xt r l n (k + 1) := by
  rw [pinf_succ xt r l n k hn hk, ← ha, ← inf_fin32]
  congr 1
  refine Finset.inf_congr rfl fun j _ => ?_
  have hj := j.isLt
  have hl := l.isLt
  rw [rd, dif_pos ⟨hk, by omega⟩, hf hn]
  rfl

theorem AccIs_zero (xt : Cert.Spec.ST.Idx → EReal) (r : Fin 32) (acc : S16.Idx → EReal) (h : ∀ i, acc i = ⊤) : AccIs xt r 0 0 acc :=
  fun l => (h _).trans (pinf_zero_zero xt r l).symm

theorem AccIs_next {xt : Cert.Spec.ST.Idx → EReal} {r : Fin 32} {n T : ℕ} {acc : S16.Idx → EReal} (hT : T = 32)
    (h : AccIs xt r n T acc) : AccIs xt r (n + 1) 0 acc :=
  fun l => (h l).trans (hT ▸ pinf_next xt r l n)

/-- One more chunk folded into lane `l` of the running minimum of a row of the first staging buffer. -/
theorem step_ld0 {f : S32x512.Idx → EReal} {A : FVec Ideal S16 .f32}
    {off : Fin 2 → ℕ} [co : ClosedOff off] {h : ∀ a, off a + S1x16.size a ≤ S32x512.size a}
    {hc : ((Rect.unit (s := S32x512) off S1x16.size h).toLoadRect).shape.ShapeCasts S16} {l : Fin 16} {m : ℕ} {a : EReal} {g : ℕ → EReal}
    (hA : A (ix1 l) = chain g a m) (hg : g m = rd f (co.form 0) (co.form 1 + l.val)) :
    minimumf A (shapeCast S16 (View.readAt (Elt Ideal) (b0V).view (Rect.unit (s := S32x512) off S1x16.size h).toLoadRect f) hc) (ix1 l)
      = chain g a (m + 1) := by
  rw [minimumf_apply, ld0, hA, ← hg]; rfl

/-- One more chunk folded into lane `l` of the running minimum of a row of the second staging buffer. -/
theorem step_ld1 {f : S32x512.Idx → EReal} {A : FVec Ideal S16 .f32}
    {off : Fin 2 → ℕ} [co : ClosedOff off] {h : ∀ a, off a + S1x16.size a ≤ S32x512.size a}
    {hc : ((Rect.unit (s := S32x512) off S1x16.size h).toLoadRect).shape.ShapeCasts S16} {l : Fin 16} {m : ℕ} {a : EReal} {g : ℕ → EReal}
    (hA : A (ix1 l) = chain g a m) (hg : g m = rd f (co.form 0) (co.form 1 + l.val)) :
    minimumf A (shapeCast S16 (View.readAt (Elt Ideal) (b1V).view (Rect.unit (s := S32x512) off S1x16.size h).toLoadRect f) hc) (ix1 l)
      = chain g a (m + 1) := by
  rw [minimumf_apply, ld1, hA, ← hg]; rfl

/-- The sixteen-lane scratch, stored whole, read back: what was stored. -/
theorem acc_read (f2 w : S16.Idx → EReal) (h : ∀ a, (![0] : Fin 1 → ℕ) a + S16.size a ≤ S16.size a) :
    View.read (Elt Ideal) (acV).view ((acV).view.writes (Elt Ideal) f2 [⟨Rect.unit (s := S16) ![0] S16.size h, w⟩]) = w := by
  have e : (acV).view.writes (Elt Ideal) f2 [⟨Rect.unit (s := S16) ![0] S16.size h, w⟩] = w :=
    Memref.write_access_unit_zero_univ (Elt Ideal) cc0_scratch2 (off := ![0]) (funext fun a => by fin_cases a; rfl) h f2 w
  rw [e]; rfl

/-- After the fourteenth unit the accumulator is the tile's row of minima. -/
theorem AccIs_done {xt : Cert.Spec.ST.Idx → EReal} {r : Fin 32} {T : ℕ} {acc : S16.Idx → EReal} (hT : T = 32)
    (h : AccIs xt r 13 T acc) (l : Fin 16) : acc (ix1 l) = Cert.Spec.tileRow xt r l :=
  (AccIs_next hT h l).trans (pinf_all xt r l)

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- The row of the minima the tile writes, as the kernel slices it, squeezed. -/
abbrev rowK (L : grid0.Coords) : Rect S32x16 := Rect.unit (s := S32x16) (k0_off450 L) S1x16.size (k0_off450_inb L)
abbrev moRowK (L : grid0.Coords) : Memref sig .scVector .hbm S16 .f32 := ((moV).slice (rowK L) (fun _ => rfl)).squeeze S16 squeezes_S1x16_S16

theorem rowK_eq : rowK L = row (rowOf (cL L) (jL L)) := by
  unfold rowK row Rect.part Rect.block
  congr 1 <;> funext a
  · rw [k0_off450_eq]
    match a with
    | 0 => simp [Shape.partIx, Shape.partSize, rowOf]
    | 1 => simp [Shape.partIx, Shape.partSize]
  · match a with
    | 0 => simp [Shape.partSize]
    | 1 => simp [Shape.partSize]

theorem set_moRowK : (moRowK L).view.set = rowSet (rowOf (cL L) (jL L)) := by
  show (((moV).view.slice (rowK L)).reshape S16 squeezes_S1x16_S16.numel_eq).set = ((moV).view.slice (row (rowOf (cL L) (jL L)))).set
  rw [View.set_reshape]
  exact rowK_eq L ▸ rfl

theorem pts_moRowK (f : Buf (Elt Ideal) (moLoc d)) :
    ((moRowK L).view.loc (V d (cV L) (jV L)) ↦[(moRowK L).view.set]{fullShare} f : sProp 𝕄) = moLoc d ↦[rowSet (rowOf (cL L) (jL L))]{fullShare} f := by
  rw [set_moRowK]
theorem pts_xtV (q : PosShare TreeShare) (f : Buf (Elt Ideal) (xtLoc d)) :
    ((xtV).view.loc (V d (cV L) (jV L)) ↦{q} f : sProp 𝕄) = xtLoc d ↦{q} f := by
  simp only [Memref.view_whole, View.set_whole]
theorem pts_b0V (f : Buf (Elt Ideal) ((V d (cV L) (jV L)).loc cc0_scratch0)) :
    ((b0V).view.loc (V d (cV L) (jV L)) ↦{fullShare} f : sProp 𝕄) = (V d (cV L) (jV L)).loc cc0_scratch0 ↦{fullShare} f := rfl
theorem pts_b1V (f : Buf (Elt Ideal) ((V d (cV L) (jV L)).loc cc0_scratch1)) :
    ((b1V).view.loc (V d (cV L) (jV L)) ↦{fullShare} f : sProp 𝕄) = (V d (cV L) (jV L)).loc cc0_scratch1 ↦{fullShare} f := rfl
theorem pts_acV (f : Buf (Elt Ideal) ((V d (cV L) (jV L)).loc cc0_scratch2)) :
    ((acV).view.loc (V d (cV L) (jV L)) ↦{fullShare} f : sProp 𝕄) = (V d (cV L) (jV L)).loc cc0_scratch2 ↦{fullShare} f := rfl

/-- The tile's three DMA semaphores: one per staging buffer, one for the write-out. -/
abbrev c0cell (d : Dev nD) (c : Fin τ.nSC) (i : Fin τ.nSub) : GSem nD τ sig := (V d c i, .dma cc0_scratch3.sem)
abbrev c1cell (d : Dev nD) (c : Fin τ.nSC) (i : Fin τ.nSub) : GSem nD τ sig := (V d c i, .dma cc0_scratch4.sem)
abbrev c2cell (d : Dev nD) (c : Fin τ.nSC) (i : Fin τ.nSub) : GSem nD τ sig := (V d c i, .dma cc0_scoped0.sem)

theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0
          ∗ bigSep ((((ownCells (V d (cV L) (jV L))).erase (c0cell d (cV L) (jV L))).erase (c1cell d (cV L) (jV L))).erase (c2cell d (cV L) (jV L))) fun g => semVal g 0) := by
  unfold SparseCore.Cfg.ownSems0
  rw [SparseCore.bigSep_erase' ((mem_ownCells (g := c0cell d (cV L) (jV L))).mpr ⟨rfl, by
      show (SemLoc.dma cc0_scratch3.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scratch4.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped0.sem : SemLoc sig).isScoped .scVector = true; decide⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ## What a copy leaves in a staging buffer -/

/-- What the copy of unit `u` leaves in the first staging buffer: the unit's half plane. -/
theorem stage_holds0 (d : Dev nD) (L : grid0.Coords) (u : ℕ) (w : BitVec 32) (hw : w = BitVec.ofNat 32 u) (hu : u < 14)
    (h : ∀ a, k0_off1 L w a + S1x32x512.size a ≤ S784x64x512.size a) (hs)
    (f0 : Buf (Elt Ideal) ((V d (cV L) (jV L)).loc cc0_scratch0)) :
    StageHolds (X d) (rowOf (cL L) (jL L)) u
      (View.write (Elt Ideal) (b0V).view f0 (ReadAs.same.apply (View.read (Elt Ideal)
        (((xtV).slice (Rect.unit (s := S784x64x512) (k0_off1 L w) S1x32x512.size h) hs).squeeze S32x512 squeezes_S1x32x512_S32x512).view (X d))) Finset.univ) := by
  subst hw
  intro hn a c
  refine (congrFun (View.write_whole_univ cc0_scratch0 f0 _) _).trans ?_
  rw [ReadAs.apply_same, stage_read]
  have e : k0_off1 L (BitVec.ofNat 32 u) = ![560 + 7 * (2 * (L 1).val + (L 0).val) + u / 2, 32 * (u % 2), 0] := k0_off1_eq L ⟨u, hu⟩
  have e0 : k0_off1 L (BitVec.ofNat 32 u) 0 = 560 + 7 * (rowOf (cL L) (jL L)).val + u / 2 := by rw [e]; rfl
  have e1 : k0_off1 L (BitVec.ofNat 32 u) 1 = 32 * (u % 2) := by rw [e]; rfl
  have e2 : k0_off1 L (BitVec.ofNat 32 u) 2 = 0 := by rw [e]; rfl
  congr 1
  funext ax
  match ax with
  | ⟨0, _⟩ => exact Fin.ext e0
  | ⟨1, _⟩ => exact Fin.ext (by show _ + _ = _ + _; rw [e1])
  | ⟨2, _⟩ => exact Fin.ext (by show _ + _ = _; rw [e2, Nat.zero_add])

/-- What the copy of unit `u` leaves in the second staging buffer: the unit's half plane. -/
theorem stage_holds1 (d : Dev nD) (L : grid0.Coords) (u : ℕ) (w : BitVec 32) (hw : w = BitVec.ofNat 32 u) (hu : u < 14)
    (h : ∀ a, k0_off1 L w a + S1x32x512.size a ≤ S784x64x512.size a) (hs)
    (f0 : Buf (Elt Ideal) ((V d (cV L) (jV L)).loc cc0_scratch1)) :
    StageHolds (X d) (rowOf (cL L) (jL L)) u
      (View.write (Elt Ideal) (b1V).view f0 (ReadAs.same.apply (View.read (Elt Ideal)
        (((xtV).slice (Rect.unit (s := S784x64x512) (k0_off1 L w) S1x32x512.size h) hs).squeeze S32x512 squeezes_S1x32x512_S32x512).view (X d))) Finset.univ) := by
  subst hw
  intro hn a c
  refine (congrFun (View.write_whole_univ cc0_scratch1 f0 _) _).trans ?_
  rw [ReadAs.apply_same, stage_read]
  have e : k0_off1 L (BitVec.ofNat 32 u) = ![560 + 7 * (2 * (L 1).val + (L 0).val) + u / 2, 32 * (u % 2), 0] := k0_off1_eq L ⟨u, hu⟩
  have e0 : k0_off1 L (BitVec.ofNat 32 u) 0 = 560 + 7 * (rowOf (cL L) (jL L)).val + u / 2 := by rw [e]; rfl
  have e1 : k0_off1 L (BitVec.ofNat 32 u) 1 = 32 * (u % 2) := by rw [e]; rfl
  have e2 : k0_off1 L (BitVec.ofNat 32 u) 2 = 0 := by rw [e]; rfl
  congr 1
  funext ax
  match ax with
  | ⟨0, _⟩ => exact Fin.ext e0
  | ⟨1, _⟩ => exact Fin.ext (by show _ + _ = _ + _; rw [e1])
  | ⟨2, _⟩ => exact Fin.ext (by show _ + _ = _; rw [e2, Nat.zero_add])

set_option hygiene false in
/-- One pass over the first staging buffer as unit `n`: the row loop by the invariant that the buffer holds the unit's half
    plane and the accumulator the minimum so far; on entry the buffer is what the copy wrote, the accumulator what the last
    unit left (`hacc`); then on to the next loop. -/
macro "rows0" n:num hacc:term : tactic => `(tactic| (
  sl_for (fun (k : Nat) (acc : FVec Ideal S16 .f32) => (iprop(∃ f, ⌜StageHolds (X d) (rowOf (cL L) (jL L)) $n f ∧ AccIs (X d) (rowOf (cL L) (jL L)) $n k acc⌝
      ∗ (b0V).view.loc (V d (cV L) (jV L)) ↦{fullShare} f) : sProp 𝕄)) $$ [Hb0']
  case region =>
    intro k acc
    iintro ⟨%f, %hinv, Hb⟩
    sl_exec
    sl_step
    iexists _; isplitr [Hb]
    swap; · iexact Hb
    ipureintro
    refine ⟨hinv.1, fun l => ?_⟩
    refine Eq.trans ?_ (row_step (X d) (rowOf (cL L) (jL L)) $n k.val (by decide) (lt_of_lt_of_eq k.isLt (by decide +kernel)) f hinv.1 l (acc (ix1 l)) (hinv.2 l))
    refine Eq.trans ?_ (chain_eq_inf (fun j => rd f k.val (16 * j + l.val)) (acc (ix1 l)) 32)
    sl_unfold_run_names
    iterate 32 (refine step_ld0 ?_ (by rfl))
    rfl
  · iexists _; isplitr [Hb0']
    swap; · iexact Hb0'
    ipureintro
    refine ⟨?_, $hacc⟩
    sl_unfold_run_names
    exact stage_holds0 X d L $n _ rfl (by decide) _ _ _
  iintro %vacc HI
  icases HI with ⟨%fb0, %hv, Hb0'⟩
  sl_exec))

set_option hygiene false in
/-- The same over the second staging buffer. -/
macro "rows1" n:num hacc:term : tactic => `(tactic| (
  sl_for (fun (k : Nat) (acc : FVec Ideal S16 .f32) => (iprop(∃ f, ⌜StageHolds (X d) (rowOf (cL L) (jL L)) $n f ∧ AccIs (X d) (rowOf (cL L) (jL L)) $n k acc⌝
      ∗ (b1V).view.loc (V d (cV L) (jV L)) ↦{fullShare} f) : sProp 𝕄)) $$ [Hb1']
  case region =>
    intro k acc
    iintro ⟨%f, %hinv, Hb⟩
    sl_exec
    sl_step
    iexists _; isplitr [Hb]
    swap; · iexact Hb
    ipureintro
    refine ⟨hinv.1, fun l => ?_⟩
    refine Eq.trans ?_ (row_step (X d) (rowOf (cL L) (jL L)) $n k.val (by decide) (lt_of_lt_of_eq k.isLt (by decide +kernel)) f hinv.1 l (acc (ix1 l)) (hinv.2 l))
    refine Eq.trans ?_ (chain_eq_inf (fun j => rd f k.val (16 * j + l.val)) (acc (ix1 l)) 32)
    sl_unfold_run_names
    iterate 32 (refine step_ld1 ?_ (by rfl))
    rfl
  · iexists _; isplitr [Hb1']
    swap; · iexact Hb1'
    ipureintro
    refine ⟨?_, $hacc⟩
    sl_unfold_run_names
    exact stage_holds1 X d L $n _ rfl (by decide) _ _ _
  iintro %vacc HI
  icases HI with ⟨%fb1, %hv, Hb1'⟩
  sl_exec))

set_option maxHeartbeats 4000000 in
theorem tile_body (hF : (K (F := Ideal)).Facts) (O : CellTallies nD τ sig (HIx 1)) (W : Waits sig (HIx 1)) (hO : ∀ g, O g none = 0) :
    iprop(levAts (K (F := Ideal)).L (K (F := Ideal)).lev ∗ emp
        ∗ (xtShT X d (cL L) (jL L) ∗ moRow d (rowOf (cL L) (jL L)))
        ∗ scopedBufs (V d (cV L) (jV L)) ∗ scopedSems0 (V d (cV L) (jV L)) ∗ owes (V d (cV L) (jV L)) O W)
      ⊢ wp frame (wpE (defs₀ (F := Ideal)) 𝒱₀ (V d (cV L) (jV L)) none) Set.univ
          (cc0__sc_min L xtV (Memref.isWhole_whole _) moV (Memref.isWhole_whole _) b0V (Memref.isWhole_whole _) b1V (Memref.isWhole_whole _)
            acV (Memref.isWhole_whole _) cc0_scratch3 cc0_scratch4 cc0_scoped0)
          fun _ => iprop((xtShT X d (cL L) (jL L) ∗ moRowV X d (rowOf (cL L) (jL L)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold cc0__sc_min
  rw [(K (F := Ideal)).scopedBufs_V hF d (cV L) (jV L), SparseCore.Cfg.scopedSems0_V (Val := Elt Ideal) d (cV L) (jV L), ownSems0_V, ownBufs_V]
  iintro ⟨#Hlv, -, ⟨Hx, ⟨%fo, Ho⟩⟩, ⟨⟨%f0, Hb0⟩, ⟨%f1, Hb1⟩, ⟨%f2, Hac⟩, Hbufs⟩, ⟨Hsem0, Hsem1, Hsem2, Hsems⟩, HO⟩
  ihave Hmw := (show levAts (K (F := Ideal)).L (K (F := Ideal)).lev ⊢ Transfers.MayWaits (V d (cV L) (jV L)) (default : HIx 1) O from
    (K (F := Ideal)).mayWaits_none (thr := V d (cV L) (jV L)) hO) $$ Hlv
  ihave Ho' := (Entails.of_eq (pts_moRowK d L _).symm) $$ Ho
  ihave Hx' := (Entails.of_eq (pts_xtV d L _ _).symm) $$ Hx
  ihave Hb0' := (Entails.of_eq (pts_b0V d L _).symm) $$ Hb0
  ihave Hb1' := (Entails.of_eq (pts_b1V d L _).symm) $$ Hb1
  ihave Hac' := (Entails.of_eq (pts_acV d L _).symm) $$ Hac
  sl_exec
  rows0 0 (AccIs_zero _ _ _ (fun _ => ofBits_inf))
  rows1 1 (AccIs_next (by decide +kernel) hv.2)
  rows0 2 (AccIs_next (by decide +kernel) hv.2)
  rows1 3 (AccIs_next (by decide +kernel) hv.2)
  rows0 4 (AccIs_next (by decide +kernel) hv.2)
  rows1 5 (AccIs_next (by decide +kernel) hv.2)
  rows0 6 (AccIs_next (by decide +kernel) hv.2)
  rows1 7 (AccIs_next (by decide +kernel) hv.2)
  rows0 8 (AccIs_next (by decide +kernel) hv.2)
  rows1 9 (AccIs_next (by decide +kernel) hv.2)
  rows0 10 (AccIs_next (by decide +kernel) hv.2)
  rows1 11 (AccIs_next (by decide +kernel) hv.2)
  rows0 12 (AccIs_next (by decide +kernel) hv.2)
  rows1 13 (AccIs_next (by decide +kernel) hv.2)
  sl_step
  isplitl [Hx' Ho']
  · isplitl [Hx']; · iapply (Entails.of_eq (pts_xtV d L _ _)); iexact Hx'
    iexists _; isplitr [Ho']
    swap; · iapply (Entails.of_eq (pts_moRowK d L _)); iexact Ho'
    ipureintro
    intro l
    refine (moRow_written L d fo _ l).trans ?_
    sl_unfold_run_names
    rw [ReadAs.apply_same, acc_read, shapeCast_self]
    exact AccIs_done (by decide +kernel) hv.2 l
  isplitl [Hb0' Hb1' Hac' Hbufs]
  · isplitl [Hb0']; · iexists _; iexact Hb0'
    isplitl [Hb1']; · iexists _; iexact Hb1'
    isplitl [Hac']; · iexists _; iexact Hac'
    iexact Hbufs
  isplitl [Hsem0 Hsem1 Hsem2 Hsems]
  · isplitl [Hsem0]; · iexact Hsem0
    isplitl [Hsem1]; · iexact Hsem1
    isplitl [Hsem2]; · iexact Hsem2
    iexact Hsems
  iexists _; isplitr
  swap; · iexact HO
  ipureintro; intro p hp
  simp only [Finset.mem_insert] at hp
  casesm* _ ∨ _ <;> first | exact .inl ‹_› | (subst_vars; exact .inr rfl)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := Ideal) (.scVector c s) 0 ()
      = SparseCore.onTile hcore0 hsub0 (fun c s => cc0__sc_min (coordsV c s)
          xtV (Memref.isWhole_whole _) moV (Memref.isWhole_whole _) b0V (Memref.isWhole_whole _) b1V (Memref.isWhole_whole _)
          acV (Memref.isWhole_whole _) cc0_scratch3 cc0_scratch4 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := Ideal)).Facts) : (K (F := Ideal)).TileObl (D (F := Ideal)) 𝒱 (P X) v₀ 0 := by
  intro d c i O W hO _ _
  simp only [show (P X).ox = fun _ _ => 0 from rfl, add_zero]
  have hci : ((K (F := Ideal)).core 0 c).val < grid0.bound 0 ∧ ((K (F := Ideal)).sub 0 i).val < grid0.bound 1 := ⟨c.isLt, i.isLt⟩
  change _ ⊢ wp _ _ _ (Pipeline.liftProg (defs₀ (F := Ideal) (.scVector ((K (F := Ideal)).core 0 c) ((K (F := Ideal)).sub 0 i)) 0 ())) _
  refine BI.Entails.trans ?_ (Pipeline.wp_liftProg (D (F := Ideal)) (Pipeline.defs_kernel pcfgs defs₀) 𝒱₀ _ Set.univ none _ _)
  rw [defs₀_vector]; simp only [SparseCore.onTile, hci, and_self, ↓reduceDIte]
  exact (tile_body X d (coordsV ⟨_, hci.1⟩ ⟨_, hci.2⟩) hF O W hO).trans (wp_mono frame _ _ fun _ => obl_post)

end Tile

/-! ## A SparseCore's operands split among its tiles, and its results gather -/

theorem bigSep_tasks (Φ : Fin 16 → sProp 𝕄) :
    (bigSep Finset.univ fun i : Fin ((K (F := Ideal)).nSub 0) => Φ (Fin.cast nSub_zero i)) = bigSep Finset.univ Φ :=
  bigSep_congr fun _ _ => congrArg Φ (Fin.ext rfl)

theorem vecSplit : (K (F := Ideal)).VecSplit' (P X) 0 := by
  intro d c
  show iprop(xtShC X d (Fin.cast nCore_zero c) ∗ bigSep Finset.univ fun i : Fin 16 => moRow d (rowOf (Fin.cast nCore_zero c) i)) ⊢ |={Set.univ}=> iprop(
      (bigSep Finset.univ fun i : Fin ((K (F := Ideal)).nSub 0) =>
        iprop(xtShT X d (Fin.cast nCore_zero c) (Fin.cast nSub_zero i) ∗ moRow d (rowOf (Fin.cast nCore_zero c) (Fin.cast nSub_zero i))))
      ∗ ((bigSep Finset.univ fun i : Fin ((K (F := Ideal)).nSub 0) =>
          iprop(xtShT X d (Fin.cast nCore_zero c) (Fin.cast nSub_zero i) ∗ moRowV X d (rowOf (Fin.cast nCore_zero c) (Fin.cast nSub_zero i))))
          -∗ iprop(xtShC X d (Fin.cast nCore_zero c) ∗ bigSep Finset.univ fun i : Fin 16 => moRowV X d (rowOf (Fin.cast nCore_zero c) i))))
  rw [bigSep_tasks (fun i => iprop(xtShT X d (Fin.cast nCore_zero c) i ∗ moRow d (rowOf (Fin.cast nCore_zero c) i))),
    bigSep_tasks (fun i => iprop(xtShT X d (Fin.cast nCore_zero c) i ∗ moRowV X d (rowOf (Fin.cast nCore_zero c) i))), bigSep_sep', bigSep_sep']
  iintro ⟨Hx, Ho⟩
  ihave Hx2 := (pointsTo_toks (qC (Fin.cast nCore_zero c)) 16).1 $$ Hx
  icases Hx2 with ⟨Hd, Ht⟩
  imodintro
  isplitl [Ht Ho]
  · isplitl [Ht]; · iexact Ht
    iexact Ho
  iintro ⟨Ht, Ho⟩
  isplitl [Hd Ht]
  · iapply (pointsTo_toks_join (qC (Fin.cast nCore_zero c)) 16)
    isplitl [Hd]; · iexact Hd
    iexact Ht
  iexact Ho

end Cert.Proof.KIV

end
-- ==== Proof.KIV.TcMin.lean ====
/-
  The VALUE of the first TensorCore pipeline of the idealized kernel, the minimum pass, as a region of @main, over the
  extended reals.

  The pass runs ten points. At point t the body is handed the block of planes 56 t … 56 t + 55 of the transposed
  activations xt : [784, 64, 512] (the block is fetched at every point and no axis is cut: 560 = 10 · 56 ≤ 784), takes
  the block's least entry — a `minimumf` reduction over the three block axes from +∞, which over the extended reals is
  the infimum of the block —, and keeps a running minimum in a one-word accumulator: set at the first point, folded with
  `min` at the later ones, copied to the result word at the last. So before point t the accumulator holds the least
  entry of the first 56 t planes (`planesMin`), by induction on the point through
      planesMin (n + 56) = min (planesMin n) (the block's least entry),
  and the word written back at the last point is planesMin 560, the specification's `tcMin`. The result array [1, 1] is
  one block, written back once, at the last point; the activations are an input and keep their contents.
-/
import proofs.«202639_g54090818126251_cont_9to1c4b_462_21_alg».proof.Proof.KI.Regions
import proofs.«202639_g54090818126251_cont_9to1c4b_462_21_alg».proof.Proof.Spec
import Idealize.ShloMosaic.Lib.Pipeline.Value
import Idealize.ShloMosaic.Lib.Pipeline.Cells
import Idealize.ShloMosaic.Lib.ValueLayout
import Idealize.ShloMosaic.PureOps.Ideal.Laws
import Idealize.ShloMosaic.Lib.WholeRead

noncomputable section

namespace Cert.Proof.KIV

open Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Ideal) ℕ UU ℕ
open Idealize.ShloMosaic.ValueIdx

local notation "sc1V" => (Memref.whole Cert.KernelIdeal.cc1_scratch0 : Memref Cert.KernelIdeal.sig Kind.tc Space.smem Cert.KernelIdeal.S1 EltTy.f32)

variable (Vd : Valuation τ sig (Elt Ideal))

namespace TcMin

/-! ## The minimum, plane block by plane block -/

/-- The least entry of the first `n` planes of the transposed activations. -/
def planesMin (xt : Cert.Spec.ST.Idx → EReal) (n : ℕ) : EReal :=
  (Finset.univ.filter fun t : Fin 784 × Fin 64 × Fin 512 => t.1.val < n).inf fun t => xt (ix3 t.1 t.2.1 t.2.2)

/-- The least entry of one block of 56 planes. -/
def blockMin (B : (⟨3, ![56, 64, 512]⟩ : Shape).Idx → EReal) : EReal := Finset.univ.inf B

theorem planesMin_zero (xt : Cert.Spec.ST.Idx → EReal) : planesMin xt 0 = ⊤ := by
  unfold planesMin
  rw [Finset.filter_false_of_mem (fun t _ => Nat.not_lt_zero _), Finset.inf_empty]

/-- Over all of the first 560 planes it is the specification's minimum. -/
theorem planesMin_560 (xt : Cert.Spec.ST.Idx → EReal) : planesMin xt 560 = Cert.Spec.tcMin xt := by
  unfold planesMin Cert.Spec.tcMin
  apply le_antisymm
  · refine Finset.le_inf fun t _ => ?_
    exact Finset.inf_le (f := fun t : Fin 784 × Fin 64 × Fin 512 => xt (ix3 t.1 t.2.1 t.2.2))
      (b := (⟨t.1.val, by omega⟩, t.2.1, t.2.2)) (Finset.mem_filter.mpr ⟨Finset.mem_univ _, t.1.isLt⟩)
  · refine Finset.le_inf fun t ht => ?_
    have h : t.1.val < 560 := (Finset.mem_filter.mp ht).2
    exact Finset.inf_le (f := fun t : Fin 560 × Fin 64 × Fin 512 => xt (ix3 ⟨t.1.val, by omega⟩ t.2.1 t.2.2))
      (b := (⟨t.1.val, h⟩, t.2.1, t.2.2)) (Finset.mem_univ _)

/-- One more block of 56 planes: the minimum so far against the block's. -/
theorem planesMin_step (xt : Cert.Spec.ST.Idx → EReal) (n : ℕ) (hn : n + 56 ≤ 784)
    (B : (⟨3, ![56, 64, 512]⟩ : Shape).Idx → EReal)
    (hB : ∀ (p : Fin 56) (b : Fin 64) (c : Fin 512), B (ix3 p b c) = xt (ix3 ⟨n + p.val, by omega⟩ b c)) :
    planesMin xt (n + 56) = min (planesMin xt n) (blockMin B) := by
  unfold planesMin blockMin
  apply le_antisymm
  · refine le_min (Finset.inf_mono fun t ht => ?_) (Finset.le_inf fun y _ => ?_)
    · rw [Finset.mem_filter] at ht ⊢; exact ⟨ht.1, by omega⟩
    · have h0 : (y 0).val < 56 := (y 0).isLt
      have e : B y = xt (ix3 ⟨n + (y 0).val, by omega⟩ (y 1) (y 2)) :=
        (congrArg B (eq_ix3 y)).trans (hB (y 0 : Fin 56) (y 1 : Fin 64) (y 2 : Fin 512))
      rw [e]
      exact Finset.inf_le (f := fun t : Fin 784 × Fin 64 × Fin 512 => xt (ix3 t.1 t.2.1 t.2.2))
        (b := (⟨n + (y 0).val, by omega⟩, y 1, y 2))
        (Finset.mem_filter.mpr ⟨Finset.mem_univ _, by show n + (y 0).val < n + 56; omega⟩)
  · refine Finset.le_inf fun t ht => ?_
    have h : t.1.val < n + 56 := (Finset.mem_filter.mp ht).2
    by_cases hlt : t.1.val < n
    · exact (min_le_left _ _).trans (Finset.inf_le (f := fun t : Fin 784 × Fin 64 × Fin 512 => xt (ix3 t.1 t.2.1 t.2.2))
        (Finset.mem_filter.mpr ⟨Finset.mem_univ _, hlt⟩))
    · refine (min_le_right _ _).trans ?_
      have e : xt (ix3 t.1 t.2.1 t.2.2) = B (ix3 ⟨t.1.val - n, by omega⟩ t.2.1 t.2.2) := by
        rw [hB]; congr 2; apply Fin.ext; show t.1.val = n + (t.1.val - n); omega
      rw [e]
      exact Finset.inf_le (Finset.mem_univ _)

/-- A fold of `min` over a finite set from `b` is `b` against the set's least value. -/
theorem fold_min_eq_inf {ι : Type} (op : EReal → EReal → EReal) [Std.Commutative op] [Std.Associative op]
    (hop : ∀ a b, op a b = min a b) (S : Finset ι) (b : EReal) (x : ι → EReal) :
    S.fold op b x = b ⊓ S.inf x := by
  classical
  induction S using Finset.induction_on with
  | empty => simp
  | insert a S ha ih => rw [Finset.fold_insert ha, Finset.inf_insert, ih, hop, ← inf_assoc, inf_comm (x a) b, inf_assoc]

/-! ## The block's minimum as the body computes it -/

theorem top_bits : Ideal.ofBits .f32 0x7F800000#32 = (⊤ : EReal) := by
  simp [Ideal.ofBits, Ideal.ieee]

/-- The body's reduction of a block — the reshape to [1,56,64,512], the `minimumf` reduction over the three block axes from
    +∞, the extract of its one word — is the block's least entry. -/
theorem bmin_eq (X : FVec Ideal (⟨3, ![56, 64, 512]⟩ : Shape) .f32)
    (h1 : (⟨3, ![56, 64, 512]⟩ : Shape).ShapeCasts ⟨3, ![56, 64, 512]⟩)
    (h2 : (⟨3, ![56, 64, 512]⟩ : Shape).ShapeCasts ⟨4, ![1, 56, 64, 512]⟩)
    (h3 : (⟨4, ![1, 56, 64, 512]⟩ : Shape).Reduces [1, 2, 3] ⟨1, ![1]⟩)
    (h4 : FKind.Formats .f32) (h5 : (0x7F800000#32 : BitVec FTy.f32.bits) = FKind.minimumf.neutral .f32 h4)
    (h6 : (⟨1, ![1]⟩ : Shape).ShapeCasts ⟨4, ![1, 1, 1, 1]⟩)
    (h7 : ∀ a, (![0, 0, 0, 0] : Fin 4 → Nat) a < (⟨4, ![1, 1, 1, 1]⟩ : Shape).size a) :
    extractAt ![0, 0, 0, 0] (shapeCast ⟨4, ![1, 1, 1, 1]⟩
      (multiReduction .minimumf [1, 2, 3] ⟨1, ![1]⟩ (shapeCast ⟨4, ![1, 56, 64, 512]⟩ (shapeCast ⟨3, ![56, 64, 512]⟩ X h1) h2)
        0x7F800000#32 h3 h4 h5) h6) h7 = blockMin X := by
  rw [shapeCast_self]
  show multiReduction .minimumf [1, 2, 3] ⟨1, ![1]⟩ (shapeCast ⟨4, ![1, 56, 64, 512]⟩ X h2) 0x7F800000#32 h3 h4 h5
    (Shape.reshapeEquiv h6 fun a => ⟨![0, 0, 0, 0] a, h7 a⟩) = blockMin X
  rw [multiReduction_minimumf_eq_fold,
    Finset.filter_true_of_mem fun i _ => funext fun b => Fin.ext (by
      have := (h3.drop i b).isLt
      have := ((Shape.reshapeEquiv h6 fun a => (⟨![0, 0, 0, 0] a, h7 a⟩ : Fin _)) b).isLt
      have hb : (⟨1, ![1]⟩ : Shape).size b = 1 := by match b with | ⟨0, _⟩ => rfl
      omega),
    fold_min_eq_inf (FloatOps.minimumf (F := Ideal) (φ := .f32)) (fun _ _ => rfl)]
  show Ideal.ofBits .f32 0x7F800000#32 ⊓ _ = _
  rw [top_bits, top_inf_eq]
  unfold blockMin
  apply le_antisymm
  · refine Finset.le_inf fun y _ => ?_
    have e : X y = shapeCast ⟨4, ![1, 56, 64, 512]⟩ X h2 (ix4 (0 : Fin 1) (y 0 : Fin 56) (y 1 : Fin 64) (y 2 : Fin 512)) :=
      (congrArg X (eq_ix3 y)).trans (shapeCast_abc_1abc_apply X h2 (0 : Fin 1) (y 0 : Fin 56) (y 1 : Fin 64) (y 2 : Fin 512)).symm
    rw [e]
    exact Finset.inf_le (Finset.mem_univ _)
  · refine Finset.le_inf fun z _ => ?_
    have e : shapeCast ⟨4, ![1, 56, 64, 512]⟩ X h2 z = X (ix3 (z 1 : Fin 56) (z 2 : Fin 64) (z 3 : Fin 512)) :=
      (congrArg (shapeCast ⟨4, ![1, 56, 64, 512]⟩ X h2) (eq_ix4 z)).trans
        (shapeCast_abc_1abc_apply X h2 (z 0 : Fin 1) (z 1 : Fin 56) (z 2 : Fin 64) (z 3 : Fin 512))
    show _ ≤ shapeCast ⟨4, ![1, 56, 64, 512]⟩ X h2 z
    rw [e]
    exact Finset.inf_le (Finset.mem_univ _)

/-! ## The accumulator, point by point -/

theorem acc_first (xt : Cert.Spec.ST.Idx → EReal) (n : ℕ) (h0 : n = 0) (B : (⟨3, ![56, 64, 512]⟩ : Shape).Idx → EReal)
    (hB : ∀ (p : Fin 56) (b : Fin 64) (c : Fin 512), B (ix3 p b c) = xt (ix3 ⟨56 * n + p.val, by omega⟩ b c)) :
    blockMin B = planesMin xt (56 * (n + 1)) := by
  subst h0
  have h := planesMin_step xt (56 * 0) (by omega) B hB
  rw [planesMin_zero, min_eq_right le_top] at h
  exact h.symm

theorem acc_next (xt : Cert.Spec.ST.Idx → EReal) (n : ℕ) (hn : n < 10) (B : (⟨3, ![56, 64, 512]⟩ : Shape).Idx → EReal)
    (hB : ∀ (p : Fin 56) (b : Fin 64) (c : Fin 512), B (ix3 p b c) = xt (ix3 ⟨56 * n + p.val, by omega⟩ b c)) :
    min (planesMin xt (56 * n)) (blockMin B) = planesMin xt (56 * (n + 1)) :=
  (planesMin_step xt (56 * n) (by omega) B hB).symm

/-! ## Reading one word -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A one-word vector has one index. -/
theorem idxS1_eq (a b : (⟨1, ![1]⟩ : Shape).Idx) : a = b := by
  funext d
  have hs : (⟨1, ![1]⟩ : Shape).size d = 1 := by fin_cases d; rfl
  apply Fin.ext
  have h1 := (a d).isLt
  have h2 := (b d).isLt
  omega

theorem idxS1x1_eq (a b : (⟨2, ![1, 1]⟩ : Shape).Idx) : a = b := by
  funext d
  have hs : (⟨2, ![1, 1]⟩ : Shape).size d = 1 := by fin_cases d <;> rfl
  apply Fin.ext
  have h1 := (a d).isLt
  have h2 := (b d).isLt
  omega

/-- One store of a constant payload, read under its rectangle. -/
theorem read_writes_const {sig : RefSig} {κ : Kind} {sp : Space} {s : Shape} {e : EltTy} (v : View sig κ sp s e)
    (f : v.ty.Contents (Elt Ideal)) (r : Rect s) (c : Elt Ideal e) (j : s.Idx) (hj : j ∈ r.set) :
    v.read (Elt Ideal) (v.writes (Elt Ideal) f [⟨r, fun _ => c⟩]) j = c := by
  obtain ⟨x, rfl⟩ := r.exists_idx_of_mem hj
  exact View.read_writes_cons_emb v f r (fun _ => c) [] x

/-- The accumulator's word, of the scratch's contents. -/
def accWord (d : Dev nD) (f : Buf (Elt Ideal) ((sc1V).view.loc (T d : Thread nD τ))) : EReal :=
  (sc1V).view.read (Elt Ideal) f (ix1 0)

/-- The result word, of a one-word staging memref's contents. -/
def outWord (d : Dev nD) (arg2 : Memref sig .tc .smem S1x1 .f32) (f : Buf (Elt Ideal) (arg2.view.loc (T d : Thread nD τ))) : EReal :=
  arg2.view.read (Elt Ideal) f (ix2 0 0)

set_option maxHeartbeats 4000000 in
theorem tcmin_run_first (d : Dev nD) (i : grid1.Coords) (arg1 : Memref sig .tc .vmem S56x64x512 .f32) (harg1 : arg1.IsWhole)
    (arg2 : Memref sig .tc .smem S1x1 .f32) (harg2 : arg2.IsWhole) (K : PUnit → sProp 𝕄)
    (h1 : Scalar.cmpi .ne (Scalar.extui (Scalar.cmpi .eq (BitVec.ofNat 32 (i 0).val) 0#32)) 0#32 = 1#1)
    (h2 : ¬ Scalar.cmpi .ne (Scalar.extui (Scalar.cmpi .sgt (BitVec.ofNat 32 (i 0).val) 0#32)) 0#32 = 1#1)
    (h3 : ¬ k1_cond3 i = 1#1)
    (x0 : Vec Ideal S56x64x512 .f32) :
    iprop(owns (T d) arg1 fullShare x0 ∗ anyAt d arg2 ∗ (∃ f, (sc1V).view.loc (T d) ↦{fullShare} f)
        ∗ (iprop(owns (T d) arg1 fullShare x0 ∗ anyAt d arg2 ∗ (∃ f, ((sc1V).view.loc (T d) ↦{fullShare} f) ∗ ⌜accWord d f = blockMin x0⌝)) -∗ K ⟨⟩))
      ⊢ wp frame (wpE (defs₀ (F := Ideal)) 𝒱₀ (T d) none) Set.univ
          (cc1__tc_min_body i arg1 harg1 arg2 harg2 sc1V (Memref.isWhole_whole _)) K := by
  unfold cc1__tc_min_body
  unfold owns
  iintro ⟨⟨%f1, %hf1, H1⟩, ⟨%f2, H2⟩, ⟨%f3, H3⟩, Hk⟩
  obtain rfl := harg1.eq_unread hf1
  sl_exec (disch := first | exact h1 | exact h2 | exact h3)
  sl_step
  iapply Hk
  isplitl [H1]
  · iexists _; isplitr; · ipureintro; exact harg1.read_unread _
    iexact H1
  isplitl [H2]; · iexists _; iexact H2
  iexists _
  isplitl [H3]
  · iexact H3
  ipureintro
  unfold accWord
  sl_unfold_words
  refine (read_writes_const _ _ _ _ _ (View.mem_set_unit_zero hz1 _ _)).trans ?_
  refine (bmin_eq _ _ _ _ _ _ _ _).trans (congrArg blockMin ?_)
  simp only [View.readAt_eq_ld, View.ld_unit_zero (S := S56x64x512) hz3, harg1.read_unread]

set_option maxHeartbeats 4000000 in
theorem tcmin_run_mid (d : Dev nD) (i : grid1.Coords) (arg1 : Memref sig .tc .vmem S56x64x512 .f32) (harg1 : arg1.IsWhole)
    (arg2 : Memref sig .tc .smem S1x1 .f32) (harg2 : arg2.IsWhole) (K : PUnit → sProp 𝕄)
    (h1 : ¬ Scalar.cmpi .ne (Scalar.extui (Scalar.cmpi .eq (BitVec.ofNat 32 (i 0).val) 0#32)) 0#32 = 1#1)
    (h2 : Scalar.cmpi .ne (Scalar.extui (Scalar.cmpi .sgt (BitVec.ofNat 32 (i 0).val) 0#32)) 0#32 = 1#1)
    (h3 : ¬ k1_cond3 i = 1#1)
    (x0 : Vec Ideal S56x64x512 .f32) (fs : Buf (Elt Ideal) ((sc1V).view.loc (T d : Thread nD τ))) :
    iprop(owns (T d) arg1 fullShare x0 ∗ anyAt d arg2 ∗ ((sc1V).view.loc (T d) ↦{fullShare} fs)
        ∗ (iprop(owns (T d) arg1 fullShare x0 ∗ anyAt d arg2 ∗ (∃ f, ((sc1V).view.loc (T d) ↦{fullShare} f) ∗ ⌜accWord d f = min (accWord d fs) (blockMin x0)⌝)) -∗ K ⟨⟩))
      ⊢ wp frame (wpE (defs₀ (F := Ideal)) 𝒱₀ (T d) none) Set.univ
          (cc1__tc_min_body i arg1 harg1 arg2 harg2 sc1V (Memref.isWhole_whole _)) K := by
  unfold cc1__tc_min_body
  unfold owns
  iintro ⟨⟨%f1, %hf1, H1⟩, ⟨%f2, H2⟩, H3, Hk⟩
  obtain rfl := harg1.eq_unread hf1
  sl_exec (disch := first | exact h1 | exact h2 | exact h3)
  sl_step
  iapply Hk
  isplitl [H1]
  · iexists _; isplitr; · ipureintro; exact harg1.read_unread _
    iexact H1
  isplitl [H2]; · iexists _; iexact H2
  iexists _
  isplitl [H3]
  · iexact H3
  ipureintro
  unfold accWord
  sl_unfold_words
  refine (read_writes_const _ _ _ _ _ (View.mem_set_unit_zero hz1 _ _)).trans ?_
  rw [Ideal.scalar_minimumf_def]
  refine congrArg₂ (min : EReal → EReal → EReal) ?_ ((bmin_eq _ _ _ _ _ _ _ _).trans (congrArg blockMin ?_))
  · exact congrArg ((sc1V).view.read (Elt Ideal) fs) (idxS1_eq _ _)
  · simp only [View.readAt_eq_ld, View.ld_unit_zero (S := S56x64x512) hz3, harg1.read_unread]

set_option maxHeartbeats 4000000 in
theorem tcmin_run_last (d : Dev nD) (i : grid1.Coords) (arg1 : Memref sig .tc .vmem S56x64x512 .f32) (harg1 : arg1.IsWhole)
    (arg2 : Memref sig .tc .smem S1x1 .f32) (harg2 : arg2.IsWhole) (K : PUnit → sProp 𝕄)
    (h1 : ¬ Scalar.cmpi .ne (Scalar.extui (Scalar.cmpi .eq (BitVec.ofNat 32 (i 0).val) 0#32)) 0#32 = 1#1)
    (h2 : Scalar.cmpi .ne (Scalar.extui (Scalar.cmpi .sgt (BitVec.ofNat 32 (i 0).val) 0#32)) 0#32 = 1#1)
    (h3 : k1_cond3 i = 1#1)
    (x0 : Vec Ideal S56x64x512 .f32) (fs : Buf (Elt Ideal) ((sc1V).view.loc (T d : Thread nD τ))) :
    iprop(owns (T d) arg1 fullShare x0 ∗ anyAt d arg2 ∗ ((sc1V).view.loc (T d) ↦{fullShare} fs)
        ∗ (iprop(owns (T d) arg1 fullShare x0 ∗ (∃ f, (arg2.view.loc (T d) ↦[arg2.view.set]{fullShare} f) ∗ ⌜outWord d arg2 f = min (accWord d fs) (blockMin x0)⌝) ∗ (∃ f, ((sc1V).view.loc (T d) ↦{fullShare} f) ∗ ⌜accWord d f = min (accWord d fs) (blockMin x0)⌝)) -∗ K ⟨⟩))
      ⊢ wp frame (wpE (defs₀ (F := Ideal)) 𝒱₀ (T d) none) Set.univ
          (cc1__tc_min_body i arg1 harg1 arg2 harg2 sc1V (Memref.isWhole_whole _)) K := by
  unfold cc1__tc_min_body
  unfold owns
  iintro ⟨⟨%f1, %hf1, H1⟩, ⟨%f2, H2⟩, H3, Hk⟩
  obtain rfl := harg1.eq_unread hf1
  sl_exec (disch := first | exact h1 | exact h2 | exact h3)
  sl_step
  iapply Hk
  isplitl [H1]
  · iexists _; isplitr; · ipureintro; exact harg1.read_unread _
    iexact H1
  isplitl [H2]
  · iexists _
    isplitl [H2]
    · iexact H2
    ipureintro
    unfold outWord accWord
    sl_unfold_words
    refine (read_writes_const _ _ _ _ _ (View.mem_set_unit_zero hz2 _ _)).trans ?_
    rw [Ideal.scalar_minimumf_def]
    refine congrArg₂ (min : EReal → EReal → EReal) ?_ ((bmin_eq _ _ _ _ _ _ _ _).trans (congrArg blockMin ?_))
    · exact congrArg ((sc1V).view.read (Elt Ideal) fs) (idxS1_eq _ _)
    · simp only [View.readAt_eq_ld, View.ld_unit_zero (S := S56x64x512) hz3, harg1.read_unread]
  iexists _
  isplitl [H3]
  · iexact H3
  ipureintro
  unfold accWord
  sl_unfold_words
  refine (read_writes_const _ _ _ _ _ (View.mem_set_unit_zero hz1 _ _)).trans ?_
  rw [Ideal.scalar_minimumf_def]
  refine congrArg₂ (min : EReal → EReal → EReal) ?_ ((bmin_eq _ _ _ _ _ _ _ _).trans (congrArg blockMin ?_))
  · exact congrArg ((sc1V).view.read (Elt Ideal) fs) (idxS1_eq _ _)
  · simp only [View.readAt_eq_ld, View.ld_unit_zero (S := S56x64x512) hz3, harg1.read_unread]

/-! ## The body's three conditions and the block index, over the grid -/

theorem cond1_iff : ∀ t : Fin grid1.N,
    Scalar.cmpi .ne (Scalar.extui (Scalar.cmpi .eq (BitVec.ofNat 32 ((grid1.coords t) 0).val) 0#32)) 0#32 = 1#1 ↔ t.val = 0 := by
  decide +kernel
theorem cond2_iff : ∀ t : Fin grid1.N,
    Scalar.cmpi .ne (Scalar.extui (Scalar.cmpi .sgt (BitVec.ofNat 32 ((grid1.coords t) 0).val) 0#32)) 0#32 = 1#1 ↔ 0 < t.val := by
  decide +kernel
theorem cond3_iff : ∀ t : Fin grid1.N, k1_cond3 (grid1.coords t) = 1#1 ↔ t.val = 9 := by
  decide +kernel
theorem index1_0 : ∀ t : Fin grid1.N, win1_0.index t 0 = t.val ∧ win1_0.index t 1 = 0 ∧ win1_0.index t 2 = 0 := by
  decide +kernel

/-! ## The proof data, with values -/

/-- The transposed activations as the region finds them. -/
abbrev xtOf : Cert.Spec.ST.Idx → EReal := Vd (dr main_v1)

/-- The scoped buffers no window of the minimum pass stages, each whole at some contents, the accumulator's constrained. -/
def restAt (c : Dev nD) (P : Buf (Elt Ideal) ((T c : Thread nD τ).loc cc1_scratch0) → Prop) : sProp 𝕄 :=
  iprop((∃ f : Buf (Elt Ideal) ((T c : Thread nD τ).loc cc2_stg0_0), ((T c : Thread nD τ).loc cc2_stg0_0) ↦{fullShare} f)
      ∗ (∃ f : Buf (Elt Ideal) ((T c : Thread nD τ).loc cc2_stg0_1), ((T c : Thread nD τ).loc cc2_stg0_1) ↦{fullShare} f)
      ∗ (∃ f : Buf (Elt Ideal) ((T c : Thread nD τ).loc cc2_stg1_0), ((T c : Thread nD τ).loc cc2_stg1_0) ↦{fullShare} f)
      ∗ (∃ f : Buf (Elt Ideal) ((T c : Thread nD τ).loc cc2_stg3_0), ((T c : Thread nD τ).loc cc2_stg3_0) ↦{fullShare} f)
      ∗ (∃ f : Buf (Elt Ideal) ((T c : Thread nD τ).loc cc2_stg4_0), ((T c : Thread nD τ).loc cc2_stg4_0) ↦{fullShare} f)
      ∗ (∃ f : Buf (Elt Ideal) ((T c : Thread nD τ).loc cc2_stg4_1), ((T c : Thread nD τ).loc cc2_stg4_1) ↦{fullShare} f)
      ∗ (∃ f : Buf (Elt Ideal) ((T c : Thread nD τ).loc cc2_scratch0), ((T c : Thread nD τ).loc cc2_scratch0) ↦{fullShare} f)
      ∗ (∃ f : Buf (Elt Ideal) ((T c : Thread nD τ).loc cc1_scratch0), ⌜P f⌝ ∗ (((T c : Thread nD τ).loc cc1_scratch0) ↦{fullShare} f))
      ∗ (∃ f : Buf (Elt Ideal) ((T c : Thread nD τ).loc cc2_stg2_0), ((T c : Thread nD τ).loc cc2_stg2_0) ↦{fullShare} f))

theorem restAt_intro (c : Dev nD) (P : Buf (Elt Ideal) ((T c : Thread nD τ).loc cc1_scratch0) → Prop) (hP : ∀ f, P f) :
    (Pipeline.scopedRest spec1 c : sProp 𝕄) ⊢ restAt c P := by
  rw [scopedRest1_eq]; unfold restAt
  iintro ⟨S1, S2, S3, S4, S5, S6, S7, ⟨%fs, S8⟩, S9⟩
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]
  · iexists fs; isplitr; · ipureintro; exact hP fs
    iexact S8
  iexact S9

theorem restAt_elim (c : Dev nD) (P : Buf (Elt Ideal) ((T c : Thread nD τ).loc cc1_scratch0) → Prop) :
    restAt c P ⊢ (Pipeline.scopedRest spec1 c : sProp 𝕄) := by
  rw [scopedRest1_eq]; unfold restAt
  iintro ⟨S1, S2, S3, S4, S5, S6, S7, ⟨%fs, -, S8⟩, S9⟩
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexists fs; iexact S8
  iexact S9

/-- What the body may leave in a window's staging buffer: nothing said of the activations' block; of the result word,
    at the last point, that it is the minimum over the first 560 planes. -/
def afterV : (w : Fin 2) → Fin (cfgsP (F := Ideal) 0).N →
    (Y X : ((cfgsP (F := Ideal) 0).win w).block.Idx → Elt Ideal ((cfgsP (F := Ideal) 0).win w).elt) → Prop
  | 0, _, _, _ => True
  | 1, t, _, X => t.val = 9 → ∀ j, (X j : EReal) = Cert.Spec.tcMin (xtOf Vd)

/-- The minimum pass with values: before point `t` the accumulator holds the least entry of the first `56 t` planes
    (nothing said before the first point). -/
def rdat0V (c : Dev nD) : Pipeline.RDat τ (Elt Ideal) (HIx 1) ℕ UU ℕ (cfgsP (F := Ideal) 0) c where
  A w := Vd (Proc.devRef .tc (Pipeline.arrRef spec1 w))
  after w t Y X := afterV Vd w t Y X
  Φ t := restAt c fun f => 0 < t.val → accWord c f = planesMin (xtOf Vd) (56 * t.val)
  q _ := fullShare
  owed _ := 0
  recorded _ := recB (F := Ideal) c

end TcMin

open TcMin

/-- The two pipelines' proof data: the minimum pass with its value, the ablation pass as the frame has it. -/
def rdatsM : (p : Fin 2) → (c : Dev nD) → Pipeline.RDat τ (Elt Ideal) (HIx 1) ℕ UU ℕ (cfgsP (F := Ideal) p) c
  | 0 => rdat0V Vd
  | 1 => rdat1 Vd

namespace TcMin

theorem N0 : (cfgsP (F := Ideal) 0).N = 10 := N_1

theorem lt784 (t : Fin (cfgsP (F := Ideal) 0).N) (p : Fin 56) : 56 * t.val + p.val < 784 := by
  have := t.isLt; have := N0; omega

/-- What the body finds in the activations' staging buffer at point `t`: planes `56 t … 56 t + 55`. -/
theorem found_block (c : Dev nD) (t : Fin (cfgsP (F := Ideal) 0).N)
    (Y0 : ((cfgsP (F := Ideal) 0).win 0).block.Idx → Elt Ideal ((cfgsP (F := Ideal) 0).win 0).elt)
    (h : (rdat0V Vd c).Finds 0 t Y0) (p : Fin 56) (b : Fin 64) (cc : Fin 512) :
    (Y0 (ix3 p b cc) : EReal) = xtOf Vd (ix3 ⟨56 * t.val + p.val, lt784 t p⟩ b cc) := by
  obtain ⟨d, rfl⟩ := ((rdat0V Vd c).finds_of_fetch (fetch1_0 t) Y0).mp h
  show win1_0.fill (grid1.coords t) d ((rdat0V Vd c).blockOf 0 t) (win1_0.xinj (grid1.coords t) (ix3 p b cc)) = _
  rw [Pipeline.Window.fill_xinj]
  show (win1_0.blk t).view.read (Elt Ideal) (Vd (dr main_v1)) (ix3 p b cc) = _
  rw [View.read_apply]
  show Vd (dr main_v1) _ = Vd (dr main_v1) _
  congr 1
  funext a
  apply Fin.ext
  have hi := index1_0 t
  match a with
  | ⟨0, _⟩ => show win1_0.index t 0 * 56 + 1 * p.val = 56 * t.val + p.val; rw [hi.1]; omega
  | ⟨1, _⟩ => show win1_0.index t 1 * 64 + 1 * b.val = b.val; rw [hi.2.1]; omega
  | ⟨2, _⟩ => show win1_0.index t 2 * 512 + 1 * cc.val = cc.val; rw [hi.2.2]; omega

/-! ## The body obligation -/

set_option maxHeartbeats 2000000 in
theorem body0V (c : Dev nD) : (rdat0V Vd c).BodyObligation (defs₀ (F := Ideal)) 𝒱₀ (none : HIx 1) Set.univ := fun t Y hY => by
  rw [bigSep_W1, bigSep_W1]
  rw [show (rdat0V Vd c).owesAt none t.succ = (rdat0V Vd c).owesAt none t.castSucc from rfl]
  change iprop(restAt c (fun f => 0 < t.castSucc.val → accWord c f = planesMin (xtOf Vd) (56 * t.castSucc.val)) ∗ _ ∗ _ ∗ _)
    ⊢ wp _ _ _ (cc1__tc_min_body (grid1.coords t) (win1_0.stage ((cfgsP (F := Ideal) 0).slots t 0)) (hstage1_0 (((cfgsP (F := Ideal) 0).slots t 0).cast nbuf1_0))
    (win1_1.stage ((cfgsP (F := Ideal) 0).slots t 1)) (hstage1_1 (((cfgsP (F := Ideal) 0).slots t 1).cast nbuf1_1)) sc1V (Memref.isWhole_whole _))
    (fun _ => iprop(restAt c (fun f => 0 < t.succ.val → accWord c f = planesMin (xtOf Vd) (56 * t.succ.val)) ∗ _ ∗ _ ∗ _))
  have hblk := found_block Vd c t (Y 0) (hY 0)
  have ht10 : t.val < 10 := by have := t.isLt; have := N0; omega
  have hsucc : t.succ.val = t.val + 1 := Fin.val_succ t
  have hcast : t.castSucc.val = t.val := rfl
  unfold restAt
  iintro ⟨⟨S1, S2, S3, S4, S5, S6, S7, ⟨%fs, %hfs, S8⟩, S9⟩, HO, H0, H1⟩
  by_cases ht0 : t.val = 0
  · have hnew : ∀ f, accWord c f = blockMin (Y 0) → (0 < t.succ.val → accWord c f = planesMin (xtOf Vd) (56 * t.succ.val)) :=
      fun f hf _ => by rw [hf, hsucc]; exact acc_first (xtOf Vd) t.val ht0 (Y 0) hblk
    iapply (tcmin_run_first c (grid1.coords t) _ _ _ _ _ ((cond1_iff t).mpr ht0)
      (fun h => by have := (cond2_iff t).mp h; omega) (fun h => by have := (cond3_iff t).mp h; omega) (Y 0))
    isplitl [H0]; · iexact H0
    isplitl [H1]
    · unfold owns; icases H1 with ⟨%g1, -, H1⟩; iexists _; iexact H1
    isplitl [S8]; · iexists _; iexact S8
    iintro ⟨H0, ⟨%g1', H1⟩, ⟨%fs', S8, %hfs'⟩⟩
    isplitl [S1 S2 S3 S4 S5 S6 S7 S8 S9]
    ·
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]
      · iexists fs'; isplitr
        · ipureintro; exact hnew fs' hfs'
        iexact S8
      iexact S9
    isplitl [HO]; · iexact HO
    isplitl [H0]
    · iexists (Y 0); isplitr; · ipureintro; trivial
      iexact H0
    iexists ((win1_1.stage ((cfgsP (F := Ideal) 0).slots t 1)).view.read (Elt Ideal) g1'); isplitr
    · ipureintro
      show afterV Vd 1 t (Y 1) _
      intro h9; omega
    unfold owns; iexists g1'; isplitr; · ipureintro; rfl
    iexact H1
  have hacc : accWord c fs = planesMin (xtOf Vd) (56 * t.val) := hfs (by rw [hcast]; omega)
  have hnew : ∀ f, accWord c f = min (accWord c fs) (blockMin (Y 0)) → (0 < t.succ.val → accWord c f = planesMin (xtOf Vd) (56 * t.succ.val)) :=
    fun f hf _ => by rw [hf, hsucc, hacc]; exact acc_next (xtOf Vd) t.val ht10 (Y 0) hblk
  by_cases ht9 : t.val = 9
  · iapply (tcmin_run_last c (grid1.coords t) _ _ _ _ _ (fun h => ht0 ((cond1_iff t).mp h)) ((cond2_iff t).mpr (by omega))
      ((cond3_iff t).mpr ht9) (Y 0) fs)
    isplitl [H0]; · iexact H0
    isplitl [H1]
    · unfold owns; icases H1 with ⟨%g1, -, H1⟩; iexists _; iexact H1
    isplitl [S8]; · iexact S8
    iintro ⟨H0, ⟨%g1', H1, %hg1'⟩, ⟨%fs', S8, %hfs'⟩⟩
    isplitl [S1 S2 S3 S4 S5 S6 S7 S8 S9]
    ·
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]
      · iexists fs'; isplitr
        · ipureintro; exact hnew fs' hfs'
        iexact S8
      iexact S9
    isplitl [HO]; · iexact HO
    isplitl [H0]
    · iexists (Y 0); isplitr; · ipureintro; trivial
      iexact H0
    iexists ((win1_1.stage ((cfgsP (F := Ideal) 0).slots t 1)).view.read (Elt Ideal) g1'); isplitr
    · ipureintro
      show afterV Vd 1 t (Y 1) _
      intro _ j
      rw [idxS1x1_eq j (ix2 0 0)]
      show outWord c _ g1' = _
      rw [hg1', hacc, acc_next (xtOf Vd) t.val ht10 (Y 0) hblk, ht9]
      exact planesMin_560 _
    unfold owns; iexists g1'; isplitr; · ipureintro; rfl
    iexact H1
  · iapply (tcmin_run_mid c (grid1.coords t) _ _ _ _ _ (fun h => ht0 ((cond1_iff t).mp h)) ((cond2_iff t).mpr (by omega))
      (fun h => ht9 ((cond3_iff t).mp h)) (Y 0) fs)
    isplitl [H0]; · iexact H0
    isplitl [H1]
    · unfold owns; icases H1 with ⟨%g1, -, H1⟩; iexists _; iexact H1
    isplitl [S8]; · iexact S8
    iintro ⟨H0, ⟨%g1', H1⟩, ⟨%fs', S8, %hfs'⟩⟩
    isplitl [S1 S2 S3 S4 S5 S6 S7 S8 S9]
    ·
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]
      · iexists fs'; isplitr
        · ipureintro; exact hnew fs' hfs'
        iexact S8
      iexact S9
    isplitl [HO]; · iexact HO
    isplitl [H0]
    · iexists (Y 0); isplitr; · ipureintro; trivial
      iexact H0
    iexists ((win1_1.stage ((cfgsP (F := Ideal) 0).slots t 1)).view.read (Elt Ideal) g1'); isplitr
    · ipureintro
      show afterV Vd 1 t (Y 1) _
      intro h9; omega
    unfold owns; iexists g1'; isplitr; · ipureintro; rfl
    iexact H1

/-! ## The result word in the array -/

/-- After the pass's one write-back the result array's word is the minimum over the first 560 planes. -/
theorem arrAt1_word (c : Dev nD) (G : Buf (Elt Ideal) (((cfgsP (F := Ideal) 0).win 1).arr.view.loc ((c.tc : Thread nD τ))))
    (h : (rdat0V Vd c).ArrAt 1 (cfgsP (F := Ideal) 0).N G) :
    ((Memref.whole main_v3 : Memref sig .tc .hbm S1x1 .f32).view.read (Elt Ideal) G (ix2 0 0) : EReal) = Cert.Spec.tcMin (xtOf Vd) := by
  have hN : (cfgsP (F := Ideal) 0).N = t1_9.val + 1 := N_1
  have hfl : ((cfgsP (F := Ideal) 0).win 1).flush t1_9 = true := (flush1_1 t1_9).mpr rfl
  rw [hN, Pipeline.RDat.ArrAt_succ, if_pos hfl] at h
  obtain ⟨G₀, X, -, ⟨Y, -, hX⟩, rfl⟩ := h
  have hX' : ∀ j, (X j : EReal) = Cert.Spec.tcMin (xtOf Vd) := hX rfl
  have hx : ∀ a, 0 < win1_1.xsize (grid1.coords t1_9) a := by decide +kernel
  let x : (win1_1.xblock (grid1.coords t1_9)).Idx := fun a => ⟨0, hx a⟩
  refine (congrArg (View.read (Elt Ideal) (Memref.whole main_v3 : Memref sig .tc .hbm S1x1 .f32).view _)
    (idxS1x1_eq (ix2 0 0) ((win1_1.rect t1_9).emb x))).trans ?_
  refine (View.read_slice_write_emb (v := (Memref.whole main_v3 : Memref sig .tc .hbm S1x1 .f32).view) (win1_1.rect t1_9) G₀ _
    (Finset.mem_univ x)).trans ?_
  exact hX' _

/-! ## The region's record -/

theorem arrays0V_eq (c : Dev nD) : ((rdatsM Vd 0 c).arrays (rdatsM Vd 0 c).A : sProp 𝕄)
    = iprop(ptc c main_v1 (Vd (dr main_v1)) ∗ ptc c main_v3 (Vd (dr main_v3))) := by
  refine (bigSep_W1 _).trans ?_
  simp only [Pipeline.RDat.share_full (rdatsM Vd 0 c) (fun _ => rfl)]
  show iprop(((Memref.whole main_v1 : Memref sig .tc .hbm S784x64x512 .f32).view.loc (SparseCore.T c) ↦[(Memref.whole main_v1 : Memref sig .tc .hbm S784x64x512 .f32).view.set]{fullShare} Vd (dr main_v1))
      ∗ ((Memref.whole main_v3 : Memref sig .tc .hbm S1x1 .f32).view.loc (SparseCore.T c) ↦[(Memref.whole main_v3 : Memref sig .tc .hbm S1x1 .f32).view.set]{fullShare} Vd (dr main_v3))) = _
  simp only [Memref.view_whole, View.set_whole]

/-- After the pass: the activations as they were, the result word the minimum over the first 560 planes. -/
theorem arraysAt0V_out (c : Dev nD) : ((rdatsM Vd 0 c).arraysAt (cfgsP (F := Ideal) 0).N : sProp 𝕄)
    ⊢ iprop(ptc c main_v1 (Vd (dr main_v1)) ∗ (∃ f : Buf (Elt Ideal) ((SparseCore.T c : Thread nD τ).loc main_v3),
        ⌜(f : Cert.Spec.SW.Idx → EReal) (ValueIdx.ix2 0 0) = Cert.Spec.tcMin (Vd (dr main_v1))⌝ ∗ ptc c main_v3 f)) := by
  refine (Entails.of_eq (bigSep_W1 _)).trans ?_
  simp only [Pipeline.RDat.share_full (rdatsM Vd 0 c) (fun _ => rfl)]
  show iprop((∃ G, ⌜(rdat0V Vd c).ArrAt 0 (cfgsP (F := Ideal) 0).N G⌝ ∗ ((Memref.whole main_v1 : Memref sig .tc .hbm S784x64x512 .f32).view.loc (SparseCore.T c) ↦[(Memref.whole main_v1 : Memref sig .tc .hbm S784x64x512 .f32).view.set]{fullShare} G))
      ∗ (∃ G, ⌜(rdat0V Vd c).ArrAt 1 (cfgsP (F := Ideal) 0).N G⌝ ∗ ((Memref.whole main_v3 : Memref sig .tc .hbm S1x1 .f32).view.loc (SparseCore.T c) ↦[(Memref.whole main_v3 : Memref sig .tc .hbm S1x1 .f32).view.set]{fullShare} G))) ⊢ _
  simp only [Memref.view_whole, View.set_whole]
  show iprop((∃ G, ⌜(rdat0V Vd c).ArrAt 0 (cfgsP (F := Ideal) 0).N G⌝ ∗ ptc c main_v1 G) ∗ (∃ G, ⌜(rdat0V Vd c).ArrAt 1 (cfgsP (F := Ideal) 0).N G⌝ ∗ ptc c main_v3 G)) ⊢ _
  iintro ⟨⟨%G0, %h0, H0⟩, ⟨%G1, %h1, H1⟩⟩
  have e0 : G0 = Vd (dr main_v1) := by
    rw [(rdat0V Vd c).ArrAt_in 0 rfl] at h0; exact h0
  subst e0
  isplitl [H0]; · iexact H0
  iexists G1; isplitr
  · ipureintro; exact arrAt1_word Vd c G1 h1
  iexact H1

end TcMin

/-- The minimum pass as a segment of @main, with its value: entered from the activations, the result word and the `owes`;
    left with the activations as they were and the result word the least entry of the first 560 planes. -/
def reg0V : Pipeline.RDat.RegionSeg (pcfgs (F := Ideal)) adm (rdatsM Vd) (none : HIx 1) (defs₀ (F := Ideal)) 𝒱₀ (K (F := Ideal)).L (K (F := Ideal)).lev (0 : Fin 2) where
  win := winFacts1.to₀
  block_pos := block_pos1
  stage_whole := stage_whole1
  K := PEmpty
  osem k := k.elim
  ho := Pipeline.OwnSemFacts.none _
  hbody c := body0V Vd c
  hwaits := Pipeline.RDat.hwaits_of_owed_zero (pcfgs (F := Ideal)) adm (rdatsM Vd) (none : HIx 1) (K (F := Ideal)).L (K (F := Ideal)).lev 0 fun _ _ => rfl
  pre c := iprop(ptc c main_v1 (Vd (dr main_v1)) ∗ ptc c main_v3 (Vd (dr main_v3)) ∗ owesW c)
  post c := iprop(ptc c main_v1 (Vd (dr main_v1)) ∗ (∃ f : Buf (Elt Ideal) ((SparseCore.T c : Thread nD τ).loc main_v3),
        ⌜(f : Cert.Spec.SW.Idx → EReal) (ValueIdx.ix2 0 0) = Cert.Spec.tcMin (Vd (dr main_v1))⌝ ∗ ptc c main_v3 f) ∗ owesW c)
  X _ := iprop(emp)
  Y _ := iprop(emp)
  Z _ := iprop(emp)
  hentry c := by
    rw [Pipeline.ownSems0_none, prefHeld_emp]
    iintro ⟨⟨H1, H3, HO⟩, -, -⟩
    imodintro
    isplitl [H1 H3]
    · iapply (Entails.of_eq (arrays0V_eq Vd c).symm)
      isplitl [H1]; · iexact H1
      iexact H3
    isplitr; · iempintro
    isplitl [HO]; · iapply (owes_in (rdatsM Vd 0 c) 0 rfl rfl); iexact HO
    isplitr <;> iempintro
  hin c := by
    refine (sep_elim_right.trans sep_elim_right).trans ?_
    exact restAt_intro c _ fun f h => absurd h (Nat.lt_irrefl 0)
  hout c := by
    rw [Pipeline.ownSems0_none]
    refine (restAt_elim c _).trans ?_
    show (Pipeline.scopedRest (Pipeline.pin (pcfgs (F := Ideal)) adm 0).spec c : sProp 𝕄)
      ⊢ iprop(emp ∗ BI.emp ∗ Pipeline.scopedRest (Pipeline.pin (pcfgs (F := Ideal)) adm 0).spec c)
    iintro H
    isplitr; · iempintro
    isplitr; · iempintro
    iexact H
  hexit c := by
    iintro ⟨HA, HO, -, -⟩
    imodintro
    ihave HA' := (arraysAt0V_out Vd c) $$ HA
    icases HA' with ⟨H1, H3⟩
    isplitl [H1]; · iexact H1
    isplitl [H3]; · iexact H3
    iapply (owes_out (rdatsM Vd 0 c) _ rfl rfl); iexact HO

theorem reg0V_pre (c : Dev nD) : ((reg0V Vd).pre c : sProp 𝕄)
    = iprop(ptc c main_v1 (Vd (dr main_v1)) ∗ ptc c main_v3 (Vd (dr main_v3)) ∗ owesW c) := rfl

theorem reg0V_post (c : Dev nD) : ((reg0V Vd).post c : sProp 𝕄)
    = iprop(ptc c main_v1 (Vd (dr main_v1)) ∗ (∃ f : Buf (Elt Ideal) ((SparseCore.T c : Thread nD τ).loc main_v3),
        ⌜(f : Cert.Spec.SW.Idx → EReal) (ValueIdx.ix2 0 0) = Cert.Spec.tcMin (Vd (dr main_v1))⌝ ∗ ptc c main_v3 f) ∗ owesW c) := rfl

end Cert.Proof.KIV

end
-- ==== Proof.KIV.Apply.lean ====
/-
  The ablation pass of the idealized kernel, with its VALUE, at the ideal instance (every float an extended real).

  The pass has fourteen points. At the first it takes the least m of the tiles' minima and of the TensorCore's minimum word
  and makes the sixty-four ablation values by a sixty-four-trip fold: trip t steps the rows r ≥ t by
  s ↦ (0 if s = 0, else s − 10⁷), so row r ends at step^(r+1) m; it keeps them in a scratch column. At every point it stores,
  into the result's block, the activations' block with lane l of row b of every plane replaced by row b's value where l,
  as a 32-bit word, is the row's index. So each written-back block is that point's block of ONE function of the four
  arrays, the specification's `applyOut`; the fourteen blocks tile the result array; hence the array ends at `applyOut`.

  Here: the values as functions (`m0`, `valsOf`, `outB`) and the pure facts about them (the fold, the reduction, the select
  read at an index); the body run once at the first point and once at a later one, the stored contents named; the
  pipeline's relational proof data `rdat1V` (an input's buffer is left as found, the result's buffer cut to what is
  written back is the point's block of `applyOut`, the invariant holds the scratch column at the values after the first
  point); what the body finds in its buffers; the body obligation; the result array after the write-backs, by induction
  on the points; and the region's record `reg1V`.
-/
import proofs.«202639_g54090818126251_cont_9to1c4b_462_21_alg».proof.Proof.KI.Regions
import proofs.«202639_g54090818126251_cont_9to1c4b_462_21_alg».proof.Proof.Spec
import Idealize.ShloMosaic.Lib.Pipeline.Value
import Idealize.ShloMosaic.PureOps.Reduce
import Idealize.ShloMosaic.PureOps.Ideal.Laws

noncomputable section

namespace Cert.Proof.KIV

open Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Ideal) ℕ UU ℕ
local notation "sc2V" => (Memref.whole Cert.KernelIdeal.cc2_scratch0 : Memref Cert.KernelIdeal.sig Kind.tc Space.vmem Cert.KernelIdeal.S64x1 EltTy.f32)

open Idealize.ShloMosaic.ValueIdx
open Cert.Spec (step c1e7 applyOut)

/-! ## The values, as functions -/

/-- The least of the tiles' minima and the TensorCore's minimum word. -/
def m0 (mins : S32x16.Idx → EReal) (mtc : S1x1.Idx → EReal) : EReal := min (Finset.univ.inf mins) (mtc (ix2 0 0))

/-- The sixty-four ablation values as a column: row r holds step^(r+1) of m. -/
def valsOf (m : EReal) : S64x1.Idx → EReal := fun j => step^[(j 0).val + 1] m

/-- One block of the result: lane l of row b of every plane takes row b's value where the lane's number is the row's index. -/
def outB (x : S56x64x512.Idx → EReal) (idv : S64x1.Idx → BitVec 32) (vs : S64x1.Idx → EReal) : S56x64x512.Idx → EReal :=
  fun y => if BitVec.ofNat 32 (y 2).val = idv (ix2 (y 1) 0) then vs (ix2 (y 1) 0) else x y

/-- A fold over the trips keeps an invariant indexed by the number of trips done. -/
theorem foldl_finRange_inv {σ : Type} : ∀ {n : ℕ} (g : Fin n → σ → σ) (init : σ) (P : ℕ → σ → Prop), P 0 init →
    (∀ (k : Fin n) acc, P k.val acc → P (k.val + 1) (g k acc)) → P n ((List.finRange n).foldl (fun acc k => g k acc) init)
  | 0, g, init, P, h0, _ => by simpa using h0
  | n + 1, g, init, P, h0, hs => by
    rw [List.finRange_succ_last, List.foldl_append, List.foldl_map]
    simp only [List.foldl_cons, List.foldl_nil]
    exact hs (Fin.last n) _ (foldl_finRange_inv (fun k => g k.castSucc) init P h0 (fun k acc h => hs k.castSucc acc h))

theorem select_eq_ite {α : Type} (a b : BitVec 32) (A B : α) : Scalar.select (IntOp.cmpi .eq a b) A B = if a = b then A else B := by
  unfold Scalar.select IntOp.cmpi
  by_cases h : a = b
  · subst h; simp
  · have hb : (a == b) = false := beq_eq_false_iff_ne.mpr h
    simp [hb, h]

theorem c1e7_eq : (FloatOps.ofBits (F := Ideal) FTy.f32 1259902592#32 : EReal) = c1e7 := rfl
theorem zero_eq : (FloatOps.ofBits (F := Ideal) FTy.f32 0#32 : EReal) = 0 := Idealize.ShloMosaic.Ideal.ofBits_zero_f32

/-- One element of one trip's select chain is one step of the value. -/
theorem stepElt (s : EReal) :
    Scalar.select (FloatOps.cmpf (F := Ideal) (φ := .f32) CmpFPredicate.oeq s (FloatOps.ofBits (F := Ideal) FTy.f32 0#32)) (FloatOps.ofBits (F := Ideal) FTy.f32 0#32 : EReal)
      (s - (FloatOps.ofBits (F := Ideal) FTy.f32 1259902592#32 : EReal)) = step s := by
  rw [c1e7_eq, zero_eq]
  show Scalar.select (Ideal.cmp .oeq s 0) 0 (s - c1e7) = step s
  unfold Scalar.select Ideal.cmp step
  by_cases h : s = 0 <;> simp [h]

theorem toInt_small (k : ℕ) (hk : k < 64) : (BitVec.ofNat 32 k).toInt = k := by
  rw [BitVec.toInt_eq_toNat_cond, BitVec.toNat_ofNat]
  have h : k % 2 ^ 32 = k := Nat.mod_eq_of_lt (by omega)
  rw [h, if_pos (by omega)]

theorem sge_iff (r k : ℕ) (hr : r < 64) (hk : k < 64) : IntOp.cmpi .sge (BitVec.ofNat 32 r) (BitVec.ofNat 32 k) = if k ≤ r then 1#1 else 0#1 := by
  unfold IntOp.cmpi
  have : (BitVec.ofNat 32 k).sle (BitVec.ofNat 32 r) = decide (k ≤ r) := by
    rw [BitVec.sle_eq_decide, toInt_small k hk, toInt_small r hr]; simp
  simp only [this]
  by_cases h : k ≤ r <;> simp [h]

theorem trips64 : k2_t1_loop.trips = 64 := by decide

theorem iv_eq (k : ℕ) : Scf.iv (0#32) (1#32) k = BitVec.ofNat 32 k := by
  unfold Scf.iv; simp

/-- The sixty-four trips: row r is stepped at the trips t ≤ r, so it ends at step^(r+1) of what the loop starts from. -/
theorem loop_eq (m : EReal) (hio : S64x1.Iotas .tc 32 [0])
    (g : Fin k2_t1_loop.trips → (S64x1.Idx → EReal) → (S64x1.Idx → EReal))
    (hg : ∀ k acc j, g k acc j = Scalar.select (IntOp.cmpi .sge (BitVec.ofNat 32 (j 0).val) (BitVec.ofNat 32 k.val)) (step (acc j)) (acc j)) :
    Scf.fold g (broadcast S64x1 m) = valsOf m := by
  rw [Scf.fold_eq]
  have key := foldl_finRange_inv g (broadcast S64x1 m) (fun n acc => ∀ j : S64x1.Idx, acc j = step^[min ((j 0).val + 1) n] m)
    (fun j => by simp [broadcast])
    (fun k acc h j => by
      have hk : k.val < 64 := lt_of_lt_of_eq k.isLt trips64
      have hj : (j 0).val < 64 := (j 0).isLt
      rw [hg, sge_iff _ _ hj hk, h j]
      by_cases hle : k.val ≤ (j 0).val
      · rw [if_pos hle, select_one, ← Function.iterate_succ_apply' step]
        congr 1; omega
      · rw [if_neg hle, select_zero]
        congr 1; omega)
  funext j
  rw [key j, trips64]
  unfold valsOf
  congr 1
  have := (j 0).isLt
  show min ((j 0).val + 1) 64 = (j 0).val + 1
  have h64 : (j 0).val < 64 := (j 0).isLt
  omega

/-- A store through the whole-shape rectangle at zero offsets, alone, is what the view then reads. -/
theorem read_store_whole {κ : Kind} {sp : Space} {S : Shape} {e : EltTy} (v : View sig κ sp S e) (f : v.ty.Contents (Elt Ideal))
    (off : Fin S.rank → Nat) (hz : off = fun _ => 0) (inb : ∀ a, off a + S.size a ≤ S.size a) (W : S.Idx → Elt Ideal e) :
    v.read (Elt Ideal) (v.writes (Elt Ideal) f [(⟨Rect.unit off S.size inb, W⟩ : View.Piece (Elt Ideal) S e)]) = W := by
  rw [View.read_writes_eq_canon _ _ _ (fun y => ⟨_, List.mem_singleton_self _, View.mem_set_unit_zero hz inb y⟩), View.canon_unit_zero hz]

theorem hz2 : (![0, 0] : Fin 2 → Nat) = fun _ => 0 := funext fun a => by fin_cases a <;> rfl
theorem hz3 : (![0, 0, 0] : Fin 3 → Nat) = fun _ => 0 := funext fun a => by fin_cases a <;> rfl

/-- The select the body stores, read at an index: the block's element, or its row's value where the lane's number is the row's index. -/
theorem payload_eq (X : S56x64x512.Idx → EReal) (I : S64x1.Idx → BitVec 32) (Vs : S64x1.Idx → EReal)
    (hio : S1x64x512.Iotas .tc 32 [2]) (h1 : S64x1.ShapeCasts S64x1) (h2 : S64x1.ShapeCasts S1x64x1) (h3 : S1x64x1.Broadcasts S1x64x512)
    (h4 : S1x64x512.ShapeCasts S1x64x512) (h5 : S1x64x512.Broadcasts S56x64x512) (h6 : S1x64x1.ShapeCasts S1x64x1) (h7 : S56x64x512.ShapeCasts S56x64x512) :
    select (broadcastTo S56x64x512 (shapeCast S1x64x512 (cmpi .eq (iota .tc S1x64x512 32 [2] hio) (broadcastTo S1x64x512 (shapeCast S1x64x1 (shapeCast S64x1 I h1) h2) h3)) h4) h5)
      (broadcastTo S56x64x512 (shapeCast S1x64x512 (broadcastTo S1x64x512 (shapeCast S1x64x1 (shapeCast S1x64x1 Vs h2) h6) h3) h4) h5)
      (shapeCast S56x64x512 X h7) = outB X I Vs := by
  rw [shapeCast_self X, shapeCast_self I, shapeCast_self _ h4, shapeCast_self _ h4, shapeCast_self _ h6]
  funext y
  have hb5 : ∀ (Z : S1x64x512.Idx → EReal), broadcastTo S56x64x512 Z h5 y = Z (ix3 0 (y 1) (y 2)) := fun Z =>
    broadcastTo_apply Z h5 y (ix3 0 (y 1) (y 2)) (fun a => by match a with | ⟨0, _⟩ => rfl | ⟨1, _⟩ => rfl | ⟨2, _⟩ => rfl)
  have hb5' : ∀ (Z : S1x64x512.Idx → BitVec 1), broadcastTo S56x64x512 Z h5 y = Z (ix3 0 (y 1) (y 2)) := fun Z =>
    broadcastTo_apply Z h5 y (ix3 0 (y 1) (y 2)) (fun a => by match a with | ⟨0, _⟩ => rfl | ⟨1, _⟩ => rfl | ⟨2, _⟩ => rfl)
  have hb3 : ∀ {α : Type} (Z : S1x64x1.Idx → α), broadcastTo S1x64x512 Z h3 (ix3 0 (y 1) (y 2)) = Z (ix3 0 (y 1) 0) := fun Z =>
    broadcastTo_apply Z h3 (ix3 0 (y 1) (y 2)) (ix3 0 (y 1) 0) (fun a => by match a with | ⟨0, _⟩ => rfl | ⟨1, _⟩ => rfl | ⟨2, _⟩ => rfl)
  have hs2 : ∀ {α : Type} (Z : S64x1.Idx → α), shapeCast S1x64x1 Z h2 (ix3 0 (y 1) 0) = Z (ix2 (y 1) 0) := fun Z =>
    shapeCast_apply Z h2 (ix3 0 (y 1) 0) (ix2 (y 1) 0) (by rw [Shape.rowMajor_val_two, Shape.rowMajor_val_three]; simp)
  rw [select_apply, hb5, hb5', hb3, hs2]
  show Scalar.select (IntOp.cmpi .eq (iota .tc S1x64x512 32 [2] hio (ix3 0 (y 1) (y 2))) (broadcastTo S1x64x512 (shapeCast S1x64x1 I h2) h3 (ix3 0 (y 1) (y 2)))) _ _ = _
  rw [hb3, hs2, iota_single_apply, select_eq_ite]
  rfl

theorem inf_comp_equiv {α β : Type} [Fintype α] [Fintype β] (e : α ≃ β) (x : β → EReal) :
    Finset.univ.inf (fun j => x (e j)) = Finset.univ.inf x := by
  apply le_antisymm
  · refine Finset.le_inf fun i _ => ?_
    have h := Finset.inf_le (f := fun j => x (e j)) (Finset.mem_univ (e.symm i))
    simpa using h
  · exact Finset.le_inf fun j _ => Finset.inf_le (Finset.mem_univ _)

theorem top_eq : (FloatOps.ofBits (F := Ideal) FTy.f32 2139095040#32 : EReal) = ⊤ := by
  show Ideal.ofBits .f32 0x7F800000#32 = ⊤; simp [Ideal.ofBits, Ideal.ieee]

theorem S1_idx_eq (i j : S1.Idx) : i = j := by
  funext a; obtain rfl : a = 0 := Subsingleton.elim _ _
  apply Fin.ext; have hi : (i 0).val < 1 := (i 0).isLt; have hj : (j 0).val < 1 := (j 0).isLt; omega

theorem S1x1_idx_eq (i j : S1x1.Idx) : i = j := by
  funext a
  match a with
  | ⟨0, h⟩ => apply Fin.ext; have hi : (i ⟨0, h⟩).val < 1 := (i ⟨0, h⟩).isLt; have hj : (j ⟨0, h⟩).val < 1 := (j ⟨0, h⟩).isLt; omega
  | ⟨1, h⟩ => apply Fin.ext; have hi : (i ⟨1, h⟩).val < 1 := (i ⟨1, h⟩).isLt; have hj : (j ⟨1, h⟩).val < 1 := (j ⟨1, h⟩).isLt; omega

theorem fold_min_eq_inf {β : Type} (s : Finset β) (f : β → EReal) : Finset.fold (FloatOps.minimumf (F := Ideal) (φ := .f32)) (⊤ : EReal) f s = s.inf f := by
  classical
  induction s using Finset.induction_on with
  | empty => simp
  | insert a s ha ih => rw [Finset.fold_insert ha, Finset.inf_insert, ih]; rfl

/-- The reduction of the tiles' minima to one word, then against the TensorCore's word. -/
theorem m0_eq (A2 : S32x16.Idx → EReal) (x3 : EReal) (h2 : S32x16.ShapeCasts S32x16) (h3 : S32x16.ShapeCasts S1x32x16) (hred : S1x32x16.Reduces [1, 2] S1)
    (hφ : FKind.Formats FTy.f32) (hacc : (2139095040#32 : BitVec 32) = FKind.minimumf.neutral FTy.f32 hφ) (h4 : S1.ShapeCasts S1x1x1) (hpos : ∀ a, (![0, 0, 0] : Fin 3 → Nat) a < S1x1x1.size a) :
    Scalar.minimumf (extractAt ![0, 0, 0] (shapeCast S1x1x1 (multiReduction (F := Ideal) .minimumf [1, 2] S1 (shapeCast S1x32x16 (shapeCast S32x16 A2 h2) h3) 2139095040#32 hred hφ hacc) h4) hpos) x3
      = min (Finset.univ.inf A2) x3 := by
  show min _ x3 = _
  congr 1
  rw [shapeCast_self A2]
  unfold extractAt
  show multiReduction (F := Ideal) .minimumf [1, 2] S1 (shapeCast S1x32x16 A2 h3) 2139095040#32 hred hφ hacc _ = _
  rw [multiReduction_minimumf_eq_fold]
  have hf : ∀ j : S1.Idx, (Finset.univ.filter fun i : S1x32x16.Idx => hred.drop i = j) = Finset.univ := fun j => Finset.filter_true_of_mem fun i _ => S1_idx_eq _ _
  rw [hf, top_eq, fold_min_eq_inf]
  exact inf_comp_equiv (Shape.reshapeEquiv _) A2

/-- The loop's result at the first point: the values column. -/
theorem vals_first (A2 : S32x16.Idx → EReal) (A3 : S1x1.Idx → EReal) (x3 : EReal) (hx3 : x3 = A3 (ix2 0 0)) (hio : S64x1.Iotas .tc 32 [0]) (h1 : S64x1.ShapeCasts S64x1)
    (h2 : S32x16.ShapeCasts S32x16) (h3 : S32x16.ShapeCasts S1x32x16) (hred : S1x32x16.Reduces [1, 2] S1)
    (hφ : FKind.Formats FTy.f32) (hacc : (2139095040#32 : BitVec 32) = FKind.minimumf.neutral FTy.f32 hφ) (h4 : S1.ShapeCasts S1x1x1) (hpos : ∀ a, (![0, 0, 0] : Fin 3 → Nat) a < S1x1x1.size a) :
    shapeCast S64x1 (Scf.fold (fun (k2_t1 : Fin k2_t1_loop.trips) (arg8 : FVec Ideal S64x1 .f32) =>
        select (cmpi CmpIPredicate.sge (iota Kind.tc S64x1 32 [0] hio) (broadcast S64x1 (Scf.iv 0#32 1#32 ↑k2_t1)))
          (select (cmpf CmpFPredicate.oeq arg8 (broadcast S64x1 (FloatOps.ofBits FTy.f32 0#32))) (broadcast S64x1 (FloatOps.ofBits FTy.f32 0#32))
            (subf arg8 (broadcast S64x1 (FloatOps.ofBits FTy.f32 1259902592#32)))) arg8)
      (broadcast S64x1 (Scalar.minimumf (extractAt ![0, 0, 0] (shapeCast S1x1x1 (multiReduction (F := Ideal) .minimumf [1, 2] S1 (shapeCast S1x32x16 (shapeCast S32x16 A2 h2) h3) 2139095040#32 hred hφ hacc) h4) hpos) x3))) h1
      = valsOf (m0 A2 A3) := by
  rw [shapeCast_self, m0_eq, hx3]
  exact loop_eq _ hio _ fun k acc j => by
    show Scalar.select (IntOp.cmpi .sge (iota Kind.tc S64x1 32 [0] hio j) (Scf.iv 0#32 1#32 k.val)) (Scalar.select (FloatOps.cmpf (F := Ideal) (φ := .f32) CmpFPredicate.oeq (acc j) (FloatOps.ofBits FTy.f32 0#32)) (FloatOps.ofBits (F := Ideal) FTy.f32 0#32 : EReal) (acc j - (FloatOps.ofBits (F := Ideal) FTy.f32 1259902592#32 : EReal))) (acc j) = _
    rw [stepElt, iota_single_apply, iv_eq]

/-! ## The body, run, with the values -/

set_option maxHeartbeats 4000000 in
/-- The body at a point after the first: the scratch as it was, the block selected against it and stored. -/
theorem apply_runV_later (d : Dev nD) (i : grid2.Coords) (h1 : ¬ k2_cond1 i = 1#1) (arg1 : Memref sig .tc .vmem S56x64x512 .f32) (harg1 : arg1.IsWhole)
    (arg2 : Memref sig .tc .vmem S32x16 .f32) (harg2 : arg2.IsWhole) (arg3 : Memref sig .tc .smem S1x1 .f32) (harg3 : arg3.IsWhole)
    (arg4 : Memref sig .tc .vmem S64x1 .i32) (harg4 : arg4.IsWhole) (arg5 : Memref sig .tc .vmem S56x64x512 .f32) (harg5 : arg5.IsWhole)
    (f1 f2 f3 f4 f5 f6) (K : PUnit → sProp 𝕄) :
    iprop((arg1.view.loc (T d) ↦[arg1.view.set]{fullShare} f1) ∗ (arg2.view.loc (T d) ↦[arg2.view.set]{fullShare} f2)
        ∗ (arg3.view.loc (T d) ↦[arg3.view.set]{fullShare} f3) ∗ (arg4.view.loc (T d) ↦[arg4.view.set]{fullShare} f4)
        ∗ (arg5.view.loc (T d) ↦[arg5.view.set]{fullShare} f5) ∗ ((sc2V).view.loc (T d) ↦{fullShare} f6)
        ∗ (iprop((arg1.view.loc (T d) ↦[arg1.view.set]{fullShare} f1) ∗ (arg2.view.loc (T d) ↦[arg2.view.set]{fullShare} f2)
            ∗ (arg3.view.loc (T d) ↦[arg3.view.set]{fullShare} f3) ∗ (arg4.view.loc (T d) ↦[arg4.view.set]{fullShare} f4)
            ∗ (∃ f5', ⌜arg5.view.read (Elt Ideal) f5' = outB (arg1.view.read (Elt Ideal) f1) (arg4.view.read (Elt Ideal) f4) ((sc2V).view.read (Elt Ideal) f6)⌝
                ∗ (arg5.view.loc (T d) ↦[arg5.view.set]{fullShare} f5'))
            ∗ ((sc2V).view.loc (T d) ↦{fullShare} f6)) -∗ K ⟨⟩))
      ⊢ wp frame (wpE (defs₀ (F := Ideal)) 𝒱₀ (T d) none) Set.univ
          (cc2__apply_body i arg1 harg1 arg2 harg2 arg3 harg3 arg4 harg4 arg5 harg5 sc2V (Memref.isWhole_whole _)) K := by
  unfold cc2__apply_body
  iintro ⟨H1, H2, H3, H4, H5, H6, Hk⟩
  sl_exec (disch := first | exact h1)
  sl_unfold_run_names
  sl_step
  iapply Hk
  isplitl [H1]; · iexact H1
  isplitl [H2]; · iexact H2
  isplitl [H3]; · iexact H3
  isplitl [H4]; · iexact H4
  isplitl [H5]
  · iexists _; isplitr
    swap; · iexact H5
    ipureintro
    rw [read_store_whole _ _ _ hz3]
    simp only [View.readAt_eq_ld, View.ld_unit_zero (S := S56x64x512) hz3, View.ld_unit_zero (S := S64x1) hz2, View.ld_unit_zero (S := S32x16) hz2, View.ld_unit_zero (S := S1x1) hz2]
    exact payload_eq _ _ _ _ _ _ _ _ _ _ _
  iexact H6

set_option maxHeartbeats 4000000 in
/-- The body at the first point: the values made from the minima and stored in the scratch, the block selected against them and stored. -/
theorem apply_runV_first (d : Dev nD) (i : grid2.Coords) (h1 : k2_cond1 i = 1#1) (arg1 : Memref sig .tc .vmem S56x64x512 .f32) (harg1 : arg1.IsWhole)
    (arg2 : Memref sig .tc .vmem S32x16 .f32) (harg2 : arg2.IsWhole) (arg3 : Memref sig .tc .smem S1x1 .f32) (harg3 : arg3.IsWhole)
    (arg4 : Memref sig .tc .vmem S64x1 .i32) (harg4 : arg4.IsWhole) (arg5 : Memref sig .tc .vmem S56x64x512 .f32) (harg5 : arg5.IsWhole)
    (f1 f2 f3 f4 f5 f6) (K : PUnit → sProp 𝕄) :
    iprop((arg1.view.loc (T d) ↦[arg1.view.set]{fullShare} f1) ∗ (arg2.view.loc (T d) ↦[arg2.view.set]{fullShare} f2)
        ∗ (arg3.view.loc (T d) ↦[arg3.view.set]{fullShare} f3) ∗ (arg4.view.loc (T d) ↦[arg4.view.set]{fullShare} f4)
        ∗ (arg5.view.loc (T d) ↦[arg5.view.set]{fullShare} f5) ∗ ((sc2V).view.loc (T d) ↦{fullShare} f6)
        ∗ (iprop((arg1.view.loc (T d) ↦[arg1.view.set]{fullShare} f1) ∗ (arg2.view.loc (T d) ↦[arg2.view.set]{fullShare} f2)
            ∗ (arg3.view.loc (T d) ↦[arg3.view.set]{fullShare} f3) ∗ (arg4.view.loc (T d) ↦[arg4.view.set]{fullShare} f4)
            ∗ (∃ f5', ⌜arg5.view.read (Elt Ideal) f5' = outB (arg1.view.read (Elt Ideal) f1) (arg4.view.read (Elt Ideal) f4)
                  (valsOf (m0 (arg2.view.read (Elt Ideal) f2) (arg3.view.read (Elt Ideal) f3)))⌝
                ∗ (arg5.view.loc (T d) ↦[arg5.view.set]{fullShare} f5'))
            ∗ (∃ f6', ⌜(sc2V).view.read (Elt Ideal) f6' = valsOf (m0 (arg2.view.read (Elt Ideal) f2) (arg3.view.read (Elt Ideal) f3))⌝
                ∗ ((sc2V).view.loc (T d) ↦{fullShare} f6'))) -∗ K ⟨⟩))
      ⊢ wp frame (wpE (defs₀ (F := Ideal)) 𝒱₀ (T d) none) Set.univ
          (cc2__apply_body i arg1 harg1 arg2 harg2 arg3 harg3 arg4 harg4 arg5 harg5 sc2V (Memref.isWhole_whole _)) K := by
  unfold cc2__apply_body
  iintro ⟨H1, H2, H3, H4, H5, H6, Hk⟩
  sl_exec (disch := first | exact h1)
  sl_unfold_run_names
  sl_step
  iapply Hk
  isplitl [H1]; · iexact H1
  isplitl [H2]; · iexact H2
  isplitl [H3]; · iexact H3
  isplitl [H4]; · iexact H4
  isplitl [H5]
  · iexists _; isplitr
    swap; · iexact H5
    ipureintro
    rw [read_store_whole _ _ _ hz3, View.readCov_unit_zero (S := S64x1) _ hz2]
    simp only [View.readAt_eq_ld, View.ld_unit_zero (S := S56x64x512) hz3, View.ld_unit_zero (S := S64x1) hz2, View.ld_unit_zero (S := S32x16) hz2, View.ld_unit_zero (S := S1x1) hz2]
    rw [payload_eq]
    exact congrArg _ (vals_first (arg2.view.read (Elt Ideal) f2) (arg3.view.read (Elt Ideal) f3) _ (congrArg (arg3.view.read (Elt Ideal) f3) (S1x1_idx_eq _ _)) _ _ _ _ _ _ _ _ _)
  iexists _; isplitr
  swap; · iexact H6
  ipureintro
  refine (read_store_whole (S := S64x1) (sc2V).view f6 _ hz2 _ _).trans ?_
  simp only [View.readAt_eq_ld, View.ld_unit_zero (S := S56x64x512) hz3, View.ld_unit_zero (S := S64x1) hz2, View.ld_unit_zero (S := S32x16) hz2, View.ld_unit_zero (S := S1x1) hz2]
  exact vals_first (arg2.view.read (Elt Ideal) f2) (arg3.view.read (Elt Ideal) f3) _ (congrArg (arg3.view.read (Elt Ideal) f3) (S1x1_idx_eq _ _)) _ _ _ _ _ _ _ _ _

/-! ## The proof data, with the values -/

section Data

variable (Vd : Valuation τ sig (Elt Ideal))

/-- The result array: the specification's, of the four arrays the region finds. -/
abbrev Gout : Cert.Spec.ST.Idx → EReal := applyOut (Vd (dr main_v1)) (Vd (dr main_v2)) (Vd (dr main_v3)) (Vd (dr main_v4))

/-- The least of all the minima, of the arrays the region finds. -/
def m0V : EReal := m0 (Vd (dr main_v2)) (Vd (dr main_v3))

/-- The scoped buffers no window stages, the values scratch at given contents. -/
def restAt (c : Dev nD) (fs : Buf (Elt Ideal) ((SparseCore.T c : Thread nD τ).loc cc2_scratch0)) : sProp 𝕄 :=
  iprop((∃ f : Buf (Elt Ideal) ((SparseCore.T c : Thread nD τ).loc cc1_stg0_0), ((SparseCore.T c : Thread nD τ).loc cc1_stg0_0) ↦{fullShare} f)
    ∗ (∃ f : Buf (Elt Ideal) ((SparseCore.T c : Thread nD τ).loc cc1_stg0_1), ((SparseCore.T c : Thread nD τ).loc cc1_stg0_1) ↦{fullShare} f)
    ∗ (((SparseCore.T c : Thread nD τ).loc cc2_scratch0) ↦{fullShare} fs)
    ∗ (∃ f : Buf (Elt Ideal) ((SparseCore.T c : Thread nD τ).loc cc1_stg1_0), ((SparseCore.T c : Thread nD τ).loc cc1_stg1_0) ↦{fullShare} f)
    ∗ (∃ f : Buf (Elt Ideal) ((SparseCore.T c : Thread nD τ).loc cc1_scratch0), ((SparseCore.T c : Thread nD τ).loc cc1_scratch0) ↦{fullShare} f))

/-- The ablation pass with the values: an input's buffer is left as found; the result's buffer, cut to what is written back,
    is the point's block of the result array; the invariant holds the values scratch, after the first point at the sixty-four values. -/
def rdat1V (c : Dev nD) : Pipeline.RDat τ (Elt Ideal) (HIx 1) ℕ UU ℕ (cfgsP (F := Ideal) 1) c where
  A w := Vd (Proc.devRef .tc (Pipeline.arrRef spec2 w))
  after w t Y X := match w, Y, X with
    | ⟨0, _⟩, Y, X => X = Y
    | ⟨1, _⟩, Y, X => X = Y
    | ⟨2, _⟩, Y, X => X = Y
    | ⟨3, _⟩, Y, X => X = Y
    | ⟨4, h⟩, _, X => ((cfgsP (F := Ideal) 1).win ⟨4, h⟩).cut ((cfgsP (F := Ideal) 1).grid.coords t) X
        = (((cfgsP (F := Ideal) 1).win ⟨4, h⟩).blk t).view.read (Elt Ideal) (Gout Vd)
  Φ t := iprop(∃ fs, ⌜0 < t.val → (sc2V).view.read (Elt Ideal) fs = valsOf (m0V Vd)⌝ ∗ restAt c fs)
  q _ := fullShare
  owed _ := 0
  recorded _ := recB (F := Ideal) c

def rdatsV : (p : Fin 2) → (c : Dev nD) → Pipeline.RDat τ (Elt Ideal) (HIx 1) ℕ UU ℕ (cfgsP (F := Ideal) p) c
  | 0 => rdat0 Vd
  | 1 => rdat1V Vd

theorem after1V_0 (c : Dev nD) (t) (Y X) : (rdat1V Vd c).after 0 t Y X = (X = Y) := rfl
theorem after1V_1 (c : Dev nD) (t) (Y X) : (rdat1V Vd c).after 1 t Y X = (X = Y) := rfl
theorem after1V_2 (c : Dev nD) (t) (Y X) : (rdat1V Vd c).after 2 t Y X = (X = Y) := rfl
theorem after1V_3 (c : Dev nD) (t) (Y X) : (rdat1V Vd c).after 3 t Y X = (X = Y) := rfl
theorem after1V_4 (c : Dev nD) (t) (Y X) : (rdat1V Vd c).after 4 t Y X
    = (((cfgsP (F := Ideal) 1).win 4).cut ((cfgsP (F := Ideal) 1).grid.coords t) X = (((cfgsP (F := Ideal) 1).win 4).blk t).view.read (Elt Ideal) (Gout Vd)) := rfl

end Data

section Obl

variable (Vd : Valuation τ sig (Elt Ideal))

/-- The ablation pass's configuration at the ideal instance. -/
abbrev cfgV : Pipeline.Cfg sig Λ₀ := cfgsP (F := Ideal) 1

/-! ### The schedule and the windows' block indices, decided over the fourteen points -/

theorem cond1_iff : ∀ t : Fin grid2.N, k2_cond1 (grid2.coords t) = 1#1 ↔ t.val = 0 := by decide +kernel
theorem idx0 : ∀ (t : Fin grid2.N) (a : Fin 3), win2_0.index t a = if a.val = 0 then t.val else 0 := by decide +kernel
theorem idx4 : ∀ (t : Fin grid2.N) (a : Fin 3), win2_4.index t a = if a.val = 0 then t.val else 0 := by decide +kernel
theorem idx1 : ∀ (t : Fin grid2.N) (a : Fin 2), win2_1.index t a = 0 := by decide +kernel
theorem idx2 : ∀ (t : Fin grid2.N) (a : Fin 2), win2_2.index t a = 0 := by decide +kernel
theorem idx3 : ∀ (t : Fin grid2.N) (a : Fin 2), win2_3.index t a = 0 := by decide +kernel

/-- A fetched buffer at a moved index holds the array's element under the block. -/
theorem fetchedV_apply (c : Dev nD) (w : Fin cfgV.W) (t : Fin cfgV.N) (d) (y : ((cfgV.win w).xblock (cfgV.grid.coords t)).Idx) :
    (rdat1V Vd c).fetched w t d ((cfgV.win w).xinj _ y)
      = _root_.cast (congrArg (Elt Ideal) ((cfgV.win w).blk t).view.elt_eq) ((rdat1V Vd c).A w (((cfgV.win w).blk t).view.emb y)) := by
  unfold Pipeline.RDat.fetched Pipeline.RDat.blockOf; rw [Pipeline.Window.fill_xinj, View.read_apply]

/-- The tiles' minima, fetched: the array. -/
theorem fetched1 (c : Dev nD) (t : Fin cfgV.N) (d) : (rdat1V Vd c).fetched 1 t d = (Vd (dr main_v2) : S32x16.Idx → EReal) := by
  funext j
  refine (fetchedV_apply Vd c 1 t d j).trans ?_
  show (Vd (dr main_v2)) (((cfgV.win 1).blk t).view.emb j) = Vd (dr main_v2) j
  congr 1
  funext a; apply Fin.ext
  exact Pipeline.Window.rect_emb_val_of_index_zero win2_1 t a (idx1 t a) j

/-- The TensorCore's minimum word, fetched: the array. -/
theorem fetched2 (c : Dev nD) (t : Fin cfgV.N) (d) : (rdat1V Vd c).fetched 2 t d = (Vd (dr main_v3) : S1x1.Idx → EReal) := by
  funext j
  refine (fetchedV_apply Vd c 2 t d j).trans ?_
  show (Vd (dr main_v3)) (((cfgV.win 2).blk t).view.emb j) = Vd (dr main_v3) j
  congr 1
  funext a; apply Fin.ext
  exact Pipeline.Window.rect_emb_val_of_index_zero win2_2 t a (idx2 t a) j

/-- The index column, fetched: the array. -/
theorem fetched3 (c : Dev nD) (t : Fin cfgV.N) (d) : (rdat1V Vd c).fetched 3 t d = (Vd (dr main_v4) : S64x1.Idx → BitVec 32) := by
  funext j
  refine (fetchedV_apply Vd c 3 t d j).trans ?_
  show (Vd (dr main_v4)) (((cfgV.win 3).blk t).view.emb j) = Vd (dr main_v4) j
  congr 1
  funext a; apply Fin.ext
  exact Pipeline.Window.rect_emb_val_of_index_zero win2_3 t a (idx3 t a) j

/-- What the body finds in the index column's buffer at any point: the array (fetched at the first point, left as found since). -/
theorem finds3 (c : Dev nD) : ∀ (n : ℕ) (t : Fin cfgV.N), t.val = n → ∀ Y, (rdat1V Vd c).Finds 3 t Y → Y = (Vd (dr main_v4) : S64x1.Idx → BitVec 32)
  | 0, t, ht, Y, h => by
    obtain ⟨d, rfl⟩ := ((rdat1V Vd c).finds_of_fetch ((fetch2_3 t).mpr (by rw [ht])) Y).mp h
    exact fetched3 Vd c t d
  | n + 1, t, ht, Y, h => by
    have hN : cfgV.N = 14 := N_2
    have hf : (cfgV.win 3).fetch t = false := Bool.eq_false_iff.mpr fun hh => by have := (fetch2_3 t).mp hh; have := t.isLt; omega
    rcases ((rdat1V Vd c).finds_of_pos hf (by omega) Y).mp h with hfl | ⟨Y', hY', hX⟩
    · exfalso
      have hfalse : (cfgV.win 3).flush ⟨t.val - 1, Nat.lt_of_le_of_lt (Nat.sub_le _ _) t.isLt⟩ = false := Bool.false_and _
      rw [hfalse] at hfl; exact Bool.false_ne_true hfl
    · rw [after1V_3] at hX
      rw [hX]
      exact finds3 c n _ (by simp only [ht]; omega) Y' hY'

end Obl

section Obl2

variable (Vd : Valuation τ sig (Elt Ideal))

/-- The specification's select at one element, from the block's and the array's coordinates agreeing. -/
theorem out_pt (xtv : Cert.Spec.ST.Idx → EReal) (idx : Cert.Spec.SC.Idx → BitVec 32) (m x0 : EReal) (y1 : Fin 64) (y2 : Fin 512) (E : Cert.Spec.ST.Idx)
    (h1 : E 1 = y1) (h2 : E 2 = y2) (h0 : x0 = xtv E) :
    (if BitVec.ofNat 32 y2.val = idx (ix2 y1 0) then step^[y1.val + 1] m else x0)
      = (if BitVec.ofNat 32 (E 2).val = idx (ix2 (E 1) 0) then step^[(E 1).val + 1] m else xtv E) := by
  subst h1 h2 h0; rfl

/-- The select the body stores, cut to what is written back, is the point's block of the result array. -/
theorem out_ok (c : Dev nD) (t : Fin cfgV.N) (d0) :
    (cfgV.win 4).cut (cfgV.grid.coords t) (outB ((rdat1V Vd c).fetched 0 t d0) (Vd (dr main_v4)) (valsOf (m0V Vd)))
      = ((cfgV.win 4).blk t).view.read (Elt Ideal) (Gout Vd) := by
  funext y
  rw [View.read_apply]
  have e1 : (((cfgV.win 4).blk t).view.emb y : Cert.Spec.ST.Idx) 1 = y 1 :=
    Fin.ext (Pipeline.Window.rect_emb_val_of_index_zero win2_4 t 1 (by rw [idx4]; rfl) y)
  have e2 : (((cfgV.win 4).blk t).view.emb y : Cert.Spec.ST.Idx) 2 = y 2 :=
    Fin.ext (Pipeline.Window.rect_emb_val_of_index_zero win2_4 t 2 (by rw [idx4]; rfl) y)
  have e0 : (rdat1V Vd c).fetched 0 t d0 ((cfgV.win 4).xinj _ y) = (Vd (dr main_v1) : Cert.Spec.ST.Idx → EReal) (((cfgV.win 4).blk t).view.emb y) := by
    refine (fetchedV_apply Vd c 0 t d0 y).trans ?_
    show (Vd (dr main_v1) : Cert.Spec.ST.Idx → EReal) (((cfgV.win 0).blk t).view.emb y) = _
    congr 1
  exact out_pt (Vd (dr main_v1)) (Vd (dr main_v4)) (m0V Vd) _ (y 1) (y 2) _ e1 e2 e0

set_option maxHeartbeats 4000000 in
/-- Every plane of the result array lies in the block of one point. -/
theorem cover4 (i : Cert.Spec.ST.Idx) : ∃ t : Fin cfgV.N, i ∈ ((cfgV.win 4).blk t).view.set := by
  have hi : (i 0).val < 784 := (i 0).isLt
  have hN : grid2.N = 14 := N_2
  have hT : (i 0).val / 56 < grid2.N := by omega
  have hy : (win2_4.blk ⟨(i 0).val / 56, hT⟩).view.emb (ix3 ⟨(i 0).val % 56, Nat.mod_lt _ (by norm_num)⟩ (i 1) (i 2) : S56x64x512.Idx) = i := by
    funext a; apply Fin.ext
    refine (Pipeline.Window.rect_emb_val win2_4 ⟨(i 0).val / 56, hT⟩ (ix3 ⟨(i 0).val % 56, Nat.mod_lt _ (by norm_num)⟩ (i 1) (i 2) : S56x64x512.Idx) a).trans ?_
    rw [idx4]
    match a with
    | ⟨0, _⟩ => show (if (0 : ℕ) = 0 then (i 0).val / 56 else 0) * 56 + (i 0).val % 56 = (i 0).val; rw [if_pos rfl]; omega
    | ⟨1, _⟩ => show (if (1 : ℕ) = 0 then (i 0).val / 56 else 0) * 64 + (i 1).val = (i 1).val; rw [if_neg (by decide)]; omega
    | ⟨2, _⟩ => show (if (2 : ℕ) = 0 then (i 0).val / 56 else 0) * 512 + (i 2).val = (i 2).val; rw [if_neg (by decide)]; omega
  refine ⟨⟨(i 0).val / 56, hT⟩, ?_⟩
  show i ∈ (win2_4.blk ⟨(i 0).val / 56, hT⟩).view.set
  have hmem := View.emb_mem_set (win2_4.blk ⟨(i 0).val / 56, hT⟩).view (ix3 ⟨(i 0).val % 56, Nat.mod_lt _ (by norm_num)⟩ (i 1) (i 2) : S56x64x512.Idx)
  rwa [hy] at hmem

set_option maxHeartbeats 4000000 in
/-- After the write-backs below a point, the result array agrees with the specification under every block written so far. -/
theorem arrAt4 (c : Dev nD) : ∀ (n : ℕ), n ≤ cfgV.N → ∀ F, (rdat1V Vd c).ArrAt 4 n F →
    ∀ (t : Fin cfgV.N), t.val < n → ∀ i, i ∈ ((cfgV.win 4).blk t).view.set → F i = Gout Vd i
  | 0, _, _, _, t, ht, _, _ => absurd ht (Nat.not_lt_zero _)
  | n + 1, hn, F, h, t, ht, i, hi => by
    have hn' : n < cfgV.N := hn
    have hs := (rdat1V Vd c).ArrAt_succ 4 ⟨n, hn'⟩
    have h' : (if (cfgV.win 4).flush ⟨n, hn'⟩ then (rdat1V Vd c).ArrStep 4 ⟨n, hn'⟩ ((rdat1V Vd c).ArrAt 4 n) else (rdat1V Vd c).ArrAt 4 n) F := by
      rw [← hs]; exact h
    have hfl : (cfgV.win 4).flush ⟨n, hn'⟩ = true := flush2_4 ⟨n, hn'⟩
    rw [if_pos hfl] at h'
    obtain ⟨G₀, X, hG₀, ⟨Y, _, hX⟩, rfl⟩ := h'
    rw [after1V_4] at hX
    rw [hX, View.write_read_eq_piecewise]
    by_cases hin : i ∈ ((cfgV.win 4).blk ⟨n, hn'⟩).view.setOn Finset.univ
    · rw [Finset.piecewise_eq_of_mem _ _ _ hin]
    · rw [Finset.piecewise_eq_of_notMem _ _ _ hin]
      have htn : t.val ≠ n := fun e => hin (by rw [View.setOn_univ]; have : t = ⟨n, hn'⟩ := Fin.ext e; exact this ▸ hi)
      exact arrAt4 c n (Nat.le_of_lt hn') G₀ hG₀ t (by omega) i hi

/-- So after all fourteen the result array is the specification's. -/
theorem arrAt4_final (c : Dev nD) (F) (h : (rdat1V Vd c).ArrAt 4 cfgV.N F) : F = Gout Vd := funext fun i => by
  obtain ⟨t, ht⟩ := cover4 i
  exact arrAt4 Vd c _ le_rfl F h t t.isLt i ht

end Obl2

section Body

variable (Vd : Valuation τ sig (Elt Ideal))

/-- The least of all the minima from what the body finds at the first point: both windows just fetched. -/
theorem m0_first (c : Dev nD) (t : Fin cfgV.N) (ht0 : t.val = 0) (Y1 Y2) (h1 : (rdat1V Vd c).Finds 1 t Y1) (h2 : (rdat1V Vd c).Finds 2 t Y2) :
    m0 Y1 Y2 = m0V Vd := by
  obtain ⟨d1, rfl⟩ := ((rdat1V Vd c).finds_of_fetch ((fetch2_1 t).mpr (by rw [ht0])) Y1).mp h1
  obtain ⟨d2, rfl⟩ := ((rdat1V Vd c).finds_of_fetch ((fetch2_2 t).mpr (by rw [ht0])) Y2).mp h2
  rw [fetched1, fetched2]; rfl

set_option maxHeartbeats 4000000 in
theorem body1V (c : Dev nD) : (rdat1V Vd c).BodyObligation (defs₀ (F := Ideal)) 𝒱₀ (none : HIx 1) Set.univ := fun t Y hY => by
  obtain ⟨d0, hY0⟩ := ((rdat1V Vd c).finds_of_fetch (fetch2_0 t) (Y 0)).mp (hY 0)
  have hY3 := finds3 Vd c t.val t rfl (Y 3) (hY 3)
  have hY1 := hY 1
  have hY2 := hY 2
  rw [bigSep_W2, bigSep_W2]
  simp only [after1V_0, after1V_1, after1V_2, after1V_3, after1V_4]
  rw [show (rdat1V Vd c).owesAt none t.succ = (rdat1V Vd c).owesAt none t.castSucc from rfl]
  change iprop((∃ fs, ⌜0 < t.val → (sc2V).view.read (Elt Ideal) fs = valsOf (m0V Vd)⌝ ∗ restAt c fs) ∗ _ ∗ _) ⊢ wp _ _ _ (cc2__apply_body (grid2.coords t) (win2_0.stage ((cfgsP (F := Ideal) 1).slots t 0)) (hstage2_0 (((cfgsP (F := Ideal) 1).slots t 0).cast nbuf2_0))
    (win2_1.stage ((cfgsP (F := Ideal) 1).slots t 1)) (hstage2_1 (((cfgsP (F := Ideal) 1).slots t 1).cast nbuf2_1))
    (win2_2.stage ((cfgsP (F := Ideal) 1).slots t 2)) (hstage2_2 (((cfgsP (F := Ideal) 1).slots t 2).cast nbuf2_2))
    (win2_3.stage ((cfgsP (F := Ideal) 1).slots t 3)) (hstage2_3 (((cfgsP (F := Ideal) 1).slots t 3).cast nbuf2_3))
    (win2_4.stage ((cfgsP (F := Ideal) 1).slots t 4)) (hstage2_4 (((cfgsP (F := Ideal) 1).slots t 4).cast nbuf2_4)) sc2V (Memref.isWhole_whole _))
      (fun _ => iprop((∃ fs, ⌜0 < t.val + 1 → (sc2V).view.read (Elt Ideal) fs = valsOf (m0V Vd)⌝ ∗ restAt c fs) ∗ _ ∗ _))
  unfold owns restAt
  iintro ⟨⟨%fs, %hfs, S1, S2, S3, S4, S5⟩, HO, ⟨%g0, %hg0, H0⟩, ⟨%g1, %hg1, H1⟩, ⟨%g2, %hg2, H2⟩, ⟨%g3, %hg3, H3⟩, ⟨%g4, -, H4⟩⟩
  by_cases h1 : k2_cond1 (grid2.coords t) = 1#1
  · have ht0 : t.val = 0 := (cond1_iff t).mp h1
    have hm : m0 (Y 1) (Y 2) = m0V Vd := m0_first Vd c t ht0 (Y 1) (Y 2) hY1 hY2
    iapply (apply_runV_first c (grid2.coords t) h1 _ _ _ _ _ _ _ _ _ _ g0 g1 g2 g3 g4 fs _)
    isplitl [H0]; · iexact H0
    isplitl [H1]; · iexact H1
    isplitl [H2]; · iexact H2
    isplitl [H3]; · iexact H3
    isplitl [H4]; · iexact H4
    isplitl [S3]; · iexact S3
    iintro ⟨H0, H1, H2, H3, ⟨%g4', %hg4', H4⟩, ⟨%fs', %hfs', S3⟩⟩
    rw [hg1, hg2, hm] at hfs' hg4'
    rw [hg0, hg3, hY0, hY3] at hg4'
    isplitl [S1 S2 S3 S4 S5]
    · iexists fs'; isplitr; · ipureintro; exact fun _ => hfs'
      isplitl [S1]; · iexact S1
      isplitl [S2]; · iexact S2
      isplitl [S3]; · iexact S3
      isplitl [S4]; · iexact S4
      iexact S5
    isplitl [HO]; · iexact HO
    isplitl [H0]
    · iexists (Y 0); isplitr; · ipureintro; rfl
      iexists g0; isplitr; · ipureintro; exact hg0
      iexact H0
    isplitl [H1]
    · iexists (Y 1); isplitr; · ipureintro; rfl
      iexists g1; isplitr; · ipureintro; exact hg1
      iexact H1
    isplitl [H2]
    · iexists (Y 2); isplitr; · ipureintro; rfl
      iexists g2; isplitr; · ipureintro; exact hg2
      iexact H2
    isplitl [H3]
    · iexists (Y 3); isplitr; · ipureintro; rfl
      iexists g3; isplitr; · ipureintro; exact hg3
      iexact H3
    iexists _; isplitr
    swap
    · iexists g4'; isplitr; · ipureintro; rfl
      iexact H4
    ipureintro
    rw [hg4']; exact out_ok Vd c t d0
  · have ht0 : 0 < t.val := Nat.pos_of_ne_zero fun e => h1 ((cond1_iff t).mpr e)
    have hfs0 := hfs ht0
    iapply (apply_runV_later c (grid2.coords t) h1 _ _ _ _ _ _ _ _ _ _ g0 g1 g2 g3 g4 fs _)
    isplitl [H0]; · iexact H0
    isplitl [H1]; · iexact H1
    isplitl [H2]; · iexact H2
    isplitl [H3]; · iexact H3
    isplitl [H4]; · iexact H4
    isplitl [S3]; · iexact S3
    iintro ⟨H0, H1, H2, H3, ⟨%g4', %hg4', H4⟩, S3⟩
    rw [hg0, hg3, hY0, hY3, hfs0] at hg4'
    isplitl [S1 S2 S3 S4 S5]
    · iexists fs; isplitr; · ipureintro; exact fun _ => hfs0
      isplitl [S1]; · iexact S1
      isplitl [S2]; · iexact S2
      isplitl [S3]; · iexact S3
      isplitl [S4]; · iexact S4
      iexact S5
    isplitl [HO]; · iexact HO
    isplitl [H0]
    · iexists (Y 0); isplitr; · ipureintro; rfl
      iexists g0; isplitr; · ipureintro; exact hg0
      iexact H0
    isplitl [H1]
    · iexists (Y 1); isplitr; · ipureintro; rfl
      iexists g1; isplitr; · ipureintro; exact hg1
      iexact H1
    isplitl [H2]
    · iexists (Y 2); isplitr; · ipureintro; rfl
      iexists g2; isplitr; · ipureintro; exact hg2
      iexact H2
    isplitl [H3]
    · iexists (Y 3); isplitr; · ipureintro; rfl
      iexists g3; isplitr; · ipureintro; exact hg3
      iexact H3
    iexists _; isplitr
    swap
    · iexists g4'; isplitr; · ipureintro; rfl
      iexact H4
    ipureintro
    rw [hg4']; exact out_ok Vd c t d0

theorem bodiesV : ∀ (p : Fin 2) (c : Dev nD), (rdatsV Vd p c).BodyObligation (defs₀ (F := Ideal)) 𝒱₀ (none : HIx 1) Set.univ
  | 0, c => body0 Vd c
  | 1, c => body1V Vd c

end Body

/-! ## The region's record -/

section Region

variable (Vd : Valuation τ sig (Elt Ideal))

/-- The ablation pass's arrays at entry: the activations, the tiles' minima, the TensorCore's minimum, the indices, the result. -/
theorem arrays1V_eq (c : Dev nD) : ((rdatsV Vd 1 c).arrays (rdatsV Vd 1 c).A : sProp 𝕄)
    = iprop(ptc c main_v1 (Vd (dr main_v1)) ∗ ptc c main_v2 (Vd (dr main_v2)) ∗ ptc c main_v3 (Vd (dr main_v3)) ∗ ptc c main_v4 (Vd (dr main_v4)) ∗ ptc c main_v5 (Vd (dr main_v5))) := by
  refine (bigSep_W2 _).trans ?_
  simp only [Pipeline.RDat.share_full (rdatsV Vd 1 c) (fun _ => rfl)]
  show iprop(((Memref.whole main_v1 : Memref sig .tc .hbm S784x64x512 .f32).view.loc (SparseCore.T c) ↦[(Memref.whole main_v1 : Memref sig .tc .hbm S784x64x512 .f32).view.set]{fullShare} Vd (dr main_v1))
      ∗ ((Memref.whole main_v2 : Memref sig .tc .hbm S32x16 .f32).view.loc (SparseCore.T c) ↦[(Memref.whole main_v2 : Memref sig .tc .hbm S32x16 .f32).view.set]{fullShare} Vd (dr main_v2))
      ∗ ((Memref.whole main_v3 : Memref sig .tc .hbm S1x1 .f32).view.loc (SparseCore.T c) ↦[(Memref.whole main_v3 : Memref sig .tc .hbm S1x1 .f32).view.set]{fullShare} Vd (dr main_v3))
      ∗ ((Memref.whole main_v4 : Memref sig .tc .hbm S64x1 .i32).view.loc (SparseCore.T c) ↦[(Memref.whole main_v4 : Memref sig .tc .hbm S64x1 .i32).view.set]{fullShare} Vd (dr main_v4))
      ∗ ((Memref.whole main_v5 : Memref sig .tc .hbm S784x64x512 .f32).view.loc (SparseCore.T c) ↦[(Memref.whole main_v5 : Memref sig .tc .hbm S784x64x512 .f32).view.set]{fullShare} Vd (dr main_v5))) = _
  simp only [Memref.view_whole, View.set_whole]

/-- The arrays after the fourteen points: the inputs at some contents, the result at the specification's. -/
theorem arraysAt1V_out (c : Dev nD) : ((rdatsV Vd 1 c).arraysAt cfgV.N : sProp 𝕄)
    ⊢ iprop((∃ f, ptc c main_v1 f) ∗ (∃ f, ptc c main_v2 f) ∗ (∃ f, ptc c main_v3 f) ∗ (∃ f, ptc c main_v4 f) ∗ ptc c main_v5 (Gout Vd)) := by
  refine (Entails.of_eq (bigSep_W2 _)).trans ?_
  simp only [Pipeline.RDat.share_full (rdatsV Vd 1 c) (fun _ => rfl)]
  show iprop((∃ G, ⌜_⌝ ∗ ((Memref.whole main_v1 : Memref sig .tc .hbm S784x64x512 .f32).view.loc (SparseCore.T c) ↦[(Memref.whole main_v1 : Memref sig .tc .hbm S784x64x512 .f32).view.set]{fullShare} G))
      ∗ (∃ G, ⌜_⌝ ∗ ((Memref.whole main_v2 : Memref sig .tc .hbm S32x16 .f32).view.loc (SparseCore.T c) ↦[(Memref.whole main_v2 : Memref sig .tc .hbm S32x16 .f32).view.set]{fullShare} G))
      ∗ (∃ G, ⌜_⌝ ∗ ((Memref.whole main_v3 : Memref sig .tc .hbm S1x1 .f32).view.loc (SparseCore.T c) ↦[(Memref.whole main_v3 : Memref sig .tc .hbm S1x1 .f32).view.set]{fullShare} G))
      ∗ (∃ G, ⌜_⌝ ∗ ((Memref.whole main_v4 : Memref sig .tc .hbm S64x1 .i32).view.loc (SparseCore.T c) ↦[(Memref.whole main_v4 : Memref sig .tc .hbm S64x1 .i32).view.set]{fullShare} G))
      ∗ (∃ G, ⌜(rdat1V Vd c).ArrAt 4 cfgV.N G⌝ ∗ ((Memref.whole main_v5 : Memref sig .tc .hbm S784x64x512 .f32).view.loc (SparseCore.T c) ↦[(Memref.whole main_v5 : Memref sig .tc .hbm S784x64x512 .f32).view.set]{fullShare} G))) ⊢ _
  simp only [Memref.view_whole, View.set_whole]
  show iprop((∃ G, ⌜_⌝ ∗ ptc c main_v1 G) ∗ (∃ G, ⌜_⌝ ∗ ptc c main_v2 G) ∗ (∃ G, ⌜_⌝ ∗ ptc c main_v3 G) ∗ (∃ G, ⌜_⌝ ∗ ptc c main_v4 G) ∗ (∃ G, ⌜(rdat1V Vd c).ArrAt 4 cfgV.N G⌝ ∗ ptc c main_v5 G)) ⊢ _
  iintro ⟨⟨%G0, -, H0⟩, ⟨%G1, -, H1⟩, ⟨%G2, -, H2⟩, ⟨%G3, -, H3⟩, ⟨%G4, %hG4, H4⟩⟩
  obtain rfl := arrAt4_final Vd c G4 hG4
  isplitl [H0]; · iexists G0; iexact H0
  isplitl [H1]; · iexists G1; iexact H1
  isplitl [H2]; · iexists G2; iexact H2
  isplitl [H3]; · iexists G3; iexact H3
  iexact H4

/-- The ablation pass as a segment of @main, with the value: entered from its five arrays and the `owes`; left with the
    four inputs at some contents and the result at the specification's. -/
def reg1V : Pipeline.RDat.RegionSeg (pcfgs (F := Ideal)) adm (rdatsV Vd) (none : HIx 1) (defs₀ (F := Ideal)) 𝒱₀ (K (F := Ideal)).L (K (F := Ideal)).lev (1 : Fin 2) where
  win := winFacts2.to₀
  block_pos := block_pos2
  stage_whole := stage_whole2
  K := PEmpty
  osem k := k.elim
  ho := Pipeline.OwnSemFacts.none _
  hbody c := body1V Vd c
  hwaits := Pipeline.RDat.hwaits_of_owed_zero (pcfgs (F := Ideal)) adm (rdatsV Vd) (none : HIx 1) (K (F := Ideal)).L (K (F := Ideal)).lev 1 fun _ _ => rfl
  pre c := iprop(ptc c main_v1 (Vd (dr main_v1)) ∗ ptc c main_v2 (Vd (dr main_v2)) ∗ ptc c main_v3 (Vd (dr main_v3)) ∗ ptc c main_v4 (Vd (dr main_v4)) ∗ ptc c main_v5 (Vd (dr main_v5)) ∗ owesW c)
  post c := iprop((∃ f, ptc c main_v1 f) ∗ (∃ f, ptc c main_v2 f) ∗ (∃ f, ptc c main_v3 f) ∗ (∃ f, ptc c main_v4 f)
    ∗ ptc c main_v5 (Cert.Spec.applyOut (Vd (dr main_v1)) (Vd (dr main_v2)) (Vd (dr main_v3)) (Vd (dr main_v4))) ∗ owesW c)
  X _ := iprop(emp)
  Y _ := iprop(emp)
  Z _ := iprop(emp)
  hentry c := by
    rw [Pipeline.ownSems0_none, prefHeld_emp]
    iintro ⟨⟨H1, H2, H3, H4, H5, HO⟩, -, -⟩
    imodintro
    isplitl [H1 H2 H3 H4 H5]
    · iapply (Entails.of_eq (arrays1V_eq Vd c).symm)
      isplitl [H1]; · iexact H1
      isplitl [H2]; · iexact H2
      isplitl [H3]; · iexact H3
      isplitl [H4]; · iexact H4
      iexact H5
    isplitr; · iempintro
    isplitl [HO]; · iapply (owes_in (rdatsV Vd 1 c) 0 rfl rfl); iexact HO
    isplitr <;> iempintro
  hin c := by
    rw [spec_pin1, scopedRest2_eq]
    show _ ⊢ iprop(∃ fs, ⌜(0 : ℕ) < 0 → (sc2V).view.read (Elt Ideal) fs = valsOf (m0V Vd)⌝ ∗ restAt c fs)
    unfold restAt
    iintro ⟨-, -, S1, S2, ⟨%fs, S3⟩, S4, S5⟩
    iexists fs; isplitr; · ipureintro; exact fun h => absurd h (Nat.lt_irrefl 0)
    isplitl [S1]; · iexact S1
    isplitl [S2]; · iexact S2
    isplitl [S3]; · iexact S3
    isplitl [S4]; · iexact S4
    iexact S5
  hout c := by
    rw [Pipeline.ownSems0_none, spec_pin1, scopedRest2_eq]
    show iprop(∃ fs, ⌜_ → (sc2V).view.read (Elt Ideal) fs = valsOf (m0V Vd)⌝ ∗ restAt c fs) ⊢ _
    unfold restAt
    iintro ⟨%fs, -, S1, S2, S3, S4, S5⟩
    isplitr; · iempintro
    isplitr; · iempintro
    isplitl [S1]; · iexact S1
    isplitl [S2]; · iexact S2
    isplitl [S3]; · iexists fs; iexact S3
    isplitl [S4]; · iexact S4
    iexact S5
  hexit c := by
    iintro ⟨HA, HO, -, -⟩
    imodintro
    ihave HA' := (arraysAt1V_out Vd c) $$ HA
    icases HA' with ⟨H1, H2, H3, H4, H5⟩
    isplitl [H1]; · iexact H1
    isplitl [H2]; · iexact H2
    isplitl [H3]; · iexact H3
    isplitl [H4]; · iexact H4
    isplitl [H5]; · iexact H5
    iapply (owes_out (rdatsV Vd 1 c) _ rfl rfl); iexact HO

theorem reg1V_pre (c : Dev nD) : ((reg1V Vd).pre c : sProp 𝕄) = iprop(ptc c main_v1 (Vd (dr main_v1)) ∗ ptc c main_v2 (Vd (dr main_v2)) ∗ ptc c main_v3 (Vd (dr main_v3))
    ∗ ptc c main_v4 (Vd (dr main_v4)) ∗ ptc c main_v5 (Vd (dr main_v5)) ∗ owesW c) := rfl

theorem reg1V_post (c : Dev nD) : ((reg1V Vd).post c : sProp 𝕄) = iprop((∃ f, ptc c main_v1 f) ∗ (∃ f, ptc c main_v2 f) ∗ (∃ f, ptc c main_v3 f) ∗ (∃ f, ptc c main_v4 f)
    ∗ ptc c main_v5 (Cert.Spec.applyOut (Vd (dr main_v1)) (Vd (dr main_v2)) (Vd (dr main_v3)) (Vd (dr main_v4))) ∗ owesW c) := rfl

end Region

end Cert.Proof.KIV

end
-- ==== Proof.LibPointScatter.lean ====
/-
  A POINT SCATTER into a matrix, read at an entry.

  `x.at[rows, cols].set(c)` and `x.at[rows, cols].add(v)` over `E` index pairs lower to a `stablehlo.scatter` whose
  operand is `[M, K]`, whose scatter indices are `[E, 2]` (the index vector on axis 1: row, column) and whose updates
  are `[E]`: both operand axes are inserted, so every update is one element, landing at `(idx[e,0], idx[e,1])` read as
  signed integers and NOT clamped — an update whose pair leaves `[0, M) × [0, K)` lands nowhere.

  * SET of one constant `c`: the result at `(i, j)` is `c` when some update lands there and the operand's entry
    otherwise — whatever the order of the updates, since they all write the same value.
  * ADD at the extended reals: the operand's entry plus the sum of the updates that land there.

  Generic in `M`, `K`, `E` and the index width; a program's record has these dimension numbers as literals and
  equals `pointDims` by `rfl` (hypothesis `hd` of the `_of` forms).
-/
import Idealize.ShloMosaic.PureOps.Ideal
import Idealize.ShloMosaic.Lib.ValueIdx

noncomputable section

open scoped BigOperators

namespace Cert.Lib.PointScatter

open Idealize.ShloMosaic Idealize.ShloMosaic.ValueIdx

/-! ## A set-scatter of one constant, for any dimension numbers -/

/-- A left fold whose step either overwrites one entry with the constant `c` (`tgt n = some i`) or does nothing
    (`tgt n = none`): an entry some step targets ends at `c`. -/
theorem foldl_hit {ι κ α : Type} [DecidableEq ι] (tgt : κ → Option ι) (c : α)
    (step : (ι → α) → κ → (ι → α))
    (hsome : ∀ r n i, tgt n = some i → step r n = fun i'' => if i'' = i then c else r i'')
    (hnone : ∀ r n, tgt n = none → step r n = r) (i' : ι) :
    ∀ (L : List κ) (x : ι → α), (∃ n ∈ L, tgt n = some i') → L.foldl step x i' = c ∨ False
  | [], _, h => by obtain ⟨n, hn, _⟩ := h; exact absurd hn (List.not_mem_nil)
  | n :: L, x, h => by
    left
    rw [List.foldl_cons]
    by_cases hL : ∃ n' ∈ L, tgt n' = some i'
    · exact (foldl_hit tgt c step hsome hnone i' L (step x n) hL).resolve_right id
    · -- no later step targets the entry, so the head does, and nothing after it moves the entry
      have hhead : tgt n = some i' := by
        obtain ⟨n', hn', ht⟩ := h
        rcases List.mem_cons.1 hn' with rfl | hin
        · exact ht
        · exact absurd ⟨n', hin, ht⟩ hL
      have keep : ∀ (L' : List κ) (y : ι → α), (¬ ∃ n' ∈ L', tgt n' = some i') → L'.foldl step y i' = y i' := by
        intro L'
        induction L' with
        | nil => intro y _; rfl
        | cons a L' ih =>
          intro y hno
          rw [List.foldl_cons, ih (step y a) (fun ⟨n', hn', ht⟩ => hno ⟨n', List.mem_cons_of_mem _ hn', ht⟩)]
          rcases hta : tgt a with _ | i
          · rw [hnone y a hta]
          · rw [hsome y a i hta]
            have : i' ≠ i := fun e => hno ⟨a, List.mem_cons_self, by rw [hta, e]⟩
            simp only [if_neg this]
      rw [keep L (step x n) hL, hsome x n i' hhead]
      simp only [if_true]

/-- … and an entry no step targets keeps its contents. -/
theorem foldl_miss {ι κ α : Type} [DecidableEq ι] (tgt : κ → Option ι) (c : α)
    (step : (ι → α) → κ → (ι → α))
    (hsome : ∀ r n i, tgt n = some i → step r n = fun i'' => if i'' = i then c else r i'')
    (hnone : ∀ r n, tgt n = none → step r n = r) (i' : ι) :
    ∀ (L : List κ) (x : ι → α), (¬ ∃ n ∈ L, tgt n = some i') → L.foldl step x i' = x i' := by
  intro L
  induction L with
  | nil => intro x _; rfl
  | cons a L ih =>
    intro x hno
    rw [List.foldl_cons, ih (step x a) (fun ⟨n', hn', ht⟩ => hno ⟨n', List.mem_cons_of_mem _ hn', ht⟩)]
    rcases hta : tgt a with _ | i
    · rw [hnone x a hta]
    · rw [hsome x a i hta]
      have : i' ≠ i := fun e => hno ⟨a, List.mem_cons_self, by rw [hta, e]⟩
      simp only [if_neg this]

variable {s si u : Shape} {w : Nat} {α : Type}

/-- A set-scatter of the constant `c`: an entry some update lands on holds `c`. -/
theorem scatter_const_hit (d : ScatterDims s si u) (x : s.Idx → α) (idx : IVec si w) (c : α) (i' : s.Idx)
    (h : ∃ j : u.Idx, d.resultIdx? j idx = some i') :
    Host.scatter d (fun _ b => b) x idx (fun _ => c) i' = c := by
  unfold Host.scatter
  refine (foldl_hit (fun n : Fin u.numel => d.resultIdx? (u.rowMajor.symm n) idx) c _ ?_ ?_ i'
    (List.finRange u.numel) x ?_).resolve_right id
  · intro r n i hn; simp only [hn]
  · intro r n hn; simp only [hn]
  · obtain ⟨j, hj⟩ := h
    exact ⟨u.rowMajor j, List.mem_finRange _, by simpa using hj⟩

/-- A set-scatter of the constant `c`: an entry no update lands on keeps the operand's contents. -/
theorem scatter_const_miss (d : ScatterDims s si u) (x : s.Idx → α) (idx : IVec si w) (c : α) (i' : s.Idx)
    (h : ¬ ∃ j : u.Idx, d.resultIdx? j idx = some i') :
    Host.scatter d (fun _ b => b) x idx (fun _ => c) i' = x i' := by
  unfold Host.scatter
  refine foldl_miss (fun n : Fin u.numel => d.resultIdx? (u.rowMajor.symm n) idx) c _ ?_ ?_ i'
    (List.finRange u.numel) x ?_
  · intro r n i hn; simp only [hn]
  · intro r n hn; simp only [hn]
  · rintro ⟨n, _, hn⟩
    exact h ⟨u.rowMajor.symm n, hn⟩

/-! ## The point scatter's dimension numbers, and where an update lands -/

/-- Operand `[M, K]`, scatter indices `[E, 2]`, updates `[E]`: no window axis, both operand axes inserted, the index
    vector (axis 1 of the indices) naming operand axes 0 and 1 in order. -/
abbrev pointDims (M K E : Nat)
    (wf : ScatterDims.WF ⟨2, ![M, K]⟩ ⟨2, ![E, 2]⟩ ⟨1, ![E]⟩ [] [0, 1] [0, 1] 1) :
    ScatterDims ⟨2, ![M, K]⟩ ⟨2, ![E, 2]⟩ ⟨1, ![E]⟩ where
  updateWindowDims := []
  insertedWindowDims := [0, 1]
  scatterDimsToOperandDims := [0, 1]
  indexVectorDim := 1
  wf := wf

variable {M K E : Nat}

/-- Component `c` of update `e`'s index vector is read at `(e, c)`. -/
theorem point_siIdx (wf : ScatterDims.WF ⟨2, ![M, K]⟩ ⟨2, ![E, 2]⟩ ⟨1, ![E]⟩ [] [0, 1] [0, 1] 1)
    (e : Fin E) (c : Fin (pointDims M K E wf).scatterDimsToOperandDims.length) :
    (pointDims M K E wf).siIdx (ix1 e) c = ix2 e (⟨c.val, by simpa using c.isLt⟩ : Fin 2) := by
  funext b; refine Fin.ext ?_
  match b with
  | ⟨0, _⟩ => rfl
  | ⟨1, _⟩ => rfl

/-- The window of update `e` starts, on the row axis, at the signed row index … -/
theorem point_start0 (wf : ScatterDims.WF ⟨2, ![M, K]⟩ ⟨2, ![E, 2]⟩ ⟨1, ![E]⟩ [] [0, 1] [0, 1] 1)
    (idx : IVec ⟨2, ![E, 2]⟩ w) (e : Fin E) :
    (pointDims M K E wf).start (ix1 e) idx 0 = (idx (ix2 e (0 : Fin 2))).toInt := by
  unfold ScatterDims.start
  rw [dif_pos (show (0 : Fin 2) ∈ (pointDims M K E wf).scatterDimsToOperandDims from List.mem_cons_self), point_siIdx]
  rfl

/-- … and, on the column axis, at the signed column index. -/
theorem point_start1 (wf : ScatterDims.WF ⟨2, ![M, K]⟩ ⟨2, ![E, 2]⟩ ⟨1, ![E]⟩ [] [0, 1] [0, 1] 1)
    (idx : IVec ⟨2, ![E, 2]⟩ w) (e : Fin E) :
    (pointDims M K E wf).start (ix1 e) idx 1 = (idx (ix2 e (1 : Fin 2))).toInt := by
  unfold ScatterDims.start
  rw [dif_pos (show (1 : Fin 2) ∈ (pointDims M K E wf).scatterDimsToOperandDims from
    List.mem_cons_of_mem _ List.mem_cons_self), point_siIdx]
  rfl

/-- Both operand axes are inserted: the window coordinate is `0` on each. -/
theorem point_window (wf : ScatterDims.WF ⟨2, ![M, K]⟩ ⟨2, ![E, 2]⟩ ⟨1, ![E]⟩ [] [0, 1] [0, 1] 1)
    (e : Fin E) (a : Fin 2) : (pointDims M K E wf).window (ix1 e) a = 0 := by
  match a with
  | ⟨0, _⟩ => rfl
  | ⟨1, _⟩ => rfl

/-- Update `e` lands at `(i, j)` exactly when its signed index pair is `(i, j)`. -/
theorem point_resultIdx_eq_some_iff (wf : ScatterDims.WF ⟨2, ![M, K]⟩ ⟨2, ![E, 2]⟩ ⟨1, ![E]⟩ [] [0, 1] [0, 1] 1)
    (idx : IVec ⟨2, ![E, 2]⟩ w) (e : Fin E) (i : Fin M) (j : Fin K) :
    (pointDims M K E wf).resultIdx? (ix1 e) idx = some (ix2 i j)
      ↔ (idx (ix2 e (0 : Fin 2))).toInt = (i.val : Int) ∧ (idx (ix2 e (1 : Fin 2))).toInt = (j.val : Int) := by
  have hi := i.isLt
  have hj := j.isLt
  unfold ScatterDims.resultIdx?
  constructor
  · intro h
    split at h
    · rename_i hc
      have hf := Option.some.inj h
      have h0 := congrArg Fin.val (congrFun hf 0)
      have h1 := congrArg Fin.val (congrFun hf 1)
      have c0 := hc 0
      have c1 := hc 1
      rw [point_start0, point_window] at c0
      rw [point_start1, point_window] at c1
      have e0 : ((pointDims M K E wf).start (ix1 e) idx 0 + ((pointDims M K E wf).window (ix1 e) 0 : Int)).toNat = i.val := h0
      have e1 : ((pointDims M K E wf).start (ix1 e) idx 1 + ((pointDims M K E wf).window (ix1 e) 1 : Int)).toNat = j.val := h1
      rw [point_start0, point_window] at e0
      rw [point_start1, point_window] at e1
      constructor <;> omega
    · exact absurd h (by simp)
  · rintro ⟨h0, h1⟩
    have hc : ∀ a, 0 ≤ (pointDims M K E wf).start (ix1 e) idx a + ((pointDims M K E wf).window (ix1 e) a : Int) ∧
        (pointDims M K E wf).start (ix1 e) idx a + ((pointDims M K E wf).window (ix1 e) a : Int)
          < ((⟨2, ![M, K]⟩ : Shape).size a : Int) := by
      intro a
      match a with
      | ⟨0, _⟩ =>
        show 0 ≤ (pointDims M K E wf).start (ix1 e) idx 0 + ((pointDims M K E wf).window (ix1 e) 0 : Int) ∧
          (pointDims M K E wf).start (ix1 e) idx 0 + ((pointDims M K E wf).window (ix1 e) 0 : Int) < (M : Int)
        rw [point_start0, point_window]; omega
      | ⟨1, _⟩ =>
        show 0 ≤ (pointDims M K E wf).start (ix1 e) idx 1 + ((pointDims M K E wf).window (ix1 e) 1 : Int) ∧
          (pointDims M K E wf).start (ix1 e) idx 1 + ((pointDims M K E wf).window (ix1 e) 1 : Int) < (K : Int)
        rw [point_start1, point_window]; omega
    rw [dif_pos hc]
    congr 1
    funext a
    refine Fin.ext ?_
    match a with
    | ⟨0, _⟩ =>
      show ((pointDims M K E wf).start (ix1 e) idx 0 + ((pointDims M K E wf).window (ix1 e) 0 : Int)).toNat = i.val
      rw [point_start0, point_window]; omega
    | ⟨1, _⟩ =>
      show ((pointDims M K E wf).start (ix1 e) idx 1 + ((pointDims M K E wf).window (ix1 e) 1 : Int)).toNat = j.val
      rw [point_start1, point_window]; omega

/-- Some update lands at `(i, j)` exactly when some index pair is `(i, j)`. -/
theorem point_exists_iff (wf : ScatterDims.WF ⟨2, ![M, K]⟩ ⟨2, ![E, 2]⟩ ⟨1, ![E]⟩ [] [0, 1] [0, 1] 1)
    (idx : IVec ⟨2, ![E, 2]⟩ w) (i : Fin M) (j : Fin K) :
    (∃ q : (⟨1, ![E]⟩ : Shape).Idx, (pointDims M K E wf).resultIdx? q idx = some (ix2 i j))
      ↔ ∃ e : Fin E, (idx (ix2 e (0 : Fin 2))).toInt = (i.val : Int) ∧ (idx (ix2 e (1 : Fin 2))).toInt = (j.val : Int) := by
  constructor
  · rintro ⟨q, hq⟩
    rw [eq_ix1 q] at hq
    exact ⟨q 0, (point_resultIdx_eq_some_iff wf idx (q 0) i j).1 hq⟩
  · rintro ⟨e, he⟩
    exact ⟨ix1 e, (point_resultIdx_eq_some_iff wf idx e i j).2 he⟩

/-! ## The two readings -/

/-- A POINT SET-SCATTER OF A CONSTANT READ AT `(i, j)`: the constant when some index pair is `(i, j)`, the operand's
    entry otherwise. -/
theorem point_set_apply (wf : ScatterDims.WF ⟨2, ![M, K]⟩ ⟨2, ![E, 2]⟩ ⟨1, ![E]⟩ [] [0, 1] [0, 1] 1)
    (x : (⟨2, ![M, K]⟩ : Shape).Idx → α) (idx : IVec ⟨2, ![E, 2]⟩ w) (c : α) (i : Fin M) (j : Fin K) :
    Host.scatter (pointDims M K E wf) (fun _ b => b) x idx (fun _ => c) (ix2 i j)
      = if ∃ e : Fin E, (idx (ix2 e (0 : Fin 2))).toInt = (i.val : Int) ∧ (idx (ix2 e (1 : Fin 2))).toInt = (j.val : Int)
        then c else x (ix2 i j) := by
  by_cases h : ∃ e : Fin E, (idx (ix2 e (0 : Fin 2))).toInt = (i.val : Int) ∧ (idx (ix2 e (1 : Fin 2))).toInt = (j.val : Int)
  · rw [if_pos h]
    exact scatter_const_hit _ x idx c _ ((point_exists_iff wf idx i j).2 h)
  · rw [if_neg h]
    exact scatter_const_miss _ x idx c _ (fun h' => h ((point_exists_iff wf idx i j).1 h'))

/-- A POINT SCATTER-ADD READ AT `(i, j)`, at the extended reals: the operand's entry plus the sum of the updates
    whose index pair is `(i, j)`. -/
theorem point_add_apply (wf : ScatterDims.WF ⟨2, ![M, K]⟩ ⟨2, ![E, 2]⟩ ⟨1, ![E]⟩ [] [0, 1] [0, 1] 1)
    (x : (⟨2, ![M, K]⟩ : Shape).Idx → EReal) (idx : IVec ⟨2, ![E, 2]⟩ w)
    (upd : (⟨1, ![E]⟩ : Shape).Idx → EReal) (i : Fin M) (j : Fin K) :
    Ideal.hostScatterAdd (pointDims M K E wf) x idx upd (ix2 i j)
      = x (ix2 i j) + ∑ e ∈ Finset.univ.filter (fun e : Fin E =>
          (idx (ix2 e (0 : Fin 2))).toInt = (i.val : Int) ∧ (idx (ix2 e (1 : Fin 2))).toInt = (j.val : Int)), upd (ix1 e) := by
  unfold Ideal.hostScatterAdd
  congr 1
  rw [Finset.sum_filter, Finset.sum_filter]
  -- a sum over the rank-1 index set is the sum over its one coordinate
  let eqv : (⟨1, ![E]⟩ : Shape).Idx ≃ Fin E :=
    { toFun := fun q => q 0, invFun := fun a => ix1 a, left_inv := fun q => (eq_ix1 q).symm, right_inv := fun _ => rfl }
  rw [← Equiv.sum_comp eqv.symm]
  refine Finset.sum_congr rfl fun e _ => ?_
  show (if (pointDims M K E wf).resultIdx? (ix1 e) idx = some (ix2 i j) then upd (ix1 e) else 0) = _
  simp only [point_resultIdx_eq_some_iff]

/-- The set reading for any record with these dimension numbers. -/
theorem point_set_apply_of (d : ScatterDims ⟨2, ![M, K]⟩ ⟨2, ![E, 2]⟩ ⟨1, ![E]⟩)
    (wf : ScatterDims.WF ⟨2, ![M, K]⟩ ⟨2, ![E, 2]⟩ ⟨1, ![E]⟩ [] [0, 1] [0, 1] 1) (hd : d = pointDims M K E wf)
    (x : (⟨2, ![M, K]⟩ : Shape).Idx → α) (idx : IVec ⟨2, ![E, 2]⟩ w) (c : α) (i : Fin M) (j : Fin K) :
    Host.scatter d (fun _ b => b) x idx (fun _ => c) (ix2 i j)
      = if ∃ e : Fin E, (idx (ix2 e (0 : Fin 2))).toInt = (i.val : Int) ∧ (idx (ix2 e (1 : Fin 2))).toInt = (j.val : Int)
        then c else x (ix2 i j) := by
  subst hd; exact point_set_apply wf x idx c i j

/-- The add reading, in the program's spelling, for any record with these dimension numbers. -/
theorem host_point_add_apply_of {φ : FTy} (d : ScatterDims ⟨2, ![M, K]⟩ ⟨2, ![E, 2]⟩ ⟨1, ![E]⟩)
    (wf : ScatterDims.WF ⟨2, ![M, K]⟩ ⟨2, ![E, 2]⟩ ⟨1, ![E]⟩ [] [0, 1] [0, 1] 1) (hd : d = pointDims M K E wf)
    (x : FVec Ideal ⟨2, ![M, K]⟩ φ) (idx : IVec ⟨2, ![E, 2]⟩ w) (upd : FVec Ideal ⟨1, ![E]⟩ φ) (i : Fin M) (j : Fin K) :
    Host.scatterAdd d x idx upd (ix2 i j)
      = x (ix2 i j) + ∑ e ∈ Finset.univ.filter (fun e : Fin E =>
          (idx (ix2 e (0 : Fin 2))).toInt = (i.val : Int) ∧ (idx (ix2 e (1 : Fin 2))).toInt = (j.val : Int)), upd (ix1 e) := by
  subst hd; exact point_add_apply wf x idx upd i j

end Cert.Lib.PointScatter

end
-- ==== Proof.RefValue.lean ====
/-
  The reference program's closed form.

  The reference is a counted host loop of 64 trips over a carried array `out : [64, 512, 28, 28]`, started at the
  activations `x`. Trip `k` takes the least entry `s` of the WHOLE carried array, computes `step s` (`0` if `s = 0`,
  `s − 10⁷` otherwise) and writes it over the 28 × 28 plane at channel `idx k` of batch row `k`.

  Invariant, for `k ≤ 64`: before trip `k` the carried array is `x` with, for each `b < k`, plane `(b, idx b)` filled with
  `step^(b+1) μ`, `μ` the least entry of `x`; and its least entry is `step^k μ`. The step: the least entry is `s = step^k μ`,
  the new value `step s` is not above `s` (`s − 10⁷ ≤ s` on the extended reals because `0 ≤ 10⁷`; and `step 0 = 0`), so once a
  nonempty plane holds it, it is the least entry: every other entry is at least `s`. Planes of different trips lie in
  different batch rows. No finiteness of `x` is used; the channel indices are in `[0, 511]` by the precondition.

  The program side reads each host operation through its result equation. The minimum over the whole array and the
  scatter are never unfolded: each is reached through a statement generic in the operation's function.
-/
import proofs.«202639_g54090818126251_cont_9to1c4b_462_21_alg».proof.Proof.RefFrame
import proofs.«202639_g54090818126251_cont_9to1c4b_462_21_alg».proof.Proof.Spec
import proofs.«202639_g54090818126251_cont_9to1c4b_462_21_alg».proof.Proof.LibPointScatter
import Idealize.ShloMosaic.PureOps.Reduce
import Idealize.ShloMosaic.Lib.ReduceAll
import Idealize.ShloMosaic.PureOps.Ideal.Laws

noncomputable section

namespace Cert.Proof.RefSide

open Cert.ReferenceIdeal Cert.ReferenceIdeal.Gen Cert.ReferenceIdeal.Value
open Idealize.ShloMosaic Idealize.ShloMosaic.TcCoe Idealize.SL.Sem
open Idealize.ShloMosaic.StableHlo
open Idealize.ShloMosaic.ValueIdx

/-! ## The ablation step on the extended reals -/

/-- The ablation constant is not negative. -/
theorem c1e7_nonneg : 0 ≤ Cert.Spec.c1e7 := by
  unfold Cert.Spec.c1e7
  simp [Ideal.ofBits, Ideal.ieee, -EReal.coe_mul]

/-- One step never raises the value: `s − 10⁷ ≤ s` since `0 ≤ 10⁷`, and `0` stays `0`. -/
theorem step_le (s : EReal) : Cert.Spec.step s ≤ s := by
  unfold Cert.Spec.step
  split_ifs with h
  · rw [h]
  · calc s - Cert.Spec.c1e7 = s + -Cert.Spec.c1e7 := sub_eq_add_neg _ _
      _ ≤ s + 0 := add_le_add le_rfl (EReal.neg_le_zero.mpr c1e7_nonneg)
      _ = s := add_zero s

/-! ## An array with one plane overwritten -/

/-- `y` with the plane at channel `c` of batch row `b` filled with `v`. -/
def setPlane (y : Cert.Spec.SX.Idx → EReal) (b c : ℕ) (v : EReal) : Cert.Spec.SX.Idx → EReal :=
  fun i => if (i 0).val = b ∧ (i 1).val = c then v else y i

/-- Overwriting a plane with a value not above the least entry makes that value the least entry: the plane is not
    empty, and every other entry is at least the old least entry. -/
theorem inf_setPlane (y : Cert.Spec.SX.Idx → EReal) (b c : ℕ) (hb : b < 64) (hc : c < 512) (v : EReal)
    (hv : v ≤ Finset.univ.inf y) : Finset.univ.inf (setPlane y b c v) = v := by
  apply le_antisymm
  · have h := Finset.inf_le (f := setPlane y b c v) (Finset.mem_univ (ix4 (⟨b, hb⟩ : Fin 64) (⟨c, hc⟩ : Fin 512) (0 : Fin 28) (0 : Fin 28)))
    refine h.trans (le_of_eq ?_)
    show (if b = b ∧ c = c then v else _) = v
    rw [if_pos ⟨rfl, rfl⟩]
  · refine Finset.le_inf fun i _ => ?_
    unfold setPlane
    split_ifs
    · exact le_rfl
    · exact hv.trans (Finset.inf_le (Finset.mem_univ i))

/-! ## The result after `k` trips -/

/-- `x` with, for each batch row `b < k`, the plane at channel `idx b` filled with `step^(b+1)` of the least entry. -/
def Gk (x : Cert.Spec.SX.Idx → EReal) (idx : Cert.Spec.SI.Idx → BitVec 32) (k : ℕ) : Cert.Spec.SX.Idx → EReal :=
  fun i => if (i 0).val < k ∧ (i 1).val = (idx (ix1 (i 0))).toNat then Cert.Spec.step^[(i 0).val + 1] (Cert.Spec.mu x) else x i

theorem Gk_zero (x : Cert.Spec.SX.Idx → EReal) (idx : Cert.Spec.SI.Idx → BitVec 32) : Gk x idx 0 = x := by
  funext i
  unfold Gk
  rw [if_neg (fun h => Nat.not_lt_zero _ h.1)]

theorem Gk_all (x : Cert.Spec.SX.Idx → EReal) (idx : Cert.Spec.SI.Idx → BitVec 32) : Gk x idx 64 = Cert.Spec.G x idx := by
  funext i
  obtain ⟨a, b, c, d, rfl⟩ : ∃ (a : Fin 64) (b : Fin 512) (c d : Fin 28), i = ix4 a b c d := ⟨_, _, _, _, eq_ix4 i⟩
  unfold Gk Cert.Spec.G
  show (if a.val < 64 ∧ b.val = (idx (ix1 a)).toNat then _ else _) = (if b.val = (idx (ix1 a)).toNat then _ else _)
  by_cases h : b.val = (idx (ix1 a)).toNat
  · rw [if_pos ⟨a.isLt, h⟩, if_pos h]
  · rw [if_neg (fun h' => h h'.2), if_neg h]

/-- One more trip overwrites one more plane. -/
theorem Gk_succ (x : Cert.Spec.SX.Idx → EReal) (idx : Cert.Spec.SI.Idx → BitVec 32) (k : ℕ) (hk : k < 64) :
    Gk x idx (k + 1) = setPlane (Gk x idx k) k (idx (ix1 (⟨k, hk⟩ : Fin 64))).toNat (Cert.Spec.step^[k + 1] (Cert.Spec.mu x)) := by
  funext i
  obtain ⟨a, b, c, d, rfl⟩ : ∃ (a : Fin 64) (b : Fin 512) (c d : Fin 28), i = ix4 a b c d := ⟨_, _, _, _, eq_ix4 i⟩
  unfold setPlane Gk
  show (if a.val < k + 1 ∧ b.val = (idx (ix1 a)).toNat then Cert.Spec.step^[a.val + 1] (Cert.Spec.mu x) else x (ix4 a b c d))
    = (if a.val = k ∧ b.val = (idx (ix1 (⟨k, hk⟩ : Fin 64))).toNat then Cert.Spec.step^[k + 1] (Cert.Spec.mu x)
        else if a.val < k ∧ b.val = (idx (ix1 a)).toNat then Cert.Spec.step^[a.val + 1] (Cert.Spec.mu x) else x (ix4 a b c d))
  by_cases hak : a.val = k
  · have ha : a = ⟨k, hk⟩ := Fin.ext hak
    subst ha
    by_cases hb : b.val = (idx (ix1 (⟨k, hk⟩ : Fin 64))).toNat
    · rw [if_pos ⟨Nat.lt_succ_self k, hb⟩, if_pos ⟨rfl, hb⟩]
    · rw [if_neg (fun h => hb h.2), if_neg (fun h => hb h.2), if_neg (fun h => hb h.2)]
  · rw [if_neg (show ¬ (a.val = k ∧ b.val = (idx (ix1 (⟨k, hk⟩ : Fin 64))).toNat) from fun h => hak h.1)]
    by_cases hb : b.val = (idx (ix1 a)).toNat
    · by_cases hlt : a.val < k
      · rw [if_pos ⟨Nat.lt_succ_of_lt hlt, hb⟩, if_pos ⟨hlt, hb⟩]
      · rw [if_neg (fun h => hlt (Nat.lt_of_le_of_ne (Nat.le_of_lt_succ h.1) hak)), if_neg (fun h => hlt h.1)]
    · rw [if_neg (fun h => hb h.2), if_neg (fun h => hb h.2)]

/-- After `k` trips the least entry is `step^k` of the first least entry (every channel index below 512). -/
theorem inf_Gk (x : Cert.Spec.SX.Idx → EReal) (idx : Cert.Spec.SI.Idx → BitVec 32)
    (hidx : ∀ b : Fin 64, (idx (ix1 b)).toNat < 512) :
    ∀ k, k ≤ 64 → Finset.univ.inf (Gk x idx k) = Cert.Spec.step^[k] (Cert.Spec.mu x)
  | 0, _ => by rw [Gk_zero]; rfl
  | k + 1, hk => by
    have hk' : k < 64 := hk
    have ih := inf_Gk x idx hidx k (Nat.le_of_lt hk')
    rw [Gk_succ x idx k hk']
    refine inf_setPlane _ k _ hk' (hidx ⟨k, hk'⟩) _ ?_
    rw [ih, Function.iterate_succ_apply']
    exact step_le _

/-! ## The host operations read at an index -/

instance : Subsingleton S_.Idx := ⟨fun a b => funext fun d => d.elim0⟩

/-- A scalar broadcast to any shape reads the scalar everywhere. -/
theorem bcast_scalar_apply {α : Type} (t : Shape) (h : S_.BroadcastsInDim t (![] : Fin 0 → Fin t.rank)) (x : S_.Idx → α) (j : t.Idx) :
    broadcastInDim t ![] h x j = x ix0 :=
  congrArg x (Subsingleton.elim _ _)

/-- A one-element slice of a 64-vector at a start inside it reads the entry at the start. -/
theorem dynSlice64_apply {α : Type} (x : S64.Idx → α) (st : Fin S64.rank → Int) (n : Fin 64) (hn : st 0 = (n.val : Int))
    (j : S1.Idx) : Host.dynamicSlice S1 x st sliceFits_S64_S1 j = x (ix1 n) := by
  unfold Host.dynamicSlice extractStridedSlice
  refine congrArg x ?_
  funext a
  match a with
  | ⟨0, _⟩ =>
    refine Fin.ext ?_
    show (min (max (st 0) 0) (((64 - 1 : Nat)) : Int)).toNat + (j 0).val = n.val
    have h1 : (j 0).val < 1 := (j 0).isLt
    have h2 := n.isLt
    rw [hn]; omega

/-- The least entry as the fold of `min` from `+∞`. -/
theorem fold_min_top_eq_inf {ι : Type} [Fintype ι] (x : ι → EReal) :
    (Finset.univ : Finset ι).fold min ⊤ x = Finset.univ.inf x := by
  apply le_antisymm
  · exact Finset.le_inf fun i hi => (Finset.fold_min_le (c := x i)).2 (Or.inr ⟨i, hi, le_rfl⟩)
  · exact (Finset.le_fold_min (c := Finset.univ.inf x)).2 ⟨le_top, fun i hi => Finset.inf_le hi⟩

/-- The f32 pattern of `+∞` is the top of the extended reals. -/
theorem ofBits_inf_f32 : Ideal.ofBits .f32 0x7F800000#32 = ⊤ := by simp [Ideal.ofBits, Ideal.ieee]

/-- The minimum over all four axes, from `+∞`, is the least entry. -/
theorem reduce_min_all (x : FVec Ideal S64x512x28x28 .f32) (j : S_.Idx) :
    Host.reduce (FloatOps.minimumf (F := Ideal) (φ := .f32)) x (constant (F := Ideal) S_ .f32 0x7F800000#32) reducesTo_S64x512x28x28_S_d0_1_2_3 h_S_ j
      = Finset.univ.inf (x : Cert.Spec.SX.Idx → EReal) := by
  rw [Host.reduce_eq_fold]
  have hf : (Finset.univ.filter fun i : S64x512x28x28.Idx => reducesTo_S64x512x28x28_S_d0_1_2_3.drop i = j) = Finset.univ :=
    Finset.filter_true_of_mem fun i _ => Subsingleton.elim _ _
  rw [hf]
  show (Finset.univ : Finset S64x512x28x28.Idx).fold min (Ideal.ofBits .f32 0x7F800000#32) x = _
  rw [ofBits_inf_f32]
  exact fold_min_top_eq_inf x

/-! ## Words -/

/-- A small natural as a 32-bit word reads back, signed, as itself. -/
theorem toInt_ofNat_small (n : ℕ) (h : n < 2147483648) : (BitVec.ofNat 32 n).toInt = (n : Int) := by
  have h2 : (2 : ℕ) ^ 32 = 4294967296 := by norm_num
  rw [BitVec.toInt_eq_toNat_cond, BitVec.toNat_ofNat, h2, Nat.mod_eq_of_lt (by omega), if_pos (by omega)]

/-- The loop's counter before trip `k` is the word `k`. -/
theorem iv_eq_ofNat (k : ℕ) : Scf.iv 0#32 1#32 k = BitVec.ofNat 32 k := by
  simp [Scf.iv]

/-- A word that is not negative is not wrapped: `w < 0 ? w + m : w` is `w`. -/
theorem sel_wrap_nonneg (w m : BitVec 32) (h : 0 ≤ w.toInt) :
    Scalar.select (IntOp.cmpi .slt w 0#32) (IntOp.addi w m) w = w := by
  have hc : IntOp.cmpi .slt w 0#32 ≠ 1#1 := fun e => by
    have := IntOp.cmpi_slt.1 e
    rw [BitVec.toInt_zero] at this
    omega
  unfold Scalar.select
  exact if_neg hc

/-- A word between 0 and 511, signed, reads unsigned as the same number. -/
theorem toNat_of_toInt_nonneg (w : BitVec 32) (h : 0 ≤ w.toInt) : (w.toNat : Int) = w.toInt := by
  have h2 : (2 : ℕ) ^ 32 = 4294967296 := by norm_num
  rw [BitVec.toInt_eq_toNat_cond] at h ⊢
  have := w.isLt
  split_ifs at h ⊢ with hlt
  · rfl
  · omega

/-! ## The plane scatter read at an entry

Operand `[64, 512, 28, 28]`, an index vector of two components naming the batch row and the channel, updates
`[28, 28]`: update `(p, q)` lands at `(row, channel, p, q)`, when the row and the channel are inside the operand. -/

/-- Component `c` of the index vector is read at entry `c` of the index array. -/
theorem pl_siIdx (j : S28x28.Idx) (c : Fin scatter_S64x512x28x28_S2_S28x28_01_01_01_0.scatterDimsToOperandDims.length) :
    scatter_S64x512x28x28_S2_S28x28_01_01_01_0.siIdx j c = ix1 (⟨c.val, c.isLt⟩ : Fin 2) := by
  funext b; refine Fin.ext ?_
  match b with
  | ⟨0, _⟩ => rfl

theorem pl_start0 (iv : IVec S2 32) (j : S28x28.Idx) :
    scatter_S64x512x28x28_S2_S28x28_01_01_01_0.start j iv 0 = (iv (ix1 (0 : Fin 2))).toInt := by
  unfold ScatterDims.start
  rw [dif_pos (show (0 : Fin 4) ∈ scatter_S64x512x28x28_S2_S28x28_01_01_01_0.scatterDimsToOperandDims from List.mem_cons_self), pl_siIdx]
  rfl

theorem pl_start1 (iv : IVec S2 32) (j : S28x28.Idx) :
    scatter_S64x512x28x28_S2_S28x28_01_01_01_0.start j iv 1 = (iv (ix1 (1 : Fin 2))).toInt := by
  unfold ScatterDims.start
  rw [dif_pos (show (1 : Fin 4) ∈ scatter_S64x512x28x28_S2_S28x28_01_01_01_0.scatterDimsToOperandDims from
    List.mem_cons_of_mem _ List.mem_cons_self), pl_siIdx]
  rfl

theorem pl_start2 (iv : IVec S2 32) (j : S28x28.Idx) :
    scatter_S64x512x28x28_S2_S28x28_01_01_01_0.start j iv 2 = 0 := by
  unfold ScatterDims.start
  rw [dif_neg (show (2 : Fin 4) ∉ scatter_S64x512x28x28_S2_S28x28_01_01_01_0.scatterDimsToOperandDims by
    show (2 : Fin 4) ∉ [(0 : Fin 4), 1]; decide)]

theorem pl_start3 (iv : IVec S2 32) (j : S28x28.Idx) :
    scatter_S64x512x28x28_S2_S28x28_01_01_01_0.start j iv 3 = 0 := by
  unfold ScatterDims.start
  rw [dif_neg (show (3 : Fin 4) ∉ scatter_S64x512x28x28_S2_S28x28_01_01_01_0.scatterDimsToOperandDims by
    show (3 : Fin 4) ∉ [(0 : Fin 4), 1]; decide)]

theorem pl_window0 (p q : Fin 28) : scatter_S64x512x28x28_S2_S28x28_01_01_01_0.window (ix2 p q) 0 = 0 := rfl
theorem pl_window1 (p q : Fin 28) : scatter_S64x512x28x28_S2_S28x28_01_01_01_0.window (ix2 p q) 1 = 0 := rfl
theorem pl_window2 (p q : Fin 28) : scatter_S64x512x28x28_S2_S28x28_01_01_01_0.window (ix2 p q) 2 = p.val := rfl
theorem pl_window3 (p q : Fin 28) : scatter_S64x512x28x28_S2_S28x28_01_01_01_0.window (ix2 p q) 3 = q.val := rfl

/-- With the index vector `(b, c)` inside the operand, update `(p, q)` lands at `(b, c, p, q)`. -/
theorem pl_resultIdx (iv : IVec S2 32) (b : Fin 64) (c : Fin 512) (h0 : (iv (ix1 (0 : Fin 2))).toInt = (b.val : Int))
    (h1 : (iv (ix1 (1 : Fin 2))).toInt = (c.val : Int)) (p q : Fin 28) :
    scatter_S64x512x28x28_S2_S28x28_01_01_01_0.resultIdx? (ix2 p q) iv = some (ix4 b c p q) := by
  have hb := b.isLt
  have hc := c.isLt
  have hp := p.isLt
  have hq := q.isLt
  unfold ScatterDims.resultIdx?
  have hcond : ∀ a, 0 ≤ scatter_S64x512x28x28_S2_S28x28_01_01_01_0.start (ix2 p q) iv a
        + (scatter_S64x512x28x28_S2_S28x28_01_01_01_0.window (ix2 p q) a : Int) ∧
      scatter_S64x512x28x28_S2_S28x28_01_01_01_0.start (ix2 p q) iv a
        + (scatter_S64x512x28x28_S2_S28x28_01_01_01_0.window (ix2 p q) a : Int) < (S64x512x28x28.size a : Int) := by
    intro a
    match a with
    | ⟨0, _⟩ =>
      show 0 ≤ scatter_S64x512x28x28_S2_S28x28_01_01_01_0.start (ix2 p q) iv 0
          + (scatter_S64x512x28x28_S2_S28x28_01_01_01_0.window (ix2 p q) 0 : Int) ∧
        scatter_S64x512x28x28_S2_S28x28_01_01_01_0.start (ix2 p q) iv 0
          + (scatter_S64x512x28x28_S2_S28x28_01_01_01_0.window (ix2 p q) 0 : Int) < ((64 : Nat) : Int)
      rw [pl_start0, pl_window0, h0]; omega
    | ⟨1, _⟩ =>
      show 0 ≤ scatter_S64x512x28x28_S2_S28x28_01_01_01_0.start (ix2 p q) iv 1
          + (scatter_S64x512x28x28_S2_S28x28_01_01_01_0.window (ix2 p q) 1 : Int) ∧
        scatter_S64x512x28x28_S2_S28x28_01_01_01_0.start (ix2 p q) iv 1
          + (scatter_S64x512x28x28_S2_S28x28_01_01_01_0.window (ix2 p q) 1 : Int) < ((512 : Nat) : Int)
      rw [pl_start1, pl_window1, h1]; omega
    | ⟨2, _⟩ =>
      show 0 ≤ scatter_S64x512x28x28_S2_S28x28_01_01_01_0.start (ix2 p q) iv 2
          + (scatter_S64x512x28x28_S2_S28x28_01_01_01_0.window (ix2 p q) 2 : Int) ∧
        scatter_S64x512x28x28_S2_S28x28_01_01_01_0.start (ix2 p q) iv 2
          + (scatter_S64x512x28x28_S2_S28x28_01_01_01_0.window (ix2 p q) 2 : Int) < ((28 : Nat) : Int)
      rw [pl_start2, pl_window2]; omega
    | ⟨3, _⟩ =>
      show 0 ≤ scatter_S64x512x28x28_S2_S28x28_01_01_01_0.start (ix2 p q) iv 3
          + (scatter_S64x512x28x28_S2_S28x28_01_01_01_0.window (ix2 p q) 3 : Int) ∧
        scatter_S64x512x28x28_S2_S28x28_01_01_01_0.start (ix2 p q) iv 3
          + (scatter_S64x512x28x28_S2_S28x28_01_01_01_0.window (ix2 p q) 3 : Int) < ((28 : Nat) : Int)
      rw [pl_start3, pl_window3]; omega
  rw [dif_pos hcond]
  congr 1
  funext a
  refine Fin.ext ?_
  match a with
  | ⟨0, _⟩ =>
    show (scatter_S64x512x28x28_S2_S28x28_01_01_01_0.start (ix2 p q) iv 0
      + (scatter_S64x512x28x28_S2_S28x28_01_01_01_0.window (ix2 p q) 0 : Int)).toNat = b.val
    rw [pl_start0, pl_window0, h0]; omega
  | ⟨1, _⟩ =>
    show (scatter_S64x512x28x28_S2_S28x28_01_01_01_0.start (ix2 p q) iv 1
      + (scatter_S64x512x28x28_S2_S28x28_01_01_01_0.window (ix2 p q) 1 : Int)).toNat = c.val
    rw [pl_start1, pl_window1, h1]; omega
  | ⟨2, _⟩ =>
    show (scatter_S64x512x28x28_S2_S28x28_01_01_01_0.start (ix2 p q) iv 2
      + (scatter_S64x512x28x28_S2_S28x28_01_01_01_0.window (ix2 p q) 2 : Int)).toNat = p.val
    rw [pl_start2, pl_window2]; omega
  | ⟨3, _⟩ =>
    show (scatter_S64x512x28x28_S2_S28x28_01_01_01_0.start (ix2 p q) iv 3
      + (scatter_S64x512x28x28_S2_S28x28_01_01_01_0.window (ix2 p q) 3 : Int)).toNat = q.val
    rw [pl_start3, pl_window3]; omega

/-- Some update lands at an entry exactly when the entry is in plane `(b, c)`. -/
theorem pl_exists_iff (iv : IVec S2 32) (b : Fin 64) (c : Fin 512) (h0 : (iv (ix1 (0 : Fin 2))).toInt = (b.val : Int))
    (h1 : (iv (ix1 (1 : Fin 2))).toInt = (c.val : Int)) (i' : S64x512x28x28.Idx) :
    (∃ j : S28x28.Idx, scatter_S64x512x28x28_S2_S28x28_01_01_01_0.resultIdx? j iv = some i')
      ↔ ((i' 0).val = b.val ∧ (i' 1).val = c.val) := by
  constructor
  · rintro ⟨j, hj⟩
    obtain ⟨p, q, rfl⟩ : ∃ (p q : Fin 28), j = ix2 p q := ⟨_, _, eq_ix2 j⟩
    rw [pl_resultIdx iv b c h0 h1] at hj
    have e := Option.some.inj hj
    subst e
    exact ⟨rfl, rfl⟩
  · rintro ⟨e0, e1⟩
    obtain ⟨a0, a1, a2, a3, rfl⟩ : ∃ (a0 : Fin 64) (a1 : Fin 512) (a2 a3 : Fin 28), i' = ix4 a0 a1 a2 a3 :=
      ⟨_, _, _, _, eq_ix4 i'⟩
    have e0' : b = a0 := Fin.ext e0.symm
    have e1' : c = a1 := Fin.ext e1.symm
    subst e0' e1'
    exact ⟨ix2 a2 a3, pl_resultIdx iv b c h0 h1 a2 a3⟩

/-- THE PLANE SCATTER OF ONE VALUE: plane `(b, c)` is overwritten with the value, every other entry kept. -/
theorem scatter_plane (x : FVec Ideal S64x512x28x28 .f32) (iv : IVec S2 32) (upd : FVec Ideal S28x28 .f32) (v : EReal)
    (hu : ∀ j, upd j = v) (b : Fin 64) (c : Fin 512) (h0 : (iv (ix1 (0 : Fin 2))).toInt = (b.val : Int))
    (h1 : (iv (ix1 (1 : Fin 2))).toInt = (c.val : Int)) :
    Host.scatter scatter_S64x512x28x28_S2_S28x28_01_01_01_0 (fun _ u => u) x iv upd = setPlane x b.val c.val v := by
  have hupd : upd = fun _ => v := funext hu
  subst hupd
  funext i'
  unfold setPlane
  by_cases h : (i' 0).val = b.val ∧ (i' 1).val = c.val
  · rw [if_pos h]
    exact Cert.Lib.PointScatter.scatter_const_hit _ x iv v i' ((pl_exists_iff iv b c h0 h1 i').2 h)
  · rw [if_neg h]
    exact Cert.Lib.PointScatter.scatter_const_miss _ x iv v i' (fun h' => h ((pl_exists_iff iv b c h0 h1 i').1 h'))

/-! ## The loop body, stretch by stretch

The body's second stretch is cut into pieces: the constant `+∞`, the minimum over the whole array, eleven scalar
operations, the read of the channel index, fifteen more scalar operations, and the scatter. The minimum and the scatter
are read through statements generic in the operation's function, so that neither is ever unfolded. -/

abbrev opC {F : FTy → Type} [FloatOps F] : HloOp τ sig (Elt F) :=
  StableHlo.TRef.nullary (.of main_while0b_call1_cst : StableHlo.TRef sig ⟨S_, .f32⟩) (constant S_ .f32 0x7F800000#32)
abbrev opM {F : FTy → Type} [FloatOps F] : HloOp τ sig (Elt F) :=
  StableHlo.TRef.binary (.of main_v1_3 : StableHlo.TRef sig ⟨S64x512x28x28, .f32⟩) (.of main_while0b_call1_cst : StableHlo.TRef sig ⟨S_, .f32⟩) (.of main_while0b_call1_v0 : StableHlo.TRef sig ⟨S_, .f32⟩) (fun x v => Host.reduce FloatOps.minimumf x v reducesTo_S64x512x28x28_S_d0_1_2_3 h_S_)
abbrev opsA2 {F : FTy → Type} [FloatOps F] : List (HloOp τ sig (Elt F)) :=
  [ StableHlo.TRef.nullary (.of main_while0b_call1_cst_0 : StableHlo.TRef sig ⟨S_, .f32⟩) (constant S_ .f32 0x00000000#32),
    StableHlo.TRef.binary (.of main_while0b_call1_v0 : StableHlo.TRef sig ⟨S_, .f32⟩) (.of main_while0b_call1_cst_0 : StableHlo.TRef sig ⟨S_, .f32⟩) (.of main_while0b_call1_v1 : StableHlo.TRef sig ⟨S_, .i1⟩) (cmpf .oeq),
    StableHlo.TRef.nullary (.of main_while0b_call1_cst_1 : StableHlo.TRef sig ⟨S_, .f32⟩) (constant S_ .f32 0x4B189680#32),
    StableHlo.TRef.binary (.of main_while0b_call1_v0 : StableHlo.TRef sig ⟨S_, .f32⟩) (.of main_while0b_call1_cst_1 : StableHlo.TRef sig ⟨S_, .f32⟩) (.of main_while0b_call1_v2 : StableHlo.TRef sig ⟨S_, .f32⟩) subf,
    StableHlo.TRef.nullary (.of main_while0b_call1_cst_2 : StableHlo.TRef sig ⟨S_, .f32⟩) (constant S_ .f32 0x00000000#32),
    StableHlo.TRef.ternary (.of main_while0b_call1_v1 : StableHlo.TRef sig ⟨S_, .i1⟩) (.of main_while0b_call1_cst_2 : StableHlo.TRef sig ⟨S_, .f32⟩) (.of main_while0b_call1_v2 : StableHlo.TRef sig ⟨S_, .f32⟩) (.of main_while0b_call1_v3 : StableHlo.TRef sig ⟨S_, .f32⟩) select,
    StableHlo.TRef.nullary (.of main_while0b_call1_c : StableHlo.TRef sig ⟨S_, .i32⟩) (constantI S_ 32 0#32),
    StableHlo.TRef.binary (.of main_while0b_v2 : StableHlo.TRef sig ⟨S_, .i32⟩) (.of main_while0b_call1_c : StableHlo.TRef sig ⟨S_, .i32⟩) (.of main_while0b_call1_v4 : StableHlo.TRef sig ⟨S_, .i1⟩) (cmpi .slt),
    StableHlo.TRef.nullary (.of main_while0b_call1_c_3 : StableHlo.TRef sig ⟨S_, .i32⟩) (constantI S_ 32 64#32),
    StableHlo.TRef.binary (.of main_while0b_v2 : StableHlo.TRef sig ⟨S_, .i32⟩) (.of main_while0b_call1_c_3 : StableHlo.TRef sig ⟨S_, .i32⟩) (.of main_while0b_call1_v5 : StableHlo.TRef sig ⟨S_, .i32⟩) addi,
    StableHlo.TRef.ternary (.of main_while0b_call1_v4 : StableHlo.TRef sig ⟨S_, .i1⟩) (.of main_while0b_call1_v5 : StableHlo.TRef sig ⟨S_, .i32⟩) (.of main_while0b_v2 : StableHlo.TRef sig ⟨S_, .i32⟩) (.of main_while0b_call1_v6 : StableHlo.TRef sig ⟨S_, .i32⟩) select ]
abbrev opD {F : FTy → Type} [FloatOps F] : HloOp τ sig (Elt F) :=
  StableHlo.TRef.unaryIndexed (.of main_v1_1 : StableHlo.TRef sig ⟨S64, .i32⟩) ![(.of main_while0b_call1_v6 : StableHlo.TRef sig ⟨S_, .i32⟩)] (.of main_while0b_call1_v7 : StableHlo.TRef sig ⟨S1, .i32⟩) (fun x i => Host.dynamicSlice S1 x (fun k => (i k (Shape.Idx.first h_S_)).toInt) sliceFits_S64_S1)
abbrev opsB1 {F : FTy → Type} [FloatOps F] : List (HloOp τ sig (Elt F)) :=
  [ StableHlo.TRef.reshape (.of main_while0b_call1_v7 : StableHlo.TRef sig ⟨S1, .i32⟩) (.of main_while0b_call1_v8 : StableHlo.TRef sig ⟨S_, .i32⟩) rfl shapeCasts_S1_S_,
    StableHlo.TRef.nullary (.of main_while0b_call1_c_4 : StableHlo.TRef sig ⟨S_, .i32⟩) (constantI S_ 32 0#32),
    StableHlo.TRef.binary (.of main_while0b_v2 : StableHlo.TRef sig ⟨S_, .i32⟩) (.of main_while0b_call1_c_4 : StableHlo.TRef sig ⟨S_, .i32⟩) (.of main_while0b_call1_v9 : StableHlo.TRef sig ⟨S_, .i1⟩) (cmpi .slt),
    StableHlo.TRef.nullary (.of main_while0b_call1_c_5 : StableHlo.TRef sig ⟨S_, .i32⟩) (constantI S_ 32 64#32),
    StableHlo.TRef.binary (.of main_while0b_v2 : StableHlo.TRef sig ⟨S_, .i32⟩) (.of main_while0b_call1_c_5 : StableHlo.TRef sig ⟨S_, .i32⟩) (.of main_while0b_call1_v10 : StableHlo.TRef sig ⟨S_, .i32⟩) addi,
    StableHlo.TRef.ternary (.of main_while0b_call1_v9 : StableHlo.TRef sig ⟨S_, .i1⟩) (.of main_while0b_call1_v10 : StableHlo.TRef sig ⟨S_, .i32⟩) (.of main_while0b_v2 : StableHlo.TRef sig ⟨S_, .i32⟩) (.of main_while0b_call1_v11 : StableHlo.TRef sig ⟨S_, .i32⟩) select,
    StableHlo.TRef.nullary (.of main_while0b_call1_c_6 : StableHlo.TRef sig ⟨S_, .i32⟩) (constantI S_ 32 0#32),
    StableHlo.TRef.binary (.of main_while0b_call1_v8 : StableHlo.TRef sig ⟨S_, .i32⟩) (.of main_while0b_call1_c_6 : StableHlo.TRef sig ⟨S_, .i32⟩) (.of main_while0b_call1_v12 : StableHlo.TRef sig ⟨S_, .i1⟩) (cmpi .slt),
    StableHlo.TRef.nullary (.of main_while0b_call1_c_7 : StableHlo.TRef sig ⟨S_, .i32⟩) (constantI S_ 32 512#32),
    StableHlo.TRef.binary (.of main_while0b_call1_v8 : StableHlo.TRef sig ⟨S_, .i32⟩) (.of main_while0b_call1_c_7 : StableHlo.TRef sig ⟨S_, .i32⟩) (.of main_while0b_call1_v13 : StableHlo.TRef sig ⟨S_, .i32⟩) addi,
    StableHlo.TRef.ternary (.of main_while0b_call1_v12 : StableHlo.TRef sig ⟨S_, .i1⟩) (.of main_while0b_call1_v13 : StableHlo.TRef sig ⟨S_, .i32⟩) (.of main_while0b_call1_v8 : StableHlo.TRef sig ⟨S_, .i32⟩) (.of main_while0b_call1_v14 : StableHlo.TRef sig ⟨S_, .i32⟩) select,
    StableHlo.TRef.unary (.of main_while0b_call1_v11 : StableHlo.TRef sig ⟨S_, .i32⟩) (.of main_while0b_call1_v15 : StableHlo.TRef sig ⟨S1, .i32⟩) (broadcastInDim S1 ![] bcast_S_S1),
    StableHlo.TRef.unary (.of main_while0b_call1_v14 : StableHlo.TRef sig ⟨S_, .i32⟩) (.of main_while0b_call1_v16 : StableHlo.TRef sig ⟨S1, .i32⟩) (broadcastInDim S1 ![] bcast_S_S1),
    StableHlo.TRef.binary (.of main_while0b_call1_v15 : StableHlo.TRef sig ⟨S1, .i32⟩) (.of main_while0b_call1_v16 : StableHlo.TRef sig ⟨S1, .i32⟩) (.of main_while0b_call1_v17 : StableHlo.TRef sig ⟨S2, .i32⟩) (fun a b => concatenate S2 0 [⟨S1, a⟩, ⟨S1, b⟩] concatenates_S1_S1_S2_d0),
    StableHlo.TRef.unary main_while0b_call1_call0.v0 (.of main_while0b_call1_v18 : StableHlo.TRef sig ⟨S28x28, .f32⟩) (broadcastInDim S28x28 ![] bcast_S_S28x28) ]
abbrev opS {F : FTy → Type} [FloatOps F] : HloOp τ sig (Elt F) :=
  StableHlo.TRef.ternary (.of main_v1_3 : StableHlo.TRef sig ⟨S64x512x28x28, .f32⟩) (.of main_while0b_call1_v17 : StableHlo.TRef sig ⟨S2, .i32⟩) (.of main_while0b_call1_v18 : StableHlo.TRef sig ⟨S28x28, .f32⟩) (.of main_while0b_v3 : StableHlo.TRef sig ⟨S64x512x28x28, .f32⟩) (fun x i u => Host.scatter scatter_S64x512x28x28_S2_S28x28_01_01_01_0 (fun _ b => b) x i u)
/-- The first stretch: the read of the batch row, and its reshape. -/
abbrev opD0 {F : FTy → Type} [FloatOps F] : HloOp τ sig (Elt F) :=
  StableHlo.TRef.unaryIndexed (.of main_v1_0 : StableHlo.TRef sig ⟨S64, .i32⟩) ![(.of main_v1_2 : StableHlo.TRef sig ⟨S_, .i32⟩)] (.of main_while0b_call0_v0 : StableHlo.TRef sig ⟨S1, .i32⟩) (fun x i => Host.dynamicSlice S1 x (fun k => (i k (Shape.Idx.first h_S_)).toInt) sliceFits_S64_S1)
abbrev opR0 {F : FTy → Type} [FloatOps F] : HloOp τ sig (Elt F) :=
  StableHlo.TRef.reshape (.of main_while0b_call0_v0 : StableHlo.TRef sig ⟨S1, .i32⟩) (.of main_while0b_v2 : StableHlo.TRef sig ⟨S_, .i32⟩) rfl shapeCasts_S1_S_

theorem ops1_split : (while0Ops0_1 : List (HloOp τ sig (Elt Ideal)))
    = opC (F := Ideal) :: opM (F := Ideal) :: (opsA2 (F := Ideal) ++ opD (F := Ideal) :: (opsB1 (F := Ideal) ++ [opS (F := Ideal)])) := rfl

theorem after_append' (l₁ l₂ : List (HloOp τ sig (Elt Ideal))) (V : Valuation τ sig (Elt Ideal)) :
    after (l₁ ++ l₂) V = after l₂ (after l₁ V) := by
  induction l₁ generalizing V with
  | nil => rfl
  | cons op l ih => exact ih _

set_option maxRecDepth 100000 in
theorem body2 (X : Valuation τ sig (Elt Ideal)) :
    after (while0Ops0_2 (F := Ideal)) X (Proc.devRef .tc main_v1_3) = X (Proc.devRef .tc main_while0b_v3) := by
  after_results
  rfl

/-! ### The constant and the minimum -/

theorem opC_cst (V : Valuation τ sig (Elt Ideal)) :
    (opC (F := Ideal)).result V (Proc.devRef .tc main_while0b_call1_cst) = constant (F := Ideal) S_ .f32 0x7F800000#32 := by
  rw [nullary_result]; rfl

theorem opC_keep (V : Valuation τ sig (Elt Ideal)) {r : Ref sig .tc} (h : r ≠ main_while0b_call1_cst) :
    (opC (F := Ideal)).result V (Proc.devRef .tc r) = V (Proc.devRef .tc r) := by
  rw [nullary_result_ne]; exact h

/-- A two-operand operation from the carried array and the scalar constant to the scalar minimum, for ANY function. -/
theorem bin_gen (f : (⟨S64x512x28x28, .f32⟩ : BufTy).Contents (Elt Ideal) → (⟨S_, .f32⟩ : BufTy).Contents (Elt Ideal)
      → (⟨S_, .f32⟩ : BufTy).Contents (Elt Ideal)) (V : Valuation τ sig (Elt Ideal)) :
    (StableHlo.TRef.binary (.of main_v1_3 : StableHlo.TRef sig ⟨S64x512x28x28, .f32⟩)
        (.of main_while0b_call1_cst : StableHlo.TRef sig ⟨S_, .f32⟩) (.of main_while0b_call1_v0 : StableHlo.TRef sig ⟨S_, .f32⟩) f
        : HloOp τ sig (Elt Ideal)).result V (Proc.devRef .tc main_while0b_call1_v0)
      = f (V (Proc.devRef .tc main_v1_3)) (V (Proc.devRef .tc main_while0b_call1_cst)) := by
  rw [binary_result]; rfl

theorem opM_v0 (V : Valuation τ sig (Elt Ideal)) :
    (opM (F := Ideal)).result V (Proc.devRef .tc main_while0b_call1_v0)
      = (fun x v => Host.reduce (FloatOps.minimumf (F := Ideal) (φ := .f32)) x v reducesTo_S64x512x28x28_S_d0_1_2_3 h_S_)
          (V (Proc.devRef .tc main_v1_3)) (V (Proc.devRef .tc main_while0b_call1_cst)) :=
  bin_gen _ V

theorem opM_keep (V : Valuation τ sig (Elt Ideal)) {r : Ref sig .tc} (h : r ≠ main_while0b_call1_v0) :
    (opM (F := Ideal)).result V (Proc.devRef .tc r) = V (Proc.devRef .tc r) := by
  rw [binary_result_ne]; exact h

/-! ### The eleven scalar operations -/

set_option maxRecDepth 100000 in
set_option maxHeartbeats 4000000 in
theorem opsA2_v6 (X : Valuation τ sig (Elt Ideal)) :
    after (opsA2 (F := Ideal)) X (Proc.devRef .tc main_while0b_call1_v6)
      = select (cmpi .slt (X (Proc.devRef .tc main_while0b_v2)) (constantI S_ 32 0#32))
          (addi (X (Proc.devRef .tc main_while0b_v2)) (constantI S_ 32 64#32)) (X (Proc.devRef .tc main_while0b_v2)) := by
  after_results
  rfl

set_option maxRecDepth 100000 in
set_option maxHeartbeats 4000000 in
theorem opsA2_v3 (X : Valuation τ sig (Elt Ideal)) :
    after (opsA2 (F := Ideal)) X (Proc.devRef .tc main_while0b_call1_v3)
      = select (cmpf .oeq (X (Proc.devRef .tc main_while0b_call1_v0)) (constant (F := Ideal) S_ .f32 0x00000000#32))
          (constant (F := Ideal) S_ .f32 0x00000000#32)
          (subf (X (Proc.devRef .tc main_while0b_call1_v0)) (constant (F := Ideal) S_ .f32 0x4B189680#32)) := by
  after_results
  rfl

set_option maxRecDepth 100000 in
set_option maxHeartbeats 4000000 in
theorem opsA2_keep3 (X : Valuation τ sig (Elt Ideal)) :
    after (opsA2 (F := Ideal)) X (Proc.devRef .tc main_v1_3) = X (Proc.devRef .tc main_v1_3) := by
  after_results

set_option maxRecDepth 100000 in
set_option maxHeartbeats 4000000 in
theorem opsA2_keep1 (X : Valuation τ sig (Elt Ideal)) :
    after (opsA2 (F := Ideal)) X (Proc.devRef .tc main_v1_1) = X (Proc.devRef .tc main_v1_1) := by
  after_results

set_option maxRecDepth 100000 in
set_option maxHeartbeats 4000000 in
theorem opsA2_keep2 (X : Valuation τ sig (Elt Ideal)) :
    after (opsA2 (F := Ideal)) X (Proc.devRef .tc main_while0b_v2) = X (Proc.devRef .tc main_while0b_v2) := by
  after_results

/-! ### The fifteen scalar operations, and the scatter -/

set_option maxRecDepth 100000 in
set_option maxHeartbeats 4000000 in
theorem opsB1_v17 (V : Valuation τ sig (Elt Ideal)) :
    after (opsB1 (F := Ideal)) V (Proc.devRef .tc main_while0b_call1_v17)
      = concatenate S2 0
            [⟨S1, broadcastInDim S1 ![] bcast_S_S1
                (select (cmpi .slt (V (Proc.devRef .tc main_while0b_v2)) (constantI S_ 32 0#32))
                  (addi (V (Proc.devRef .tc main_while0b_v2)) (constantI S_ 32 64#32)) (V (Proc.devRef .tc main_while0b_v2)))⟩,
             ⟨S1, broadcastInDim S1 ![] bcast_S_S1
                (select (cmpi .slt (shapeCast (s := S1) S_ (V (Proc.devRef .tc main_while0b_call1_v7)) shapeCasts_S1_S_) (constantI S_ 32 0#32))
                  (addi (shapeCast (s := S1) S_ (V (Proc.devRef .tc main_while0b_call1_v7)) shapeCasts_S1_S_) (constantI S_ 32 512#32))
                  (shapeCast (s := S1) S_ (V (Proc.devRef .tc main_while0b_call1_v7)) shapeCasts_S1_S_))⟩]
            concatenates_S1_S1_S2_d0 := by
  after_results
  rfl

set_option maxRecDepth 100000 in
set_option maxHeartbeats 4000000 in
theorem opsB1_v18 (V : Valuation τ sig (Elt Ideal)) :
    after (opsB1 (F := Ideal)) V (Proc.devRef .tc main_while0b_call1_v18)
      = broadcastInDim S28x28 ![] bcast_S_S28x28 (V (Proc.devRef .tc main_while0b_call1_v3)) := by
  after_results
  rfl

set_option maxRecDepth 100000 in
set_option maxHeartbeats 4000000 in
theorem opsB1_keep3 (V : Valuation τ sig (Elt Ideal)) :
    after (opsB1 (F := Ideal)) V (Proc.devRef .tc main_v1_3) = V (Proc.devRef .tc main_v1_3) := by
  after_results

/-- A three-operand operation from the carried array, the index vector and the update to the new array, for ANY function. -/
theorem tern_gen (f : (⟨S64x512x28x28, .f32⟩ : BufTy).Contents (Elt Ideal) → (⟨S2, .i32⟩ : BufTy).Contents (Elt Ideal)
      → (⟨S28x28, .f32⟩ : BufTy).Contents (Elt Ideal) → (⟨S64x512x28x28, .f32⟩ : BufTy).Contents (Elt Ideal))
    (V : Valuation τ sig (Elt Ideal)) :
    (StableHlo.TRef.ternary (.of main_v1_3 : StableHlo.TRef sig ⟨S64x512x28x28, .f32⟩)
        (.of main_while0b_call1_v17 : StableHlo.TRef sig ⟨S2, .i32⟩) (.of main_while0b_call1_v18 : StableHlo.TRef sig ⟨S28x28, .f32⟩)
        (.of main_while0b_v3 : StableHlo.TRef sig ⟨S64x512x28x28, .f32⟩) f
        : HloOp τ sig (Elt Ideal)).result V (Proc.devRef .tc main_while0b_v3)
      = f (V (Proc.devRef .tc main_v1_3)) (V (Proc.devRef .tc main_while0b_call1_v17)) (V (Proc.devRef .tc main_while0b_call1_v18)) := by
  rw [ternary_result]; rfl

theorem opS_v3 (V : Valuation τ sig (Elt Ideal)) :
    (opS (F := Ideal)).result V (Proc.devRef .tc main_while0b_v3)
      = (fun x i u => Host.scatter scatter_S64x512x28x28_S2_S28x28_01_01_01_0 (fun _ b => b) x i u)
          (V (Proc.devRef .tc main_v1_3)) (V (Proc.devRef .tc main_while0b_call1_v17)) (V (Proc.devRef .tc main_while0b_call1_v18)) :=
  tern_gen _ V

/-! ## One trip -/

theorem ops1_eval (Y : Valuation τ sig (Elt Ideal)) :
    after (while0Ops0_1 (F := Ideal)) Y
      = after (opsB1 (F := Ideal) ++ [opS (F := Ideal)])
          ((opD (F := Ideal)).result (after (opsA2 (F := Ideal)) ((opM (F := Ideal)).result ((opC (F := Ideal)).result Y)))) := by
  rw [ops1_split, after_cons, after_cons, after_append', after_cons]

/-- The read of the channel index is a one-element slice at the row. -/
theorem opD_v7 (V : Valuation τ sig (Elt Ideal)) (n : Fin 64)
    (hn : ∀ j, BitVec.toInt (V (Proc.devRef .tc main_while0b_call1_v6) j) = (n.val : Int)) (j : S1.Idx) :
    (opD (F := Ideal)).result V (Proc.devRef .tc main_while0b_call1_v7) j = V (Proc.devRef .tc main_v1_1) (ix1 n) := by
  rw [unaryIndexed_result]
  exact dynSlice64_apply _ _ n (hn _) j

theorem opD_keep (V : Valuation τ sig (Elt Ideal)) {r : Ref sig .tc} (h : r ≠ main_while0b_call1_v7) :
    (opD (F := Ideal)).result V (Proc.devRef .tc r) = V (Proc.devRef .tc r) := by
  rw [unaryIndexed_result_ne]; exact h

/-- The read of the batch row is a one-element slice at the counter. -/
theorem opD0_v (V : Valuation τ sig (Elt Ideal)) (n : Fin 64)
    (hn : ∀ j, BitVec.toInt (V (Proc.devRef .tc main_v1_2) j) = (n.val : Int)) (j : S1.Idx) :
    (opD0 (F := Ideal)).result V (Proc.devRef .tc main_while0b_call0_v0) j = V (Proc.devRef .tc main_v1_0) (ix1 n) := by
  rw [unaryIndexed_result]
  exact dynSlice64_apply _ _ n (hn _) j

/-- A reshape of an array whose entries are all `w` has all entries `w`. -/
theorem opR0_v (V : Valuation τ sig (Elt Ideal)) (w : BitVec 32)
    (hw : ∀ j, V (Proc.devRef .tc main_while0b_call0_v0) j = w) (j : S_.Idx) :
    (opR0 (F := Ideal)).result V (Proc.devRef .tc main_while0b_v2) j = w := by
  rw [reshape_result]
  exact hw _

set_option maxRecDepth 100000 in
theorem ops0_keep3 (X : Valuation τ sig (Elt Ideal)) :
    after (while0Ops0 (F := Ideal)) X (Proc.devRef .tc main_v1_3) = X (Proc.devRef .tc main_v1_3) := by
  after_results

set_option maxRecDepth 100000 in
theorem ops0_keep1 (X : Valuation τ sig (Elt Ideal)) :
    after (while0Ops0 (F := Ideal)) X (Proc.devRef .tc main_v1_1) = X (Proc.devRef .tc main_v1_1) := by
  after_results

/-- The two-entry index vector read at its entries. -/
theorem concat2_apply0 (a b : IVec S1 32) :
    concatenate S2 0 [⟨S1, a⟩, ⟨S1, b⟩] concatenates_S1_S1_S2_d0 (ix1 (0 : Fin 2)) = a (ix1 (0 : Fin 1)) := by
  unfold concatenate
  refine congrArg a ?_
  funext d
  match d with
  | ⟨0, _⟩ => rfl

theorem concat2_apply1 (a b : IVec S1 32) :
    concatenate S2 0 [⟨S1, a⟩, ⟨S1, b⟩] concatenates_S1_S1_S2_d0 (ix1 (1 : Fin 2)) = b (ix1 (0 : Fin 1)) := by
  unfold concatenate
  refine congrArg b ?_
  funext d
  match d with
  | ⟨0, _⟩ => rfl

/-- The new ablation value, as the program computes it from the least entry `s`. -/
theorem step_eq (s : EReal) :
    Scalar.select (Ideal.cmp .oeq s (Ideal.ofBits .f32 0x00000000#32)) (Ideal.ofBits .f32 0x00000000#32)
      (s - Ideal.ofBits .f32 0x4B189680#32) = Cert.Spec.step s := by
  rw [Ideal.ofBits_zero_f32]
  unfold Cert.Spec.step Cert.Spec.c1e7 Scalar.select Ideal.cmp
  by_cases h : s = 0
  · simp [h]
  · simp [h]

/-- The operations after the channel index is read, on any contents: with the row word `k`, the channel word `w` in
    `[0, 511]` and the new value `v`, they overwrite plane `(k, w)` with `v`. -/
theorem opsB_plane (V : Valuation τ sig (Elt Ideal)) (k : Fin 64) (w : BitVec 32) (hw0 : 0 ≤ w.toInt) (hw1 : w.toNat < 512)
    (v : EReal)
    (h2 : ∀ j, V (Proc.devRef .tc main_while0b_v2) j = BitVec.ofNat 32 k.val)
    (h7 : ∀ j, V (Proc.devRef .tc main_while0b_call1_v7) j = w)
    (h3 : ∀ j, V (Proc.devRef .tc main_while0b_call1_v3) j = v) :
    after (opsB1 (F := Ideal) ++ [opS (F := Ideal)]) V (Proc.devRef .tc main_while0b_v3)
      = setPlane (V (Proc.devRef .tc main_v1_3)) k.val w.toNat v := by
  have hk := k.isLt
  rw [after_append', after_cons, after_nil, opS_v3, opsB1_v17, opsB1_v18, opsB1_keep3]
  show Host.scatter scatter_S64x512x28x28_S2_S28x28_01_01_01_0 (fun _ b => b) _ _ _ = _
  refine scatter_plane _ _ _ v (fun j => ?_) k ⟨w.toNat, hw1⟩ ?_ ?_
  · rw [bcast_scalar_apply]; exact h3 _
  · rw [concat2_apply0, bcast_scalar_apply]
    show BitVec.toInt (Scalar.select (IntOp.cmpi .slt (V (Proc.devRef .tc main_while0b_v2) ix0) 0#32)
      (IntOp.addi (V (Proc.devRef .tc main_while0b_v2) ix0) 64#32) (V (Proc.devRef .tc main_while0b_v2) ix0)) = _
    rw [h2 ix0, sel_wrap_nonneg _ _ (by rw [toInt_ofNat_small k.val (by omega)]; omega), toInt_ofNat_small k.val (by omega)]
  · rw [concat2_apply1, bcast_scalar_apply]
    have hW : shapeCast (s := S1) S_ (V (Proc.devRef .tc main_while0b_call1_v7)) shapeCasts_S1_S_ ix0 = w := h7 _
    show BitVec.toInt (Scalar.select
      (IntOp.cmpi .slt (shapeCast (s := S1) S_ (V (Proc.devRef .tc main_while0b_call1_v7)) shapeCasts_S1_S_ ix0) 0#32)
      (IntOp.addi (shapeCast (s := S1) S_ (V (Proc.devRef .tc main_while0b_call1_v7)) shapeCasts_S1_S_ ix0) 512#32)
      (shapeCast (s := S1) S_ (V (Proc.devRef .tc main_while0b_call1_v7)) shapeCasts_S1_S_ ix0)) = _
    rw [hW, sel_wrap_nonneg _ _ hw0]
    exact (toNat_of_toInt_nonneg w hw0).symm

/-- The carried array of a valuation, as a function to the extended reals. -/
abbrev arr3 (X : Valuation τ sig (Elt Ideal)) : Cert.Spec.SX.Idx → EReal := X (Proc.devRef .tc main_v1_3)

/-- The select of the ablation step, on a scalar array whose entry is `s`. -/
theorem sel_step (A : FVec Ideal S_ .f32) (j : S_.Idx) (s : EReal) (hA : A j = s) :
    select (cmpf .oeq A (constant (F := Ideal) S_ .f32 0x00000000#32)) (constant (F := Ideal) S_ .f32 0x00000000#32)
      (subf A (constant (F := Ideal) S_ .f32 0x4B189680#32)) j = Cert.Spec.step s := by
  show Scalar.select (Ideal.cmp .oeq (A j) (Ideal.ofBits .f32 0x00000000#32)) (Ideal.ofBits .f32 0x00000000#32)
      (A j - Ideal.ofBits .f32 0x4B189680#32) = _
  rw [hA]
  exact step_eq _

/-- The new ablation value the scalar operations compute from the minimum. -/
theorem opsA_v3_apply (X : Valuation τ sig (Elt Ideal)) (j : S_.Idx) :
    after (opsA2 (F := Ideal)) ((opM (F := Ideal)).result ((opC (F := Ideal)).result X)) (Proc.devRef .tc main_while0b_call1_v3) j
      = Cert.Spec.step (Finset.univ.inf (arr3 X)) := by
  have hv0 : (opM (F := Ideal)).result ((opC (F := Ideal)).result X) (Proc.devRef .tc main_while0b_call1_v0) j
      = (Finset.univ.inf (arr3 X) : EReal) := by
    rw [opM_v0, opC_cst, opC_keep _ (by decide)]
    exact reduce_min_all _ j
  rw [opsA2_v3]
  exact sel_step _ j _ hv0

/-- The row word the scalar operations hand to the slice, on any contents whose batch row word is `k`. -/
theorem opsA2_v6_apply (Z : Valuation τ sig (Elt Ideal)) (k : Fin 64)
    (h2 : ∀ j, Z (Proc.devRef .tc main_while0b_v2) j = BitVec.ofNat 32 k.val) (j : S_.Idx) :
    BitVec.toInt (after (opsA2 (F := Ideal)) Z (Proc.devRef .tc main_while0b_call1_v6) j) = (k.val : Int) := by
  have hk := k.isLt
  rw [opsA2_v6]
  show BitVec.toInt (Scalar.select (IntOp.cmpi .slt (Z (Proc.devRef .tc main_while0b_v2) j) 0#32)
      (IntOp.addi (Z (Proc.devRef .tc main_while0b_v2) j) 64#32) (Z (Proc.devRef .tc main_while0b_v2) j)) = _
  rw [h2 j, sel_wrap_nonneg _ _ (by rw [toInt_ofNat_small k.val (by omega)]; omega), toInt_ofNat_small k.val (by omega)]

/-- ONE TRIP of the body, from contents whose carried row table is the iota, whose carried index table is `idx` and
    whose counter is `k`: plane `(k, idx k)` of the carried array is overwritten with one step of its least entry. -/
theorem body_step (X : Valuation τ sig (Elt Ideal)) (idx : IVec S64 32) (k : ℕ) (hk : k < 64)
    (hidx : ∀ b : Fin 64, 0 ≤ (idx (ix1 b)).toInt ∧ (idx (ix1 b)).toInt ≤ 511)
    (hx0 : X (Proc.devRef .tc main_v1_0) = iotaInDim S64 32 0)
    (hx1 : X (Proc.devRef .tc main_v1_1) = idx)
    (hx2 : X (Proc.devRef .tc main_v1_2) = fun _ => Scf.iv 0#32 1#32 k) :
    afterL (bodyI (F := Ideal)) X (Proc.devRef .tc main_v1_3)
      = setPlane (X (Proc.devRef .tc main_v1_3)) k (idx (ix1 (⟨k, hk⟩ : Fin 64))).toNat
          (Cert.Spec.step (Finset.univ.inf (X (Proc.devRef .tc main_v1_3) : Cert.Spec.SX.Idx → EReal))) := by
  simp only [afterL_cons, afterL_nil]
  rw [body2, ops1_eval]
  -- the first stretch reads the row word
  have hY2 : ∀ j, after (while0Ops0 (F := Ideal)) X (Proc.devRef .tc main_while0b_v2) j = BitVec.ofNat 32 k := by
    intro j
    show (opR0 (F := Ideal)).result ((opD0 (F := Ideal)).result X) (Proc.devRef .tc main_while0b_v2) j = _
    refine opR0_v _ _ (fun j' => ?_) j
    rw [opD0_v X ⟨k, hk⟩ (fun j'' => by rw [hx2, iv_eq_ofNat]; exact toInt_ofNat_small k (by omega)) j', hx0]
    rfl
  have hY3 := ops0_keep3 X
  have hY1 := (ops0_keep1 X).trans hx1
  have hZ2 : ∀ j, (opM (F := Ideal)).result ((opC (F := Ideal)).result (after (while0Ops0 (F := Ideal)) X))
      (Proc.devRef .tc main_while0b_v2) j = BitVec.ofNat 32 k := by
    intro j
    rw [opM_keep _ (by decide), opC_keep _ (by decide)]
    exact hY2 j
  have hw := hidx ⟨k, hk⟩
  have hw1 : (idx (ix1 (⟨k, hk⟩ : Fin 64))).toNat < 512 := by
    have := toNat_of_toInt_nonneg _ hw.1
    omega
  refine (opsB_plane _ ⟨k, hk⟩ (idx (ix1 (⟨k, hk⟩ : Fin 64))) hw.1 hw1
    (Cert.Spec.step (Finset.univ.inf (X (Proc.devRef .tc main_v1_3) : Cert.Spec.SX.Idx → EReal))) ?_ ?_ ?_).trans ?_
  · intro j
    rw [opD_keep _ (by decide), opsA2_keep2]
    exact hZ2 j
  · intro j
    rw [opD_v7 _ ⟨k, hk⟩ (opsA2_v6_apply _ ⟨k, hk⟩ hZ2) j, opsA2_keep1, opM_keep _ (by decide), opC_keep _ (by decide), hY1]
  · intro j
    rw [opD_keep _ (by decide), opsA_v3_apply, arr3, hY3]
  · rw [opD_keep _ (by decide), opsA2_keep3, opM_keep _ (by decide), opC_keep _ (by decide), hY3]

/-! ## The loop -/

/-- The channel indices lie in `[0, 511]`, read off the precondition. -/
theorem idx_range (m : (ℓ : Loc nD τ sig) → Buf (Elt Ideal) ℓ) (hpre : Cert.Pre_ReferenceIdeal m) (c : Dev nD) (b : Fin 64) :
    0 ≤ (m ((c.tc : Thread nD τ).loc main_arg1) (ix1 b)).toInt ∧ (m ((c.tc : Thread nD τ).loc main_arg1) (ix1 b)).toInt ≤ 511 := by
  have h := congrFun (hpre c) ix0
  dsimp only [Cert.Pre_input_domain.fn] at h
  obtain ⟨-, h9⟩ := IntOp.andi_eq_one.1 h
  have h8 := Host.reduce_andi_all _ _ _ _ _ h9 (ix1 b)
  obtain ⟨h5, h7⟩ := IntOp.andi_eq_one.1 h8
  have g5 := IntOp.cmpi_sge.1 h5
  have g7 := IntOp.cmpi_sle.1 h7
  have z0 : (0#32 : BitVec 32).toInt = 0 := by decide
  have z1 : (511#32 : BitVec 32).toInt = 511 := by decide
  have g5' : (0#32 : BitVec 32).toInt ≤ (m ((c.tc : Thread nD τ).loc main_arg1) (ix1 b)).toInt := g5
  have g7' : (m ((c.tc : Thread nD τ).loc main_arg1) (ix1 b)).toInt ≤ (511#32 : BitVec 32).toInt := g7
  rw [z0] at g5'
  rw [z1] at g7'
  exact ⟨g5', g7'⟩

set_option maxRecDepth 100000 in
theorem cond_keep0 (Y : Valuation τ sig (Elt Ideal)) :
    after (condOps (F := Ideal)) Y (Proc.devRef .tc main_v1_0) = Y (Proc.devRef .tc main_v1_0) := by
  after_results
set_option maxRecDepth 100000 in
theorem cond_keep1 (Y : Valuation τ sig (Elt Ideal)) :
    after (condOps (F := Ideal)) Y (Proc.devRef .tc main_v1_1) = Y (Proc.devRef .tc main_v1_1) := by
  after_results
set_option maxRecDepth 100000 in
theorem cond_keep2 (Y : Valuation τ sig (Elt Ideal)) :
    after (condOps (F := Ideal)) Y (Proc.devRef .tc main_v1_2) = Y (Proc.devRef .tc main_v1_2) := by
  after_results
set_option maxRecDepth 100000 in
theorem cond_keep3 (Y : Valuation τ sig (Elt Ideal)) :
    after (condOps (F := Ideal)) Y (Proc.devRef .tc main_v1_3) = Y (Proc.devRef .tc main_v1_3) := by
  after_results

/-- The two carried tables: the rows' iota and the channel indices. -/
def IsTab (b : Ref sig .tc) : Prop := b = main_v1_0 ∨ b = main_v1_1

set_option maxRecDepth 100000 in
set_option maxHeartbeats 4000000 in
theorem tab_condOps {b : Ref sig .tc} (hb : IsTab b) :
    ∀ op ∈ (condOps : List (HloOp τ sig (Elt Ideal))), Proc.devRef .tc b ∉ op.writes := by
  rcases hb with rfl | rfl <;> intro op hop <;> fin_cases hop <;>
    exact fun h => devRef_ne_of_ne (by decide) (Finset.mem_singleton.mp h)

set_option maxRecDepth 100000 in
set_option maxHeartbeats 4000000 in
theorem tab_while0Ops0 {b : Ref sig .tc} (hb : IsTab b) :
    ∀ op ∈ (while0Ops0 : List (HloOp τ sig (Elt Ideal))), Proc.devRef .tc b ∉ op.writes := by
  rcases hb with rfl | rfl <;> intro op hop <;> fin_cases hop <;>
    exact fun h => devRef_ne_of_ne (by decide) (Finset.mem_singleton.mp h)

set_option maxRecDepth 100000 in
set_option maxHeartbeats 4000000 in
theorem tab_while0Ops0_1 {b : Ref sig .tc} (hb : IsTab b) :
    ∀ op ∈ (while0Ops0_1 : List (HloOp τ sig (Elt Ideal))), Proc.devRef .tc b ∉ op.writes := by
  rcases hb with rfl | rfl <;> intro op hop <;> fin_cases hop <;>
    exact fun h => devRef_ne_of_ne (by decide) (Finset.mem_singleton.mp h)

set_option maxRecDepth 100000 in
set_option maxHeartbeats 4000000 in
theorem tab_while0Ops0_2 {b : Ref sig .tc} (hb : IsTab b) :
    ∀ op ∈ (while0Ops0_2 : List (HloOp τ sig (Elt Ideal))), Proc.devRef .tc b ∉ op.writes := by
  rcases hb with rfl | rfl <;> intro op hop <;> fin_cases hop <;>
    exact fun h => devRef_ne_of_ne (by decide) (Finset.mem_singleton.mp h)

variable (m : (ℓ : Loc nD τ sig) → Buf (Elt Ideal) ℓ)

/-- Before every run of the condition a carried table holds what it held at the loop's entry. -/
theorem atK_tab {b : Ref sig .tc} (hb : IsTab b) (c : Dev nD) :
    ∀ k, atK m k c (Proc.devRef .tc b) = entryContents preI m c (Proc.devRef .tc b)
  | 0 => by rw [show atK m 0 c = entryContents preI m c from rfl]
  | k + 1 => by
    have h : atK m (k + 1) c (Proc.devRef .tc b) = atK m k c (Proc.devRef .tc b) := by
      rw [show atK m (k + 1) c = afterL bodyI (after condOps (atK m k c)) from rfl]
      simp only [afterL_cons, afterL_nil]
      rw [after_of_forall_not_mem _ _ (tab_while0Ops0_2 hb), after_of_forall_not_mem _ _ (tab_while0Ops0_1 hb),
        after_of_forall_not_mem _ _ (tab_while0Ops0 hb), after_of_forall_not_mem _ _ (tab_condOps hb)]
    rw [h, atK_tab hb c k]

set_option maxRecDepth 100000 in
theorem entry_v1_0 (c : Dev nD) : entryContents preI m c (Proc.devRef .tc main_v1_0) = iotaInDim S64 32 0 := by
  simp only [entryContents, afterL_cons, afterL_nil]
  after_results
  rfl

set_option maxRecDepth 100000 in
theorem entry_v1_1 (c : Dev nD) :
    entryContents preI m c (Proc.devRef .tc main_v1_1) = m ((c.tc : Thread nD τ).loc main_arg1) := by
  simp only [entryContents, afterL_cons, afterL_nil]
  after_results
  rfl

set_option maxRecDepth 100000 in
theorem entry_v1_3 (c : Dev nD) :
    entryContents preI m c (Proc.devRef .tc main_v1_3) = m ((c.tc : Thread nD τ).loc main_arg0) := by
  simp only [entryContents, afterL_cons, afterL_nil]
  after_results
  rfl

/-- THE INVARIANT: before trip `k` the carried array is the input with the planes of the rows below `k` overwritten. -/
theorem atK_v1_3 (hpre : Cert.Pre_ReferenceIdeal m) (c : Dev nD) :
    ∀ k, k ≤ 64 → atK m k c (Proc.devRef .tc main_v1_3)
      = Gk (m ((c.tc : Thread nD τ).loc main_arg0)) (m ((c.tc : Thread nD τ).loc main_arg1)) k
  | 0, _ => by rw [show atK m 0 c = entryContents preI m c from rfl, entry_v1_3, Gk_zero]
  | k + 1, hk => by
    have hk' : k < 64 := hk
    have ih := atK_v1_3 hpre c k (Nat.le_of_lt hk')
    have hr := idx_range m hpre c
    have hr' : ∀ b : Fin 64, (m ((c.tc : Thread nD τ).loc main_arg1) (ix1 b)).toNat < 512 := fun b => by
      have := toNat_of_toInt_nonneg _ (hr b).1
      have := (hr b).2
      omega
    rw [show atK m (k + 1) c = afterL bodyI (after condOps (atK m k c)) from rfl]
    rw [body_step (after condOps (atK m k c)) (m ((c.tc : Thread nD τ).loc main_arg1)) k hk' hr
      (by rw [cond_keep0, atK_tab m (.inl rfl) c k, entry_v1_0])
      (by rw [cond_keep1, atK_tab m (.inr rfl) c k, entry_v1_1])
      (by rw [cond_keep2, atK_ctr m c k])]
    rw [cond_keep3, ih, inf_Gk _ _ hr' k (Nat.le_of_lt hk'), Gk_succ _ _ k hk', Function.iterate_succ_apply']

/-- THE REFERENCE'S RESULT: the input with, for each batch row `b`, the plane at channel `idx b` filled with
    `step^(b+1)` of the input's least entry. -/
theorem final_result (m : (ℓ : Loc nD τ sig) → Buf (Elt Ideal) ℓ) (hpre : Cert.Pre_ReferenceIdeal m) (c : Dev nD) :
    finalContents (condOps (F := Ideal)) preI bodyI postI 64 m c (Proc.devRef .tc main_v1_3)
      = Cert.Spec.G (m ((c.tc : Thread nD τ).loc main_arg0)) (m ((c.tc : Thread nD τ).loc main_arg1)) := by
  show afterL postI (after condOps (atK m 64 c)) (Proc.devRef .tc main_v1_3) = _
  simp only [afterL_nil]
  rw [cond_keep3, atK_v1_3 m hpre c 64 le_rfl, Gk_all]

end Cert.Proof.RefSide

end
-- ==== Proof.Algebraic.lean ====
/-
  The equivalence: both idealized programs end with the specification of the shared arguments in their result buffers.

  The kernel's run leaves `G (m arg0) (m arg1)` in its last buffer (its run with the value); the reference's 64-trip loop,
  read through its generated fold, leaves the same function of its own arguments, which are the kernel's.
-/
import proofs.«202639_g54090818126251_cont_9to1c4b_462_21_alg».proof.Defs
import proofs.«202639_g54090818126251_cont_9to1c4b_462_21_alg».proof.Proof.KIV.Main
import proofs.«202639_g54090818126251_cont_9to1c4b_462_21_alg».proof.Proof.KIV.Tile
import proofs.«202639_g54090818126251_cont_9to1c4b_462_21_alg».proof.Proof.KIV.TcMin
import proofs.«202639_g54090818126251_cont_9to1c4b_462_21_alg».proof.Proof.KIV.Apply
import proofs.«202639_g54090818126251_cont_9to1c4b_462_21_alg».proof.Proof.RefFrame
import proofs.«202639_g54090818126251_cont_9to1c4b_462_21_alg».proof.Proof.RefValue

noncomputable section

namespace Cert.Proof

open Idealize.ShloMosaic Idealize.ShloMosaic.TcCoe Idealize.SL.Sem

theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun _ h c => h c)
      (KIV.run_mainV m ρ KIV.rdatsM KIV.reg0V KIV.reg0V_pre KIV.reg0V_post KIV.rdatsV KIV.reg1V KIV.reg1V_pre KIV.reg1V_post
        (fun X => KIV.tileObl X KI.facts) (fun X => KIV.vecSplit X))
  · have hpre' : Cert.Pre_ReferenceIdeal m' := fun c => by rw [(hagree c).1, (hagree c).2]; exact hpre c
    refine (θ_run Cert.ReferenceIdeal.defs _ _).mono (fun r h c => ?_) (Cert.ReferenceIdeal.Value.run_fold (F := Ideal) m' ρ')
    refine ⟨?_, (h c Cert.ReferenceIdeal.main_arg0 (by decide)).trans (RefSide.final_arg m' (.inl rfl) c),
      (h c Cert.ReferenceIdeal.main_arg1 (by decide)).trans (RefSide.final_arg m' (.inr rfl) c)⟩
    rw [h c Cert.ReferenceIdeal.main_v1_3 (by decide), RefSide.final_result m' hpre' c, (hagree c).1, (hagree c).2]

end Cert.Proof

end
-- ==== Proof.lean ====
/-
  The proof of the certificate's claim: the three frames, the (empty) idealization ledger, and the equivalence of
  the idealized kernel and the idealized reference over the extended reals.

  The kernel writes, into channel indices[b] of batch row b, the value f^(b+1)(min x), f s = 0 if s = 0 and
  s − 10⁷ otherwise, and leaves every other entry of x as it is; the reference's sixty-four trips do the same one row
  at a time, the running minimum after trip b being f^(b+1)(min x) because each written value is at most the minimum
  it was made from.
-/
import proofs.«202639_g54090818126251_cont_9to1c4b_462_21_alg».proof.Defs
import proofs.«202639_g54090818126251_cont_9to1c4b_462_21_alg».proof.Proof.Gen.Kernel
import proofs.«202639_g54090818126251_cont_9to1c4b_462_21_alg».proof.Proof.Gen.KernelIdeal
import proofs.«202639_g54090818126251_cont_9to1c4b_462_21_alg».proof.Proof.Gen.ReferenceIdeal
import proofs.«202639_g54090818126251_cont_9to1c4b_462_21_alg».proof.Proof.Gen.Pre_input_domain
import proofs.«202639_g54090818126251_cont_9to1c4b_462_21_alg».proof.Proof.Frames
import proofs.«202639_g54090818126251_cont_9to1c4b_462_21_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_input_domain.Gen.facts,
  frame_p, frame_pi, frame_ri, preserves, algebraic⟩

end Cert.Proof

end
